-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x64 : Shape := ⟨2, ![4096, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S4096x1024 .f32) (main_arg1 : FVec F S4096x64 .f32) (main_arg2 : IVec S4096x64 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S4096x1024 : Shape := ⟨2, ![4096, 1024]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S1024x1024 : Shape := ⟨2, ![1024, 1024]⟩
abbrev S512x64 : Shape := ⟨2, ![512, 64]⟩
abbrev S1024x64 : Shape := ⟨2, ![1024, 64]⟩
abbrev S512x1 : Shape := ⟨2, ![512, 1]⟩
abbrev S64x1024 : Shape := ⟨2, ![64, 1024]⟩
abbrev S512 : Shape := ⟨1, ![512]⟩

abbrev nBuf : Space → Nat
  | .hbm => 96
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x64, .f32⟩
  | .hbm, ⟨2, _⟩ => ⟨S4096x64, .i32⟩
  | .hbm, ⟨3, _⟩ => ⟨S4096x64, .f32⟩
  | .hbm, ⟨4, _⟩ => ⟨S_, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S4096x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x64, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S_, .f32⟩
  | .hbm, ⟨24, _⟩ => ⟨S4096x64, .f32⟩
  | .hbm, ⟨25, _⟩ => ⟨S4096x64, .f32⟩
  | .hbm, ⟨26, _⟩ => ⟨S_, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S_, .f32⟩
  | .hbm, ⟨32, _⟩ => ⟨S4096x64, .f32⟩
  | .hbm, ⟨33, _⟩ => ⟨S4096x64, .f32⟩
  | .hbm, ⟨34, _⟩ => ⟨S_, .f32⟩
  | .hbm, ⟨35, _⟩ => ⟨S4096x64, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x64, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S4096x1024, .bf16⟩
  | .hbm, ⟨54, _⟩ => ⟨S4096x64, .bf16⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .i1⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S4096, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S_, .f32⟩
  | .hbm, ⟨85, _⟩ => ⟨S_, .f32⟩
  | .hbm, ⟨86, _⟩ => ⟨S_, .i32⟩
  | .hbm, ⟨87, _⟩ => ⟨S_, .i32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x64, .bf16⟩
  | .local _ .vmem, ⟨5, _⟩ => ⟨S512x64, .bf16⟩
  | .local _ .vmem, ⟨6, _⟩ => ⟨S1024x64, .bf16⟩
  | .local _ .vmem, ⟨7, _⟩ => ⟨S1024x64, .bf16⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40_0 : Ref sig .tc := ⟨.hbm, 55, rfl⟩
abbrev main_v40_1 : Ref sig .tc := ⟨.hbm, 56, rfl⟩
abbrev main_v40_2 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_13 : Ref sig .tc := ⟨.hbm, 68, rfl⟩
abbrev main_call0_v0 : Ref sig .tc := ⟨.hbm, 69, rfl⟩
abbrev main_call0_v1 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c : Ref sig .tc := ⟨.hbm, 76, rfl⟩
abbrev main_v54 : Ref sig .tc := ⟨.hbm, 77, rfl⟩
abbrev main_c_14 : Ref sig .tc := ⟨.hbm, 78, rfl⟩
abbrev main_v55 : Ref sig .tc := ⟨.hbm, 79, rfl⟩
abbrev main_cst_15 : Ref sig .tc := ⟨.hbm, 80, rfl⟩
abbrev main_call1_v0 : Ref sig .tc := ⟨.hbm, 81, rfl⟩
abbrev main_call1_v1 : Ref sig .tc := ⟨.hbm, 82, rfl⟩
abbrev main_v56 : Ref sig .tc := ⟨.hbm, 83, rfl⟩
abbrev main_cst_16 : Ref sig .tc := ⟨.hbm, 84, rfl⟩
abbrev main_v57 : Ref sig .tc := ⟨.hbm, 85, rfl⟩
abbrev main_c_17 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_18 : Ref sig .tc := ⟨.hbm, 90, rfl⟩
abbrev main_call2_v0 : Ref sig .tc := ⟨.hbm, 91, rfl⟩
abbrev main_v61 : Ref sig .tc := ⟨.hbm, 92, rfl⟩
abbrev main_cst_19 : Ref sig .tc := ⟨.hbm, 93, rfl⟩
abbrev main_v62 : Ref sig .tc := ⟨.hbm, 94, rfl⟩
abbrev main_v63 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S4096x64 : S_.BroadcastsInDim S4096x64 (![] : Fin 0 → Fin S4096x64.rank)
  reducesTo_S4096x64_S_d0_1 : S4096x64.ReducesTo [0, 1] S_
  h_S_ : 0 < S_.numel
  reducesTo_S4096x64_S4096_d1 : S4096x64.ReducesTo [1] S4096
  bcast_S_S4096 : S_.BroadcastsInDim S4096 (![] : Fin 0 → Fin S4096.rank)
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  iota_S512x1024_d0_w32 : S512x1024.Iotas .tc 32 [0]
  iota_S512x1024_d1_w32 : S512x1024.Iotas .tc 32 [1]
  reduces_S512x1024_S512 : S512x1024.Reduces [1] S512
  shapeCasts_S512_S512x1 : S512.ShapeCasts S512x1
  broadcasts_S512x1_S512x1024 : S512x1.Broadcasts S512x1024
  natLt_1_32 : 1 < 32
  shapeCasts_S4096x1_S4096 : S4096x1.ShapeCasts S4096
  reducesTo_S4096_S_d0 : S4096.ReducesTo [0] S_
  dot_S512x1024_S1024x1024_S512x1024_1_0_0_1_n_n_wf : DotDims.WF S512x1024 S1024x1024 S512x1024 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S4096x64.size a
  hwx0_2 : ∀ i : grid0.Coords, EltTy.bits .bf16 = 32 ∨ (Rect.block (s := S4096x64) S512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S4096x64.size a
  hwx0_3 : ∀ i : grid0.Coords, EltTy.bits .bf16 = 32 ∨ (Rect.block (s := S4096x64) S1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v38) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40_1) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v40_2) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond4 i == 1#1) | 5 => fun i => !(k0_cond4 i == 1#1) | 6 => fun i => !(k0_cond4 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x64 : Shape := ⟨2, ![4096, 64]⟩
abbrev S_ : Shape := ⟨0, ![]⟩
abbrev S4096 : Shape := ⟨1, ![4096]⟩
abbrev S1024x4096 : Shape := ⟨2, ![1024, 4096]⟩
abbrev S4096x4096 : Shape := ⟨2, ![4096, 4096]⟩
abbrev S64x4096 : Shape := ⟨2, ![64, 4096]⟩
abbrev S4096x1 : Shape := ⟨2, ![4096, 1]⟩

abbrev nBuf : Space → Nat
  | .hbm => 127
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x64, .f32⟩
  | .hbm, ⟨2, _⟩ => ⟨S4096x64, .i32⟩
  | .hbm, ⟨3, _⟩ => ⟨S4096x64, .f32⟩
  | .hbm, ⟨4, _⟩ => ⟨S_, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S4096x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x64, .f32⟩
  | .hbm, ⟨19, _⟩ => ⟨S4096x64, .f32⟩
  | .hbm, ⟨20, _⟩ => ⟨S_, .f32⟩
  | .hbm, ⟨21, _⟩ => ⟨S4096x64, .f32⟩
  | .hbm, ⟨22, _⟩ => ⟨S4096x64, .f32⟩
  | .hbm, ⟨23, _⟩ => ⟨S_, .f32⟩
  | .hbm, ⟨24, _⟩ => ⟨S4096x64, .f32⟩
  | .hbm, ⟨25, _⟩ => ⟨S4096x64, .f32⟩
  | .hbm, ⟨26, _⟩ => ⟨S_, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S_, .f32⟩
  | .hbm, ⟨32, _⟩ => ⟨S4096x64, .f32⟩
  | .hbm, ⟨33, _⟩ => ⟨S4096x64, .f32⟩
  | .hbm, ⟨34, _⟩ => ⟨S_, .f32⟩
  | .hbm, ⟨35, _⟩ => ⟨S4096x64, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x64, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S1024x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .i32⟩
  | .hbm, ⟨59, _⟩ => ⟨S4096x4096, .i32⟩
  | .hbm, ⟨60, _⟩ => ⟨S_, .i32⟩
  | .hbm, ⟨61, _⟩ => ⟨S4096x4096, .i32⟩
  | .hbm, ⟨62, _⟩ => ⟨S4096x4096, .i32⟩
  | .hbm, ⟨63, _⟩ => ⟨S4096x4096, .i1⟩
  | .hbm, ⟨64, _⟩ => ⟨S4096x4096, .i1⟩
  | .hbm, ⟨65, _⟩ => ⟨S64x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .i1⟩
  | .hbm, ⟨70, _⟩ => ⟨S4096x4096, .i1⟩
  | .hbm, ⟨71, _⟩ => ⟨S_, .i1⟩
  | .hbm, ⟨72, _⟩ => ⟨S4096, .i1⟩
  | .hbm, ⟨73, _⟩ => ⟨S_, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S_, .f32⟩
  | .hbm, ⟨84, _⟩ => ⟨S_, .f32⟩
  | .hbm, ⟨85, _⟩ => ⟨S4096x4096, .f32⟩
  | .hbm, ⟨86, _⟩ => ⟨S4096x4096, .f32⟩
  | .hbm, ⟨87, _⟩ => ⟨S_, .f32⟩
  | .hbm, ⟨88, _⟩ => ⟨S4096, .f32⟩
  | .hbm, ⟨89, _⟩ => ⟨S_, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S_, .f32⟩
  | .hbm, ⟨94, _⟩ => ⟨S4096, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S4096, .f32⟩
  | .hbm, ⟨99, _⟩ => ⟨S_, .f32⟩
  | .hbm, ⟨100, _⟩ => ⟨S_, .f32⟩
  | .hbm, ⟨101, _⟩ => ⟨S4096, .f32⟩
  | .hbm, ⟨102, _⟩ => ⟨S4096, .f32⟩
  | .hbm, ⟨103, _⟩ => ⟨S4096, .f32⟩
  | .hbm, ⟨104, _⟩ => ⟨S4096, .f32⟩
  | .hbm, ⟨105, _⟩ => ⟨S4096, .f32⟩
  | .hbm, ⟨106, _⟩ => ⟨S4096, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i1⟩
  | .hbm, ⟨111, _⟩ => ⟨S_, .f32⟩
  | .hbm, ⟨112, _⟩ => ⟨S_, .f32⟩
  | .hbm, ⟨113, _⟩ => ⟨S4096, .f32⟩
  | .hbm, ⟨114, _⟩ => ⟨S4096, .f32⟩
  | .hbm, ⟨115, _⟩ => ⟨S_, .f32⟩
  | .hbm, ⟨116, _⟩ => ⟨S_, .f32⟩
  | .hbm, ⟨117, _⟩ => ⟨S_, .i32⟩
  | .hbm, ⟨118, _⟩ => ⟨S_, .i32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_cst_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_13 : Ref sig .tc := ⟨.hbm, 71, rfl⟩
abbrev main_v53 : Ref sig .tc := ⟨.hbm, 72, rfl⟩
abbrev main_cst_14 : Ref sig .tc := ⟨.hbm, 73, rfl⟩
abbrev main_call0_v0 : Ref sig .tc := ⟨.hbm, 74, rfl⟩
abbrev main_call0_v1 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_call1_v0 : Ref sig .tc := ⟨.hbm, 84, rfl⟩
abbrev main_call1_v1 : Ref sig .tc := ⟨.hbm, 85, rfl⟩
abbrev main_v60 : Ref sig .tc := ⟨.hbm, 86, rfl⟩
abbrev main_cst_17 : Ref sig .tc := ⟨.hbm, 87, rfl⟩
abbrev main_v61 : Ref sig .tc := ⟨.hbm, 88, rfl⟩
abbrev main_cst_18 : Ref sig .tc := ⟨.hbm, 89, rfl⟩
abbrev main_call2_v0 : Ref sig .tc := ⟨.hbm, 90, rfl⟩
abbrev main_call2_v1 : Ref sig .tc := ⟨.hbm, 91, rfl⟩
abbrev main_v62 : Ref sig .tc := ⟨.hbm, 92, rfl⟩
abbrev main_cst_19 : Ref sig .tc := ⟨.hbm, 93, rfl⟩
abbrev main_v63 : Ref sig .tc := ⟨.hbm, 94, rfl⟩
abbrev main_cst_20 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_21 : Ref sig .tc := ⟨.hbm, 99, rfl⟩
abbrev main_call3_v0 : Ref sig .tc := ⟨.hbm, 100, rfl⟩
abbrev main_call3_v1 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_22 : Ref sig .tc := ⟨.hbm, 107, rfl⟩
abbrev main_v72 : Ref sig .tc := ⟨.hbm, 108, rfl⟩
abbrev main_c_23 : Ref sig .tc := ⟨.hbm, 109, rfl⟩
abbrev main_v73 : Ref sig .tc := ⟨.hbm, 110, rfl⟩
abbrev main_cst_24 : Ref sig .tc := ⟨.hbm, 111, rfl⟩
abbrev main_call4_v0 : Ref sig .tc := ⟨.hbm, 112, rfl⟩
abbrev main_call4_v1 : Ref sig .tc := ⟨.hbm, 113, rfl⟩
abbrev main_v74 : Ref sig .tc := ⟨.hbm, 114, rfl⟩
abbrev main_cst_25 : Ref sig .tc := ⟨.hbm, 115, rfl⟩
abbrev main_v75 : Ref sig .tc := ⟨.hbm, 116, rfl⟩
abbrev main_c_26 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_27 : Ref sig .tc := ⟨.hbm, 121, rfl⟩
abbrev main_call5_v0 : Ref sig .tc := ⟨.hbm, 122, rfl⟩
abbrev main_v79 : Ref sig .tc := ⟨.hbm, 123, rfl⟩
abbrev main_cst_28 : Ref sig .tc := ⟨.hbm, 124, rfl⟩
abbrev main_v80 : Ref sig .tc := ⟨.hbm, 125, rfl⟩
abbrev main_v81 : Ref sig .tc := ⟨.hbm, 126, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  reducesTo_S4096x64_S_d0_1 : S4096x64.ReducesTo [0, 1] S_
  h_S_ : 0 < S_.numel
  reducesTo_S4096x64_S4096_d1 : S4096x64.ReducesTo [1] S4096
  bcast_S_S4096 : S_.BroadcastsInDim S4096 (![] : Fin 0 → Fin S4096.rank)
  transposes_S4096x1024_S1024x4096_1_0 : S4096x1024.Transposes [1, 0] S1024x4096
  bcast_S_S4096x4096 : S_.BroadcastsInDim S4096x4096 (![] : Fin 0 → Fin S4096x4096.rank)
  transposes_S4096x64_S64x4096_1_0 : S4096x64.Transposes [1, 0] S64x4096
  reducesTo_S4096x4096_S4096_d1 : S4096x4096.ReducesTo [1] S4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  natLt_1_32 : 1 < 32
  reducesTo_S4096_S_d0 : S4096.ReducesTo [0] S_
  dot_S4096x1024_S1024x4096_S4096x4096_1_0_0_1_n_n_wf : DotDims.WF S4096x1024 S1024x4096 S4096x4096 [1] [0] [0] [1] [] []
  dot_S4096x64_S64x4096_S4096x4096_1_0_0_1_n_n_wf : DotDims.WF S4096x64 S64x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.NamedConsts.lean ====
/-
  The two named constants of the idealized kernel denote, at the ideal instance, the values the table gives them:
  the scale `1 / 0.07` (with `0.07` the binary fraction 9395241 / 2^27 the reference divides by), and the mask
  fill `-∞`.
-/
import proofs.«133961_j23673859736131_2_alg».proof.Defs
import proofs.«133961_j23673859736131_2_alg».proof.Proof.Gen.KernelIdeal

noncomputable section

open Idealize.ShloMosaic

namespace Cert.Proof.Parts

/-- Both named constants are read, at the ideal instance, as the table's values. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "neg_big" .f32 0xFF333332#32 ⊥ rfl⟩

end Cert.Proof.Parts

end
-- ==== Proof.LibHostLine.lean ====
/-
  Reading a straight line of host operations one operation at a time.

  When every operation of a line writes one buffer of its own, what the line leaves in the buffer the `k`-th
  operation writes is that operation's function of what the line leaves in its operands: the operations after the
  `k`-th write neither its result nor (writing once only, after their operands are written) its operands. The
  lemmas state this for any line whose written references are listed, one per operation, in order.
-/
import Idealize.ShloMosaic.Lib.StableHlo.Run
import Mathlib.Data.List.Forall2

namespace Cert.CubePad.Line

open Idealize.ShloMosaic Idealize.ShloMosaic.StableHlo

variable {τ : Topo} {sig : RefSig} {Val : EltTy → Type}

/-- A line run in two parts. -/
theorem after_append (l₁ l₂ : List (HloOp τ sig Val)) (V : Valuation τ sig Val) :
    after (l₁ ++ l₂) V = after l₂ (after l₁ V) := by
  induction l₁ generalizing V with
  | nil => rfl
  | cons op l ih => exact ih _

/-- The line `ops` writes the references `W`, one each, in order. -/
abbrev Writes (ops : List (HloOp τ sig Val)) (W : List (Ref sig .tc)) : Prop :=
  List.Forall₂ (fun op r => op.writes = {Proc.devRef (τ := τ) .tc r}) ops W

/-- A reference the line does not write keeps its contents. -/
theorem Writes.keeps {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | cons e _ ih =>
    intro V r hr
    rw [after_cons, ih _ (fun hm => hr (List.mem_cons_of_mem _ hm)), HloOp.result_of_not_mem]
    rw [e, Finset.mem_singleton]
    exact devRef_ne_of_ne fun e' => hr (e' ▸ List.mem_cons_self)

/-- At a reference the operations from the `k`-th on do not write, the first `k` operations decide the contents. -/
theorem Writes.read_take {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  conv_lhs => rw [← List.take_append_drop k ops]
  rw [after_append]
  exact Writes.keeps (List.forall₂_drop k h) _ hr

/-- At the reference the `k`-th operation writes (and no later one): that operation's result from what the first
    `k` operations leave. -/
theorem Writes.read_at {ops : List (HloOp τ sig Val)} {W : List (Ref sig .tc)} (h : Writes ops W) (V : Valuation τ sig Val)
    (k : Nat) (op : HloOp τ sig Val) (hk : ops[k]? = some op) {y : Ref sig .tc} (hy : y ∉ W.drop (k + 1)) :
    after ops V (Proc.devRef .tc y) = op.result (after (ops.take k) V) (Proc.devRef .tc y) := by
  rw [h.read_take (k + 1) V hy, List.take_succ, hk, after_append]
  rfl

/-- A one-operand operation, the `k`-th of the line: its result buffer ends at its function of what its operand's
    buffer ends at. -/
theorem Writes.unary_at {ops : List (HloOp τ sig Val)} {W : List (Ref sig .tc)} (h : Writes ops W) (V : Valuation τ sig Val)
    (k : Nat) (x y : Ref sig .tc) (f : x.ty.Contents Val → y.ty.Contents Val) (hx hy)
    (hk : ops[k]? = some (unary x y f hx hy)) (hyW : y ∉ W.drop (k + 1)) (hxW : x ∉ W.drop k) :
    after ops V (Proc.devRef .tc y) = f (after ops V (Proc.devRef .tc x)) := by
  rw [h.read_at V k _ hk hyW, unary_result, h.read_take k V hxW]

/-- A reshape, the `k`-th of the line. -/
theorem Writes.reshape_at {ops : List (HloOp τ sig Val)} {W : List (Ref sig .tc)} (h : Writes ops W) (V : Valuation τ sig Val)
    (k : Nat) (x y : Ref sig .tc) (he : x.ty.elt = y.ty.elt) (hn : x.ty.shape.ShapeCasts y.ty.shape) (hx hy)
    (hk : ops[k]? = some (reshape x y he hn hx hy)) (hyW : y ∉ W.drop (k + 1)) (hxW : x ∉ W.drop k) :
    after ops V (Proc.devRef .tc y) = fun i => he ▸ shapeCast y.ty.shape (after ops V (Proc.devRef .tc x)) hn i := by
  rw [h.read_at V k _ hk hyW, reshape_result, h.read_take k V hxW]

/-- An operation of several operands, the `k`-th of the line. -/
theorem Writes.nary_at {ops : List (HloOp τ sig Val)} {W : List (Ref sig .tc)} (h : Writes ops W) (V : Valuation τ sig Val)
    (k : Nat) {n : Nat} (xs : Fin n → Ref sig .tc) (y : Ref sig .tc)
    (f : ((j : Fin n) → (xs j).ty.Contents Val) → y.ty.Contents Val) (hxs hy)
    (hk : ops[k]? = some (nary xs y f hxs hy)) (hyW : y ∉ W.drop (k + 1)) (hxW : ∀ j, xs j ∉ W.drop k) :
    after ops V (Proc.devRef .tc y) = f (fun j => after ops V (Proc.devRef .tc (xs j))) := by
  rw [h.read_at V k _ hk hyW, nary_result]
  exact congrArg f (funext fun j => (h.read_take k V (hxW j)).symm)

/-- A reference the line never writes (an argument) keeps its contents. -/
theorem Writes.arg {ops : List (HloOp τ sig Val)} {W : List (Ref sig .tc)} (h : Writes ops W) (V : Valuation τ sig Val)
    {r : Ref sig .tc} (hr : r ∉ W) : after ops V (Proc.devRef .tc r) = V (Proc.devRef .tc r) :=
  h.keeps V hr

end Cert.CubePad.Line
-- ==== Proof.LibHostLineMore.lean ====
/-
  Reading a straight line of host operations one operation at a time: the operations of no operand, of two and of three.

  As for an operation of one operand: when every operation of the line writes one reference of its own, what the line
  leaves in the reference its k-th operation writes is that operation's function of what the line leaves in its operands,
  because no later operation writes the result, and none from the k-th on writes an operand. Also: two lines that each write
  their own listed references, run one after the other, write the two lists in order; and, for a line written out as a literal
  list, its three side facts (what it writes, that it stays on TensorCore references, that it allocates nothing) each by one pass.
-/
import proofs.«133961_j23673859736131_2_alg».proof.Proof.LibHostLine

namespace Cert.Line

open Idealize.ShloMosaic Idealize.ShloMosaic.StableHlo Cert.CubePad.Line

variable {τ : Topo} {sig : RefSig} {Val : EltTy → Type}

/-- Two lines, each writing its own listed references in order, written one after the other. -/
theorem writes_append {l₁ l₂ : List (HloOp τ sig Val)} {W₁ W₂ : List (Ref sig .tc)}
    (h₁ : Writes l₁ W₁) (h₂ : Writes l₂ W₂) : Writes (l₁ ++ l₂) (W₁ ++ W₂) := by
  induction h₁ with
  | nil => exact h₂
  | cons e _ ih => exact List.Forall₂.cons e ih

/-- An operation of no operand, the k-th of the line: its result reference ends at its value. -/
theorem nullary_at {ops : List (HloOp τ sig Val)} {W : List (Ref sig .tc)} (h : Writes ops W) (V : Valuation τ sig Val)
    (k : Nat) (y : Ref sig .tc) (v : y.ty.Contents Val) (hy)
    (hk : ops[k]? = some (nullary y v hy)) (hyW : y ∉ W.drop (k + 1)) :
    after ops V (Proc.devRef .tc y) = v := by
  rw [h.read_at V k _ hk hyW, nullary_result]

/-- An operation of two operands, the k-th of the line: its result reference ends at its function of what its operands'
    references end at. -/
theorem binary_at {ops : List (HloOp τ sig Val)} {W : List (Ref sig .tc)} (h : Writes ops W) (V : Valuation τ sig Val)
    (k : Nat) (a b y : Ref sig .tc) (f : a.ty.Contents Val → b.ty.Contents Val → y.ty.Contents Val) (ha hb hy)
    (hk : ops[k]? = some (binary a b y f ha hb hy)) (hyW : y ∉ W.drop (k + 1)) (haW : a ∉ W.drop k) (hbW : b ∉ W.drop k) :
    after ops V (Proc.devRef .tc y) = f (after ops V (Proc.devRef .tc a)) (after ops V (Proc.devRef .tc b)) := by
  rw [h.read_at V k _ hk hyW, binary_result, h.read_take k V haW, h.read_take k V hbW]

/-- An operation of three operands, the k-th of the line. -/
theorem ternary_at {ops : List (HloOp τ sig Val)} {W : List (Ref sig .tc)} (h : Writes ops W) (V : Valuation τ sig Val)
    (k : Nat) (c a b y : Ref sig .tc)
    (f : c.ty.Contents Val → a.ty.Contents Val → b.ty.Contents Val → y.ty.Contents Val) (hc ha hb hy)
    (hk : ops[k]? = some (ternary c a b y f hc ha hb hy)) (hyW : y ∉ W.drop (k + 1))
    (hcW : c ∉ W.drop k) (haW : a ∉ W.drop k) (hbW : b ∉ W.drop k) :
    after ops V (Proc.devRef .tc y)
      = f (after ops V (Proc.devRef .tc c)) (after ops V (Proc.devRef .tc a)) (after ops V (Proc.devRef .tc b)) := by
  rw [h.read_at V k _ hk hyW, ternary_result, h.read_take k V hcW, h.read_take k V haW, h.read_take k V hbW]

/-! ## A literal line's three facts, each by one pass over the list

For a line written out as a literal list of the builders' operations: that it writes the listed references, one each, in order
(each builder's written set is the singleton of its result reference, by definition); that it touches TensorCore references only
(each builder's own lemma); that it allocates nothing (each builder's fresh set is empty, by definition). -/

/-- Closes `Writes ops W` for literal lists of equal length: one `rfl` per operation. -/
macro "line_writes" : tactic =>
  `(tactic| repeat (first | exact List.Forall₂.nil | refine List.Forall₂.cons rfl ?_))

/-- Closes `ops.Forall fun op => op.bufs ⊆ tcRefs τ sig` for a literal list of the builders' operations. -/
macro "line_sub" : tactic =>
  `(tactic| simp only [List.Forall, nullary_bufs_sub, unary_bufs_sub, binary_bufs_sub, ternary_bufs_sub, nary_bufs_sub, and_self])

/-- Closes `ops.Forall fun op => op.fresh = ∅` for a literal list of the builders' operations. -/
macro "line_fresh" : tactic =>
  `(tactic| (simp only [List.Forall]; repeat' constructor))

end Cert.Line
-- ==== Proof.LibLineStep.lean ====
/-
  One step of reading a straight line of host operations: the buffer the `k`-th operation writes, as that
  operation's function of the buffers it reads, whatever the operation's number of operands.
-/
import proofs.«133961_j23673859736131_2_alg».proof.Proof.LibHostLineMore

namespace Cert.Line

open Idealize.ShloMosaic Idealize.ShloMosaic.StableHlo Cert.CubePad.Line

/-- `line_step hW V k`: rewrite what the line leaves in the `k`-th operation's result buffer into that operation's function
    of what the line leaves in its operands (`hW`: the references the line writes, in order; `V`: the starting contents). -/
macro "line_step " hW:term:max V:term:max k:num : tactic =>
  `(tactic| first
    | rw [Cert.Line.binary_at $hW $V $k _ _ _ _ _ _ _ rfl (by decide) (by decide) (by decide)]
    | rw [Cert.CubePad.Line.Writes.unary_at $hW $V $k _ _ _ _ _ rfl (by decide) (by decide)]
    | rw [Cert.Line.ternary_at $hW $V $k _ _ _ _ _ _ _ _ _ rfl (by decide) (by decide) (by decide) (by decide)]
    | rw [Cert.CubePad.Line.Writes.reshape_at $hW $V $k _ _ _ _ _ _ rfl (by decide) (by decide)]
    | rw [Cert.Line.nullary_at $hW $V $k _ _ _ rfl (by decide)])

end Cert.Line
-- ==== Proof.KbBase.lean ====
/-
  The kernel body's four branch conditions as functions of the grid point (row tile i 0, column tile i 1):
  the column tile is the first one; the 512 x 1024 tile meets the diagonal (512·r < 1024·c + 1024 and 1024·c < 512·r + 512);
  it does not; the column tile is the last one.
-/
import proofs.«133961_j23673859736131_2_alg».proof.Proof.Gen.Kernel.Launch
import proofs.«133961_j23673859736131_2_alg».proof.Proof.Gen.Kernel.Skeleton
import proofs.«133961_j23673859736131_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four branch conditions of the body as functions of the grid point: first column tile; the tile meets the
    diagonal; it does not; last column tile. -/
abbrev cnd1 (i : grid0.Coords) : Prop := (Scalar.cmpi .ne (Scalar.extui (Scalar.cmpi .eq (BitVec.ofNat 32 (i 1).val) 0#32)) 0#32) = 1#1
abbrev dg (i : grid0.Coords) : BitVec 1 := Scalar.andi (Scalar.cmpi .slt (Scalar.muli (BitVec.ofNat 32 (i 0).val) 512#32) (Scalar.addi (Scalar.muli (BitVec.ofNat 32 (i 1).val) 1024#32) 1024#32)) (Scalar.cmpi .slt (Scalar.muli (BitVec.ofNat 32 (i 1).val) 1024#32) (Scalar.addi (Scalar.muli (BitVec.ofNat 32 (i 0).val) 512#32) 512#32))
abbrev cnd2 (i : grid0.Coords) : Prop := (Scalar.cmpi .ne (Scalar.extui (dg i)) 0#32) = 1#1
abbrev cnd3 (i : grid0.Coords) : Prop := (Scalar.cmpi .ne (Scalar.extui (Scalar.xori (dg i) 1#1)) 0#32) = 1#1
abbrev cnd4 (i : grid0.Coords) : Prop := k0_cond4 i = 1#1

end Cert.Kernel.Hand

end
-- ==== Proof.KbRunA.lean ====
/-
  The kernel body run whole at a grid point of control case A (first column tile: yes; tile meets the diagonal: yes; last column tile: no):
  on whole staging buffers, the scratch buffers at any contents (this case overwrites them first), it runs without fault and leaves the four inputs as they were, every scratch
  buffer with the pieces its stores wrote, and the three outputs untouched.
-/
import proofs.«133961_j23673859736131_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_A (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : cnd1 i) (hc2 : cnd2 i) (hc3 : ¬cnd3 i) (hc4 : ¬cnd4 i)
    (x0 : Vec F S512x1024 .bf16) (x1 : Vec F S1024x1024 .bf16) (x2 : Vec F S512x64 .bf16) (x3 : Vec F S1024x64 .bf16)
 :
    Σ' (LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d0, %fs0, %hfs0, HS0⟩, ⟨%d1, %fs1, %hfs1, HS1⟩, ⟨%d2, %fs2, %hfs2, HS2⟩, ⟨%d3, %fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Hand

end
-- ==== Proof.KbRunB.lean ====
/-
  The kernel body run whole at a grid point of control case B (first column tile: yes; tile meets the diagonal: no; last column tile: no):
  on whole staging buffers, the scratch buffers at any contents (this case overwrites them first), it runs without fault and leaves the four inputs as they were, every scratch
  buffer with the pieces its stores wrote, and the three outputs untouched.
-/
import proofs.«133961_j23673859736131_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_B (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : cnd1 i) (hc2 : ¬cnd2 i) (hc3 : cnd3 i) (hc4 : ¬cnd4 i)
    (x0 : Vec F S512x1024 .bf16) (x1 : Vec F S1024x1024 .bf16) (x2 : Vec F S512x64 .bf16) (x3 : Vec F S1024x64 .bf16)
 :
    Σ' (LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d0, %fs0, %hfs0, HS0⟩, ⟨%d1, %fs1, %hfs1, HS1⟩, ⟨%d2, %fs2, %hfs2, HS2⟩, ⟨%d3, %fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Hand

end
-- ==== Proof.KbRunC.lean ====
/-
  The kernel body run whole at a grid point of control case C (first column tile: no; tile meets the diagonal: yes; last column tile: no):
  on whole staging and scratch buffers it runs without fault and leaves the four inputs as they were, every scratch
  buffer with the pieces its stores wrote, and the three outputs untouched.
-/
import proofs.«133961_j23673859736131_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_C (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : ¬cnd1 i) (hc2 : cnd2 i) (hc3 : ¬cnd3 i) (hc4 : ¬cnd4 i)
    (x0 : Vec F S512x1024 .bf16) (x1 : Vec F S1024x1024 .bf16) (x2 : Vec F S512x64 .bf16) (x3 : Vec F S1024x64 .bf16)
    (xs0 xs1 xs2 xs3 : Vec F S512x1 .f32) :
    Σ' (LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Hand

end
-- ==== Proof.KbRunD.lean ====
/-
  The kernel body run whole at a grid point of control case D (first column tile: no; tile meets the diagonal: no; last column tile: no):
  on whole staging and scratch buffers it runs without fault and leaves the four inputs as they were, every scratch
  buffer with the pieces its stores wrote, and the three outputs untouched.
-/
import proofs.«133961_j23673859736131_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_D (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : ¬cnd1 i) (hc2 : ¬cnd2 i) (hc3 : cnd3 i) (hc4 : ¬cnd4 i)
    (x0 : Vec F S512x1024 .bf16) (x1 : Vec F S1024x1024 .bf16) (x2 : Vec F S512x64 .bf16) (x3 : Vec F S1024x64 .bf16)
    (xs0 xs1 xs2 xs3 : Vec F S512x1 .f32) :
    Σ' (LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Hand

end
-- ==== Proof.KbRunE.lean ====
/-
  The kernel body run whole at a grid point of control case E (first column tile: no; tile meets the diagonal: yes; last column tile: yes):
  on whole staging and scratch buffers it runs without fault and leaves the four inputs as they were, every scratch
  buffer with the pieces its stores wrote, and the three outputs with the pieces its stores wrote.
-/
import proofs.«133961_j23673859736131_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_E (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : ¬cnd1 i) (hc2 : cnd2 i) (hc3 : ¬cnd3 i) (hc4 : cnd4 i)
    (x0 : Vec F S512x1024 .bf16) (x1 : Vec F S1024x1024 .bf16) (x2 : Vec F S512x64 .bf16) (x3 : Vec F S1024x64 .bf16)
    (xs0 xs1 xs2 xs3 : Vec F S512x1 .f32) :
    Σ' (L4 L5 L6 LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.Kernel.Hand

end
-- ==== Proof.KbRunF.lean ====
/-
  The kernel body run whole at a grid point of control case F (first column tile: no; tile meets the diagonal: no; last column tile: yes):
  on whole staging and scratch buffers it runs without fault and leaves the four inputs as they were, every scratch
  buffer with the pieces its stores wrote, and the three outputs with the pieces its stores wrote.
-/
import proofs.«133961_j23673859736131_2_alg».proof.Proof.KbBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun_F (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : ¬cnd1 i) (hc2 : ¬cnd2 i) (hc3 : cnd3 i) (hc4 : cnd4 i)
    (x0 : Vec F S512x1024 .bf16) (x1 : Vec F S1024x1024 .bf16) (x2 : Vec F S512x64 .bf16) (x3 : Vec F S1024x64 .bf16)
    (xs0 xs1 xs2 xs3 : Vec F S512x1 .f32) :
    Σ' (L4 L5 L6 LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.Kernel.Hand

end
-- ==== Proof.KbShared.lean ====
/-
  What the six runs of the kernel body share: the contents of every buffer when the kernel region is entered (the host
  lines before it have run), each input window's block at a grid point, the four branch conditions in closed form over
  the 32 grid points (point t is row tile t / 4, column tile t % 4; the tile meets the diagonal iff t % 4 = t / 8), the
  points at which an output window is left untouched, and the memrefs the pipeline hands the body at a point.
-/
import proofs.«133961_j23673859736131_2_alg».proof.Proof.KbRunA
import proofs.«133961_j23673859736131_2_alg».proof.Proof.KbRunB
import proofs.«133961_j23673859736131_2_alg».proof.Proof.KbRunC
import proofs.«133961_j23673859736131_2_alg».proof.Proof.KbRunD
import proofs.«133961_j23673859736131_2_alg».proof.Proof.KbRunE
import proofs.«133961_j23673859736131_2_alg».proof.Proof.KbRunF

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: the 52 host lines before it have run. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

theorem hcnd1 : ∀ t : Fin cfg0.N, cnd1 (grid0.coords t) ↔ t.val % 4 = 0 :=
  (by decide +kernel : ∀ t : Fin grid0.N, cnd1 (grid0.coords t) ↔ t.val % 4 = 0)
theorem hcnd2 : ∀ t : Fin cfg0.N, cnd2 (grid0.coords t) ↔ t.val % 4 = t.val / 8 :=
  (by decide +kernel : ∀ t : Fin grid0.N, cnd2 (grid0.coords t) ↔ t.val % 4 = t.val / 8)
theorem hcnd3 : ∀ t : Fin cfg0.N, cnd3 (grid0.coords t) ↔ ¬ t.val % 4 = t.val / 8 :=
  (by decide +kernel : ∀ t : Fin grid0.N, cnd3 (grid0.coords t) ↔ ¬ t.val % 4 = t.val / 8)
theorem hcnd4 : ∀ t : Fin cfg0.N, cnd4 (grid0.coords t) ↔ t.val % 4 = 3 :=
  (by decide +kernel : ∀ t : Fin grid0.N, cnd4 (grid0.coords t) ↔ t.val % 4 = 3)

/-! ## Where the windows are idle -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem idleAt_4 : ∀ t : Fin cfg0.N, ¬ t.val % 4 = 3 → cfg0.idle 4 (grid0.coords t) = true := by decide +kernel
theorem noFlush_4 : ∀ t : Fin cfg0.N, ¬ t.val % 4 = 3 → (cfg0.win 4).flush t = false := by decide +kernel
theorem liveAt_4 : ∀ t : Fin cfg0.N, t.val % 4 = 3 → cfg0.idle 4 (grid0.coords t) = false := by decide +kernel
theorem idleAt_5 : ∀ t : Fin cfg0.N, ¬ t.val % 4 = 3 → cfg0.idle 5 (grid0.coords t) = true := by decide +kernel
theorem noFlush_5 : ∀ t : Fin cfg0.N, ¬ t.val % 4 = 3 → (cfg0.win 5).flush t = false := by decide +kernel
theorem liveAt_5 : ∀ t : Fin cfg0.N, t.val % 4 = 3 → cfg0.idle 5 (grid0.coords t) = false := by decide +kernel
theorem idleAt_6 : ∀ t : Fin cfg0.N, ¬ t.val % 4 = 3 → cfg0.idle 6 (grid0.coords t) = true := by decide +kernel
theorem noFlush_6 : ∀ t : Fin cfg0.N, ¬ t.val % 4 = 3 → (cfg0.win 6).flush t = false := by decide +kernel
theorem liveAt_6 : ∀ t : Fin cfg0.N, t.val % 4 = 3 → cfg0.idle 6 (grid0.coords t) = false := by decide +kernel

/-! ## The memrefs the body is called with -/
abbrev ms_0 (t : Fin cfg0.N) : Memref sig .tc .vmem S512x1024 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x1024 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x64 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x64 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x1 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S512x1 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S512x1 .f32 := win0_6.stage (cfg0.slots t 6)
abbrev hs_6 (t : Fin cfg0.N) : (ms_6 t).IsWhole := hstage0_6 ((cfg0.slots t 6).cast nbuf0_6)
abbrev scM_0 : Memref sig .tc .vmem S512x1 .f32 := Memref.whole cc0_scratch0
abbrev VS_0 : View sig .tc .vmem S512x1 .f32 := (scM_0).view
abbrev scM_1 : Memref sig .tc .vmem S512x1 .f32 := Memref.whole cc0_scratch1
abbrev VS_1 : View sig .tc .vmem S512x1 .f32 := (scM_1).view
abbrev scM_2 : Memref sig .tc .vmem S512x1 .f32 := Memref.whole cc0_scratch2
abbrev VS_2 : View sig .tc .vmem S512x1 .f32 := (scM_2).view
abbrev scM_3 : Memref sig .tc .vmem S512x1 .f32 := Memref.whole cc0_scratch3
abbrev VS_3 : View sig .tc .vmem S512x1 .f32 := (scM_3).view
abbrev VO_4 : View sig .tc .vmem S512x1 .f32 := (Memref.whole cc0_stg4_0 : Memref sig .tc .vmem S512x1 .f32).view
abbrev VO_5 : View sig .tc .vmem S512x1 .f32 := (Memref.whole cc0_stg5_0 : Memref sig .tc .vmem S512x1 .f32).view
abbrev VO_6 : View sig .tc .vmem S512x1 .f32 := (Memref.whole cc0_stg6_0 : Memref sig .tc .vmem S512x1 .f32).view

/-- The class invariant with the four scratch buffers owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ (∃ r, prngReg c r)) := by
  unfold Pipeline.ΦA; rw [scopedRest0_eq]; simp only [scM_0, scM_1, scM_2, scM_3, owns_whole]; try rfl

end Cert.Kernel.Hand

end
-- ==== Proof.KbData.lean ====
/-
  The kernel region point by point.  What the four scratch buffers (running maximum, the two rescaled sums, the
  positive count) and the three output blocks hold after the body at each grid point, by recursion on the point: at a
  first column tile the scratch is overwritten, at the others the case's run starts from what the point before left, at
  a last column tile the outputs receive the scratch.  From that: the pipeline's proof data (each input window's buffer
  holds its block; the two embedding windows and the two label windows each hold half of their shared array), the
  invariant between points, and the body's obligation at every point, by cases on the closed forms of the conditions.
-/
import proofs.«133961_j23673859736131_2_alg».proof.Proof.KbShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the three output blocks and the four scratch buffers hold after a point. -/
abbrev Outs (F : FTy → Type) [FloatOps F] := ((Vec F S512x1 .f32) × (Vec F S512x1 .f32) × (Vec F S512x1 .f32)) × ((Vec F S512x1 .f32) × (Vec F S512x1 .f32) × (Vec F S512x1 .f32) × (Vec F S512x1 .f32))

/-- An output block no case has stored into: contents nothing consults. -/
abbrev idleOut : (Vec F S512x1 .f32) × (Vec F S512x1 .f32) × (Vec F S512x1 .f32) :=
  (VO_4.read (Elt F) VO_4.junk, VO_5.read (Elt F) VO_5.junk, VO_6.read (Elt F) VO_6.junk)

/-- The body's run at a point of case A. -/
abbrev run_A (c : Dev nD) (t : Fin cfg0.N) (h1 : t.val % 4 = 0) (h2 : t.val % 4 = t.val / 8) (h4 : ¬ t.val % 4 = 3) :=
  kernelRun_A (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) ((hcnd1 t).mpr h1) ((hcnd2 t).mpr h2) (fun h => ((hcnd3 t).mp h) h2) (fun h => h4 ((hcnd4 t).mp h)) (iblk m c 0 t) (iblk m c 1 t) (iblk m c 2 t) (iblk m c 3 t)

theorem scover_A_0 (c : Dev nD) (t : Fin cfg0.N) (h1 : t.val % 4 = 0) (h2 : t.val % 4 = t.val / 8) (h4 : ¬ t.val % 4 = 3) (y : S512x1.Idx) :
    ∃ pc ∈ (run_A m c t h1 h2 h4).1, y ∈ pc.1.set :=
  View.cover_of_tiledL (run_A m c t h1 h2 h4).1 S512x1.size (by sl_kernel_rfl) y

theorem scover_A_1 (c : Dev nD) (t : Fin cfg0.N) (h1 : t.val % 4 = 0) (h2 : t.val % 4 = t.val / 8) (h4 : ¬ t.val % 4 = 3) (y : S512x1.Idx) :
    ∃ pc ∈ (run_A m c t h1 h2 h4).2.1, y ∈ pc.1.set :=
  View.cover_of_tiledL (run_A m c t h1 h2 h4).2.1 S512x1.size (by sl_kernel_rfl) y

theorem scover_A_2 (c : Dev nD) (t : Fin cfg0.N) (h1 : t.val % 4 = 0) (h2 : t.val % 4 = t.val / 8) (h4 : ¬ t.val % 4 = 3) (y : S512x1.Idx) :
    ∃ pc ∈ (run_A m c t h1 h2 h4).2.2.1, y ∈ pc.1.set :=
  View.cover_of_tiledL (run_A m c t h1 h2 h4).2.2.1 S512x1.size (by sl_kernel_rfl) y

theorem scover_A_3 (c : Dev nD) (t : Fin cfg0.N) (h1 : t.val % 4 = 0) (h2 : t.val % 4 = t.val / 8) (h4 : ¬ t.val % 4 = 3) (y : S512x1.Idx) :
    ∃ pc ∈ (run_A m c t h1 h2 h4).2.2.2.1, y ∈ pc.1.set :=
  View.cover_of_tiledL (run_A m c t h1 h2 h4).2.2.2.1 S512x1.size (by sl_kernel_rfl) y

/-- What a point of case A leaves: the outputs' blocks and the scratch buffers, each its pieces read back. -/
def tup_A (c : Dev nD) (t : Fin cfg0.N) (h1 : t.val % 4 = 0) (h2 : t.val % 4 = t.val / 8) (h4 : ¬ t.val % 4 = 3) : Outs F :=
  (idleOut,
    (VS_0.read (Elt F) (VS_0.writes (Elt F) VS_0.junk (run_A m c t h1 h2 h4).1),
     VS_1.read (Elt F) (VS_1.writes (Elt F) VS_1.junk (run_A m c t h1 h2 h4).2.1),
     VS_2.read (Elt F) (VS_2.writes (Elt F) VS_2.junk (run_A m c t h1 h2 h4).2.2.1),
     VS_3.read (Elt F) (VS_3.writes (Elt F) VS_3.junk (run_A m c t h1 h2 h4).2.2.2.1)))

/-- The body's run at a point of case B. -/
abbrev run_B (c : Dev nD) (t : Fin cfg0.N) (h1 : t.val % 4 = 0) (h2 : ¬ t.val % 4 = t.val / 8) (h4 : ¬ t.val % 4 = 3) :=
  kernelRun_B (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) ((hcnd1 t).mpr h1) (fun h => h2 ((hcnd2 t).mp h)) ((hcnd3 t).mpr h2) (fun h => h4 ((hcnd4 t).mp h)) (iblk m c 0 t) (iblk m c 1 t) (iblk m c 2 t) (iblk m c 3 t)

theorem scover_B_0 (c : Dev nD) (t : Fin cfg0.N) (h1 : t.val % 4 = 0) (h2 : ¬ t.val % 4 = t.val / 8) (h4 : ¬ t.val % 4 = 3) (y : S512x1.Idx) :
    ∃ pc ∈ (run_B m c t h1 h2 h4).1, y ∈ pc.1.set :=
  View.cover_of_tiledL (run_B m c t h1 h2 h4).1 S512x1.size (by sl_kernel_rfl) y

theorem scover_B_1 (c : Dev nD) (t : Fin cfg0.N) (h1 : t.val % 4 = 0) (h2 : ¬ t.val % 4 = t.val / 8) (h4 : ¬ t.val % 4 = 3) (y : S512x1.Idx) :
    ∃ pc ∈ (run_B m c t h1 h2 h4).2.1, y ∈ pc.1.set :=
  View.cover_of_tiledL (run_B m c t h1 h2 h4).2.1 S512x1.size (by sl_kernel_rfl) y

theorem scover_B_2 (c : Dev nD) (t : Fin cfg0.N) (h1 : t.val % 4 = 0) (h2 : ¬ t.val % 4 = t.val / 8) (h4 : ¬ t.val % 4 = 3) (y : S512x1.Idx) :
    ∃ pc ∈ (run_B m c t h1 h2 h4).2.2.1, y ∈ pc.1.set :=
  View.cover_of_tiledL (run_B m c t h1 h2 h4).2.2.1 S512x1.size (by sl_kernel_rfl) y

theorem scover_B_3 (c : Dev nD) (t : Fin cfg0.N) (h1 : t.val % 4 = 0) (h2 : ¬ t.val % 4 = t.val / 8) (h4 : ¬ t.val % 4 = 3) (y : S512x1.Idx) :
    ∃ pc ∈ (run_B m c t h1 h2 h4).2.2.2.1, y ∈ pc.1.set :=
  View.cover_of_tiledL (run_B m c t h1 h2 h4).2.2.2.1 S512x1.size (by sl_kernel_rfl) y

/-- What a point of case B leaves: the outputs' blocks and the scratch buffers, each its pieces read back. -/
def tup_B (c : Dev nD) (t : Fin cfg0.N) (h1 : t.val % 4 = 0) (h2 : ¬ t.val % 4 = t.val / 8) (h4 : ¬ t.val % 4 = 3) : Outs F :=
  (idleOut,
    (VS_0.read (Elt F) (VS_0.writes (Elt F) VS_0.junk (run_B m c t h1 h2 h4).1),
     VS_1.read (Elt F) (VS_1.writes (Elt F) VS_1.junk (run_B m c t h1 h2 h4).2.1),
     VS_2.read (Elt F) (VS_2.writes (Elt F) VS_2.junk (run_B m c t h1 h2 h4).2.2.1),
     VS_3.read (Elt F) (VS_3.writes (Elt F) VS_3.junk (run_B m c t h1 h2 h4).2.2.2.1)))

/-- The body's run at a point of case C, from what the point before left in the scratch. -/
abbrev run_C (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) :=
  kernelRun_C (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) (fun h => h1 ((hcnd1 t).mp h)) ((hcnd2 t).mpr h2) (fun h => ((hcnd3 t).mp h) h2) (fun h => h4 ((hcnd4 t).mp h)) (iblk m c 0 t) (iblk m c 1 t) (iblk m c 2 t) (iblk m c 3 t) pv.1 pv.2.1 pv.2.2.1 pv.2.2.2

theorem scover_C_0 (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_C m c t h1 h2 h4 pv).1, y ∈ pc.1.set :=
  View.cover_of_tiledL (run_C m c t h1 h2 h4 pv).1 S512x1.size (by sl_kernel_rfl) y

theorem scover_C_1 (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_C m c t h1 h2 h4 pv).2.1, y ∈ pc.1.set :=
  View.cover_of_tiledL (run_C m c t h1 h2 h4 pv).2.1 S512x1.size (by sl_kernel_rfl) y

theorem scover_C_2 (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_C m c t h1 h2 h4 pv).2.2.1, y ∈ pc.1.set :=
  View.cover_of_tiledL (run_C m c t h1 h2 h4 pv).2.2.1 S512x1.size (by sl_kernel_rfl) y

theorem scover_C_3 (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_C m c t h1 h2 h4 pv).2.2.2.1, y ∈ pc.1.set :=
  View.cover_of_tiledL (run_C m c t h1 h2 h4 pv).2.2.2.1 S512x1.size (by sl_kernel_rfl) y

/-- What a point of case C leaves: the outputs' blocks and the scratch buffers, each its pieces read back. -/
def tup_C (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) : Outs F :=
  (idleOut,
    (VS_0.read (Elt F) (VS_0.writes (Elt F) VS_0.junk (run_C m c t h1 h2 h4 pv).1),
     VS_1.read (Elt F) (VS_1.writes (Elt F) VS_1.junk (run_C m c t h1 h2 h4 pv).2.1),
     VS_2.read (Elt F) (VS_2.writes (Elt F) VS_2.junk (run_C m c t h1 h2 h4 pv).2.2.1),
     VS_3.read (Elt F) (VS_3.writes (Elt F) VS_3.junk (run_C m c t h1 h2 h4 pv).2.2.2.1)))

/-- The body's run at a point of case D, from what the point before left in the scratch. -/
abbrev run_D (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) :=
  kernelRun_D (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) (fun h => h1 ((hcnd1 t).mp h)) (fun h => h2 ((hcnd2 t).mp h)) ((hcnd3 t).mpr h2) (fun h => h4 ((hcnd4 t).mp h)) (iblk m c 0 t) (iblk m c 1 t) (iblk m c 2 t) (iblk m c 3 t) pv.1 pv.2.1 pv.2.2.1 pv.2.2.2

theorem scover_D_0 (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_D m c t h1 h2 h4 pv).1, y ∈ pc.1.set :=
  View.cover_of_tiledL (run_D m c t h1 h2 h4 pv).1 S512x1.size (by sl_kernel_rfl) y

theorem scover_D_1 (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_D m c t h1 h2 h4 pv).2.1, y ∈ pc.1.set :=
  View.cover_of_tiledL (run_D m c t h1 h2 h4 pv).2.1 S512x1.size (by sl_kernel_rfl) y

theorem scover_D_2 (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_D m c t h1 h2 h4 pv).2.2.1, y ∈ pc.1.set :=
  View.cover_of_tiledL (run_D m c t h1 h2 h4 pv).2.2.1 S512x1.size (by sl_kernel_rfl) y

theorem scover_D_3 (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_D m c t h1 h2 h4 pv).2.2.2.1, y ∈ pc.1.set :=
  View.cover_of_tiledL (run_D m c t h1 h2 h4 pv).2.2.2.1 S512x1.size (by sl_kernel_rfl) y

/-- What a point of case D leaves: the outputs' blocks and the scratch buffers, each its pieces read back. -/
def tup_D (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) : Outs F :=
  (idleOut,
    (VS_0.read (Elt F) (VS_0.writes (Elt F) VS_0.junk (run_D m c t h1 h2 h4 pv).1),
     VS_1.read (Elt F) (VS_1.writes (Elt F) VS_1.junk (run_D m c t h1 h2 h4 pv).2.1),
     VS_2.read (Elt F) (VS_2.writes (Elt F) VS_2.junk (run_D m c t h1 h2 h4 pv).2.2.1),
     VS_3.read (Elt F) (VS_3.writes (Elt F) VS_3.junk (run_D m c t h1 h2 h4 pv).2.2.2.1)))

/-- The body's run at a point of case E, from what the point before left in the scratch. -/
abbrev run_E (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) :=
  kernelRun_E (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) (fun h => h1 ((hcnd1 t).mp h)) ((hcnd2 t).mpr h2) (fun h => ((hcnd3 t).mp h) h2) ((hcnd4 t).mpr h4) (iblk m c 0 t) (iblk m c 1 t) (iblk m c 2 t) (iblk m c 3 t) pv.1 pv.2.1 pv.2.2.1 pv.2.2.2

theorem scover_E_0 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.2.2.1, y ∈ pc.1.set :=
  View.cover_of_tiledL (run_E m c t h1 h2 h4 pv).2.2.2.1 S512x1.size (by sl_kernel_rfl) y

theorem scover_E_1 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.2.2.2.1, y ∈ pc.1.set :=
  View.cover_of_tiledL (run_E m c t h1 h2 h4 pv).2.2.2.2.1 S512x1.size (by sl_kernel_rfl) y

theorem scover_E_2 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.2.2.2.2.1, y ∈ pc.1.set :=
  View.cover_of_tiledL (run_E m c t h1 h2 h4 pv).2.2.2.2.2.1 S512x1.size (by sl_kernel_rfl) y

theorem scover_E_3 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.2.2.2.2.2.1, y ∈ pc.1.set :=
  View.cover_of_tiledL (run_E m c t h1 h2 h4 pv).2.2.2.2.2.2.1 S512x1.size (by sl_kernel_rfl) y

theorem cover_E_4 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).1, y ∈ pc.1.set :=
  View.cover_of_tiledL (run_E m c t h1 h2 h4 pv).1 S512x1.size (by sl_kernel_rfl) y

theorem cover_E_5 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.1, y ∈ pc.1.set :=
  View.cover_of_tiledL (run_E m c t h1 h2 h4 pv).2.1 S512x1.size (by sl_kernel_rfl) y

theorem cover_E_6 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.2.1, y ∈ pc.1.set :=
  View.cover_of_tiledL (run_E m c t h1 h2 h4 pv).2.2.1 S512x1.size (by sl_kernel_rfl) y

/-- What a point of case E leaves: the outputs' blocks and the scratch buffers, each its pieces read back. -/
def tup_E (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) : Outs F :=
  ((VO_4.read (Elt F) (VO_4.writes (Elt F) VO_4.junk (run_E m c t h1 h2 h4 pv).1), VO_5.read (Elt F) (VO_5.writes (Elt F) VO_5.junk (run_E m c t h1 h2 h4 pv).2.1), VO_6.read (Elt F) (VO_6.writes (Elt F) VO_6.junk (run_E m c t h1 h2 h4 pv).2.2.1)),
    (VS_0.read (Elt F) (VS_0.writes (Elt F) VS_0.junk (run_E m c t h1 h2 h4 pv).2.2.2.1),
     VS_1.read (Elt F) (VS_1.writes (Elt F) VS_1.junk (run_E m c t h1 h2 h4 pv).2.2.2.2.1),
     VS_2.read (Elt F) (VS_2.writes (Elt F) VS_2.junk (run_E m c t h1 h2 h4 pv).2.2.2.2.2.1),
     VS_3.read (Elt F) (VS_3.writes (Elt F) VS_3.junk (run_E m c t h1 h2 h4 pv).2.2.2.2.2.2.1)))

/-- The body's run at a point of case F, from what the point before left in the scratch. -/
abbrev run_F (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) :=
  kernelRun_F (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) (fun h => h1 ((hcnd1 t).mp h)) (fun h => h2 ((hcnd2 t).mp h)) ((hcnd3 t).mpr h2) ((hcnd4 t).mpr h4) (iblk m c 0 t) (iblk m c 1 t) (iblk m c 2 t) (iblk m c 3 t) pv.1 pv.2.1 pv.2.2.1 pv.2.2.2

theorem scover_F_0 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.2.2.1, y ∈ pc.1.set :=
  View.cover_of_tiledL (run_F m c t h1 h2 h4 pv).2.2.2.1 S512x1.size (by sl_kernel_rfl) y

theorem scover_F_1 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.2.2.2.1, y ∈ pc.1.set :=
  View.cover_of_tiledL (run_F m c t h1 h2 h4 pv).2.2.2.2.1 S512x1.size (by sl_kernel_rfl) y

theorem scover_F_2 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.2.2.2.2.1, y ∈ pc.1.set :=
  View.cover_of_tiledL (run_F m c t h1 h2 h4 pv).2.2.2.2.2.1 S512x1.size (by sl_kernel_rfl) y

theorem scover_F_3 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.2.2.2.2.2.1, y ∈ pc.1.set :=
  View.cover_of_tiledL (run_F m c t h1 h2 h4 pv).2.2.2.2.2.2.1 S512x1.size (by sl_kernel_rfl) y

theorem cover_F_4 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).1, y ∈ pc.1.set :=
  View.cover_of_tiledL (run_F m c t h1 h2 h4 pv).1 S512x1.size (by sl_kernel_rfl) y

theorem cover_F_5 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.1, y ∈ pc.1.set :=
  View.cover_of_tiledL (run_F m c t h1 h2 h4 pv).2.1 S512x1.size (by sl_kernel_rfl) y

theorem cover_F_6 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.2.1, y ∈ pc.1.set :=
  View.cover_of_tiledL (run_F m c t h1 h2 h4 pv).2.2.1 S512x1.size (by sl_kernel_rfl) y

/-- What a point of case F leaves: the outputs' blocks and the scratch buffers, each its pieces read back. -/
def tup_F (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) : Outs F :=
  ((VO_4.read (Elt F) (VO_4.writes (Elt F) VO_4.junk (run_F m c t h1 h2 h4 pv).1), VO_5.read (Elt F) (VO_5.writes (Elt F) VO_5.junk (run_F m c t h1 h2 h4 pv).2.1), VO_6.read (Elt F) (VO_6.writes (Elt F) VO_6.junk (run_F m c t h1 h2 h4 pv).2.2.1)),
    (VS_0.read (Elt F) (VS_0.writes (Elt F) VS_0.junk (run_F m c t h1 h2 h4 pv).2.2.2.1),
     VS_1.read (Elt F) (VS_1.writes (Elt F) VS_1.junk (run_F m c t h1 h2 h4 pv).2.2.2.2.1),
     VS_2.read (Elt F) (VS_2.writes (Elt F) VS_2.junk (run_F m c t h1 h2 h4 pv).2.2.2.2.2.1),
     VS_3.read (Elt F) (VS_3.writes (Elt F) VS_3.junk (run_F m c t h1 h2 h4 pv).2.2.2.2.2.2.1)))

/-! ## What the buffers hold after each point -/

/-- By recursion on the point: the case the closed forms select, a later column tile starting from what the point
    before left in the scratch. -/
def outsAt (c : Dev nD) : (n : ℕ) → n < cfg0.N → Outs F
  | 0, hn => tup_A m c ⟨0, hn⟩ (Nat.zero_mod _) (show (0 : ℕ) % 4 = 0 / 8 from rfl) (show ¬ (0 : ℕ) % 4 = 3 from by decide)
  | n + 1, hn =>
    if h1 : (n + 1) % 4 = 0 then
      if h2 : (n + 1) % 4 = (n + 1) / 8 then tup_A m c ⟨n + 1, hn⟩ h1 h2 (show ¬ (n + 1) % 4 = 3 from by omega)
      else tup_B m c ⟨n + 1, hn⟩ h1 h2 (show ¬ (n + 1) % 4 = 3 from by omega)
    else if h4 : (n + 1) % 4 = 3 then
      if h2 : (n + 1) % 4 = (n + 1) / 8 then tup_E m c ⟨n + 1, hn⟩ h1 h2 h4 (outsAt c n (Nat.lt_of_succ_lt hn)).2
      else tup_F m c ⟨n + 1, hn⟩ h1 h2 h4 (outsAt c n (Nat.lt_of_succ_lt hn)).2
    else
      if h2 : (n + 1) % 4 = (n + 1) / 8 then tup_C m c ⟨n + 1, hn⟩ h1 h2 h4 (outsAt c n (Nat.lt_of_succ_lt hn)).2
      else tup_D m c ⟨n + 1, hn⟩ h1 h2 h4 (outsAt c n (Nat.lt_of_succ_lt hn)).2

theorem outsAt_A (c : Dev nD) (t : Fin cfg0.N) (h1 : t.val % 4 = 0) (h2 : t.val % 4 = t.val / 8) (h4 : ¬ t.val % 4 = 3) :
    outsAt m c t.val t.isLt = tup_A m c t h1 h2 h4 := by
  obtain ⟨n, hn⟩ := t
  cases n with
  | zero => exact rfl
  | succ n => exact (dif_pos h1).trans ((dif_pos h2).trans (rfl))

theorem outsAt_B (c : Dev nD) (t : Fin cfg0.N) (h1 : t.val % 4 = 0) (h2 : ¬ t.val % 4 = t.val / 8) (h4 : ¬ t.val % 4 = 3) :
    outsAt m c t.val t.isLt = tup_B m c t h1 h2 h4 := by
  obtain ⟨n, hn⟩ := t
  cases n with
  | zero => exact (by exfalso; (try dsimp only at h1 h2 h4); omega)
  | succ n => exact (dif_pos h1).trans ((dif_neg h2).trans (rfl))

theorem outsAt_C (c : Dev nD) (t : Fin cfg0.N) (h1 : ¬ t.val % 4 = 0) (h2 : t.val % 4 = t.val / 8) (h4 : ¬ t.val % 4 = 3) :
    outsAt m c t.val t.isLt = tup_C m c t h1 h2 h4 (outsAt m c (t.val - 1) (Nat.lt_of_le_of_lt (Nat.sub_le _ _) t.isLt)).2 := by
  obtain ⟨n, hn⟩ := t
  cases n with
  | zero => exact (by exfalso; (try dsimp only at h1 h2 h4); omega)
  | succ n => exact (dif_neg h1).trans ((dif_neg h4).trans ((dif_pos h2).trans (rfl)))

theorem outsAt_D (c : Dev nD) (t : Fin cfg0.N) (h1 : ¬ t.val % 4 = 0) (h2 : ¬ t.val % 4 = t.val / 8) (h4 : ¬ t.val % 4 = 3) :
    outsAt m c t.val t.isLt = tup_D m c t h1 h2 h4 (outsAt m c (t.val - 1) (Nat.lt_of_le_of_lt (Nat.sub_le _ _) t.isLt)).2 := by
  obtain ⟨n, hn⟩ := t
  cases n with
  | zero => exact (by exfalso; (try dsimp only at h1 h2 h4); omega)
  | succ n => exact (dif_neg h1).trans ((dif_neg h4).trans ((dif_neg h2).trans (rfl)))

theorem outsAt_E (c : Dev nD) (t : Fin cfg0.N) (h1 : ¬ t.val % 4 = 0) (h2 : t.val % 4 = t.val / 8) (h4 : t.val % 4 = 3) :
    outsAt m c t.val t.isLt = tup_E m c t h1 h2 h4 (outsAt m c (t.val - 1) (Nat.lt_of_le_of_lt (Nat.sub_le _ _) t.isLt)).2 := by
  obtain ⟨n, hn⟩ := t
  cases n with
  | zero => exact (by exfalso; (try dsimp only at h1 h2 h4); omega)
  | succ n => exact (dif_neg h1).trans ((dif_pos h4).trans ((dif_pos h2).trans (rfl)))

theorem outsAt_F (c : Dev nD) (t : Fin cfg0.N) (h1 : ¬ t.val % 4 = 0) (h2 : ¬ t.val % 4 = t.val / 8) (h4 : t.val % 4 = 3) :
    outsAt m c t.val t.isLt = tup_F m c t h1 h2 h4 (outsAt m c (t.val - 1) (Nat.lt_of_le_of_lt (Nat.sub_le _ _) t.isLt)).2 := by
  obtain ⟨n, hn⟩ := t
  cases n with
  | zero => exact (by exfalso; (try dsimp only at h1 h2 h4); omega)
  | succ n => exact (dif_neg h1).trans ((dif_pos h4).trans ((dif_neg h2).trans (rfl)))

/-! ## The invariant between points -/

def PhiS (c : Dev nD) : (n : ℕ) → n ≤ cfg0.N → sProp 𝕄
  | 0, _ => Pipeline.ΦA spec0 c
  | n + 1, hn => iprop(iprop(owns (c : Thread nD τ) scM_0 fullShare ((outsAt m c n hn).2.1) ∗ owns (c : Thread nD τ) scM_1 fullShare ((outsAt m c n hn).2.2.1) ∗ owns (c : Thread nD τ) scM_2 fullShare ((outsAt m c n hn).2.2.2.1) ∗ owns (c : Thread nD τ) scM_3 fullShare ((outsAt m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM_0 fullShare ((outsAt m c n hn).2.1) ∗ owns (c : Thread nD τ) scM_1 fullShare ((outsAt m c n hn).2.2.1) ∗ owns (c : Thread nD τ) scM_2 fullShare ((outsAt m c n hn).2.2.2.1) ∗ owns (c : Thread nD τ) scM_3 fullShare ((outsAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM_0 fullShare ((outsAt m c (n - 1) (by omega)).2.1) ∗ owns (c : Thread nD τ) scM_1 fullShare ((outsAt m c (n - 1) (by omega)).2.2.1) ∗ owns (c : Thread nD τ) scM_2 fullShare ((outsAt m c (n - 1) (by omega)).2.2.2.1) ∗ owns (c : Thread nD τ) scM_3 fullShare ((outsAt m c (n - 1) (by omega)).2.2.2.2)) ∗ (∃ r, prngReg c r)) := by
  cases n with
  | zero => exact absurd rfl hz
  | succ n => rfl

/-! ## The pipeline's proof data -/

/-- The arrays as the region finds them; after the body each input's buffer at its block, the outputs' at
    `outsAt`; the invariant `PhiS`; nothing owed. The two windows on the embeddings' array hold one half of it each,
    and so the two on the labels' array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1.1
    | ⟨5, _⟩ => (outsAt m c t.val t.isLt).1.2.1
    | ⟨6, _⟩ => (outsAt m c t.val t.isLt).1.2.2
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1.1 := by dsimp only [dats]
theorem after_5 (c : Dev nD) (t : Fin cfg0.N) : (dats m 0 c).after 5 t = (outsAt m c t.val t.isLt).1.2.1 := by dsimp only [dats]
theorem after_6 (c : Dev nD) (t : Fin cfg0.N) : (dats m 0 c).after 6 t = (outsAt m c t.val t.isLt).1.2.2 := by dsimp only [dats]
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

end Cert.Kernel.Hand

end
-- ==== Proof.KbBody.lean ====
/-
  The body's obligation at every grid point.  At a point the pipeline hands the body the seven windows' current staging
  buffers — each input's holds its block — and the invariant (the scratch buffers at what the point before left, at
  anything before the first point).  The closed forms of the conditions select the point's control case; that case's run
  applies; the scratch buffers come back at this point's contents, the inputs untouched, an output block untouched
  unless the column tile is the last one, where it receives the scratch.
-/
import proofs.«133961_j23673859736131_2_alg».proof.Proof.KbData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem sound_A (c : Dev nD) (t : Fin cfg0.N) (h1 : t.val % 4 = 0) (h2 : t.val % 4 = t.val / 8) (h4 : ¬ t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [Dat.leavesExact_idle (dats m 0 c) 4 t (idleAt_4 t h4) (noFlush_4 t h4)]
  rw [Dat.leavesExact_idle (dats m 0 c) 5 t (idleAt_5 t h4) (noFlush_5 t h4)]
  rw [Dat.leavesExact_idle (dats m 0 c) 6 t (idleAt_6 t h4) (noFlush_6 t h4)]
  rw [outsAt_A m c t h1 h2 h4]
  unfold tup_A; (try dsimp only)
  by_cases hz : t.val = 0
  · rw [PhiS_castSucc m c t, PhiS_zero m c _ _ hz, PhiA_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((run_A m c t h1 h2 h4).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, ⟨%es2, HS2⟩, ⟨%es3, HS3⟩⟩
    isplitl [HS0 HS1 HS2 HS3 Hg]
    · isplitl [HS0 HS1 HS2 HS3]
      ·
        isplitl [HS0]
        · unfold owns; iexists _; isplitr
          swap; · iexact HS0
          ipureintro; exact View.read_writes_of_cover _ _ _ _ _ (scover_A_0 m c t h1 h2 h4)
        isplitl [HS1]
        · unfold owns; iexists _; isplitr
          swap; · iexact HS1
          ipureintro; exact View.read_writes_of_cover _ _ _ _ _ (scover_A_1 m c t h1 h2 h4)
        isplitl [HS2]
        · unfold owns; iexists _; isplitr
          swap; · iexact HS2
          ipureintro; exact View.read_writes_of_cover _ _ _ _ _ (scover_A_2 m c t h1 h2 h4)
        · unfold owns; iexists _; isplitr
          swap; · iexact HS3
          ipureintro; exact View.read_writes_of_cover _ _ _ _ _ (scover_A_3 m c t h1 h2 h4)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((run_A m c t h1 h2 h4).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexists _; iexact HS0
    isplitl [HS1]; · iexists _; iexact HS1
    isplitl [HS2]; · iexists _; iexact HS2
    isplitl [HS3]; · iexists _; iexact HS3
    iintro ⟨H0, H1, H2, H3, H4, H5, H6, ⟨%es0, HS0⟩, ⟨%es1, HS1⟩, ⟨%es2, HS2⟩, ⟨%es3, HS3⟩⟩
    isplitl [HS0 HS1 HS2 HS3 Hg]
    · isplitl [HS0 HS1 HS2 HS3]
      ·
        isplitl [HS0]
        · unfold owns; iexists _; isplitr
          swap; · iexact HS0
          ipureintro; exact View.read_writes_of_cover _ _ _ _ _ (scover_A_0 m c t h1 h2 h4)
        isplitl [HS1]
        · unfold owns; iexists _; isplitr
          swap; · iexact HS1
          ipureintro; exact View.read_writes_of_cover _ _ _ _ _ (scover_A_1 m c t h1 h2 h4)
        isplitl [HS2]
        · unfold owns; iexists _; isplitr
          swap; · iexact HS2
          ipureintro; exact View.read_writes_of_cover _ _ _ _ _ (scover_A_2 m c t h1 h2 h4)
        · unfold owns; iexists _; isplitr
          swap; · iexact HS3
          ipureintro; exact View.read_writes_of_cover _ _ _ _ _ (scover_A_3 m c t h1 h2 h4)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6

theorem sound_B (c : Dev nD) (t : Fin cfg0.N) (h1 : t.val % 4 = 0) (h2 : ¬ t.val % 4 = t.val / 8) (h4 : ¬ t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [Dat.leavesExact_idle (dats m 0 c) 4 t (idleAt_4 t h4) (noFlush_4 t h4)]
  rw [Dat.leavesExact_idle (dats m 0 c) 5 t (idleAt_5 t h4) (noFlush_5 t h4)]
  rw [Dat.leavesExact_idle (dats m 0 c) 6 t (idleAt_6 t h4) (noFlush_6 t h4)]
  rw [outsAt_B m c t h1 h2 h4]
  unfold tup_B; (try dsimp only)
  by_cases hz : t.val = 0
  · rw [PhiS_castSucc m c t, PhiS_zero m c _ _ hz, PhiA_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((run_B m c t h1 h2 h4).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, ⟨%es2, HS2⟩, ⟨%es3, HS3⟩⟩
    isplitl [HS0 HS1 HS2 HS3 Hg]
    · isplitl [HS0 HS1 HS2 HS3]
      ·
        isplitl [HS0]
        · unfold owns; iexists _; isplitr
          swap; · iexact HS0
          ipureintro; exact View.read_writes_of_cover _ _ _ _ _ (scover_B_0 m c t h1 h2 h4)
        isplitl [HS1]
        · unfold owns; iexists _; isplitr
          swap; · iexact HS1
          ipureintro; exact View.read_writes_of_cover _ _ _ _ _ (scover_B_1 m c t h1 h2 h4)
        isplitl [HS2]
        · unfold owns; iexists _; isplitr
          swap; · iexact HS2
          ipureintro; exact View.read_writes_of_cover _ _ _ _ _ (scover_B_2 m c t h1 h2 h4)
        · unfold owns; iexists _; isplitr
          swap; · iexact HS3
          ipureintro; exact View.read_writes_of_cover _ _ _ _ _ (scover_B_3 m c t h1 h2 h4)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((run_B m c t h1 h2 h4).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexists _; iexact HS0
    isplitl [HS1]; · iexists _; iexact HS1
    isplitl [HS2]; · iexists _; iexact HS2
    isplitl [HS3]; · iexists _; iexact HS3
    iintro ⟨H0, H1, H2, H3, H4, H5, H6, ⟨%es0, HS0⟩, ⟨%es1, HS1⟩, ⟨%es2, HS2⟩, ⟨%es3, HS3⟩⟩
    isplitl [HS0 HS1 HS2 HS3 Hg]
    · isplitl [HS0 HS1 HS2 HS3]
      ·
        isplitl [HS0]
        · unfold owns; iexists _; isplitr
          swap; · iexact HS0
          ipureintro; exact View.read_writes_of_cover _ _ _ _ _ (scover_B_0 m c t h1 h2 h4)
        isplitl [HS1]
        · unfold owns; iexists _; isplitr
          swap; · iexact HS1
          ipureintro; exact View.read_writes_of_cover _ _ _ _ _ (scover_B_1 m c t h1 h2 h4)
        isplitl [HS2]
        · unfold owns; iexists _; isplitr
          swap; · iexact HS2
          ipureintro; exact View.read_writes_of_cover _ _ _ _ _ (scover_B_2 m c t h1 h2 h4)
        · unfold owns; iexists _; isplitr
          swap; · iexact HS3
          ipureintro; exact View.read_writes_of_cover _ _ _ _ _ (scover_B_3 m c t h1 h2 h4)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6

theorem sound_C (c : Dev nD) (t : Fin cfg0.N) (h1 : ¬ t.val % 4 = 0) (h2 : t.val % 4 = t.val / 8) (h4 : ¬ t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [Dat.leavesExact_idle (dats m 0 c) 4 t (idleAt_4 t h4) (noFlush_4 t h4)]
  rw [Dat.leavesExact_idle (dats m 0 c) 5 t (idleAt_5 t h4) (noFlush_5 t h4)]
  rw [Dat.leavesExact_idle (dats m 0 c) 6 t (idleAt_6 t h4) (noFlush_6 t h4)]
  rw [outsAt_C m c t h1 h2 h4]
  unfold tup_C; (try dsimp only)
  have hz : t.val ≠ 0 := fun h => h1 (by rw [h])
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((run_C m c t h1 h2 h4 (outsAt m c (t.val - 1) (Nat.lt_of_le_of_lt (Nat.sub_le _ _) t.isLt)).2).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, ⟨%es0, HS0⟩, ⟨%es1, HS1⟩, ⟨%es2, HS2⟩, ⟨%es3, HS3⟩⟩
  isplitl [HS0 HS1 HS2 HS3 Hg]
  · isplitl [HS0 HS1 HS2 HS3]
    ·
      isplitl [HS0]
      · unfold owns; iexists _; isplitr
        swap; · iexact HS0
        ipureintro; exact View.read_writes_of_cover _ _ _ _ _ (scover_C_0 m c t h1 h2 h4 _)
      isplitl [HS1]
      · unfold owns; iexists _; isplitr
        swap; · iexact HS1
        ipureintro; exact View.read_writes_of_cover _ _ _ _ _ (scover_C_1 m c t h1 h2 h4 _)
      isplitl [HS2]
      · unfold owns; iexists _; isplitr
        swap; · iexact HS2
        ipureintro; exact View.read_writes_of_cover _ _ _ _ _ (scover_C_2 m c t h1 h2 h4 _)
      · unfold owns; iexists _; isplitr
        swap; · iexact HS3
        ipureintro; exact View.read_writes_of_cover _ _ _ _ _ (scover_C_3 m c t h1 h2 h4 _)
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem sound_D (c : Dev nD) (t : Fin cfg0.N) (h1 : ¬ t.val % 4 = 0) (h2 : ¬ t.val % 4 = t.val / 8) (h4 : ¬ t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [Dat.leavesExact_idle (dats m 0 c) 4 t (idleAt_4 t h4) (noFlush_4 t h4)]
  rw [Dat.leavesExact_idle (dats m 0 c) 5 t (idleAt_5 t h4) (noFlush_5 t h4)]
  rw [Dat.leavesExact_idle (dats m 0 c) 6 t (idleAt_6 t h4) (noFlush_6 t h4)]
  rw [outsAt_D m c t h1 h2 h4]
  unfold tup_D; (try dsimp only)
  have hz : t.val ≠ 0 := fun h => h1 (by rw [h])
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((run_D m c t h1 h2 h4 (outsAt m c (t.val - 1) (Nat.lt_of_le_of_lt (Nat.sub_le _ _) t.isLt)).2).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, ⟨%es0, HS0⟩, ⟨%es1, HS1⟩, ⟨%es2, HS2⟩, ⟨%es3, HS3⟩⟩
  isplitl [HS0 HS1 HS2 HS3 Hg]
  · isplitl [HS0 HS1 HS2 HS3]
    ·
      isplitl [HS0]
      · unfold owns; iexists _; isplitr
        swap; · iexact HS0
        ipureintro; exact View.read_writes_of_cover _ _ _ _ _ (scover_D_0 m c t h1 h2 h4 _)
      isplitl [HS1]
      · unfold owns; iexists _; isplitr
        swap; · iexact HS1
        ipureintro; exact View.read_writes_of_cover _ _ _ _ _ (scover_D_1 m c t h1 h2 h4 _)
      isplitl [HS2]
      · unfold owns; iexists _; isplitr
        swap; · iexact HS2
        ipureintro; exact View.read_writes_of_cover _ _ _ _ _ (scover_D_2 m c t h1 h2 h4 _)
      · unfold owns; iexists _; isplitr
        swap; · iexact HS3
        ipureintro; exact View.read_writes_of_cover _ _ _ _ _ (scover_D_3 m c t h1 h2 h4 _)
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem sound_E (c : Dev nD) (t : Fin cfg0.N) (h1 : ¬ t.val % 4 = 0) (h2 : t.val % 4 = t.val / 8) (h4 : t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t h4], after_4]
  rw [show (dats m 0 c).leavesExact 5 t = owns (c : Thread nD τ) (ms_5 t) fullShare ((dats m 0 c).after 5 t) from by
    unfold Dat.leavesExact; rw [liveAt_5 t h4], after_5]
  rw [show (dats m 0 c).leavesExact 6 t = owns (c : Thread nD τ) (ms_6 t) fullShare ((dats m 0 c).after 6 t) from by
    unfold Dat.leavesExact; rw [liveAt_6 t h4], after_6]
  rw [outsAt_E m c t h1 h2 h4]
  unfold tup_E; (try dsimp only)
  have hz : t.val ≠ 0 := fun h => h1 (by rw [h])
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((run_E m c t h1 h2 h4 (outsAt m c (t.val - 1) (Nat.lt_of_le_of_lt (Nat.sub_le _ _) t.isLt)).2).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, ⟨%e6, H6⟩, ⟨%es0, HS0⟩, ⟨%es1, HS1⟩, ⟨%es2, HS2⟩, ⟨%es3, HS3⟩⟩
  isplitl [HS0 HS1 HS2 HS3 Hg]
  · isplitl [HS0 HS1 HS2 HS3]
    ·
      isplitl [HS0]
      · unfold owns; iexists _; isplitr
        swap; · iexact HS0
        ipureintro; exact View.read_writes_of_cover _ _ _ _ _ (scover_E_0 m c t h1 h2 h4 _)
      isplitl [HS1]
      · unfold owns; iexists _; isplitr
        swap; · iexact HS1
        ipureintro; exact View.read_writes_of_cover _ _ _ _ _ (scover_E_1 m c t h1 h2 h4 _)
      isplitl [HS2]
      · unfold owns; iexists _; isplitr
        swap; · iexact HS2
        ipureintro; exact View.read_writes_of_cover _ _ _ _ _ (scover_E_2 m c t h1 h2 h4 _)
      · unfold owns; iexists _; isplitr
        swap; · iexact HS3
        ipureintro; exact View.read_writes_of_cover _ _ _ _ _ (scover_E_3 m c t h1 h2 h4 _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover_E_4 m c t h1 h2 h4 _)
  isplitl [H5]
  · unfold owns; iexists _; isplitr
    swap; · iexact H5
    ipureintro; exact View.read_writes_of_cover _ _ _ _ _ (cover_E_5 m c t h1 h2 h4 _)
  · unfold owns; iexists _; isplitr
    swap; · iexact H6
    ipureintro; exact View.read_writes_of_cover _ _ _ _ _ (cover_E_6 m c t h1 h2 h4 _)

theorem sound_F (c : Dev nD) (t : Fin cfg0.N) (h1 : ¬ t.val % 4 = 0) (h2 : ¬ t.val % 4 = t.val / 8) (h4 : t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t h4], after_4]
  rw [show (dats m 0 c).leavesExact 5 t = owns (c : Thread nD τ) (ms_5 t) fullShare ((dats m 0 c).after 5 t) from by
    unfold Dat.leavesExact; rw [liveAt_5 t h4], after_5]
  rw [show (dats m 0 c).leavesExact 6 t = owns (c : Thread nD τ) (ms_6 t) fullShare ((dats m 0 c).after 6 t) from by
    unfold Dat.leavesExact; rw [liveAt_6 t h4], after_6]
  rw [outsAt_F m c t h1 h2 h4]
  unfold tup_F; (try dsimp only)
  have hz : t.val ≠ 0 := fun h => h1 (by rw [h])
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((run_F m c t h1 h2 h4 (outsAt m c (t.val - 1) (Nat.lt_of_le_of_lt (Nat.sub_le _ _) t.isLt)).2).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, ⟨%e6, H6⟩, ⟨%es0, HS0⟩, ⟨%es1, HS1⟩, ⟨%es2, HS2⟩, ⟨%es3, HS3⟩⟩
  isplitl [HS0 HS1 HS2 HS3 Hg]
  · isplitl [HS0 HS1 HS2 HS3]
    ·
      isplitl [HS0]
      · unfold owns; iexists _; isplitr
        swap; · iexact HS0
        ipureintro; exact View.read_writes_of_cover _ _ _ _ _ (scover_F_0 m c t h1 h2 h4 _)
      isplitl [HS1]
      · unfold owns; iexists _; isplitr
        swap; · iexact HS1
        ipureintro; exact View.read_writes_of_cover _ _ _ _ _ (scover_F_1 m c t h1 h2 h4 _)
      isplitl [HS2]
      · unfold owns; iexists _; isplitr
        swap; · iexact HS2
        ipureintro; exact View.read_writes_of_cover _ _ _ _ _ (scover_F_2 m c t h1 h2 h4 _)
      · unfold owns; iexists _; isplitr
        swap; · iexact HS3
        ipureintro; exact View.read_writes_of_cover _ _ _ _ _ (scover_F_3 m c t h1 h2 h4 _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover_F_4 m c t h1 h2 h4 _)
  isplitl [H5]
  · unfold owns; iexists _; isplitr
    swap; · iexact H5
    ipureintro; exact View.read_writes_of_cover _ _ _ _ _ (cover_F_5 m c t h1 h2 h4 _)
  · unfold owns; iexists _; isplitr
    swap; · iexact H6
    ipureintro; exact View.read_writes_of_cover _ _ _ _ _ (cover_F_6 m c t h1 h2 h4 _)

/-- The body at any point, by cases on the closed forms. -/
theorem sound_body (c : Dev nD) (t : Fin cfg0.N) :
    bodyPre m c t ⊢ wp frame (wpE (defs₀ (F := F)) Variants.none c none) Set.univ (bodyAt0 t) (fun _ => bodyPost m c t) := by
  by_cases h1 : t.val % 4 = 0
  · have h4 : ¬ t.val % 4 = 3 := by omega
    by_cases h2 : t.val % 4 = t.val / 8
    · exact sound_A m c t h1 h2 h4
    · exact sound_B m c t h1 h2 h4
  · by_cases h4 : t.val % 4 = 3
    · by_cases h2 : t.val % 4 = t.val / 8
      · exact sound_E m c t h1 h2 h4
      · exact sound_F m c t h1 h2 h4
    · by_cases h2 : t.val % 4 = t.val / 8
      · exact sound_C m c t h1 h2 h4
      · exact sound_D m c t h1 h2 h4

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbLaunch.lean ====
/-
  The whole program as a list of segments: the 52 host lines before the kernel call, the kernel region, and the seven
  stretches of host lines after it.  The region is entered from all unscoped buffers at the contents the first stretch
  left; the embeddings' array and the labels' array are each read by two input windows, so each is dealt to them in two
  halves and joined again when the region ends; the three result arrays come back at what the write-backs left; every
  other buffer passes by untouched.  The run: every weakly fair execution ends, without a fault, with every unscoped
  buffer at what the segments compute — in particular the three arguments, which no line writes, as they were.
-/
import proofs.«133961_j23673859736131_2_alg».proof.Proof.KbBody
import proofs.«133961_j23673859736131_2_alg».proof.Proof.LibLineStep
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev Lz : GSem nD τ sig → Finset Unit := fun _ => ∅
abbrev lvz : GSem nD τ sig → Unit → ℕ := fun _ _ => 0
abbrev adm : (p : Fin 1) → (pcfgs (F := F) p).Adm := fun p => (cfgs p).toPCfg_adm
abbrev ucR : Finset (DevRef τ sig) := Pipeline.ucRefs τ sig
abbrev dv (b : Ref sig .tc) : DevRef τ sig := Proc.devRef .tc b

/-- What rides beside the buffers: the generator register at some state and the core owing nothing. -/
abbrev Rst (c : Dev nD) : sProp 𝕄 := iprop((∃ r, prngReg c r) ∗ ∃ W, owes (c : Thread nD τ) (0 : CellTallies nD τ sig Unit) W)

/-! ## The references each stretch of host lines writes, in order -/
abbrev W_hostOps0 : List (Ref sig .tc) := [main_v0, main_cst, main_v1, main_v2, main_v3, main_v4, main_v5, main_v6, main_v7, main_v8, main_v9, main_cst_0, main_v10, main_cst_1, main_v11, main_v12, main_v13, main_cst_2, main_v14, main_v15, main_cst_3, main_v16, main_v17, main_cst_4, main_v18, main_v19, main_v20, main_v21, main_cst_5, main_v22, main_v23, main_cst_6, main_v24, main_v25, main_cst_7, main_v26, main_v27, main_v28, main_v29, main_v30, main_v31, main_v32, main_cst_8, main_v33, main_cst_9, main_v34, main_cst_10, main_v35, main_v36, main_v37, main_v38, main_v39]
theorem hW_hostOps0 : Cert.CubePad.Line.Writes (hostOps0 : List (HloOp τ sig (Elt F))) W_hostOps0 := by line_writes
theorem fresh_hostOps0 : (hostOps0 : List (HloOp τ sig (Elt F))).Forall fun op => op.fresh = ∅ := by line_fresh
abbrev W_hostOps1 : List (Ref sig .tc) := [main_v41, main_v42, main_v43, main_cst_11, main_v44, main_v45, main_cst_12, main_v46, main_v47, main_v48, main_cst_13]
theorem hW_hostOps1 : Cert.CubePad.Line.Writes (hostOps1 : List (HloOp τ sig (Elt F))) W_hostOps1 := by line_writes
theorem fresh_hostOps1 : (hostOps1 : List (HloOp τ sig (Elt F))).Forall fun op => op.fresh = ∅ := by line_fresh
abbrev W_hostOps1_1 : List (Ref sig .tc) := [main_call0_v0, main_call0_v1, main_v49]
theorem hW_hostOps1_1 : Cert.CubePad.Line.Writes (hostOps1_1 : List (HloOp τ sig (Elt F))) W_hostOps1_1 := by line_writes
theorem fresh_hostOps1_1 : (hostOps1_1 : List (HloOp τ sig (Elt F))).Forall fun op => op.fresh = ∅ := by line_fresh
abbrev W_hostOps1_2 : List (Ref sig .tc) := [main_v50, main_v51, main_v52, main_v53, main_c, main_v54, main_c_14, main_v55, main_cst_15]
theorem hW_hostOps1_2 : Cert.CubePad.Line.Writes (hostOps1_2 : List (HloOp τ sig (Elt F))) W_hostOps1_2 := by line_writes
theorem fresh_hostOps1_2 : (hostOps1_2 : List (HloOp τ sig (Elt F))).Forall fun op => op.fresh = ∅ := by line_fresh
abbrev W_hostOps1_3 : List (Ref sig .tc) := [main_call1_v0, main_call1_v1, main_v56]
theorem hW_hostOps1_3 : Cert.CubePad.Line.Writes (hostOps1_3 : List (HloOp τ sig (Elt F))) W_hostOps1_3 := by line_writes
theorem fresh_hostOps1_3 : (hostOps1_3 : List (HloOp τ sig (Elt F))).Forall fun op => op.fresh = ∅ := by line_fresh
abbrev W_hostOps1_4 : List (Ref sig .tc) := [main_cst_16, main_v57, main_c_17, main_v58, main_v59, main_v60, main_cst_18]
theorem hW_hostOps1_4 : Cert.CubePad.Line.Writes (hostOps1_4 : List (HloOp τ sig (Elt F))) W_hostOps1_4 := by line_writes
theorem fresh_hostOps1_4 : (hostOps1_4 : List (HloOp τ sig (Elt F))).Forall fun op => op.fresh = ∅ := by line_fresh
abbrev W_hostOps1_5 : List (Ref sig .tc) := [main_call2_v0, main_v61]
theorem hW_hostOps1_5 : Cert.CubePad.Line.Writes (hostOps1_5 : List (HloOp τ sig (Elt F))) W_hostOps1_5 := by line_writes
theorem fresh_hostOps1_5 : (hostOps1_5 : List (HloOp τ sig (Elt F))).Forall fun op => op.fresh = ∅ := by line_fresh
abbrev W_hostOps1_6 : List (Ref sig .tc) := [main_cst_19, main_v62, main_v63]
theorem hW_hostOps1_6 : Cert.CubePad.Line.Writes (hostOps1_6 : List (HloOp τ sig (Elt F))) W_hostOps1_6 := by line_writes
theorem fresh_hostOps1_6 : (hostOps1_6 : List (HloOp τ sig (Elt F))).Forall fun op => op.fresh = ∅ := by line_fresh

/-! ## The buffers' contents from segment to segment -/

/-- At launch. -/
abbrev Vl (c : Dev nD) : Valuation τ sig (Elt F) := fun b => m (c, b)

/-- When the region ends: the three result arrays at what the write-backs left, everything else as the region found it. -/
def Wr (c : Dev nD) : Valuation τ sig (Elt F) :=
  Function.update (Function.update (Function.update (V0 m c) (dv main_v40_0) ((dats m 0 c).arrAt 4 cfg0.N)) (dv main_v40_1) ((dats m 0 c).arrAt 5 cfg0.N)) (dv main_v40_2) ((dats m 0 c).arrAt 6 cfg0.N)

theorem Wr_v40_2 (c : Dev nD) : Wr m c (dv main_v40_2) = (dats m 0 c).arrAt 6 cfg0.N := Function.update_self ..
theorem Wr_v40_1 (c : Dev nD) : Wr m c (dv main_v40_1) = (dats m 0 c).arrAt 5 cfg0.N :=
  (Function.update_of_ne (by decide) ..).trans (Function.update_self ..)
theorem Wr_v40_0 (c : Dev nD) : Wr m c (dv main_v40_0) = (dats m 0 c).arrAt 4 cfg0.N :=
  (Function.update_of_ne (by decide) ..).trans ((Function.update_of_ne (by decide) ..).trans (Function.update_self ..))
theorem Wr_other (c : Dev nD) (b : DevRef τ sig) (h0 : b ≠ dv main_v40_0) (h1 : b ≠ dv main_v40_1) (h2 : b ≠ dv main_v40_2) :
    Wr m c b = V0 m c b :=
  (Function.update_of_ne h2 ..).trans ((Function.update_of_ne h1 ..).trans (Function.update_of_ne h0 ..))

abbrev T1 (c : Dev nD) : Valuation τ sig (Elt F) := StableHlo.after hostOps1 (Wr m c)
abbrev T2 (c : Dev nD) : Valuation τ sig (Elt F) := StableHlo.after hostOps1_1 (T1 m c)
abbrev T3 (c : Dev nD) : Valuation τ sig (Elt F) := StableHlo.after hostOps1_2 (T2 m c)
abbrev T4 (c : Dev nD) : Valuation τ sig (Elt F) := StableHlo.after hostOps1_3 (T3 m c)
abbrev T5 (c : Dev nD) : Valuation τ sig (Elt F) := StableHlo.after hostOps1_4 (T4 m c)
abbrev T6 (c : Dev nD) : Valuation τ sig (Elt F) := StableHlo.after hostOps1_5 (T5 m c)
/-- At the end of the program. -/
abbrev Wend (c : Dev nD) : Valuation τ sig (Elt F) := StableHlo.after hostOps1_6 (T6 m c)

/-! ## The region's arrays, one by one -/

/-- The five distinct buffers behind the seven windows' arrays. -/
theorem arrBufs_eq (c : Dev nD) (X : (b : Ref sig .tc) → Buf (Elt F) ((c : Thread nD τ).loc b)) :
    (Pipeline.arrBufs spec0 c X : sProp 𝕄)
      = iprop((((c : Thread nD τ).loc main_v38) ↦{fullShare} X main_v38) ∗ (((c : Thread nD τ).loc main_v39) ↦{fullShare} X main_v39)
          ∗ (((c : Thread nD τ).loc main_v40_0) ↦{fullShare} X main_v40_0) ∗ (((c : Thread nD τ).loc main_v40_1) ↦{fullShare} X main_v40_1)
          ∗ (((c : Thread nD τ).loc main_v40_2) ↦{fullShare} X main_v40_2)) := by
  unfold Pipeline.arrBufs
  exact bigSep_eq_bigSepL_of_eq [main_v38, main_v39, main_v40_0, main_v40_1, main_v40_2] (by decide) (by decide) _

theorem comp0 (c : Dev nD) (A0 : Buf (Elt F) ((cfg0.win (0 : Fin 7)).arr.view.loc (c : Thread nD τ))) :
    (((cfg0.win (0 : Fin 7)).arr.view.loc (c : Thread nD τ)) ↦[(cfg0.win (0 : Fin 7)).arr.view.set]{(dats m 0 c).share (0 : Fin 7)} A0 : sProp 𝕄)
      = (((c : Thread nD τ).loc main_v38) ↦{fullShare.left} A0) := by
  rw [(arr_whole0 0).set_eq_univ]; rfl

theorem comp1 (c : Dev nD) (A0 : Buf (Elt F) ((cfg0.win (1 : Fin 7)).arr.view.loc (c : Thread nD τ))) :
    (((cfg0.win (1 : Fin 7)).arr.view.loc (c : Thread nD τ)) ↦[(cfg0.win (1 : Fin 7)).arr.view.set]{(dats m 0 c).share (1 : Fin 7)} A0 : sProp 𝕄)
      = (((c : Thread nD τ).loc main_v38) ↦{fullShare.right} A0) := by
  rw [(arr_whole0 1).set_eq_univ]; rfl

theorem comp2 (c : Dev nD) (A0 : Buf (Elt F) ((cfg0.win (2 : Fin 7)).arr.view.loc (c : Thread nD τ))) :
    (((cfg0.win (2 : Fin 7)).arr.view.loc (c : Thread nD τ)) ↦[(cfg0.win (2 : Fin 7)).arr.view.set]{(dats m 0 c).share (2 : Fin 7)} A0 : sProp 𝕄)
      = (((c : Thread nD τ).loc main_v39) ↦{fullShare.left} A0) := by
  rw [(arr_whole0 2).set_eq_univ]; rfl

theorem comp3 (c : Dev nD) (A0 : Buf (Elt F) ((cfg0.win (3 : Fin 7)).arr.view.loc (c : Thread nD τ))) :
    (((cfg0.win (3 : Fin 7)).arr.view.loc (c : Thread nD τ)) ↦[(cfg0.win (3 : Fin 7)).arr.view.set]{(dats m 0 c).share (3 : Fin 7)} A0 : sProp 𝕄)
      = (((c : Thread nD τ).loc main_v39) ↦{fullShare.right} A0) := by
  rw [(arr_whole0 3).set_eq_univ]; rfl

theorem comp4 (c : Dev nD) (A0 : Buf (Elt F) ((cfg0.win (4 : Fin 7)).arr.view.loc (c : Thread nD τ))) :
    (((cfg0.win (4 : Fin 7)).arr.view.loc (c : Thread nD τ)) ↦[(cfg0.win (4 : Fin 7)).arr.view.set]{(dats m 0 c).share (4 : Fin 7)} A0 : sProp 𝕄)
      = (((c : Thread nD τ).loc main_v40_0) ↦{fullShare} A0) := by
  rw [(arr_whole0 4).set_eq_univ]; rfl

theorem comp5 (c : Dev nD) (A0 : Buf (Elt F) ((cfg0.win (5 : Fin 7)).arr.view.loc (c : Thread nD τ))) :
    (((cfg0.win (5 : Fin 7)).arr.view.loc (c : Thread nD τ)) ↦[(cfg0.win (5 : Fin 7)).arr.view.set]{(dats m 0 c).share (5 : Fin 7)} A0 : sProp 𝕄)
      = (((c : Thread nD τ).loc main_v40_1) ↦{fullShare} A0) := by
  rw [(arr_whole0 5).set_eq_univ]; rfl

theorem comp6 (c : Dev nD) (A0 : Buf (Elt F) ((cfg0.win (6 : Fin 7)).arr.view.loc (c : Thread nD τ))) :
    (((cfg0.win (6 : Fin 7)).arr.view.loc (c : Thread nD τ)) ↦[(cfg0.win (6 : Fin 7)).arr.view.set]{(dats m 0 c).share (6 : Fin 7)} A0 : sProp 𝕄)
      = (((c : Thread nD τ).loc main_v40_2) ↦{fullShare} A0) := by
  rw [(arr_whole0 6).set_eq_univ]; rfl

/-- The pipeline's arrays at contents `A`: window by window, each input window at its half. -/
theorem arrays_eq7 (c : Dev nD) (A : (w : Fin cfg0.W) → Buf (Elt F) ((cfg0.win w).arr.view.loc (c : Thread nD τ))) :
    ((dats m 0 c).arrays A : sProp 𝕄)
      = iprop((((c : Thread nD τ).loc main_v38) ↦{fullShare.left} A (0 : Fin 7)) ∗ (((c : Thread nD τ).loc main_v38) ↦{fullShare.right} A (1 : Fin 7))
          ∗ (((c : Thread nD τ).loc main_v39) ↦{fullShare.left} A (2 : Fin 7)) ∗ (((c : Thread nD τ).loc main_v39) ↦{fullShare.right} A (3 : Fin 7))
          ∗ (((c : Thread nD τ).loc main_v40_0) ↦{fullShare} A (4 : Fin 7)) ∗ (((c : Thread nD τ).loc main_v40_1) ↦{fullShare} A (5 : Fin 7))
          ∗ (((c : Thread nD τ).loc main_v40_2) ↦{fullShare} A (6 : Fin 7))) := by
  unfold Dat.arrays
  rw [bigSep_W0, comp0, comp1, comp2, comp3, comp4, comp5, comp6]

/-- An input window's array keeps its entry contents. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

theorem arrAt_zero (c : Dev nD) (w : Fin cfg0.W) : (dats m 0 c).arrAt w 0 = V m c (Pipeline.arrRef spec0 w) :=
  (show (dats m 0 c).arrAt w 0 = (dats m 0 c).A w from rfl).trans (A_eq m c w)

theorem arr0_0 (c : Dev nD) : (dats m 0 c).arrAt (0 : Fin 7) 0 = V m c main_v38 := arrAt_zero m c 0
theorem arr0_1 (c : Dev nD) : (dats m 0 c).arrAt (1 : Fin 7) 0 = V m c main_v38 := arrAt_zero m c 1
theorem arr0_2 (c : Dev nD) : (dats m 0 c).arrAt (2 : Fin 7) 0 = V m c main_v39 := arrAt_zero m c 2
theorem arr0_3 (c : Dev nD) : (dats m 0 c).arrAt (3 : Fin 7) 0 = V m c main_v39 := arrAt_zero m c 3
theorem arr0_4 (c : Dev nD) : (dats m 0 c).arrAt (4 : Fin 7) 0 = V m c main_v40_0 := arrAt_zero m c 4
theorem arr0_5 (c : Dev nD) : (dats m 0 c).arrAt (5 : Fin 7) 0 = V m c main_v40_1 := arrAt_zero m c 5
theorem arr0_6 (c : Dev nD) : (dats m 0 c).arrAt (6 : Fin 7) 0 = V m c main_v40_2 := arrAt_zero m c 6
theorem arrN_0 (c : Dev nD) : (dats m 0 c).arrAt (0 : Fin 7) cfg0.N = V m c main_v38 := arrAt_in m c 0 rfl _
theorem arrN_1 (c : Dev nD) : (dats m 0 c).arrAt (1 : Fin 7) cfg0.N = V m c main_v38 := arrAt_in m c 1 rfl _
theorem arrN_2 (c : Dev nD) : (dats m 0 c).arrAt (2 : Fin 7) cfg0.N = V m c main_v39 := arrAt_in m c 2 rfl _
theorem arrN_3 (c : Dev nD) : (dats m 0 c).arrAt (3 : Fin 7) cfg0.N = V m c main_v39 := arrAt_in m c 3 rfl _

/-- After the last point the invariant gives the class invariant back: the scratch contents are forgotten. -/
theorem Phi_last (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.Kernel.Hand

end
-- ==== Proof.KbMain.lean ====
/-
  The launch.  The kernel region as a segment between the host lines: on entry the five buffers behind the windows'
  arrays are taken out of the unscoped buffers, the two shared ones split in halves; on exit the halves are joined, the
  three result arrays are at what the write-backs left, and all unscoped buffers are held again.  Then the program's run
  by the segments' rule, and from it the frame: the three argument arrays end as they were.
-/
import proofs.«133961_j23673859736131_2_alg».proof.Proof.KbLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000

variable (m : (ℓ : Loc nD τ sig) → Buf (Elt F) ℓ) (ρ : Dev nD → PrngReg)

abbrev HS := Pipeline.HostSeg (Name := ℕ) (U := UR sig nD τ) (pcfgs (F := F)) defs₀ 𝒱₀ Lz lvz

theorem subU {ops : List (HloOp τ sig (Elt F))} (h : ops.Forall fun op => op.bufs ⊆ StableHlo.tcRefs τ sig) :
    ∀ op ∈ ops, op.bufs ⊆ ucR := fun op hop =>
  Pipeline.sub_ucRefs op ((List.forall_iff_forall_mem.mp h) op hop)

def seg0 : HS (F := F) := Pipeline.HostSeg.ofOps _ _ _ _ _ ucR hostOps0 (subU hostOps0_sub) (List.forall_iff_forall_mem.mp fresh_hostOps0) (Vl m) Rst
def seg1 : HS (F := F) := Pipeline.HostSeg.ofOps _ _ _ _ _ ucR hostOps1 (subU hostOps1_sub) (List.forall_iff_forall_mem.mp fresh_hostOps1) (Wr m) Rst
def seg2 : HS (F := F) := Pipeline.HostSeg.ofOps _ _ _ _ _ ucR hostOps1_1 (subU hostOps1_1_sub) (List.forall_iff_forall_mem.mp fresh_hostOps1_1) (T1 m) Rst
def seg3 : HS (F := F) := Pipeline.HostSeg.ofOps _ _ _ _ _ ucR hostOps1_2 (subU hostOps1_2_sub) (List.forall_iff_forall_mem.mp fresh_hostOps1_2) (T2 m) Rst
def seg4 : HS (F := F) := Pipeline.HostSeg.ofOps _ _ _ _ _ ucR hostOps1_3 (subU hostOps1_3_sub) (List.forall_iff_forall_mem.mp fresh_hostOps1_3) (T3 m) Rst
def seg5 : HS (F := F) := Pipeline.HostSeg.ofOps _ _ _ _ _ ucR hostOps1_4 (subU hostOps1_4_sub) (List.forall_iff_forall_mem.mp fresh_hostOps1_4) (T4 m) Rst
def seg6 : HS (F := F) := Pipeline.HostSeg.ofOps _ _ _ _ _ ucR hostOps1_5 (subU hostOps1_5_sub) (List.forall_iff_forall_mem.mp fresh_hostOps1_5) (T5 m) Rst
def seg7 : HS (F := F) := Pipeline.HostSeg.ofOps _ _ _ _ _ ucR hostOps1_6 (subU hostOps1_6_sub) (List.forall_iff_forall_mem.mp fresh_hostOps1_6) (T6 m) Rst

/-- The unscoped buffers that are no window's array are the same before and after the region. -/
theorem rest_Wr (c : Dev nD) :
    (Pipeline.unscopedRest spec0 c (fun b => Wr m c (dv b)) : sProp 𝕄) = Pipeline.unscopedRest spec0 c (V m c) := by
  unfold Pipeline.unscopedRest
  refine bigSep_congr fun b hb => ?_
  dsimp only
  have hb' : b ∉ Finset.univ.image (Pipeline.arrRef spec0) := (Finset.mem_sdiff.mp hb).2
  have hne : ∀ w : Fin 7, Pipeline.arrRef spec0 w ≠ b := fun w e => hb' (Finset.mem_image.mpr ⟨w, Finset.mem_univ _, e⟩)
  rw [Wr_other m c (dv b) (fun e => hne 4 (Proc.devRef_injective _ e).symm) (fun e => hne 5 (Proc.devRef_injective _ e).symm)
    (fun e => hne 6 (Proc.devRef_injective _ e).symm)]

-- unification of the library's statements over `cfgs p` with this program's configuration unfolds plain definitions
set_option backward.isDefEq.respectTransparency.types false in
def reg0 : Pipeline.RegionSeg (pcfgs (F := F)) adm (dats m) () defs₀ 𝒱₀ Lz lvz 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ Lz lvz 0 fun _ _ => rfl
  pre c := iprop(StableHlo.held (c : Thread nD τ) ucR (V0 m c) ∗ Rst c)
  post c := iprop(StableHlo.held (c : Thread nD τ) ucR (Wr m c) ∗ Rst c)
  X c := iprop(∃ r, prngReg c r)
  Y c := iprop(∃ r, prngReg c r)
  Z c := Pipeline.unscopedRest spec0 c (V m c)
  hentry c := by
    rw [show StableHlo.held (c : Thread nD τ) ucR (V0 m c) = unscopedBufs c (V m c) from (Pipeline.unscopedBufs_held c _).symm,
      Pipeline.unscopedBufs_split₀ cfgs 0 winFacts₀0.arr_unscoped c (V m c), arrBufs_eq, arrays_eq7, Pipeline.ownSems0_none,
      arr0_0, arr0_1, arr0_2, arr0_3, arr0_4, arr0_5, arr0_6]
    iintro ⟨⟨⟨⟨H38, H39, H0, H1, H2⟩, Hrest⟩, ⟨Hp, HO⟩⟩, -, -⟩
    ihave H38s := (pointsTo_share (PosShare.mem_left_op_right fullShare)).1 $$ H38
    ihave H39s := (pointsTo_share (PosShare.mem_left_op_right fullShare)).1 $$ H39
    icases H38s with ⟨H38l, H38r⟩
    icases H39s with ⟨H39l, H39r⟩
    imodintro
    isplitl [H38l H38r H39l H39r H0 H1 H2]
    · isplitl [H38l]; · iexact H38l
      isplitl [H38r]; · iexact H38r
      isplitl [H39l]; · iexact H39l
      isplitl [H39r]; · iexact H39r
      isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none]
    refine (Phi_last m c).trans ?_
    unfold Pipeline.ΦA
    iintro ⟨Hr, Hp⟩
    isplitl [Hp]; · iexact Hp
    isplitr; · iempintro
    iexact Hr
  hexit c := by
    rw [show StableHlo.held (c : Thread nD τ) ucR (Wr m c) = unscopedBufs c (fun b => Wr m c (dv b)) from (Pipeline.unscopedBufs_held c _).symm,
      Pipeline.unscopedBufs_split₀ cfgs 0 winFacts₀0.arr_unscoped c (fun b => Wr m c (dv b)), arrBufs_eq, arrays_eq7, rest_Wr,
      Wr_v40_0, Wr_v40_1, Wr_v40_2,
      Wr_other m c (dv main_v38) (by decide) (by decide) (by decide), Wr_other m c (dv main_v39) (by decide) (by decide) (by decide),
      arrN_0, arrN_1, arrN_2, arrN_3]
    iintro ⟨⟨H38l, H38r, H39l, H39r, H0, H1, H2⟩, HO, Hp, Hrest⟩
    ihave H38 := (pointsTo_share (PosShare.mem_left_op_right fullShare)).2 $$ [H38l H38r]
    · isplitl [H38l] <;> iassumption
    ihave H39 := (pointsTo_share (PosShare.mem_left_op_right fullShare)).2 $$ [H39l H39r]
    · isplitl [H39l] <;> iassumption
    imodintro
    isplitr [Hp HO]
    · isplitr [Hrest]
      · isplitl [H38]; · iexact H38
        isplitl [H39]; · iexact H39
        isplitl [H0]; · iexact H0
        isplitl [H1]; · iexact H1
        iexact H2
      · iexact Hrest
    · isplitl [Hp]; · iexact Hp
      unfold Pipeline.Dat.owesAt Pipeline.owesWithin
      icases HO with ⟨%W, -, HO⟩; iexists W; iexact HO

abbrev segs : List (Pipeline.Seg (pcfgs (F := F)) adm (dats m) () defs₀ 𝒱₀ Lz lvz) :=
  [.host (seg0 m), .region (reg0 m), .host (seg1 m), .host (seg2 m), .host (seg3 m), .host (seg4 m), .host (seg5 m), .host (seg6 m), .host (seg7 m)]

/-- The run's post: every unscoped buffer at what the segments compute. -/
def QC : PUnit × MemSt nD τ sig (Elt F) → Prop := fun r =>
  ∀ c : Dev nD, ∀ b ∈ ucR, r.2.mem (c, b) = Wend m c b

set_option backward.isDefEq.respectTransparency.types false in
theorem run_main : θ_run defs (onTc (τ := τ) (main (F := F))) ⟨m, fun _ => 0, ρ⟩ (QC m) :=
  Pipeline.θ_run_regions_kit (pcfgs (F := F)) adm (dats m) () cellOf_inj EP defs₀ 𝒱₀ Lz lvz m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucR (Vl m c) ∗ Rst c))
    (Tₙ := fun c => iprop(StableHlo.held (c : Thread nD τ) ucR (Wend m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) ucR (Wend m c) ∗ Rst c) ⊢ _
        iintro ⟨Hh, Hp, HO⟩
        isplitr [HO]
        · isplitl [Hh] <;> iassumption
        · iexact HO⟩)
    (hinit := by
      refine Pipeline.initEach Lz lvz fun c => ?_
      rw [show unscopedBufs c (fun b => m ((c : Thread nD τ).loc b)) = StableHlo.held (c : Thread nD τ) ucR (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucR, s.mem (c, b) = Wend m c b)
    (hfin := fun c s' => by
      iintro ⟨⟨Hh, -⟩, HSI⟩
      unfold StableHlo.held
      imodintro
      iapply (pointsTo_read_all ucR (fun b => ((c, b) : Loc nD τ sig)) (Wend m c) s')
      isplitl [Hh] <;> iassumption)
    (hQ := fun _ h => h)

/-- info: 'Cert.Kernel.Hand.run_main' depends on axioms: [propext, Classical.choice, Quot.sound] -/
#guard_msgs in #print axioms run_main

end Cert.Kernel.Hand

end
-- ==== Proof.KbFrame.lean ====
/-
  From the run to the frame: no host line writes an argument array and none is a result array of the kernel call, so
  each of the three ends at its launch contents.  Also the run restated with the program's result named.
-/
import proofs.«133961_j23673859736131_2_alg».proof.Proof.KbMain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A reference no stretch of host lines writes, and no result array of the kernel call, ends at its launch contents. -/
theorem Wend_keeps (c : Dev nD) (b : Ref sig .tc) (h0 : b ∉ W_hostOps0) (h1 : b ∉ W_hostOps1) (h2 : b ∉ W_hostOps1_1) (h3 : b ∉ W_hostOps1_2)
    (h4 : b ∉ W_hostOps1_3) (h5 : b ∉ W_hostOps1_4) (h6 : b ∉ W_hostOps1_5) (h7 : b ∉ W_hostOps1_6)
    (hv0 : b ≠ main_v40_0) (hv1 : b ≠ main_v40_1) (hv2 : b ≠ main_v40_2) :
    Wend m c (dv b) = m (c, dv b) :=
  ((hW_hostOps1_6 (F := F)).arg _ h7).trans (((hW_hostOps1_5 (F := F)).arg _ h6).trans (((hW_hostOps1_4 (F := F)).arg _ h5).trans
    (((hW_hostOps1_3 (F := F)).arg _ h4).trans (((hW_hostOps1_2 (F := F)).arg _ h3).trans (((hW_hostOps1_1 (F := F)).arg _ h2).trans
    (((hW_hostOps1 (F := F)).arg _ h1).trans ((Wr_other m c (dv b) (fun e => hv0 (Proc.devRef_injective _ e)) (fun e => hv1 (Proc.devRef_injective _ e))
      (fun e => hv2 (Proc.devRef_injective _ e))).trans ((hW_hostOps0 (F := F)).arg _ h0))))))))

theorem mem_ucR (b : Ref sig .tc) (hb : (dv b).isScoped = false) : dv b ∈ ucR :=
  Finset.mem_filter.mpr ⟨StableHlo.devRef_mem_tcRefs b, by simp [hb]⟩

/-- THE FRAME at any float instance: every weakly fair execution ends, nothing faults, the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c (dv main_arg0) (mem_ucR main_arg0 rfl)).trans (Wend_keeps m c main_arg0 (by decide) (by decide) (by decide) (by decide) (by decide) (by decide) (by decide) (by decide) (by decide) (by decide) (by decide)),
     (h c (dv main_arg1) (mem_ucR main_arg1 rfl)).trans (Wend_keeps m c main_arg1 (by decide) (by decide) (by decide) (by decide) (by decide) (by decide) (by decide) (by decide) (by decide) (by decide) (by decide)),
     (h c (dv main_arg2) (mem_ucR main_arg2 rfl)).trans (Wend_keeps m c main_arg2 (by decide) (by decide) (by decide) (by decide) (by decide) (by decide) (by decide) (by decide) (by decide) (by decide) (by decide))⟩)
    (run_main m ρ)

/-- The run with the program's result named: the last line's buffer at what the segments compute, the arguments unchanged. -/
theorem run_result : θ_run defs (onTc (τ := τ) (main (F := F))) ⟨m, fun _ => 0, ρ⟩ (fun r => ∀ c : Dev nD,
      r.2.mem ((c.tc : Thread nD τ).loc main_v63) = Wend m c (dv main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c (dv main_v63) (mem_ucR main_v63 rfl),
     (h c (dv main_arg0) (mem_ucR main_arg0 rfl)).trans (Wend_keeps m c main_arg0 (by decide) (by decide) (by decide) (by decide) (by decide) (by decide) (by decide) (by decide) (by decide) (by decide) (by decide)),
     (h c (dv main_arg1) (mem_ucR main_arg1 rfl)).trans (Wend_keeps m c main_arg1 (by decide) (by decide) (by decide) (by decide) (by decide) (by decide) (by decide) (by decide) (by decide) (by decide) (by decide)),
     (h c (dv main_arg2) (mem_ucR main_arg2 rfl)).trans (Wend_keeps m c main_arg2 (by decide) (by decide) (by decide) (by decide) (by decide) (by decide) (by decide) (by decide) (by decide) (by decide) (by decide))⟩)
    (run_main m ρ)

end Cert.Kernel.Hand

end
-- ==== Proof.KiBase.lean ====
/-
  The kernel body's four branch conditions as functions of the grid point (row tile i 0, column tile i 1):
  the column tile is the first one; the 512 x 1024 tile meets the diagonal (512·r < 1024·c + 1024 and 1024·c < 512·r + 512);
  it does not; the column tile is the last one.
-/
import proofs.«133961_j23673859736131_2_alg».proof.Proof.Gen.KernelIdeal.Launch
import proofs.«133961_j23673859736131_2_alg».proof.Proof.Gen.KernelIdeal.Skeleton
import proofs.«133961_j23673859736131_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The four branch conditions of the body as functions of the grid point: first column tile; the tile meets the
    diagonal; it does not; last column tile. -/
abbrev cnd1 (i : grid0.Coords) : Prop := (Scalar.cmpi .ne (Scalar.extui (Scalar.cmpi .eq (BitVec.ofNat 32 (i 1).val) 0#32)) 0#32) = 1#1
abbrev dg (i : grid0.Coords) : BitVec 1 := Scalar.andi (Scalar.cmpi .slt (Scalar.muli (BitVec.ofNat 32 (i 0).val) 512#32) (Scalar.addi (Scalar.muli (BitVec.ofNat 32 (i 1).val) 1024#32) 1024#32)) (Scalar.cmpi .slt (Scalar.muli (BitVec.ofNat 32 (i 1).val) 1024#32) (Scalar.addi (Scalar.muli (BitVec.ofNat 32 (i 0).val) 512#32) 512#32))
abbrev cnd2 (i : grid0.Coords) : Prop := (Scalar.cmpi .ne (Scalar.extui (dg i)) 0#32) = 1#1
abbrev cnd3 (i : grid0.Coords) : Prop := (Scalar.cmpi .ne (Scalar.extui (Scalar.xori (dg i) 1#1)) 0#32) = 1#1
abbrev cnd4 (i : grid0.Coords) : Prop := k0_cond4 i = 1#1

end Cert.KernelIdeal.Hand

end
-- ==== Proof.KiRunA.lean ====
/-
  The kernel body run whole at a grid point of control case A (first column tile: yes; tile meets the diagonal: yes; last column tile: no):
  on whole staging buffers, the scratch buffers at any contents (this case overwrites them first), it runs without fault and leaves the four inputs as they were, every scratch
  buffer with the pieces its stores wrote, and the three outputs untouched.
-/
import proofs.«133961_j23673859736131_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun_A (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : cnd1 i) (hc2 : cnd2 i) (hc3 : ¬cnd3 i) (hc4 : ¬cnd4 i)
    (x0 : Vec F S512x1024 .bf16) (x1 : Vec F S1024x1024 .bf16) (x2 : Vec F S512x64 .bf16) (x3 : Vec F S1024x64 .bf16)
 :
    Σ' (LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d0, %fs0, %hfs0, HS0⟩, ⟨%d1, %fs1, %hfs1, HS1⟩, ⟨%d2, %fs2, %hfs2, HS2⟩, ⟨%d3, %fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Hand

end
-- ==== Proof.KiRunB.lean ====
/-
  The kernel body run whole at a grid point of control case B (first column tile: yes; tile meets the diagonal: no; last column tile: no):
  on whole staging buffers, the scratch buffers at any contents (this case overwrites them first), it runs without fault and leaves the four inputs as they were, every scratch
  buffer with the pieces its stores wrote, and the three outputs untouched.
-/
import proofs.«133961_j23673859736131_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun_B (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : cnd1 i) (hc2 : ¬cnd2 i) (hc3 : cnd3 i) (hc4 : ¬cnd4 i)
    (x0 : Vec F S512x1024 .bf16) (x1 : Vec F S1024x1024 .bf16) (x2 : Vec F S512x64 .bf16) (x3 : Vec F S1024x64 .bf16)
 :
    Σ' (LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d0, %fs0, %hfs0, HS0⟩, ⟨%d1, %fs1, %hfs1, HS1⟩, ⟨%d2, %fs2, %hfs2, HS2⟩, ⟨%d3, %fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Hand

end
-- ==== Proof.KiRunC.lean ====
/-
  The kernel body run whole at a grid point of control case C (first column tile: no; tile meets the diagonal: yes; last column tile: no):
  on whole staging and scratch buffers it runs without fault and leaves the four inputs as they were, every scratch
  buffer with the pieces its stores wrote, and the three outputs untouched.
-/
import proofs.«133961_j23673859736131_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun_C (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : ¬cnd1 i) (hc2 : cnd2 i) (hc3 : ¬cnd3 i) (hc4 : ¬cnd4 i)
    (x0 : Vec F S512x1024 .bf16) (x1 : Vec F S1024x1024 .bf16) (x2 : Vec F S512x64 .bf16) (x3 : Vec F S1024x64 .bf16)
    (xs0 xs1 xs2 xs3 : Vec F S512x1 .f32) :
    Σ' (LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Hand

end
-- ==== Proof.KiRunD.lean ====
/-
  The kernel body run whole at a grid point of control case D (first column tile: no; tile meets the diagonal: no; last column tile: no):
  on whole staging and scratch buffers it runs without fault and leaves the four inputs as they were, every scratch
  buffer with the pieces its stores wrote, and the three outputs untouched.
-/
import proofs.«133961_j23673859736131_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun_D (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : ¬cnd1 i) (hc2 : ¬cnd2 i) (hc3 : cnd3 i) (hc4 : ¬cnd4 i)
    (x0 : Vec F S512x1024 .bf16) (x1 : Vec F S1024x1024 .bf16) (x2 : Vec F S512x64 .bf16) (x3 : Vec F S1024x64 .bf16)
    (xs0 xs1 xs2 xs3 : Vec F S512x1 .f32) :
    Σ' (LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Hand

end
-- ==== Proof.KiRunE.lean ====
/-
  The kernel body run whole at a grid point of control case E (first column tile: no; tile meets the diagonal: yes; last column tile: yes):
  on whole staging and scratch buffers it runs without fault and leaves the four inputs as they were, every scratch
  buffer with the pieces its stores wrote, and the three outputs with the pieces its stores wrote.
-/
import proofs.«133961_j23673859736131_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun_E (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : ¬cnd1 i) (hc2 : cnd2 i) (hc3 : ¬cnd3 i) (hc4 : cnd4 i)
    (x0 : Vec F S512x1024 .bf16) (x1 : Vec F S1024x1024 .bf16) (x2 : Vec F S512x64 .bf16) (x3 : Vec F S1024x64 .bf16)
    (xs0 xs1 xs2 xs3 : Vec F S512x1 .f32) :
    Σ' (L4 L5 L6 LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Hand

end
-- ==== Proof.KiRunF.lean ====
/-
  The kernel body run whole at a grid point of control case F (first column tile: no; tile meets the diagonal: no; last column tile: yes):
  on whole staging and scratch buffers it runs without fault and leaves the four inputs as they were, every scratch
  buffer with the pieces its stores wrote, and the three outputs with the pieces its stores wrote.
-/
import proofs.«133961_j23673859736131_2_alg».proof.Proof.KiBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun_F (c : Dev nD) (i : grid0.Coords) (arg2 : Memref sig .tc .vmem S512x1024 .bf16) (harg2 : arg2.IsWhole) (arg3 : Memref sig .tc .vmem S1024x1024 .bf16) (harg3 : arg3.IsWhole) (arg4 : Memref sig .tc .vmem S512x64 .bf16) (harg4 : arg4.IsWhole) (arg5 : Memref sig .tc .vmem S1024x64 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole)
    (hc1 : ¬cnd1 i) (hc2 : ¬cnd2 i) (hc3 : cnd3 i) (hc4 : cnd4 i)
    (x0 : Vec F S512x1024 .bf16) (x1 : Vec F S1024x1024 .bf16) (x2 : Vec F S512x64 .bf16) (x3 : Vec F S1024x64 .bf16)
    (xs0 xs1 xs2 xs3 : Vec F S512x1 .f32) :
    Σ' (L4 L5 L6 LS0 LS1 LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun xi4 xi5 xi6 E K => ?run⟩
  case run =>
    simp only [cc0__contrastive_kernel_eq_skeleton]; unfold cc0__contrastive_kernel_skel
    simp only [k0_part3_eq_skeleton]; unfold k0_part3_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Hand

end
-- ==== Proof.KiShared.lean ====
/-
  What the six runs of the kernel body share: the contents of every buffer when the kernel region is entered (the host
  lines before it have run), each input window's block at a grid point, the four branch conditions in closed form over
  the 32 grid points (point t is row tile t / 4, column tile t % 4; the tile meets the diagonal iff t % 4 = t / 8), the
  points at which an output window is left untouched, and the memrefs the pipeline hands the body at a point.
-/
import proofs.«133961_j23673859736131_2_alg».proof.Proof.KiRunA
import proofs.«133961_j23673859736131_2_alg».proof.Proof.KiRunB
import proofs.«133961_j23673859736131_2_alg».proof.Proof.KiRunC
import proofs.«133961_j23673859736131_2_alg».proof.Proof.KiRunD
import proofs.«133961_j23673859736131_2_alg».proof.Proof.KiRunE
import proofs.«133961_j23673859736131_2_alg».proof.Proof.KiRunF

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: the 52 host lines before it have run. -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid -/

theorem hcnd1 : ∀ t : Fin cfg0.N, cnd1 (grid0.coords t) ↔ t.val % 4 = 0 :=
  (by decide +kernel : ∀ t : Fin grid0.N, cnd1 (grid0.coords t) ↔ t.val % 4 = 0)
theorem hcnd2 : ∀ t : Fin cfg0.N, cnd2 (grid0.coords t) ↔ t.val % 4 = t.val / 8 :=
  (by decide +kernel : ∀ t : Fin grid0.N, cnd2 (grid0.coords t) ↔ t.val % 4 = t.val / 8)
theorem hcnd3 : ∀ t : Fin cfg0.N, cnd3 (grid0.coords t) ↔ ¬ t.val % 4 = t.val / 8 :=
  (by decide +kernel : ∀ t : Fin grid0.N, cnd3 (grid0.coords t) ↔ ¬ t.val % 4 = t.val / 8)
theorem hcnd4 : ∀ t : Fin cfg0.N, cnd4 (grid0.coords t) ↔ t.val % 4 = 3 :=
  (by decide +kernel : ∀ t : Fin grid0.N, cnd4 (grid0.coords t) ↔ t.val % 4 = 3)

/-! ## Where the windows are idle -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem idleAt_4 : ∀ t : Fin cfg0.N, ¬ t.val % 4 = 3 → cfg0.idle 4 (grid0.coords t) = true := by decide +kernel
theorem noFlush_4 : ∀ t : Fin cfg0.N, ¬ t.val % 4 = 3 → (cfg0.win 4).flush t = false := by decide +kernel
theorem liveAt_4 : ∀ t : Fin cfg0.N, t.val % 4 = 3 → cfg0.idle 4 (grid0.coords t) = false := by decide +kernel
theorem idleAt_5 : ∀ t : Fin cfg0.N, ¬ t.val % 4 = 3 → cfg0.idle 5 (grid0.coords t) = true := by decide +kernel
theorem noFlush_5 : ∀ t : Fin cfg0.N, ¬ t.val % 4 = 3 → (cfg0.win 5).flush t = false := by decide +kernel
theorem liveAt_5 : ∀ t : Fin cfg0.N, t.val % 4 = 3 → cfg0.idle 5 (grid0.coords t) = false := by decide +kernel
theorem idleAt_6 : ∀ t : Fin cfg0.N, ¬ t.val % 4 = 3 → cfg0.idle 6 (grid0.coords t) = true := by decide +kernel
theorem noFlush_6 : ∀ t : Fin cfg0.N, ¬ t.val % 4 = 3 → (cfg0.win 6).flush t = false := by decide +kernel
theorem liveAt_6 : ∀ t : Fin cfg0.N, t.val % 4 = 3 → cfg0.idle 6 (grid0.coords t) = false := by decide +kernel

/-! ## The memrefs the body is called with -/
abbrev ms_0 (t : Fin cfg0.N) : Memref sig .tc .vmem S512x1024 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x1024 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x64 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1024x64 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x1 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S512x1 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S512x1 .f32 := win0_6.stage (cfg0.slots t 6)
abbrev hs_6 (t : Fin cfg0.N) : (ms_6 t).IsWhole := hstage0_6 ((cfg0.slots t 6).cast nbuf0_6)
abbrev scM_0 : Memref sig .tc .vmem S512x1 .f32 := Memref.whole cc0_scratch0
abbrev VS_0 : View sig .tc .vmem S512x1 .f32 := (scM_0).view
abbrev scM_1 : Memref sig .tc .vmem S512x1 .f32 := Memref.whole cc0_scratch1
abbrev VS_1 : View sig .tc .vmem S512x1 .f32 := (scM_1).view
abbrev scM_2 : Memref sig .tc .vmem S512x1 .f32 := Memref.whole cc0_scratch2
abbrev VS_2 : View sig .tc .vmem S512x1 .f32 := (scM_2).view
abbrev scM_3 : Memref sig .tc .vmem S512x1 .f32 := Memref.whole cc0_scratch3
abbrev VS_3 : View sig .tc .vmem S512x1 .f32 := (scM_3).view
abbrev VO_4 : View sig .tc .vmem S512x1 .f32 := (Memref.whole cc0_stg4_0 : Memref sig .tc .vmem S512x1 .f32).view
abbrev VO_5 : View sig .tc .vmem S512x1 .f32 := (Memref.whole cc0_stg5_0 : Memref sig .tc .vmem S512x1 .f32).view
abbrev VO_6 : View sig .tc .vmem S512x1 .f32 := (Memref.whole cc0_stg6_0 : Memref sig .tc .vmem S512x1 .f32).view

/-- The class invariant with the four scratch buffers owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ (∃ r, prngReg c r)) := by
  unfold Pipeline.ΦA; rw [scopedRest0_eq]; simp only [scM_0, scM_1, scM_2, scM_3, owns_whole]; try rfl

end Cert.KernelIdeal.Hand

end
-- ==== Proof.KiData.lean ====
/-
  The kernel region point by point.  What the four scratch buffers (running maximum, the two rescaled sums, the
  positive count) and the three output blocks hold after the body at each grid point, by recursion on the point: at a
  first column tile the scratch is overwritten, at the others the case's run starts from what the point before left, at
  a last column tile the outputs receive the scratch.  From that: the pipeline's proof data (each input window's buffer
  holds its block; the two embedding windows and the two label windows each hold half of their shared array), the
  invariant between points, and the body's obligation at every point, by cases on the closed forms of the conditions.
-/
import proofs.«133961_j23673859736131_2_alg».proof.Proof.KiShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the three output blocks and the four scratch buffers hold after a point. -/
abbrev Outs (F : FTy → Type) [FloatOps F] := ((Vec F S512x1 .f32) × (Vec F S512x1 .f32) × (Vec F S512x1 .f32)) × ((Vec F S512x1 .f32) × (Vec F S512x1 .f32) × (Vec F S512x1 .f32) × (Vec F S512x1 .f32))

/-- An output block no case has stored into: contents nothing consults. -/
abbrev idleOut : (Vec F S512x1 .f32) × (Vec F S512x1 .f32) × (Vec F S512x1 .f32) :=
  (VO_4.read (Elt F) VO_4.junk, VO_5.read (Elt F) VO_5.junk, VO_6.read (Elt F) VO_6.junk)

/-- The body's run at a point of case A. -/
abbrev run_A (c : Dev nD) (t : Fin cfg0.N) (h1 : t.val % 4 = 0) (h2 : t.val % 4 = t.val / 8) (h4 : ¬ t.val % 4 = 3) :=
  kernelRun_A (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) ((hcnd1 t).mpr h1) ((hcnd2 t).mpr h2) (fun h => ((hcnd3 t).mp h) h2) (fun h => h4 ((hcnd4 t).mp h)) (iblk m c 0 t) (iblk m c 1 t) (iblk m c 2 t) (iblk m c 3 t)

theorem scover_A_0 (c : Dev nD) (t : Fin cfg0.N) (h1 : t.val % 4 = 0) (h2 : t.val % 4 = t.val / 8) (h4 : ¬ t.val % 4 = 3) (y : S512x1.Idx) :
    ∃ pc ∈ (run_A m c t h1 h2 h4).1, y ∈ pc.1.set :=
  View.cover_of_tiledL (run_A m c t h1 h2 h4).1 S512x1.size (by sl_kernel_rfl) y

theorem scover_A_1 (c : Dev nD) (t : Fin cfg0.N) (h1 : t.val % 4 = 0) (h2 : t.val % 4 = t.val / 8) (h4 : ¬ t.val % 4 = 3) (y : S512x1.Idx) :
    ∃ pc ∈ (run_A m c t h1 h2 h4).2.1, y ∈ pc.1.set :=
  View.cover_of_tiledL (run_A m c t h1 h2 h4).2.1 S512x1.size (by sl_kernel_rfl) y

theorem scover_A_2 (c : Dev nD) (t : Fin cfg0.N) (h1 : t.val % 4 = 0) (h2 : t.val % 4 = t.val / 8) (h4 : ¬ t.val % 4 = 3) (y : S512x1.Idx) :
    ∃ pc ∈ (run_A m c t h1 h2 h4).2.2.1, y ∈ pc.1.set :=
  View.cover_of_tiledL (run_A m c t h1 h2 h4).2.2.1 S512x1.size (by sl_kernel_rfl) y

theorem scover_A_3 (c : Dev nD) (t : Fin cfg0.N) (h1 : t.val % 4 = 0) (h2 : t.val % 4 = t.val / 8) (h4 : ¬ t.val % 4 = 3) (y : S512x1.Idx) :
    ∃ pc ∈ (run_A m c t h1 h2 h4).2.2.2.1, y ∈ pc.1.set :=
  View.cover_of_tiledL (run_A m c t h1 h2 h4).2.2.2.1 S512x1.size (by sl_kernel_rfl) y

/-- What a point of case A leaves: the outputs' blocks and the scratch buffers, each its pieces read back. -/
def tup_A (c : Dev nD) (t : Fin cfg0.N) (h1 : t.val % 4 = 0) (h2 : t.val % 4 = t.val / 8) (h4 : ¬ t.val % 4 = 3) : Outs F :=
  (idleOut,
    (VS_0.read (Elt F) (VS_0.writes (Elt F) VS_0.junk (run_A m c t h1 h2 h4).1),
     VS_1.read (Elt F) (VS_1.writes (Elt F) VS_1.junk (run_A m c t h1 h2 h4).2.1),
     VS_2.read (Elt F) (VS_2.writes (Elt F) VS_2.junk (run_A m c t h1 h2 h4).2.2.1),
     VS_3.read (Elt F) (VS_3.writes (Elt F) VS_3.junk (run_A m c t h1 h2 h4).2.2.2.1)))

/-- The body's run at a point of case B. -/
abbrev run_B (c : Dev nD) (t : Fin cfg0.N) (h1 : t.val % 4 = 0) (h2 : ¬ t.val % 4 = t.val / 8) (h4 : ¬ t.val % 4 = 3) :=
  kernelRun_B (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) ((hcnd1 t).mpr h1) (fun h => h2 ((hcnd2 t).mp h)) ((hcnd3 t).mpr h2) (fun h => h4 ((hcnd4 t).mp h)) (iblk m c 0 t) (iblk m c 1 t) (iblk m c 2 t) (iblk m c 3 t)

theorem scover_B_0 (c : Dev nD) (t : Fin cfg0.N) (h1 : t.val % 4 = 0) (h2 : ¬ t.val % 4 = t.val / 8) (h4 : ¬ t.val % 4 = 3) (y : S512x1.Idx) :
    ∃ pc ∈ (run_B m c t h1 h2 h4).1, y ∈ pc.1.set :=
  View.cover_of_tiledL (run_B m c t h1 h2 h4).1 S512x1.size (by sl_kernel_rfl) y

theorem scover_B_1 (c : Dev nD) (t : Fin cfg0.N) (h1 : t.val % 4 = 0) (h2 : ¬ t.val % 4 = t.val / 8) (h4 : ¬ t.val % 4 = 3) (y : S512x1.Idx) :
    ∃ pc ∈ (run_B m c t h1 h2 h4).2.1, y ∈ pc.1.set :=
  View.cover_of_tiledL (run_B m c t h1 h2 h4).2.1 S512x1.size (by sl_kernel_rfl) y

theorem scover_B_2 (c : Dev nD) (t : Fin cfg0.N) (h1 : t.val % 4 = 0) (h2 : ¬ t.val % 4 = t.val / 8) (h4 : ¬ t.val % 4 = 3) (y : S512x1.Idx) :
    ∃ pc ∈ (run_B m c t h1 h2 h4).2.2.1, y ∈ pc.1.set :=
  View.cover_of_tiledL (run_B m c t h1 h2 h4).2.2.1 S512x1.size (by sl_kernel_rfl) y

theorem scover_B_3 (c : Dev nD) (t : Fin cfg0.N) (h1 : t.val % 4 = 0) (h2 : ¬ t.val % 4 = t.val / 8) (h4 : ¬ t.val % 4 = 3) (y : S512x1.Idx) :
    ∃ pc ∈ (run_B m c t h1 h2 h4).2.2.2.1, y ∈ pc.1.set :=
  View.cover_of_tiledL (run_B m c t h1 h2 h4).2.2.2.1 S512x1.size (by sl_kernel_rfl) y

/-- What a point of case B leaves: the outputs' blocks and the scratch buffers, each its pieces read back. -/
def tup_B (c : Dev nD) (t : Fin cfg0.N) (h1 : t.val % 4 = 0) (h2 : ¬ t.val % 4 = t.val / 8) (h4 : ¬ t.val % 4 = 3) : Outs F :=
  (idleOut,
    (VS_0.read (Elt F) (VS_0.writes (Elt F) VS_0.junk (run_B m c t h1 h2 h4).1),
     VS_1.read (Elt F) (VS_1.writes (Elt F) VS_1.junk (run_B m c t h1 h2 h4).2.1),
     VS_2.read (Elt F) (VS_2.writes (Elt F) VS_2.junk (run_B m c t h1 h2 h4).2.2.1),
     VS_3.read (Elt F) (VS_3.writes (Elt F) VS_3.junk (run_B m c t h1 h2 h4).2.2.2.1)))

/-- The body's run at a point of case C, from what the point before left in the scratch. -/
abbrev run_C (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) :=
  kernelRun_C (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) (fun h => h1 ((hcnd1 t).mp h)) ((hcnd2 t).mpr h2) (fun h => ((hcnd3 t).mp h) h2) (fun h => h4 ((hcnd4 t).mp h)) (iblk m c 0 t) (iblk m c 1 t) (iblk m c 2 t) (iblk m c 3 t) pv.1 pv.2.1 pv.2.2.1 pv.2.2.2

theorem scover_C_0 (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_C m c t h1 h2 h4 pv).1, y ∈ pc.1.set :=
  View.cover_of_tiledL (run_C m c t h1 h2 h4 pv).1 S512x1.size (by sl_kernel_rfl) y

theorem scover_C_1 (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_C m c t h1 h2 h4 pv).2.1, y ∈ pc.1.set :=
  View.cover_of_tiledL (run_C m c t h1 h2 h4 pv).2.1 S512x1.size (by sl_kernel_rfl) y

theorem scover_C_2 (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_C m c t h1 h2 h4 pv).2.2.1, y ∈ pc.1.set :=
  View.cover_of_tiledL (run_C m c t h1 h2 h4 pv).2.2.1 S512x1.size (by sl_kernel_rfl) y

theorem scover_C_3 (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_C m c t h1 h2 h4 pv).2.2.2.1, y ∈ pc.1.set :=
  View.cover_of_tiledL (run_C m c t h1 h2 h4 pv).2.2.2.1 S512x1.size (by sl_kernel_rfl) y

/-- What a point of case C leaves: the outputs' blocks and the scratch buffers, each its pieces read back. -/
def tup_C (c : Dev nD) (t : Fin cfg0.N) (h1 : ¬ t.val % 4 = 0) (h2 : t.val % 4 = t.val / 8) (h4 : ¬ t.val % 4 = 3) (pv : (Vec F S512x1 .f32) × (Vec F S512x1 .f32) × (Vec F S512x1 .f32) × (Vec F S512x1 .f32)) : Outs F :=
  (idleOut,
    (VS_0.read (Elt F) (VS_0.writes (Elt F) VS_0.junk (run_C m c t h1 h2 h4 pv).1),
     VS_1.read (Elt F) (VS_1.writes (Elt F) VS_1.junk (run_C m c t h1 h2 h4 pv).2.1),
     VS_2.read (Elt F) (VS_2.writes (Elt F) VS_2.junk (run_C m c t h1 h2 h4 pv).2.2.1),
     VS_3.read (Elt F) (VS_3.writes (Elt F) VS_3.junk (run_C m c t h1 h2 h4 pv).2.2.2.1)))

/-- The body's run at a point of case D, from what the point before left in the scratch. -/
abbrev run_D (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) :=
  kernelRun_D (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) (fun h => h1 ((hcnd1 t).mp h)) (fun h => h2 ((hcnd2 t).mp h)) ((hcnd3 t).mpr h2) (fun h => h4 ((hcnd4 t).mp h)) (iblk m c 0 t) (iblk m c 1 t) (iblk m c 2 t) (iblk m c 3 t) pv.1 pv.2.1 pv.2.2.1 pv.2.2.2

theorem scover_D_0 (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_D m c t h1 h2 h4 pv).1, y ∈ pc.1.set :=
  View.cover_of_tiledL (run_D m c t h1 h2 h4 pv).1 S512x1.size (by sl_kernel_rfl) y

theorem scover_D_1 (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_D m c t h1 h2 h4 pv).2.1, y ∈ pc.1.set :=
  View.cover_of_tiledL (run_D m c t h1 h2 h4 pv).2.1 S512x1.size (by sl_kernel_rfl) y

theorem scover_D_2 (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_D m c t h1 h2 h4 pv).2.2.1, y ∈ pc.1.set :=
  View.cover_of_tiledL (run_D m c t h1 h2 h4 pv).2.2.1 S512x1.size (by sl_kernel_rfl) y

theorem scover_D_3 (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) (y : S512x1.Idx) :
    ∃ pc ∈ (run_D m c t h1 h2 h4 pv).2.2.2.1, y ∈ pc.1.set :=
  View.cover_of_tiledL (run_D m c t h1 h2 h4 pv).2.2.2.1 S512x1.size (by sl_kernel_rfl) y

/-- What a point of case D leaves: the outputs' blocks and the scratch buffers, each its pieces read back. -/
def tup_D (c : Dev nD) (t : Fin cfg0.N) (h1 : ¬ t.val % 4 = 0) (h2 : ¬ t.val % 4 = t.val / 8) (h4 : ¬ t.val % 4 = 3) (pv : (Vec F S512x1 .f32) × (Vec F S512x1 .f32) × (Vec F S512x1 .f32) × (Vec F S512x1 .f32)) : Outs F :=
  (idleOut,
    (VS_0.read (Elt F) (VS_0.writes (Elt F) VS_0.junk (run_D m c t h1 h2 h4 pv).1),
     VS_1.read (Elt F) (VS_1.writes (Elt F) VS_1.junk (run_D m c t h1 h2 h4 pv).2.1),
     VS_2.read (Elt F) (VS_2.writes (Elt F) VS_2.junk (run_D m c t h1 h2 h4 pv).2.2.1),
     VS_3.read (Elt F) (VS_3.writes (Elt F) VS_3.junk (run_D m c t h1 h2 h4 pv).2.2.2.1)))

/-- The body's run at a point of case E, from what the point before left in the scratch. -/
abbrev run_E (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) :=
  kernelRun_E (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) (fun h => h1 ((hcnd1 t).mp h)) ((hcnd2 t).mpr h2) (fun h => ((hcnd3 t).mp h) h2) ((hcnd4 t).mpr h4) (iblk m c 0 t) (iblk m c 1 t) (iblk m c 2 t) (iblk m c 3 t) pv.1 pv.2.1 pv.2.2.1 pv.2.2.2

theorem scover_E_0 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.2.2.1, y ∈ pc.1.set :=
  View.cover_of_tiledL (run_E m c t h1 h2 h4 pv).2.2.2.1 S512x1.size (by sl_kernel_rfl) y

theorem scover_E_1 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.2.2.2.1, y ∈ pc.1.set :=
  View.cover_of_tiledL (run_E m c t h1 h2 h4 pv).2.2.2.2.1 S512x1.size (by sl_kernel_rfl) y

theorem scover_E_2 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.2.2.2.2.1, y ∈ pc.1.set :=
  View.cover_of_tiledL (run_E m c t h1 h2 h4 pv).2.2.2.2.2.1 S512x1.size (by sl_kernel_rfl) y

theorem scover_E_3 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.2.2.2.2.2.1, y ∈ pc.1.set :=
  View.cover_of_tiledL (run_E m c t h1 h2 h4 pv).2.2.2.2.2.2.1 S512x1.size (by sl_kernel_rfl) y

theorem cover_E_4 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).1, y ∈ pc.1.set :=
  View.cover_of_tiledL (run_E m c t h1 h2 h4 pv).1 S512x1.size (by sl_kernel_rfl) y

theorem cover_E_5 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.1, y ∈ pc.1.set :=
  View.cover_of_tiledL (run_E m c t h1 h2 h4 pv).2.1 S512x1.size (by sl_kernel_rfl) y

theorem cover_E_6 (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) (y : S512x1.Idx) :
    ∃ pc ∈ (run_E m c t h1 h2 h4 pv).2.2.1, y ∈ pc.1.set :=
  View.cover_of_tiledL (run_E m c t h1 h2 h4 pv).2.2.1 S512x1.size (by sl_kernel_rfl) y

/-- What a point of case E leaves: the outputs' blocks and the scratch buffers, each its pieces read back. -/
def tup_E (c : Dev nD) (t : Fin cfg0.N) (h1 : ¬ t.val % 4 = 0) (h2 : t.val % 4 = t.val / 8) (h4 : t.val % 4 = 3) (pv : (Vec F S512x1 .f32) × (Vec F S512x1 .f32) × (Vec F S512x1 .f32) × (Vec F S512x1 .f32)) : Outs F :=
  ((VO_4.read (Elt F) (VO_4.writes (Elt F) VO_4.junk (run_E m c t h1 h2 h4 pv).1), VO_5.read (Elt F) (VO_5.writes (Elt F) VO_5.junk (run_E m c t h1 h2 h4 pv).2.1), VO_6.read (Elt F) (VO_6.writes (Elt F) VO_6.junk (run_E m c t h1 h2 h4 pv).2.2.1)),
    (VS_0.read (Elt F) (VS_0.writes (Elt F) VS_0.junk (run_E m c t h1 h2 h4 pv).2.2.2.1),
     VS_1.read (Elt F) (VS_1.writes (Elt F) VS_1.junk (run_E m c t h1 h2 h4 pv).2.2.2.2.1),
     VS_2.read (Elt F) (VS_2.writes (Elt F) VS_2.junk (run_E m c t h1 h2 h4 pv).2.2.2.2.2.1),
     VS_3.read (Elt F) (VS_3.writes (Elt F) VS_3.junk (run_E m c t h1 h2 h4 pv).2.2.2.2.2.2.1)))

/-- The body's run at a point of case F, from what the point before left in the scratch. -/
abbrev run_F (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) :=
  kernelRun_F (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) scM_0 (Memref.isWhole_whole _) scM_1 (Memref.isWhole_whole _) scM_2 (Memref.isWhole_whole _) scM_3 (Memref.isWhole_whole _) (fun h => h1 ((hcnd1 t).mp h)) (fun h => h2 ((hcnd2 t).mp h)) ((hcnd3 t).mpr h2) ((hcnd4 t).mpr h4) (iblk m c 0 t) (iblk m c 1 t) (iblk m c 2 t) (iblk m c 3 t) pv.1 pv.2.1 pv.2.2.1 pv.2.2.2

theorem scover_F_0 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.2.2.1, y ∈ pc.1.set :=
  View.cover_of_tiledL (run_F m c t h1 h2 h4 pv).2.2.2.1 S512x1.size (by sl_kernel_rfl) y

theorem scover_F_1 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.2.2.2.1, y ∈ pc.1.set :=
  View.cover_of_tiledL (run_F m c t h1 h2 h4 pv).2.2.2.2.1 S512x1.size (by sl_kernel_rfl) y

theorem scover_F_2 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.2.2.2.2.1, y ∈ pc.1.set :=
  View.cover_of_tiledL (run_F m c t h1 h2 h4 pv).2.2.2.2.2.1 S512x1.size (by sl_kernel_rfl) y

theorem scover_F_3 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.2.2.2.2.2.1, y ∈ pc.1.set :=
  View.cover_of_tiledL (run_F m c t h1 h2 h4 pv).2.2.2.2.2.2.1 S512x1.size (by sl_kernel_rfl) y

theorem cover_F_4 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).1, y ∈ pc.1.set :=
  View.cover_of_tiledL (run_F m c t h1 h2 h4 pv).1 S512x1.size (by sl_kernel_rfl) y

theorem cover_F_5 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.1, y ∈ pc.1.set :=
  View.cover_of_tiledL (run_F m c t h1 h2 h4 pv).2.1 S512x1.size (by sl_kernel_rfl) y

theorem cover_F_6 (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) (y : S512x1.Idx) :
    ∃ pc ∈ (run_F m c t h1 h2 h4 pv).2.2.1, y ∈ pc.1.set :=
  View.cover_of_tiledL (run_F m c t h1 h2 h4 pv).2.2.1 S512x1.size (by sl_kernel_rfl) y

/-- What a point of case F leaves: the outputs' blocks and the scratch buffers, each its pieces read back. -/
def tup_F (c : Dev nD) (t : Fin cfg0.N) (h1 : ¬ t.val % 4 = 0) (h2 : ¬ t.val % 4 = t.val / 8) (h4 : t.val % 4 = 3) (pv : (Vec F S512x1 .f32) × (Vec F S512x1 .f32) × (Vec F S512x1 .f32) × (Vec F S512x1 .f32)) : Outs F :=
  ((VO_4.read (Elt F) (VO_4.writes (Elt F) VO_4.junk (run_F m c t h1 h2 h4 pv).1), VO_5.read (Elt F) (VO_5.writes (Elt F) VO_5.junk (run_F m c t h1 h2 h4 pv).2.1), VO_6.read (Elt F) (VO_6.writes (Elt F) VO_6.junk (run_F m c t h1 h2 h4 pv).2.2.1)),
    (VS_0.read (Elt F) (VS_0.writes (Elt F) VS_0.junk (run_F m c t h1 h2 h4 pv).2.2.2.1),
     VS_1.read (Elt F) (VS_1.writes (Elt F) VS_1.junk (run_F m c t h1 h2 h4 pv).2.2.2.2.1),
     VS_2.read (Elt F) (VS_2.writes (Elt F) VS_2.junk (run_F m c t h1 h2 h4 pv).2.2.2.2.2.1),
     VS_3.read (Elt F) (VS_3.writes (Elt F) VS_3.junk (run_F m c t h1 h2 h4 pv).2.2.2.2.2.2.1)))

/-! ## What the buffers hold after each point -/

/-- By recursion on the point: the case the closed forms select, a later column tile starting from what the point
    before left in the scratch. -/
def outsAt (c : Dev nD) : (n : ℕ) → n < cfg0.N → Outs F
  | 0, hn => tup_A m c ⟨0, hn⟩ (Nat.zero_mod _) (show (0 : ℕ) % 4 = 0 / 8 from rfl) (show ¬ (0 : ℕ) % 4 = 3 from by decide)
  | n + 1, hn =>
    if h1 : (n + 1) % 4 = 0 then
      if h2 : (n + 1) % 4 = (n + 1) / 8 then tup_A m c ⟨n + 1, hn⟩ h1 h2 (show ¬ (n + 1) % 4 = 3 from by omega)
      else tup_B m c ⟨n + 1, hn⟩ h1 h2 (show ¬ (n + 1) % 4 = 3 from by omega)
    else if h4 : (n + 1) % 4 = 3 then
      if h2 : (n + 1) % 4 = (n + 1) / 8 then tup_E m c ⟨n + 1, hn⟩ h1 h2 h4 (outsAt c n (Nat.lt_of_succ_lt hn)).2
      else tup_F m c ⟨n + 1, hn⟩ h1 h2 h4 (outsAt c n (Nat.lt_of_succ_lt hn)).2
    else
      if h2 : (n + 1) % 4 = (n + 1) / 8 then tup_C m c ⟨n + 1, hn⟩ h1 h2 h4 (outsAt c n (Nat.lt_of_succ_lt hn)).2
      else tup_D m c ⟨n + 1, hn⟩ h1 h2 h4 (outsAt c n (Nat.lt_of_succ_lt hn)).2

theorem outsAt_A (c : Dev nD) (t : Fin cfg0.N) (h1 : t.val % 4 = 0) (h2 : t.val % 4 = t.val / 8) (h4 : ¬ t.val % 4 = 3) :
    outsAt m c t.val t.isLt = tup_A m c t h1 h2 h4 := by
  obtain ⟨n, hn⟩ := t
  cases n with
  | zero => exact rfl
  | succ n => exact (dif_pos h1).trans ((dif_pos h2).trans (rfl))

theorem outsAt_B (c : Dev nD) (t : Fin cfg0.N) (h1 : t.val % 4 = 0) (h2 : ¬ t.val % 4 = t.val / 8) (h4 : ¬ t.val % 4 = 3) :
    outsAt m c t.val t.isLt = tup_B m c t h1 h2 h4 := by
  obtain ⟨n, hn⟩ := t
  cases n with
  | zero => exact (by exfalso; (try dsimp only at h1 h2 h4); omega)
  | succ n => exact (dif_pos h1).trans ((dif_neg h2).trans (rfl))

theorem outsAt_C (c : Dev nD) (t : Fin cfg0.N) (h1 : ¬ t.val % 4 = 0) (h2 : t.val % 4 = t.val / 8) (h4 : ¬ t.val % 4 = 3) :
    outsAt m c t.val t.isLt = tup_C m c t h1 h2 h4 (outsAt m c (t.val - 1) (Nat.lt_of_le_of_lt (Nat.sub_le _ _) t.isLt)).2 := by
  obtain ⟨n, hn⟩ := t
  cases n with
  | zero => exact (by exfalso; (try dsimp only at h1 h2 h4); omega)
  | succ n => exact (dif_neg h1).trans ((dif_neg h4).trans ((dif_pos h2).trans (rfl)))

theorem outsAt_D (c : Dev nD) (t : Fin cfg0.N) (h1 : ¬ t.val % 4 = 0) (h2 : ¬ t.val % 4 = t.val / 8) (h4 : ¬ t.val % 4 = 3) :
    outsAt m c t.val t.isLt = tup_D m c t h1 h2 h4 (outsAt m c (t.val - 1) (Nat.lt_of_le_of_lt (Nat.sub_le _ _) t.isLt)).2 := by
  obtain ⟨n, hn⟩ := t
  cases n with
  | zero => exact (by exfalso; (try dsimp only at h1 h2 h4); omega)
  | succ n => exact (dif_neg h1).trans ((dif_neg h4).trans ((dif_neg h2).trans (rfl)))

theorem outsAt_E (c : Dev nD) (t : Fin cfg0.N) (h1 : ¬ t.val % 4 = 0) (h2 : t.val % 4 = t.val / 8) (h4 : t.val % 4 = 3) :
    outsAt m c t.val t.isLt = tup_E m c t h1 h2 h4 (outsAt m c (t.val - 1) (Nat.lt_of_le_of_lt (Nat.sub_le _ _) t.isLt)).2 := by
  obtain ⟨n, hn⟩ := t
  cases n with
  | zero => exact (by exfalso; (try dsimp only at h1 h2 h4); omega)
  | succ n => exact (dif_neg h1).trans ((dif_pos h4).trans ((dif_pos h2).trans (rfl)))

theorem outsAt_F (c : Dev nD) (t : Fin cfg0.N) (h1 : ¬ t.val % 4 = 0) (h2 : ¬ t.val % 4 = t.val / 8) (h4 : t.val % 4 = 3) :
    outsAt m c t.val t.isLt = tup_F m c t h1 h2 h4 (outsAt m c (t.val - 1) (Nat.lt_of_le_of_lt (Nat.sub_le _ _) t.isLt)).2 := by
  obtain ⟨n, hn⟩ := t
  cases n with
  | zero => exact (by exfalso; (try dsimp only at h1 h2 h4); omega)
  | succ n => exact (dif_neg h1).trans ((dif_pos h4).trans ((dif_neg h2).trans (rfl)))

/-! ## The invariant between points -/

def PhiS (c : Dev nD) : (n : ℕ) → n ≤ cfg0.N → sProp 𝕄
  | 0, _ => Pipeline.ΦA spec0 c
  | n + 1, hn => iprop(iprop(owns (c : Thread nD τ) scM_0 fullShare ((outsAt m c n hn).2.1) ∗ owns (c : Thread nD τ) scM_1 fullShare ((outsAt m c n hn).2.2.1) ∗ owns (c : Thread nD τ) scM_2 fullShare ((outsAt m c n hn).2.2.2.1) ∗ owns (c : Thread nD τ) scM_3 fullShare ((outsAt m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM_0 fullShare ((outsAt m c n hn).2.1) ∗ owns (c : Thread nD τ) scM_1 fullShare ((outsAt m c n hn).2.2.1) ∗ owns (c : Thread nD τ) scM_2 fullShare ((outsAt m c n hn).2.2.2.1) ∗ owns (c : Thread nD τ) scM_3 fullShare ((outsAt m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM_0 fullShare ((outsAt m c (n - 1) (by omega)).2.1) ∗ owns (c : Thread nD τ) scM_1 fullShare ((outsAt m c (n - 1) (by omega)).2.2.1) ∗ owns (c : Thread nD τ) scM_2 fullShare ((outsAt m c (n - 1) (by omega)).2.2.2.1) ∗ owns (c : Thread nD τ) scM_3 fullShare ((outsAt m c (n - 1) (by omega)).2.2.2.2)) ∗ (∃ r, prngReg c r)) := by
  cases n with
  | zero => exact absurd rfl hz
  | succ n => rfl

/-! ## The pipeline's proof data -/

/-- The arrays as the region finds them; after the body each input's buffer at its block, the outputs' at
    `outsAt`; the invariant `PhiS`; nothing owed. The two windows on the embeddings' array hold one half of it each,
    and so the two on the labels' array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1.1
    | ⟨5, _⟩ => (outsAt m c t.val t.isLt).1.2.1
    | ⟨6, _⟩ => (outsAt m c t.val t.isLt).1.2.2
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1.1 := by dsimp only [dats]
theorem after_5 (c : Dev nD) (t : Fin cfg0.N) : (dats m 0 c).after 5 t = (outsAt m c t.val t.isLt).1.2.1 := by dsimp only [dats]
theorem after_6 (c : Dev nD) (t : Fin cfg0.N) : (dats m 0 c).after 6 t = (outsAt m c t.val t.isLt).1.2.2 := by dsimp only [dats]
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

end Cert.KernelIdeal.Hand

end
-- ==== Proof.KiBody.lean ====
/-
  The body's obligation at every grid point.  At a point the pipeline hands the body the seven windows' current staging
  buffers — each input's holds its block — and the invariant (the scratch buffers at what the point before left, at
  anything before the first point).  The closed forms of the conditions select the point's control case; that case's run
  applies; the scratch buffers come back at this point's contents, the inputs untouched, an output block untouched
  unless the column tile is the last one, where it receives the scratch.
-/
import proofs.«133961_j23673859736131_2_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem sound_A (c : Dev nD) (t : Fin cfg0.N) (h1 : t.val % 4 = 0) (h2 : t.val % 4 = t.val / 8) (h4 : ¬ t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [Dat.leavesExact_idle (dats m 0 c) 4 t (idleAt_4 t h4) (noFlush_4 t h4)]
  rw [Dat.leavesExact_idle (dats m 0 c) 5 t (idleAt_5 t h4) (noFlush_5 t h4)]
  rw [Dat.leavesExact_idle (dats m 0 c) 6 t (idleAt_6 t h4) (noFlush_6 t h4)]
  rw [outsAt_A m c t h1 h2 h4]
  unfold tup_A; (try dsimp only)
  by_cases hz : t.val = 0
  · rw [PhiS_castSucc m c t, PhiS_zero m c _ _ hz, PhiA_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((run_A m c t h1 h2 h4).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, ⟨%es2, HS2⟩, ⟨%es3, HS3⟩⟩
    isplitl [HS0 HS1 HS2 HS3 Hg]
    · isplitl [HS0 HS1 HS2 HS3]
      ·
        isplitl [HS0]
        · unfold owns; iexists _; isplitr
          swap; · iexact HS0
          ipureintro; exact View.read_writes_of_cover _ _ _ _ _ (scover_A_0 m c t h1 h2 h4)
        isplitl [HS1]
        · unfold owns; iexists _; isplitr
          swap; · iexact HS1
          ipureintro; exact View.read_writes_of_cover _ _ _ _ _ (scover_A_1 m c t h1 h2 h4)
        isplitl [HS2]
        · unfold owns; iexists _; isplitr
          swap; · iexact HS2
          ipureintro; exact View.read_writes_of_cover _ _ _ _ _ (scover_A_2 m c t h1 h2 h4)
        · unfold owns; iexists _; isplitr
          swap; · iexact HS3
          ipureintro; exact View.read_writes_of_cover _ _ _ _ _ (scover_A_3 m c t h1 h2 h4)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((run_A m c t h1 h2 h4).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexists _; iexact HS0
    isplitl [HS1]; · iexists _; iexact HS1
    isplitl [HS2]; · iexists _; iexact HS2
    isplitl [HS3]; · iexists _; iexact HS3
    iintro ⟨H0, H1, H2, H3, H4, H5, H6, ⟨%es0, HS0⟩, ⟨%es1, HS1⟩, ⟨%es2, HS2⟩, ⟨%es3, HS3⟩⟩
    isplitl [HS0 HS1 HS2 HS3 Hg]
    · isplitl [HS0 HS1 HS2 HS3]
      ·
        isplitl [HS0]
        · unfold owns; iexists _; isplitr
          swap; · iexact HS0
          ipureintro; exact View.read_writes_of_cover _ _ _ _ _ (scover_A_0 m c t h1 h2 h4)
        isplitl [HS1]
        · unfold owns; iexists _; isplitr
          swap; · iexact HS1
          ipureintro; exact View.read_writes_of_cover _ _ _ _ _ (scover_A_1 m c t h1 h2 h4)
        isplitl [HS2]
        · unfold owns; iexists _; isplitr
          swap; · iexact HS2
          ipureintro; exact View.read_writes_of_cover _ _ _ _ _ (scover_A_2 m c t h1 h2 h4)
        · unfold owns; iexists _; isplitr
          swap; · iexact HS3
          ipureintro; exact View.read_writes_of_cover _ _ _ _ _ (scover_A_3 m c t h1 h2 h4)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6

theorem sound_B (c : Dev nD) (t : Fin cfg0.N) (h1 : t.val % 4 = 0) (h2 : ¬ t.val % 4 = t.val / 8) (h4 : ¬ t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [Dat.leavesExact_idle (dats m 0 c) 4 t (idleAt_4 t h4) (noFlush_4 t h4)]
  rw [Dat.leavesExact_idle (dats m 0 c) 5 t (idleAt_5 t h4) (noFlush_5 t h4)]
  rw [Dat.leavesExact_idle (dats m 0 c) 6 t (idleAt_6 t h4) (noFlush_6 t h4)]
  rw [outsAt_B m c t h1 h2 h4]
  unfold tup_B; (try dsimp only)
  by_cases hz : t.val = 0
  · rw [PhiS_castSucc m c t, PhiS_zero m c _ _ hz, PhiA_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((run_B m c t h1 h2 h4).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, ⟨%es2, HS2⟩, ⟨%es3, HS3⟩⟩
    isplitl [HS0 HS1 HS2 HS3 Hg]
    · isplitl [HS0 HS1 HS2 HS3]
      ·
        isplitl [HS0]
        · unfold owns; iexists _; isplitr
          swap; · iexact HS0
          ipureintro; exact View.read_writes_of_cover _ _ _ _ _ (scover_B_0 m c t h1 h2 h4)
        isplitl [HS1]
        · unfold owns; iexists _; isplitr
          swap; · iexact HS1
          ipureintro; exact View.read_writes_of_cover _ _ _ _ _ (scover_B_1 m c t h1 h2 h4)
        isplitl [HS2]
        · unfold owns; iexists _; isplitr
          swap; · iexact HS2
          ipureintro; exact View.read_writes_of_cover _ _ _ _ _ (scover_B_2 m c t h1 h2 h4)
        · unfold owns; iexists _; isplitr
          swap; · iexact HS3
          ipureintro; exact View.read_writes_of_cover _ _ _ _ _ (scover_B_3 m c t h1 h2 h4)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((run_B m c t h1 h2 h4).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexists _; iexact HS0
    isplitl [HS1]; · iexists _; iexact HS1
    isplitl [HS2]; · iexists _; iexact HS2
    isplitl [HS3]; · iexists _; iexact HS3
    iintro ⟨H0, H1, H2, H3, H4, H5, H6, ⟨%es0, HS0⟩, ⟨%es1, HS1⟩, ⟨%es2, HS2⟩, ⟨%es3, HS3⟩⟩
    isplitl [HS0 HS1 HS2 HS3 Hg]
    · isplitl [HS0 HS1 HS2 HS3]
      ·
        isplitl [HS0]
        · unfold owns; iexists _; isplitr
          swap; · iexact HS0
          ipureintro; exact View.read_writes_of_cover _ _ _ _ _ (scover_B_0 m c t h1 h2 h4)
        isplitl [HS1]
        · unfold owns; iexists _; isplitr
          swap; · iexact HS1
          ipureintro; exact View.read_writes_of_cover _ _ _ _ _ (scover_B_1 m c t h1 h2 h4)
        isplitl [HS2]
        · unfold owns; iexists _; isplitr
          swap; · iexact HS2
          ipureintro; exact View.read_writes_of_cover _ _ _ _ _ (scover_B_2 m c t h1 h2 h4)
        · unfold owns; iexists _; isplitr
          swap; · iexact HS3
          ipureintro; exact View.read_writes_of_cover _ _ _ _ _ (scover_B_3 m c t h1 h2 h4)
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6

theorem sound_C (c : Dev nD) (t : Fin cfg0.N) (h1 : ¬ t.val % 4 = 0) (h2 : t.val % 4 = t.val / 8) (h4 : ¬ t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [Dat.leavesExact_idle (dats m 0 c) 4 t (idleAt_4 t h4) (noFlush_4 t h4)]
  rw [Dat.leavesExact_idle (dats m 0 c) 5 t (idleAt_5 t h4) (noFlush_5 t h4)]
  rw [Dat.leavesExact_idle (dats m 0 c) 6 t (idleAt_6 t h4) (noFlush_6 t h4)]
  rw [outsAt_C m c t h1 h2 h4]
  unfold tup_C; (try dsimp only)
  have hz : t.val ≠ 0 := fun h => h1 (by rw [h])
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((run_C m c t h1 h2 h4 (outsAt m c (t.val - 1) (Nat.lt_of_le_of_lt (Nat.sub_le _ _) t.isLt)).2).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, ⟨%es0, HS0⟩, ⟨%es1, HS1⟩, ⟨%es2, HS2⟩, ⟨%es3, HS3⟩⟩
  isplitl [HS0 HS1 HS2 HS3 Hg]
  · isplitl [HS0 HS1 HS2 HS3]
    ·
      isplitl [HS0]
      · unfold owns; iexists _; isplitr
        swap; · iexact HS0
        ipureintro; exact View.read_writes_of_cover _ _ _ _ _ (scover_C_0 m c t h1 h2 h4 _)
      isplitl [HS1]
      · unfold owns; iexists _; isplitr
        swap; · iexact HS1
        ipureintro; exact View.read_writes_of_cover _ _ _ _ _ (scover_C_1 m c t h1 h2 h4 _)
      isplitl [HS2]
      · unfold owns; iexists _; isplitr
        swap; · iexact HS2
        ipureintro; exact View.read_writes_of_cover _ _ _ _ _ (scover_C_2 m c t h1 h2 h4 _)
      · unfold owns; iexists _; isplitr
        swap; · iexact HS3
        ipureintro; exact View.read_writes_of_cover _ _ _ _ _ (scover_C_3 m c t h1 h2 h4 _)
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem sound_D (c : Dev nD) (t : Fin cfg0.N) (h1 : ¬ t.val % 4 = 0) (h2 : ¬ t.val % 4 = t.val / 8) (h4 : ¬ t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [Dat.leavesExact_idle (dats m 0 c) 4 t (idleAt_4 t h4) (noFlush_4 t h4)]
  rw [Dat.leavesExact_idle (dats m 0 c) 5 t (idleAt_5 t h4) (noFlush_5 t h4)]
  rw [Dat.leavesExact_idle (dats m 0 c) 6 t (idleAt_6 t h4) (noFlush_6 t h4)]
  rw [outsAt_D m c t h1 h2 h4]
  unfold tup_D; (try dsimp only)
  have hz : t.val ≠ 0 := fun h => h1 (by rw [h])
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((run_D m c t h1 h2 h4 (outsAt m c (t.val - 1) (Nat.lt_of_le_of_lt (Nat.sub_le _ _) t.isLt)).2).2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, H4, H5, H6, ⟨%es0, HS0⟩, ⟨%es1, HS1⟩, ⟨%es2, HS2⟩, ⟨%es3, HS3⟩⟩
  isplitl [HS0 HS1 HS2 HS3 Hg]
  · isplitl [HS0 HS1 HS2 HS3]
    ·
      isplitl [HS0]
      · unfold owns; iexists _; isplitr
        swap; · iexact HS0
        ipureintro; exact View.read_writes_of_cover _ _ _ _ _ (scover_D_0 m c t h1 h2 h4 _)
      isplitl [HS1]
      · unfold owns; iexists _; isplitr
        swap; · iexact HS1
        ipureintro; exact View.read_writes_of_cover _ _ _ _ _ (scover_D_1 m c t h1 h2 h4 _)
      isplitl [HS2]
      · unfold owns; iexists _; isplitr
        swap; · iexact HS2
        ipureintro; exact View.read_writes_of_cover _ _ _ _ _ (scover_D_2 m c t h1 h2 h4 _)
      · unfold owns; iexists _; isplitr
        swap; · iexact HS3
        ipureintro; exact View.read_writes_of_cover _ _ _ _ _ (scover_D_3 m c t h1 h2 h4 _)
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexists _; iexact H5
  iexists _; iexact H6

theorem sound_E (c : Dev nD) (t : Fin cfg0.N) (h1 : ¬ t.val % 4 = 0) (h2 : t.val % 4 = t.val / 8) (h4 : t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t h4], after_4]
  rw [show (dats m 0 c).leavesExact 5 t = owns (c : Thread nD τ) (ms_5 t) fullShare ((dats m 0 c).after 5 t) from by
    unfold Dat.leavesExact; rw [liveAt_5 t h4], after_5]
  rw [show (dats m 0 c).leavesExact 6 t = owns (c : Thread nD τ) (ms_6 t) fullShare ((dats m 0 c).after 6 t) from by
    unfold Dat.leavesExact; rw [liveAt_6 t h4], after_6]
  rw [outsAt_E m c t h1 h2 h4]
  unfold tup_E; (try dsimp only)
  have hz : t.val ≠ 0 := fun h => h1 (by rw [h])
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((run_E m c t h1 h2 h4 (outsAt m c (t.val - 1) (Nat.lt_of_le_of_lt (Nat.sub_le _ _) t.isLt)).2).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, ⟨%e6, H6⟩, ⟨%es0, HS0⟩, ⟨%es1, HS1⟩, ⟨%es2, HS2⟩, ⟨%es3, HS3⟩⟩
  isplitl [HS0 HS1 HS2 HS3 Hg]
  · isplitl [HS0 HS1 HS2 HS3]
    ·
      isplitl [HS0]
      · unfold owns; iexists _; isplitr
        swap; · iexact HS0
        ipureintro; exact View.read_writes_of_cover _ _ _ _ _ (scover_E_0 m c t h1 h2 h4 _)
      isplitl [HS1]
      · unfold owns; iexists _; isplitr
        swap; · iexact HS1
        ipureintro; exact View.read_writes_of_cover _ _ _ _ _ (scover_E_1 m c t h1 h2 h4 _)
      isplitl [HS2]
      · unfold owns; iexists _; isplitr
        swap; · iexact HS2
        ipureintro; exact View.read_writes_of_cover _ _ _ _ _ (scover_E_2 m c t h1 h2 h4 _)
      · unfold owns; iexists _; isplitr
        swap; · iexact HS3
        ipureintro; exact View.read_writes_of_cover _ _ _ _ _ (scover_E_3 m c t h1 h2 h4 _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover_E_4 m c t h1 h2 h4 _)
  isplitl [H5]
  · unfold owns; iexists _; isplitr
    swap; · iexact H5
    ipureintro; exact View.read_writes_of_cover _ _ _ _ _ (cover_E_5 m c t h1 h2 h4 _)
  · unfold owns; iexists _; isplitr
    swap; · iexact H6
    ipureintro; exact View.read_writes_of_cover _ _ _ _ _ (cover_E_6 m c t h1 h2 h4 _)

theorem sound_F (c : Dev nD) (t : Fin cfg0.N) (h1 : ¬ t.val % 4 = 0) (h2 : ¬ t.val % 4 = t.val / 8) (h4 : t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
    unfold Dat.leavesExact; rw [liveAt_0 t], after_0]
  rw [show (dats m 0 c).leavesExact 1 t = owns (c : Thread nD τ) (ms_1 t) fullShare ((dats m 0 c).after 1 t) from by
    unfold Dat.leavesExact; rw [liveAt_1 t], after_1]
  rw [show (dats m 0 c).leavesExact 2 t = owns (c : Thread nD τ) (ms_2 t) fullShare ((dats m 0 c).after 2 t) from by
    unfold Dat.leavesExact; rw [liveAt_2 t], after_2]
  rw [show (dats m 0 c).leavesExact 3 t = owns (c : Thread nD τ) (ms_3 t) fullShare ((dats m 0 c).after 3 t) from by
    unfold Dat.leavesExact; rw [liveAt_3 t], after_3]
  rw [show (dats m 0 c).leavesExact 4 t = owns (c : Thread nD τ) (ms_4 t) fullShare ((dats m 0 c).after 4 t) from by
    unfold Dat.leavesExact; rw [liveAt_4 t h4], after_4]
  rw [show (dats m 0 c).leavesExact 5 t = owns (c : Thread nD τ) (ms_5 t) fullShare ((dats m 0 c).after 5 t) from by
    unfold Dat.leavesExact; rw [liveAt_5 t h4], after_5]
  rw [show (dats m 0 c).leavesExact 6 t = owns (c : Thread nD τ) (ms_6 t) fullShare ((dats m 0 c).after 6 t) from by
    unfold Dat.leavesExact; rw [liveAt_6 t h4], after_6]
  rw [outsAt_F m c t h1 h2 h4]
  unfold tup_F; (try dsimp only)
  have hz : t.val ≠ 0 := fun h => h1 (by rw [h])
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  iapply ((run_F m c t h1 h2 h4 (outsAt m c (t.val - 1) (Nat.lt_of_le_of_lt (Nat.sub_le _ _) t.isLt)).2).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, ⟨%e6, H6⟩, ⟨%es0, HS0⟩, ⟨%es1, HS1⟩, ⟨%es2, HS2⟩, ⟨%es3, HS3⟩⟩
  isplitl [HS0 HS1 HS2 HS3 Hg]
  · isplitl [HS0 HS1 HS2 HS3]
    ·
      isplitl [HS0]
      · unfold owns; iexists _; isplitr
        swap; · iexact HS0
        ipureintro; exact View.read_writes_of_cover _ _ _ _ _ (scover_F_0 m c t h1 h2 h4 _)
      isplitl [HS1]
      · unfold owns; iexists _; isplitr
        swap; · iexact HS1
        ipureintro; exact View.read_writes_of_cover _ _ _ _ _ (scover_F_1 m c t h1 h2 h4 _)
      isplitl [HS2]
      · unfold owns; iexists _; isplitr
        swap; · iexact HS2
        ipureintro; exact View.read_writes_of_cover _ _ _ _ _ (scover_F_2 m c t h1 h2 h4 _)
      · unfold owns; iexists _; isplitr
        swap; · iexact HS3
        ipureintro; exact View.read_writes_of_cover _ _ _ _ _ (scover_F_3 m c t h1 h2 h4 _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover_F_4 m c t h1 h2 h4 _)
  isplitl [H5]
  · unfold owns; iexists _; isplitr
    swap; · iexact H5
    ipureintro; exact View.read_writes_of_cover _ _ _ _ _ (cover_F_5 m c t h1 h2 h4 _)
  · unfold owns; iexists _; isplitr
    swap; · iexact H6
    ipureintro; exact View.read_writes_of_cover _ _ _ _ _ (cover_F_6 m c t h1 h2 h4 _)

/-- The body at any point, by cases on the closed forms. -/
theorem sound_body (c : Dev nD) (t : Fin cfg0.N) :
    bodyPre m c t ⊢ wp frame (wpE (defs₀ (F := F)) Variants.none c none) Set.univ (bodyAt0 t) (fun _ => bodyPost m c t) := by
  by_cases h1 : t.val % 4 = 0
  · have h4 : ¬ t.val % 4 = 3 := by omega
    by_cases h2 : t.val % 4 = t.val / 8
    · exact sound_A m c t h1 h2 h4
    · exact sound_B m c t h1 h2 h4
  · by_cases h4 : t.val % 4 = 3
    · by_cases h2 : t.val % 4 = t.val / 8
      · exact sound_E m c t h1 h2 h4
      · exact sound_F m c t h1 h2 h4
    · by_cases h2 : t.val % 4 = t.val / 8
      · exact sound_C m c t h1 h2 h4
      · exact sound_D m c t h1 h2 h4

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiLaunch.lean ====
/-
  The whole program as a list of segments: the 52 host lines before the kernel call, the kernel region, and the seven
  stretches of host lines after it.  The region is entered from all unscoped buffers at the contents the first stretch
  left; the embeddings' array and the labels' array are each read by two input windows, so each is dealt to them in two
  halves and joined again when the region ends; the three result arrays come back at what the write-backs left; every
  other buffer passes by untouched.  The run: every weakly fair execution ends, without a fault, with every unscoped
  buffer at what the segments compute — in particular the three arguments, which no line writes, as they were.
-/
import proofs.«133961_j23673859736131_2_alg».proof.Proof.KiBody
import proofs.«133961_j23673859736131_2_alg».proof.Proof.LibLineStep
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev Lz : GSem nD τ sig → Finset Unit := fun _ => ∅
abbrev lvz : GSem nD τ sig → Unit → ℕ := fun _ _ => 0
abbrev adm : (p : Fin 1) → (pcfgs (F := F) p).Adm := fun p => (cfgs p).toPCfg_adm
abbrev ucR : Finset (DevRef τ sig) := Pipeline.ucRefs τ sig
abbrev dv (b : Ref sig .tc) : DevRef τ sig := Proc.devRef .tc b

/-- What rides beside the buffers: the generator register at some state and the core owing nothing. -/
abbrev Rst (c : Dev nD) : sProp 𝕄 := iprop((∃ r, prngReg c r) ∗ ∃ W, owes (c : Thread nD τ) (0 : CellTallies nD τ sig Unit) W)

/-! ## The references each stretch of host lines writes, in order -/
abbrev W_hostOps0 : List (Ref sig .tc) := [main_v0, main_cst, main_v1, main_v2, main_v3, main_v4, main_v5, main_v6, main_v7, main_v8, main_v9, main_cst_0, main_v10, main_cst_1, main_v11, main_v12, main_v13, main_cst_2, main_v14, main_v15, main_cst_3, main_v16, main_v17, main_cst_4, main_v18, main_v19, main_v20, main_v21, main_cst_5, main_v22, main_v23, main_cst_6, main_v24, main_v25, main_cst_7, main_v26, main_v27, main_v28, main_v29, main_v30, main_v31, main_v32, main_cst_8, main_v33, main_cst_9, main_v34, main_cst_10, main_v35, main_v36, main_v37, main_v38, main_v39]
theorem hW_hostOps0 : Cert.CubePad.Line.Writes (hostOps0 : List (HloOp τ sig (Elt F))) W_hostOps0 := by line_writes
theorem fresh_hostOps0 : (hostOps0 : List (HloOp τ sig (Elt F))).Forall fun op => op.fresh = ∅ := by line_fresh
abbrev W_hostOps1 : List (Ref sig .tc) := [main_v41, main_v42, main_v43, main_cst_11, main_v44, main_v45, main_cst_12, main_v46, main_v47, main_v48, main_cst_13]
theorem hW_hostOps1 : Cert.CubePad.Line.Writes (hostOps1 : List (HloOp τ sig (Elt F))) W_hostOps1 := by line_writes
theorem fresh_hostOps1 : (hostOps1 : List (HloOp τ sig (Elt F))).Forall fun op => op.fresh = ∅ := by line_fresh
abbrev W_hostOps1_1 : List (Ref sig .tc) := [main_call0_v0, main_call0_v1, main_v49]
theorem hW_hostOps1_1 : Cert.CubePad.Line.Writes (hostOps1_1 : List (HloOp τ sig (Elt F))) W_hostOps1_1 := by line_writes
theorem fresh_hostOps1_1 : (hostOps1_1 : List (HloOp τ sig (Elt F))).Forall fun op => op.fresh = ∅ := by line_fresh
abbrev W_hostOps1_2 : List (Ref sig .tc) := [main_v50, main_v51, main_v52, main_v53, main_c, main_v54, main_c_14, main_v55, main_cst_15]
theorem hW_hostOps1_2 : Cert.CubePad.Line.Writes (hostOps1_2 : List (HloOp τ sig (Elt F))) W_hostOps1_2 := by line_writes
theorem fresh_hostOps1_2 : (hostOps1_2 : List (HloOp τ sig (Elt F))).Forall fun op => op.fresh = ∅ := by line_fresh
abbrev W_hostOps1_3 : List (Ref sig .tc) := [main_call1_v0, main_call1_v1, main_v56]
theorem hW_hostOps1_3 : Cert.CubePad.Line.Writes (hostOps1_3 : List (HloOp τ sig (Elt F))) W_hostOps1_3 := by line_writes
theorem fresh_hostOps1_3 : (hostOps1_3 : List (HloOp τ sig (Elt F))).Forall fun op => op.fresh = ∅ := by line_fresh
abbrev W_hostOps1_4 : List (Ref sig .tc) := [main_cst_16, main_v57, main_c_17, main_v58, main_v59, main_v60, main_cst_18]
theorem hW_hostOps1_4 : Cert.CubePad.Line.Writes (hostOps1_4 : List (HloOp τ sig (Elt F))) W_hostOps1_4 := by line_writes
theorem fresh_hostOps1_4 : (hostOps1_4 : List (HloOp τ sig (Elt F))).Forall fun op => op.fresh = ∅ := by line_fresh
abbrev W_hostOps1_5 : List (Ref sig .tc) := [main_call2_v0, main_v61]
theorem hW_hostOps1_5 : Cert.CubePad.Line.Writes (hostOps1_5 : List (HloOp τ sig (Elt F))) W_hostOps1_5 := by line_writes
theorem fresh_hostOps1_5 : (hostOps1_5 : List (HloOp τ sig (Elt F))).Forall fun op => op.fresh = ∅ := by line_fresh
abbrev W_hostOps1_6 : List (Ref sig .tc) := [main_cst_19, main_v62, main_v63]
theorem hW_hostOps1_6 : Cert.CubePad.Line.Writes (hostOps1_6 : List (HloOp τ sig (Elt F))) W_hostOps1_6 := by line_writes
theorem fresh_hostOps1_6 : (hostOps1_6 : List (HloOp τ sig (Elt F))).Forall fun op => op.fresh = ∅ := by line_fresh

/-! ## The buffers' contents from segment to segment -/

/-- At launch. -/
abbrev Vl (c : Dev nD) : Valuation τ sig (Elt F) := fun b => m (c, b)

/-- When the region ends: the three result arrays at what the write-backs left, everything else as the region found it. -/
def Wr (c : Dev nD) : Valuation τ sig (Elt F) :=
  Function.update (Function.update (Function.update (V0 m c) (dv main_v40_0) ((dats m 0 c).arrAt 4 cfg0.N)) (dv main_v40_1) ((dats m 0 c).arrAt 5 cfg0.N)) (dv main_v40_2) ((dats m 0 c).arrAt 6 cfg0.N)

theorem Wr_v40_2 (c : Dev nD) : Wr m c (dv main_v40_2) = (dats m 0 c).arrAt 6 cfg0.N := Function.update_self ..
theorem Wr_v40_1 (c : Dev nD) : Wr m c (dv main_v40_1) = (dats m 0 c).arrAt 5 cfg0.N :=
  (Function.update_of_ne (by decide) ..).trans (Function.update_self ..)
theorem Wr_v40_0 (c : Dev nD) : Wr m c (dv main_v40_0) = (dats m 0 c).arrAt 4 cfg0.N :=
  (Function.update_of_ne (by decide) ..).trans ((Function.update_of_ne (by decide) ..).trans (Function.update_self ..))
theorem Wr_other (c : Dev nD) (b : DevRef τ sig) (h0 : b ≠ dv main_v40_0) (h1 : b ≠ dv main_v40_1) (h2 : b ≠ dv main_v40_2) :
    Wr m c b = V0 m c b :=
  (Function.update_of_ne h2 ..).trans ((Function.update_of_ne h1 ..).trans (Function.update_of_ne h0 ..))

abbrev T1 (c : Dev nD) : Valuation τ sig (Elt F) := StableHlo.after hostOps1 (Wr m c)
abbrev T2 (c : Dev nD) : Valuation τ sig (Elt F) := StableHlo.after hostOps1_1 (T1 m c)
abbrev T3 (c : Dev nD) : Valuation τ sig (Elt F) := StableHlo.after hostOps1_2 (T2 m c)
abbrev T4 (c : Dev nD) : Valuation τ sig (Elt F) := StableHlo.after hostOps1_3 (T3 m c)
abbrev T5 (c : Dev nD) : Valuation τ sig (Elt F) := StableHlo.after hostOps1_4 (T4 m c)
abbrev T6 (c : Dev nD) : Valuation τ sig (Elt F) := StableHlo.after hostOps1_5 (T5 m c)
/-- At the end of the program. -/
abbrev Wend (c : Dev nD) : Valuation τ sig (Elt F) := StableHlo.after hostOps1_6 (T6 m c)

/-! ## The region's arrays, one by one -/

/-- The five distinct buffers behind the seven windows' arrays. -/
theorem arrBufs_eq (c : Dev nD) (X : (b : Ref sig .tc) → Buf (Elt F) ((c : Thread nD τ).loc b)) :
    (Pipeline.arrBufs spec0 c X : sProp 𝕄)
      = iprop((((c : Thread nD τ).loc main_v38) ↦{fullShare} X main_v38) ∗ (((c : Thread nD τ).loc main_v39) ↦{fullShare} X main_v39)
          ∗ (((c : Thread nD τ).loc main_v40_0) ↦{fullShare} X main_v40_0) ∗ (((c : Thread nD τ).loc main_v40_1) ↦{fullShare} X main_v40_1)
          ∗ (((c : Thread nD τ).loc main_v40_2) ↦{fullShare} X main_v40_2)) := by
  unfold Pipeline.arrBufs
  exact bigSep_eq_bigSepL_of_eq [main_v38, main_v39, main_v40_0, main_v40_1, main_v40_2] (by decide) (by decide) _

theorem comp0 (c : Dev nD) (A0 : Buf (Elt F) ((cfg0.win (0 : Fin 7)).arr.view.loc (c : Thread nD τ))) :
    (((cfg0.win (0 : Fin 7)).arr.view.loc (c : Thread nD τ)) ↦[(cfg0.win (0 : Fin 7)).arr.view.set]{(dats m 0 c).share (0 : Fin 7)} A0 : sProp 𝕄)
      = (((c : Thread nD τ).loc main_v38) ↦{fullShare.left} A0) := by
  rw [(arr_whole0 0).set_eq_univ]; rfl

theorem comp1 (c : Dev nD) (A0 : Buf (Elt F) ((cfg0.win (1 : Fin 7)).arr.view.loc (c : Thread nD τ))) :
    (((cfg0.win (1 : Fin 7)).arr.view.loc (c : Thread nD τ)) ↦[(cfg0.win (1 : Fin 7)).arr.view.set]{(dats m 0 c).share (1 : Fin 7)} A0 : sProp 𝕄)
      = (((c : Thread nD τ).loc main_v38) ↦{fullShare.right} A0) := by
  rw [(arr_whole0 1).set_eq_univ]; rfl

theorem comp2 (c : Dev nD) (A0 : Buf (Elt F) ((cfg0.win (2 : Fin 7)).arr.view.loc (c : Thread nD τ))) :
    (((cfg0.win (2 : Fin 7)).arr.view.loc (c : Thread nD τ)) ↦[(cfg0.win (2 : Fin 7)).arr.view.set]{(dats m 0 c).share (2 : Fin 7)} A0 : sProp 𝕄)
      = (((c : Thread nD τ).loc main_v39) ↦{fullShare.left} A0) := by
  rw [(arr_whole0 2).set_eq_univ]; rfl

theorem comp3 (c : Dev nD) (A0 : Buf (Elt F) ((cfg0.win (3 : Fin 7)).arr.view.loc (c : Thread nD τ))) :
    (((cfg0.win (3 : Fin 7)).arr.view.loc (c : Thread nD τ)) ↦[(cfg0.win (3 : Fin 7)).arr.view.set]{(dats m 0 c).share (3 : Fin 7)} A0 : sProp 𝕄)
      = (((c : Thread nD τ).loc main_v39) ↦{fullShare.right} A0) := by
  rw [(arr_whole0 3).set_eq_univ]; rfl

theorem comp4 (c : Dev nD) (A0 : Buf (Elt F) ((cfg0.win (4 : Fin 7)).arr.view.loc (c : Thread nD τ))) :
    (((cfg0.win (4 : Fin 7)).arr.view.loc (c : Thread nD τ)) ↦[(cfg0.win (4 : Fin 7)).arr.view.set]{(dats m 0 c).share (4 : Fin 7)} A0 : sProp 𝕄)
      = (((c : Thread nD τ).loc main_v40_0) ↦{fullShare} A0) := by
  rw [(arr_whole0 4).set_eq_univ]; rfl

theorem comp5 (c : Dev nD) (A0 : Buf (Elt F) ((cfg0.win (5 : Fin 7)).arr.view.loc (c : Thread nD τ))) :
    (((cfg0.win (5 : Fin 7)).arr.view.loc (c : Thread nD τ)) ↦[(cfg0.win (5 : Fin 7)).arr.view.set]{(dats m 0 c).share (5 : Fin 7)} A0 : sProp 𝕄)
      = (((c : Thread nD τ).loc main_v40_1) ↦{fullShare} A0) := by
  rw [(arr_whole0 5).set_eq_univ]; rfl

theorem comp6 (c : Dev nD) (A0 : Buf (Elt F) ((cfg0.win (6 : Fin 7)).arr.view.loc (c : Thread nD τ))) :
    (((cfg0.win (6 : Fin 7)).arr.view.loc (c : Thread nD τ)) ↦[(cfg0.win (6 : Fin 7)).arr.view.set]{(dats m 0 c).share (6 : Fin 7)} A0 : sProp 𝕄)
      = (((c : Thread nD τ).loc main_v40_2) ↦{fullShare} A0) := by
  rw [(arr_whole0 6).set_eq_univ]; rfl

/-- The pipeline's arrays at contents `A`: window by window, each input window at its half. -/
theorem arrays_eq7 (c : Dev nD) (A : (w : Fin cfg0.W) → Buf (Elt F) ((cfg0.win w).arr.view.loc (c : Thread nD τ))) :
    ((dats m 0 c).arrays A : sProp 𝕄)
      = iprop((((c : Thread nD τ).loc main_v38) ↦{fullShare.left} A (0 : Fin 7)) ∗ (((c : Thread nD τ).loc main_v38) ↦{fullShare.right} A (1 : Fin 7))
          ∗ (((c : Thread nD τ).loc main_v39) ↦{fullShare.left} A (2 : Fin 7)) ∗ (((c : Thread nD τ).loc main_v39) ↦{fullShare.right} A (3 : Fin 7))
          ∗ (((c : Thread nD τ).loc main_v40_0) ↦{fullShare} A (4 : Fin 7)) ∗ (((c : Thread nD τ).loc main_v40_1) ↦{fullShare} A (5 : Fin 7))
          ∗ (((c : Thread nD τ).loc main_v40_2) ↦{fullShare} A (6 : Fin 7))) := by
  unfold Dat.arrays
  rw [bigSep_W0, comp0, comp1, comp2, comp3, comp4, comp5, comp6]

/-- An input window's array keeps its entry contents. -/
theorem arrAt_in (c : Dev nD) (w : Fin cfg0.W) (hw : (cfg0.win w).isOut = false) (n : ℕ) :
    (dats m 0 c).arrAt w n = V m c (Pipeline.arrRef spec0 w) :=
  ((dats m 0 c).arrAt_in w hw n).trans (A_eq m c w)

theorem arrAt_zero (c : Dev nD) (w : Fin cfg0.W) : (dats m 0 c).arrAt w 0 = V m c (Pipeline.arrRef spec0 w) :=
  (show (dats m 0 c).arrAt w 0 = (dats m 0 c).A w from rfl).trans (A_eq m c w)

theorem arr0_0 (c : Dev nD) : (dats m 0 c).arrAt (0 : Fin 7) 0 = V m c main_v38 := arrAt_zero m c 0
theorem arr0_1 (c : Dev nD) : (dats m 0 c).arrAt (1 : Fin 7) 0 = V m c main_v38 := arrAt_zero m c 1
theorem arr0_2 (c : Dev nD) : (dats m 0 c).arrAt (2 : Fin 7) 0 = V m c main_v39 := arrAt_zero m c 2
theorem arr0_3 (c : Dev nD) : (dats m 0 c).arrAt (3 : Fin 7) 0 = V m c main_v39 := arrAt_zero m c 3
theorem arr0_4 (c : Dev nD) : (dats m 0 c).arrAt (4 : Fin 7) 0 = V m c main_v40_0 := arrAt_zero m c 4
theorem arr0_5 (c : Dev nD) : (dats m 0 c).arrAt (5 : Fin 7) 0 = V m c main_v40_1 := arrAt_zero m c 5
theorem arr0_6 (c : Dev nD) : (dats m 0 c).arrAt (6 : Fin 7) 0 = V m c main_v40_2 := arrAt_zero m c 6
theorem arrN_0 (c : Dev nD) : (dats m 0 c).arrAt (0 : Fin 7) cfg0.N = V m c main_v38 := arrAt_in m c 0 rfl _
theorem arrN_1 (c : Dev nD) : (dats m 0 c).arrAt (1 : Fin 7) cfg0.N = V m c main_v38 := arrAt_in m c 1 rfl _
theorem arrN_2 (c : Dev nD) : (dats m 0 c).arrAt (2 : Fin 7) cfg0.N = V m c main_v39 := arrAt_in m c 2 rfl _
theorem arrN_3 (c : Dev nD) : (dats m 0 c).arrAt (3 : Fin 7) cfg0.N = V m c main_v39 := arrAt_in m c 3 rfl _

/-- After the last point the invariant gives the class invariant back: the scratch contents are forgotten. -/
theorem Phi_last (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.KernelIdeal.Hand

end
-- ==== Proof.KiMain.lean ====
/-
  The launch.  The kernel region as a segment between the host lines: on entry the five buffers behind the windows'
  arrays are taken out of the unscoped buffers, the two shared ones split in halves; on exit the halves are joined, the
  three result arrays are at what the write-backs left, and all unscoped buffers are held again.  Then the program's run
  by the segments' rule, and from it the frame: the three argument arrays end as they were.
-/
import proofs.«133961_j23673859736131_2_alg».proof.Proof.KiLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000

variable (m : (ℓ : Loc nD τ sig) → Buf (Elt F) ℓ) (ρ : Dev nD → PrngReg)

abbrev HS := Pipeline.HostSeg (Name := ℕ) (U := UR sig nD τ) (pcfgs (F := F)) defs₀ 𝒱₀ Lz lvz

theorem subU {ops : List (HloOp τ sig (Elt F))} (h : ops.Forall fun op => op.bufs ⊆ StableHlo.tcRefs τ sig) :
    ∀ op ∈ ops, op.bufs ⊆ ucR := fun op hop =>
  Pipeline.sub_ucRefs op ((List.forall_iff_forall_mem.mp h) op hop)

def seg0 : HS (F := F) := Pipeline.HostSeg.ofOps _ _ _ _ _ ucR hostOps0 (subU hostOps0_sub) (List.forall_iff_forall_mem.mp fresh_hostOps0) (Vl m) Rst
def seg1 : HS (F := F) := Pipeline.HostSeg.ofOps _ _ _ _ _ ucR hostOps1 (subU hostOps1_sub) (List.forall_iff_forall_mem.mp fresh_hostOps1) (Wr m) Rst
def seg2 : HS (F := F) := Pipeline.HostSeg.ofOps _ _ _ _ _ ucR hostOps1_1 (subU hostOps1_1_sub) (List.forall_iff_forall_mem.mp fresh_hostOps1_1) (T1 m) Rst
def seg3 : HS (F := F) := Pipeline.HostSeg.ofOps _ _ _ _ _ ucR hostOps1_2 (subU hostOps1_2_sub) (List.forall_iff_forall_mem.mp fresh_hostOps1_2) (T2 m) Rst
def seg4 : HS (F := F) := Pipeline.HostSeg.ofOps _ _ _ _ _ ucR hostOps1_3 (subU hostOps1_3_sub) (List.forall_iff_forall_mem.mp fresh_hostOps1_3) (T3 m) Rst
def seg5 : HS (F := F) := Pipeline.HostSeg.ofOps _ _ _ _ _ ucR hostOps1_4 (subU hostOps1_4_sub) (List.forall_iff_forall_mem.mp fresh_hostOps1_4) (T4 m) Rst
def seg6 : HS (F := F) := Pipeline.HostSeg.ofOps _ _ _ _ _ ucR hostOps1_5 (subU hostOps1_5_sub) (List.forall_iff_forall_mem.mp fresh_hostOps1_5) (T5 m) Rst
def seg7 : HS (F := F) := Pipeline.HostSeg.ofOps _ _ _ _ _ ucR hostOps1_6 (subU hostOps1_6_sub) (List.forall_iff_forall_mem.mp fresh_hostOps1_6) (T6 m) Rst

/-- The unscoped buffers that are no window's array are the same before and after the region. -/
theorem rest_Wr (c : Dev nD) :
    (Pipeline.unscopedRest spec0 c (fun b => Wr m c (dv b)) : sProp 𝕄) = Pipeline.unscopedRest spec0 c (V m c) := by
  unfold Pipeline.unscopedRest
  refine bigSep_congr fun b hb => ?_
  dsimp only
  have hb' : b ∉ Finset.univ.image (Pipeline.arrRef spec0) := (Finset.mem_sdiff.mp hb).2
  have hne : ∀ w : Fin 7, Pipeline.arrRef spec0 w ≠ b := fun w e => hb' (Finset.mem_image.mpr ⟨w, Finset.mem_univ _, e⟩)
  rw [Wr_other m c (dv b) (fun e => hne 4 (Proc.devRef_injective _ e).symm) (fun e => hne 5 (Proc.devRef_injective _ e).symm)
    (fun e => hne 6 (Proc.devRef_injective _ e).symm)]

-- unification of the library's statements over `cfgs p` with this program's configuration unfolds plain definitions
set_option backward.isDefEq.respectTransparency.types false in
def reg0 : Pipeline.RegionSeg (pcfgs (F := F)) adm (dats m) () defs₀ 𝒱₀ Lz lvz 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ Lz lvz 0 fun _ _ => rfl
  pre c := iprop(StableHlo.held (c : Thread nD τ) ucR (V0 m c) ∗ Rst c)
  post c := iprop(StableHlo.held (c : Thread nD τ) ucR (Wr m c) ∗ Rst c)
  X c := iprop(∃ r, prngReg c r)
  Y c := iprop(∃ r, prngReg c r)
  Z c := Pipeline.unscopedRest spec0 c (V m c)
  hentry c := by
    rw [show StableHlo.held (c : Thread nD τ) ucR (V0 m c) = unscopedBufs c (V m c) from (Pipeline.unscopedBufs_held c _).symm,
      Pipeline.unscopedBufs_split₀ cfgs 0 winFacts₀0.arr_unscoped c (V m c), arrBufs_eq, arrays_eq7, Pipeline.ownSems0_none,
      arr0_0, arr0_1, arr0_2, arr0_3, arr0_4, arr0_5, arr0_6]
    iintro ⟨⟨⟨⟨H38, H39, H0, H1, H2⟩, Hrest⟩, ⟨Hp, HO⟩⟩, -, -⟩
    ihave H38s := (pointsTo_share (PosShare.mem_left_op_right fullShare)).1 $$ H38
    ihave H39s := (pointsTo_share (PosShare.mem_left_op_right fullShare)).1 $$ H39
    icases H38s with ⟨H38l, H38r⟩
    icases H39s with ⟨H39l, H39r⟩
    imodintro
    isplitl [H38l H38r H39l H39r H0 H1 H2]
    · isplitl [H38l]; · iexact H38l
      isplitl [H38r]; · iexact H38r
      isplitl [H39l]; · iexact H39l
      isplitl [H39r]; · iexact H39r
      isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none]
    refine (Phi_last m c).trans ?_
    unfold Pipeline.ΦA
    iintro ⟨Hr, Hp⟩
    isplitl [Hp]; · iexact Hp
    isplitr; · iempintro
    iexact Hr
  hexit c := by
    rw [show StableHlo.held (c : Thread nD τ) ucR (Wr m c) = unscopedBufs c (fun b => Wr m c (dv b)) from (Pipeline.unscopedBufs_held c _).symm,
      Pipeline.unscopedBufs_split₀ cfgs 0 winFacts₀0.arr_unscoped c (fun b => Wr m c (dv b)), arrBufs_eq, arrays_eq7, rest_Wr,
      Wr_v40_0, Wr_v40_1, Wr_v40_2,
      Wr_other m c (dv main_v38) (by decide) (by decide) (by decide), Wr_other m c (dv main_v39) (by decide) (by decide) (by decide),
      arrN_0, arrN_1, arrN_2, arrN_3]
    iintro ⟨⟨H38l, H38r, H39l, H39r, H0, H1, H2⟩, HO, Hp, Hrest⟩
    ihave H38 := (pointsTo_share (PosShare.mem_left_op_right fullShare)).2 $$ [H38l H38r]
    · isplitl [H38l] <;> iassumption
    ihave H39 := (pointsTo_share (PosShare.mem_left_op_right fullShare)).2 $$ [H39l H39r]
    · isplitl [H39l] <;> iassumption
    imodintro
    isplitr [Hp HO]
    · isplitr [Hrest]
      · isplitl [H38]; · iexact H38
        isplitl [H39]; · iexact H39
        isplitl [H0]; · iexact H0
        isplitl [H1]; · iexact H1
        iexact H2
      · iexact Hrest
    · isplitl [Hp]; · iexact Hp
      unfold Pipeline.Dat.owesAt Pipeline.owesWithin
      icases HO with ⟨%W, -, HO⟩; iexists W; iexact HO

abbrev segs : List (Pipeline.Seg (pcfgs (F := F)) adm (dats m) () defs₀ 𝒱₀ Lz lvz) :=
  [.host (seg0 m), .region (reg0 m), .host (seg1 m), .host (seg2 m), .host (seg3 m), .host (seg4 m), .host (seg5 m), .host (seg6 m), .host (seg7 m)]

/-- The run's post: every unscoped buffer at what the segments compute. -/
def QC : PUnit × MemSt nD τ sig (Elt F) → Prop := fun r =>
  ∀ c : Dev nD, ∀ b ∈ ucR, r.2.mem (c, b) = Wend m c b

set_option backward.isDefEq.respectTransparency.types false in
theorem run_main : θ_run defs (onTc (τ := τ) (main (F := F))) ⟨m, fun _ => 0, ρ⟩ (QC m) :=
  Pipeline.θ_run_regions_kit (pcfgs (F := F)) adm (dats m) () cellOf_inj EP defs₀ 𝒱₀ Lz lvz m ρ main (segs m)
    (fun c Q => by rw [main_chain, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucR (Vl m c) ∗ Rst c))
    (Tₙ := fun c => iprop(StableHlo.held (c : Thread nD τ) ucR (Wend m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) ucR (Wend m c) ∗ Rst c) ⊢ _
        iintro ⟨Hh, Hp, HO⟩
        isplitr [HO]
        · isplitl [Hh] <;> iassumption
        · iexact HO⟩)
    (hinit := by
      refine Pipeline.initEach Lz lvz fun c => ?_
      rw [show unscopedBufs c (fun b => m ((c : Thread nD τ).loc b)) = StableHlo.held (c : Thread nD τ) ucR (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucR, s.mem (c, b) = Wend m c b)
    (hfin := fun c s' => by
      iintro ⟨⟨Hh, -⟩, HSI⟩
      unfold StableHlo.held
      imodintro
      iapply (pointsTo_read_all ucR (fun b => ((c, b) : Loc nD τ sig)) (Wend m c) s')
      isplitl [Hh] <;> iassumption)
    (hQ := fun _ h => h)

/-- info: 'Cert.KernelIdeal.Hand.run_main' depends on axioms: [propext, Classical.choice, Quot.sound] -/
#guard_msgs in #print axioms run_main

end Cert.KernelIdeal.Hand

end
-- ==== Proof.KiFrame.lean ====
/-
  From the run to the frame: no host line writes an argument array and none is a result array of the kernel call, so
  each of the three ends at its launch contents.  Also the run restated with the program's result named.
-/
import proofs.«133961_j23673859736131_2_alg».proof.Proof.KiMain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A reference no stretch of host lines writes, and no result array of the kernel call, ends at its launch contents. -/
theorem Wend_keeps (c : Dev nD) (b : Ref sig .tc) (h0 : b ∉ W_hostOps0) (h1 : b ∉ W_hostOps1) (h2 : b ∉ W_hostOps1_1) (h3 : b ∉ W_hostOps1_2)
    (h4 : b ∉ W_hostOps1_3) (h5 : b ∉ W_hostOps1_4) (h6 : b ∉ W_hostOps1_5) (h7 : b ∉ W_hostOps1_6)
    (hv0 : b ≠ main_v40_0) (hv1 : b ≠ main_v40_1) (hv2 : b ≠ main_v40_2) :
    Wend m c (dv b) = m (c, dv b) :=
  ((hW_hostOps1_6 (F := F)).arg _ h7).trans (((hW_hostOps1_5 (F := F)).arg _ h6).trans (((hW_hostOps1_4 (F := F)).arg _ h5).trans
    (((hW_hostOps1_3 (F := F)).arg _ h4).trans (((hW_hostOps1_2 (F := F)).arg _ h3).trans (((hW_hostOps1_1 (F := F)).arg _ h2).trans
    (((hW_hostOps1 (F := F)).arg _ h1).trans ((Wr_other m c (dv b) (fun e => hv0 (Proc.devRef_injective _ e)) (fun e => hv1 (Proc.devRef_injective _ e))
      (fun e => hv2 (Proc.devRef_injective _ e))).trans ((hW_hostOps0 (F := F)).arg _ h0))))))))

theorem mem_ucR (b : Ref sig .tc) (hb : (dv b).isScoped = false) : dv b ∈ ucR :=
  Finset.mem_filter.mpr ⟨StableHlo.devRef_mem_tcRefs b, by simp [hb]⟩

/-- THE FRAME at any float instance: every weakly fair execution ends, nothing faults, the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c (dv main_arg0) (mem_ucR main_arg0 rfl)).trans (Wend_keeps m c main_arg0 (by decide) (by decide) (by decide) (by decide) (by decide) (by decide) (by decide) (by decide) (by decide) (by decide) (by decide)),
     (h c (dv main_arg1) (mem_ucR main_arg1 rfl)).trans (Wend_keeps m c main_arg1 (by decide) (by decide) (by decide) (by decide) (by decide) (by decide) (by decide) (by decide) (by decide) (by decide) (by decide)),
     (h c (dv main_arg2) (mem_ucR main_arg2 rfl)).trans (Wend_keeps m c main_arg2 (by decide) (by decide) (by decide) (by decide) (by decide) (by decide) (by decide) (by decide) (by decide) (by decide) (by decide))⟩)
    (run_main m ρ)

/-- The run with the program's result named: the last line's buffer at what the segments compute, the arguments unchanged. -/
theorem run_result : θ_run defs (onTc (τ := τ) (main (F := F))) ⟨m, fun _ => 0, ρ⟩ (fun r => ∀ c : Dev nD,
      r.2.mem ((c.tc : Thread nD τ).loc main_v63) = Wend m c (dv main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c (dv main_v63) (mem_ucR main_v63 rfl),
     (h c (dv main_arg0) (mem_ucR main_arg0 rfl)).trans (Wend_keeps m c main_arg0 (by decide) (by decide) (by decide) (by decide) (by decide) (by decide) (by decide) (by decide) (by decide) (by decide) (by decide)),
     (h c (dv main_arg1) (mem_ucR main_arg1 rfl)).trans (Wend_keeps m c main_arg1 (by decide) (by decide) (by decide) (by decide) (by decide) (by decide) (by decide) (by decide) (by decide) (by decide) (by decide)),
     (h c (dv main_arg2) (mem_ucR main_arg2 rfl)).trans (Wend_keeps m c main_arg2 (by decide) (by decide) (by decide) (by decide) (by decide) (by decide) (by decide) (by decide) (by decide) (by decide) (by decide))⟩)
    (run_main m ρ)

end Cert.KernelIdeal.Hand

end
-- ==== Proof.Spec.lean ====
/-
  The host computations the two programs share, and the row statistics in closed form, at the ideal instance (a float an
  extended real, every operation exact).

  `head x l`, from the logits `x` and the integer labels `l` (both 4096 × 64): the mean binary cross-entropy
  (Σ max(x, 0) − x·l + log(1 + e^{−|x|})) / 262144, a scalar, and for each row i the entropy weight
  w_i = (Σ_k h(p_ik)·l_ik) / (Σ_k l_ik + 1e-8), where p = 1 / (1 + e^{−x}) and h(p) = −(p·log(p + 1e-8) + (1 − p)·log(1 − p + 1e-8)).

  `tail bce w pos neg valid`, from those two and three row vectors: ratio_i = valid_i ? pos_i / (neg_i + 1e-8) : 1,
  loss_i = −log(ratio_i)·w_i, n = the number of valid rows, and the result bce + 1·(n > 0 ? (Σ_i valid_i ? loss_i : 0) / max(n, 1) : 0).

  Both are written as compositions of whole-array operations over literal shapes, in the order a host program applies them.

  The row statistics, for embeddings `E` (4096 × 1024) and float labels `Lf` (4096 × 64), over rows i, j:
  s(i,j) = ⟨E_i, E_j⟩ / T with T the temperature, lab(i,j) = ⟨Lf_i, Lf_j⟩, c_i = max over j ≠ i of s(i,j),
  pos_i = Σ_{j ≠ i, lab(i,j) > 0} exp(s(i,j) − c_i), neg_i = Σ_{j ≠ i} exp(s(i,j) − c_i), valid_i = ∃ j ≠ i, lab(i,j) > 0.
-/
import Idealize.ShloMosaic.PureOps.Ideal
import Idealize.ShloMosaic.Lib.ValueIdx

noncomputable section

open scoped BigOperators

namespace Cert.Proof.Spec

open Idealize.ShloMosaic Idealize.ShloMosaic.ValueIdx

/-! ## Shapes and the facts about them the operations take -/

abbrev S_ : Shape := ⟨0, ![]⟩
abbrev S4096 : Shape := ⟨1, ![4096]⟩
abbrev S4096x64 : Shape := ⟨2, ![4096, 64]⟩
abbrev S4096x1024 : Shape := ⟨2, ![4096, 1024]⟩

theorem bcast_S_S4096x64 : S_.BroadcastsInDim S4096x64 (![] : Fin 0 → Fin S4096x64.rank) := by decide
theorem bcast_S_S4096 : S_.BroadcastsInDim S4096 (![] : Fin 0 → Fin S4096.rank) := by decide
theorem reducesTo_S4096x64_S_d0_1 : S4096x64.ReducesTo [0, 1] S_ := by decide
theorem reducesTo_S4096x64_S4096_d1 : S4096x64.ReducesTo [1] S4096 := by decide
theorem reducesTo_S4096_S_d0 : S4096.ReducesTo [0] S_ := by decide
theorem h_S_ : 0 < S_.numel := by decide
theorem natLt_1_32 : 1 < 32 := by decide

/-- A scalar float constant, and the same spread over the 4096 × 64 arrays and over the rows. -/
abbrev scalar (b : BitVec 32) : FVec Ideal S_ .f32 := constant (F := Ideal) S_ .f32 b
abbrev splat64 (b : BitVec 32) : FVec Ideal S4096x64 .f32 := broadcastInDim S4096x64 ![] bcast_S_S4096x64 (scalar b)
abbrev splat (b : BitVec 32) : FVec Ideal S4096 .f32 := broadcastInDim S4096 ![] bcast_S_S4096 (scalar b)

/-! ## Before the row statistics: the cross-entropy and the entropy weights -/

/-- The labels as floats. -/
def labelsF (l : IVec S4096x64 32) : FVec Ideal S4096x64 .f32 := sitofp (F := Ideal) .f32 l

/-- The mean over all 4096 · 64 entries of max(x, 0) − x·l + log(1 + e^{−|x|}). -/
def bce (x : FVec Ideal S4096x64 .f32) (l : IVec S4096x64 32) : FVec Ideal S_ .f32 :=
  Host.divf (F := Ideal)
    (Host.reduceAdd (F := Ideal)
      (addf (subf (maximumf x (splat64 0x00000000#32)) (mulf x (labelsF l)))
        (Host.log1p (Host.exp (Host.negf (Host.absf x)))))
      (scalar 0x00000000#32) reducesTo_S4096x64_S_d0_1 h_S_)
    (scalar 0x48800000#32)

/-- p = 1 / (1 + e^{−x}), entry by entry. -/
def prob (x : FVec Ideal S4096x64 .f32) : FVec Ideal S4096x64 .f32 :=
  Host.divf (F := Ideal) (splat64 0x3F800000#32) (addf (splat64 0x3F800000#32) (Host.exp (Host.negf x)))

/-- h(p) = −(p·log(p + 1e-8) + (1 − p)·log(1 − p + 1e-8)), entry by entry. -/
def entropy (x : FVec Ideal S4096x64 .f32) : FVec Ideal S4096x64 .f32 :=
  Host.negf
    (addf (mulf (prob x) (Host.log (addf (prob x) (splat64 0x322BCC77#32))))
      (mulf (subf (splat64 0x3F800000#32) (prob x))
        (Host.log (addf (subf (splat64 0x3F800000#32) (prob x)) (splat64 0x322BCC77#32)))))

/-- w_i = (Σ_k h(p_ik)·l_ik) / (Σ_k l_ik + 1e-8). -/
def weights (x : FVec Ideal S4096x64 .f32) (l : IVec S4096x64 32) : FVec Ideal S4096 .f32 :=
  Host.divf (F := Ideal)
    (Host.reduceAdd (F := Ideal) (mulf (entropy x) (labelsF l)) (scalar 0x00000000#32) reducesTo_S4096x64_S4096_d1 h_S_)
    (addf (Host.reduceAdd (F := Ideal) (labelsF l) (scalar 0x00000000#32) reducesTo_S4096x64_S4096_d1 h_S_)
      (splat 0x322BCC77#32))

/-- The cross-entropy and the weights. -/
def head (x : FVec Ideal S4096x64 .f32) (l : IVec S4096x64 32) : FVec Ideal S_ .f32 × FVec Ideal S4096 .f32 :=
  (bce x l, weights x l)

/-! ## After the row statistics: the ratio, its logarithm, the mean over the valid rows -/

/-- ratio_i = valid_i ? pos_i / (neg_i + 1e-8) : 1. -/
def ratio (pos neg : FVec Ideal S4096 .f32) (valid : IVec S4096 1) : FVec Ideal S4096 .f32 :=
  select valid (Host.divf (F := Ideal) pos (addf neg (splat 0x322BCC77#32))) (splat 0x3F800000#32)

/-- The number of valid rows, as a 32-bit word. -/
def count (valid : IVec S4096 1) : IVec S_ 32 :=
  Host.reduce IntOp.addi (extui 32 valid natLt_1_32) (constantI S_ 32 0#32) reducesTo_S4096_S_d0 h_S_

/-- bce + 1·(n > 0 ? (Σ_i valid_i ? −log(ratio_i)·w_i : 0) / max(n, 1) : 0). -/
def tail (bce : FVec Ideal S_ .f32) (w pos neg : FVec Ideal S4096 .f32) (valid : IVec S4096 1) : FVec Ideal S_ .f32 :=
  addf bce
    (mulf (scalar 0x3F800000#32)
      (select (cmpi .sgt (count valid) (constantI S_ 32 0#32))
        (Host.divf (F := Ideal)
          (Host.reduceAdd (F := Ideal)
            (select valid (mulf (Host.negf (Host.log (ratio pos neg valid))) w) (splat 0x00000000#32))
            (scalar 0x00000000#32) reducesTo_S4096_S_d0 h_S_)
          (sitofp (F := Ideal) .f32 (maxsi (count valid) (constantI S_ 32 1#32))))
        (scalar 0x00000000#32)))

/-! ## The row statistics in closed form -/

/-- The temperature the similarities are divided by: the value of the word 0x3D8F5C29. -/
def temp : EReal := Ideal.ofBits .f32 0x3D8F5C29#32

/-- It is 9395241 / 2^27. -/
theorem temp_eq : temp = ((9395241 / 134217728 : ℝ) : EReal) := by
  unfold temp
  simp [Ideal.ofBits, Ideal.ieee, -EReal.coe_mul]
  norm_num

/-- s(i,j) = ⟨E_i, E_j⟩ / T. -/
def sR (E : FVec Ideal S4096x1024 .f32) (i j : Fin 4096) : EReal :=
  Ideal.div (∑ k : Fin 1024, E (ix2 i k) * E (ix2 j k)) temp

/-- lab(i,j) = ⟨Lf_i, Lf_j⟩. -/
def labR (Lf : FVec Ideal S4096x64 .f32) (i j : Fin 4096) : EReal :=
  ∑ k : Fin 64, Lf (ix2 i k) * Lf (ix2 j k)

/-- c_i = the maximum over j ≠ i of s(i,j): the supremum over all j with −∞ on the diagonal. -/
def cR (E : FVec Ideal S4096x1024 .f32) (i : Fin 4096) : EReal :=
  Finset.univ.sup fun j : Fin 4096 => if j = i then (⊥ : EReal) else sR E i j

/-- pos_i = Σ over j ≠ i with lab(i,j) > 0 of exp(s(i,j) − c_i). -/
def posR (E : FVec Ideal S4096x1024 .f32) (Lf : FVec Ideal S4096x64 .f32) (i : Fin 4096) : EReal :=
  ∑ j : Fin 4096, if 0 < labR Lf i j ∧ j ≠ i then Ideal.exp (sR E i j - cR E i) else 0

/-- neg_i = Σ over j ≠ i of exp(s(i,j) − c_i). -/
def negR (E : FVec Ideal S4096x1024 .f32) (i : Fin 4096) : EReal :=
  ∑ j : Fin 4096, if j ≠ i then Ideal.exp (sR E i j - cR E i) else 0

/-- valid_i: some other row shares a label with row i. -/
def validR (Lf : FVec Ideal S4096x64 .f32) (i : Fin 4096) : Prop :=
  ∃ j : Fin 4096, j ≠ i ∧ 0 < labR Lf i j

end Cert.Proof.Spec

end
-- ==== Proof.KiHost.lean ====
/-
  The idealized kernel program's host lines, read as terms of what they start from.

  Before the kernel call: lines 0–49 compute the mean cross-entropy and the entropy weights from the logits and labels —
  the same operations as `Spec.bce` and `Spec.weights` —, and lines 50–51 change the format of the embeddings and of the
  float labels, which at the ideal instance changes no entry. After the call: the seven stretches of lines are one line
  of 38 operations; from the cross-entropy, the weights and the call's three results (each a 4096 × 1 column, read as a
  vector of 4096 entries; the third compared with zero) they compute `Spec.tail`. Each operation writes a buffer of its
  own and is read one at a time, from the result back.
-/
import proofs.«133961_j23673859736131_2_alg».proof.Proof.KiLaunch
import proofs.«133961_j23673859736131_2_alg».proof.Proof.Spec

noncomputable section

namespace Cert.KernelIdeal.Hand

open Cert.KernelIdeal Cert.KernelIdeal.Gen Idealize.ShloMosaic Idealize.ShloMosaic.StableHlo
open Cert.Line Cert.CubePad.Line Cert.Proof

/-! ## The lines before the kernel call -/

set_option maxHeartbeats 800000 in
/-- Lines 0–14: the mean cross-entropy. -/
theorem pre_bce_read (U : Valuation τ sig (Elt Ideal)) (x : FVec Ideal Spec.S4096x64 .f32) (l : IVec Spec.S4096x64 32)
    (hx : U (dv main_arg1) = x) (hl : U (dv main_arg2) = l) :
    after (hostOps0 (F := Ideal)) U (dv main_v11) = Spec.bce x l := by
  unfold dv at hx hl ⊢
  line_step (hW_hostOps0 (F := Ideal)) U 14
  line_step (hW_hostOps0 (F := Ideal)) U 13
  line_step (hW_hostOps0 (F := Ideal)) U 12
  line_step (hW_hostOps0 (F := Ideal)) U 11
  line_step (hW_hostOps0 (F := Ideal)) U 10
  line_step (hW_hostOps0 (F := Ideal)) U 9
  line_step (hW_hostOps0 (F := Ideal)) U 8
  line_step (hW_hostOps0 (F := Ideal)) U 7
  line_step (hW_hostOps0 (F := Ideal)) U 6
  line_step (hW_hostOps0 (F := Ideal)) U 5
  line_step (hW_hostOps0 (F := Ideal)) U 4
  line_step (hW_hostOps0 (F := Ideal)) U 3
  line_step (hW_hostOps0 (F := Ideal)) U 2
  line_step (hW_hostOps0 (F := Ideal)) U 1
  line_step (hW_hostOps0 (F := Ideal)) U 0
  rw [(hW_hostOps0 (F := Ideal)).arg U (r := main_arg1) (by decide),
    (hW_hostOps0 (F := Ideal)).arg U (r := main_arg2) (by decide), hx, hl]
  unfold Spec.bce Spec.labelsF
  first
    | with_reducible rfl
    | (trace_state; fail "closing rfl: mismatch")

set_option maxHeartbeats 1200000 in
/-- Lines 0 and 15–49: the entropy weights. -/
theorem pre_weights_read (U : Valuation τ sig (Elt Ideal)) (x : FVec Ideal Spec.S4096x64 .f32) (l : IVec Spec.S4096x64 32)
    (hx : U (dv main_arg1) = x) (hl : U (dv main_arg2) = l) :
    after (hostOps0 (F := Ideal)) U (dv main_v37) = Spec.weights x l := by
  unfold dv at hx hl ⊢
  line_step (hW_hostOps0 (F := Ideal)) U 49
  line_step (hW_hostOps0 (F := Ideal)) U 48
  line_step (hW_hostOps0 (F := Ideal)) U 47
  line_step (hW_hostOps0 (F := Ideal)) U 46
  line_step (hW_hostOps0 (F := Ideal)) U 45
  line_step (hW_hostOps0 (F := Ideal)) U 44
  line_step (hW_hostOps0 (F := Ideal)) U 43
  line_step (hW_hostOps0 (F := Ideal)) U 42
  line_step (hW_hostOps0 (F := Ideal)) U 41
  line_step (hW_hostOps0 (F := Ideal)) U 40
  line_step (hW_hostOps0 (F := Ideal)) U 39
  line_step (hW_hostOps0 (F := Ideal)) U 38
  line_step (hW_hostOps0 (F := Ideal)) U 37
  line_step (hW_hostOps0 (F := Ideal)) U 36
  line_step (hW_hostOps0 (F := Ideal)) U 35
  line_step (hW_hostOps0 (F := Ideal)) U 34
  line_step (hW_hostOps0 (F := Ideal)) U 33
  line_step (hW_hostOps0 (F := Ideal)) U 32
  line_step (hW_hostOps0 (F := Ideal)) U 31
  line_step (hW_hostOps0 (F := Ideal)) U 30
  line_step (hW_hostOps0 (F := Ideal)) U 29
  line_step (hW_hostOps0 (F := Ideal)) U 28
  line_step (hW_hostOps0 (F := Ideal)) U 27
  line_step (hW_hostOps0 (F := Ideal)) U 26
  line_step (hW_hostOps0 (F := Ideal)) U 25
  line_step (hW_hostOps0 (F := Ideal)) U 24
  line_step (hW_hostOps0 (F := Ideal)) U 23
  line_step (hW_hostOps0 (F := Ideal)) U 22
  line_step (hW_hostOps0 (F := Ideal)) U 21
  line_step (hW_hostOps0 (F := Ideal)) U 20
  line_step (hW_hostOps0 (F := Ideal)) U 19
  line_step (hW_hostOps0 (F := Ideal)) U 18
  line_step (hW_hostOps0 (F := Ideal)) U 17
  line_step (hW_hostOps0 (F := Ideal)) U 16
  line_step (hW_hostOps0 (F := Ideal)) U 15
  line_step (hW_hostOps0 (F := Ideal)) U 0
  rw [(hW_hostOps0 (F := Ideal)).arg U (r := main_arg1) (by decide),
    (hW_hostOps0 (F := Ideal)).arg U (r := main_arg2) (by decide), hx, hl]
  unfold Spec.weights Spec.entropy Spec.prob Spec.labelsF
  first
    | with_reducible rfl
    | (trace_state; fail "closing rfl: mismatch")

/-- Line 50: the embeddings in the narrower format — entry by entry the embeddings. -/
theorem pre_emb_read (U : Valuation τ sig (Elt Ideal)) (e : FVec Ideal S4096x1024 .f32) (he : U (dv main_arg0) = e)
    (idx : S4096x1024.Idx) : after (hostOps0 (F := Ideal)) U (dv main_v38) idx = e idx := by
  unfold dv at he ⊢
  line_step (hW_hostOps0 (F := Ideal)) U 50
  rw [(hW_hostOps0 (F := Ideal)).arg U (r := main_arg0) (by decide), he]
  rfl

/-- Lines 0 and 51: the float labels in the narrower format — entry by entry the float labels. -/
theorem pre_lab_read (U : Valuation τ sig (Elt Ideal)) (l : IVec Spec.S4096x64 32) (hl : U (dv main_arg2) = l)
    (idx : S4096x64.Idx) : after (hostOps0 (F := Ideal)) U (dv main_v39) idx = Spec.labelsF l idx := by
  unfold dv at hl ⊢
  line_step (hW_hostOps0 (F := Ideal)) U 51
  line_step (hW_hostOps0 (F := Ideal)) U 0
  rw [(hW_hostOps0 (F := Ideal)).arg U (r := main_arg2) (by decide), hl]
  rfl

/-! ## The lines after the kernel call, as one line -/

/-- The 38 operations after the call, in order. -/
abbrev tailOps {F : FTy → Type} [FloatOps F] [Named F] : List (HloOp τ sig (Elt F)) :=
  hostOps1 ++ (hostOps1_1 ++ (hostOps1_2 ++ (hostOps1_3 ++ (hostOps1_4 ++ (hostOps1_5 ++ hostOps1_6)))))

/-- The references they write, in order. -/
abbrev W_tail : List (Ref sig .tc) :=
  W_hostOps1 ++ (W_hostOps1_1 ++ (W_hostOps1_2 ++ (W_hostOps1_3 ++ (W_hostOps1_4 ++ (W_hostOps1_5 ++ W_hostOps1_6)))))

theorem hW_tail {F : FTy → Type} [FloatOps F] [Named F] : Writes (tailOps : List (HloOp τ sig (Elt F))) W_tail :=
  writes_append hW_hostOps1 (writes_append hW_hostOps1_1 (writes_append hW_hostOps1_2 (writes_append hW_hostOps1_3
    (writes_append hW_hostOps1_4 (writes_append hW_hostOps1_5 hW_hostOps1_6)))))

/-- The contents at the end of the program are the one line run from the contents the region left. -/
theorem Wend_eq {F : FTy → Type} [FloatOps F] [Named F] (m : (ℓ : Loc nD τ sig) → Buf (Elt F) ℓ) (c : Dev nD) :
    Wend m c = after tailOps (Wr m c) := by
  unfold tailOps
  rw [StableHlo.after_append, StableHlo.after_append, StableHlo.after_append, StableHlo.after_append,
    StableHlo.after_append, StableHlo.after_append]

/-- A 4096 × 1 column read as a vector of 4096 entries. -/
def col (a : FVec Ideal S4096x1 .f32) : FVec Ideal S4096 .f32 := shapeCast S4096 a shapeCasts_S4096x1_S4096

set_option maxHeartbeats 1600000 in
/-- The 38 operations after the call: the result from the cross-entropy, the weights and the call's three columns. -/
theorem post_tail_read (U : Valuation τ sig (Elt Ideal)) (b : FVec Ideal Spec.S_ .f32) (w : FVec Ideal Spec.S4096 .f32)
    (a0 a1 a2 : FVec Ideal S4096x1 .f32)
    (hb : U (dv main_v11) = b) (hw : U (dv main_v37) = w) (h0 : U (dv main_v40_0) = a0) (h1 : U (dv main_v40_1) = a1)
    (h2 : U (dv main_v40_2) = a2) :
    after (tailOps (F := Ideal)) U (dv main_v63)
      = Spec.tail b w (col a0) (col a1) (cmpf .ogt (col a2) (Spec.splat 0x00000000#32)) := by
  unfold dv at hb hw h0 h1 h2 ⊢
  line_step (hW_tail (F := Ideal)) U 37
  line_step (hW_tail (F := Ideal)) U 36
  line_step (hW_tail (F := Ideal)) U 35
  line_step (hW_tail (F := Ideal)) U 34
  line_step (hW_tail (F := Ideal)) U 33
  line_step (hW_tail (F := Ideal)) U 32
  line_step (hW_tail (F := Ideal)) U 31
  line_step (hW_tail (F := Ideal)) U 30
  line_step (hW_tail (F := Ideal)) U 29
  line_step (hW_tail (F := Ideal)) U 28
  line_step (hW_tail (F := Ideal)) U 27
  line_step (hW_tail (F := Ideal)) U 26
  line_step (hW_tail (F := Ideal)) U 25
  line_step (hW_tail (F := Ideal)) U 24
  line_step (hW_tail (F := Ideal)) U 23
  line_step (hW_tail (F := Ideal)) U 22
  line_step (hW_tail (F := Ideal)) U 21
  line_step (hW_tail (F := Ideal)) U 20
  line_step (hW_tail (F := Ideal)) U 19
  line_step (hW_tail (F := Ideal)) U 18
  line_step (hW_tail (F := Ideal)) U 17
  line_step (hW_tail (F := Ideal)) U 16
  line_step (hW_tail (F := Ideal)) U 15
  line_step (hW_tail (F := Ideal)) U 14
  line_step (hW_tail (F := Ideal)) U 13
  line_step (hW_tail (F := Ideal)) U 12
  line_step (hW_tail (F := Ideal)) U 11
  line_step (hW_tail (F := Ideal)) U 10
  line_step (hW_tail (F := Ideal)) U 9
  line_step (hW_tail (F := Ideal)) U 8
  line_step (hW_tail (F := Ideal)) U 7
  line_step (hW_tail (F := Ideal)) U 6
  line_step (hW_tail (F := Ideal)) U 5
  line_step (hW_tail (F := Ideal)) U 4
  line_step (hW_tail (F := Ideal)) U 3
  line_step (hW_tail (F := Ideal)) U 2
  line_step (hW_tail (F := Ideal)) U 1
  line_step (hW_tail (F := Ideal)) U 0
  rw [(hW_tail (F := Ideal)).arg U (r := main_v11) (by decide), (hW_tail (F := Ideal)).arg U (r := main_v37) (by decide),
    (hW_tail (F := Ideal)).arg U (r := main_v40_0) (by decide), (hW_tail (F := Ideal)).arg U (r := main_v40_1) (by decide),
    (hW_tail (F := Ideal)).arg U (r := main_v40_2) (by decide), hb, hw, h0, h1, h2]
  try simp only [cast_eq, id_eq]
  have e0 : (fun i => shapeCast main_v41.ty.shape a0 shapeCasts_S4096x1_S4096 i) = col a0 := rfl
  have e1 : (fun i => shapeCast main_v42.ty.shape a1 shapeCasts_S4096x1_S4096 i) = col a1 := rfl
  have e2 : (fun i => shapeCast main_v43.ty.shape a2 shapeCasts_S4096x1_S4096 i) = col a2 := rfl
  rw [e0, e1, e2]
  unfold Spec.tail Spec.ratio Spec.count
  first
    | with_reducible rfl
    | (trace_state; fail "closing rfl: mismatch")

/-! ## At the program's own contents -/

variable (m : (ℓ : Loc nD τ sig) → Buf (Elt Ideal) ℓ) (c : Dev nD)

/-- When the region is entered the cross-entropy buffer holds `Spec.head`'s first component of the logits and labels. -/
theorem V0_bce : V0 m c (dv main_v11) = (Spec.head (m (c, dv main_arg1)) (m (c, dv main_arg2))).1 :=
  pre_bce_read _ _ _ rfl rfl

/-- … and the weights buffer its second component. -/
theorem V0_weights : V0 m c (dv main_v37) = (Spec.head (m (c, dv main_arg1)) (m (c, dv main_arg2))).2 :=
  pre_weights_read _ _ _ rfl rfl

/-- … the first input array the embeddings, entry by entry. -/
theorem V0_emb (idx : S4096x1024.Idx) : V0 m c (dv main_v38) idx = m (c, dv main_arg0) idx :=
  pre_emb_read _ _ rfl idx

/-- … the second input array the float labels, entry by entry. -/
theorem V0_lab (idx : S4096x64.Idx) : V0 m c (dv main_v39) idx = Spec.labelsF (m (c, dv main_arg2)) idx :=
  pre_lab_read _ _ rfl idx

/-- At the end of the program the result buffer holds `Spec.tail` of what the region left in the cross-entropy buffer, the
    weights buffer and its three result arrays. -/
theorem Wend_result :
    Wend m c (dv main_v63)
      = Spec.tail (Wr m c (dv main_v11)) (Wr m c (dv main_v37)) (col (Wr m c (dv main_v40_0))) (col (Wr m c (dv main_v40_1)))
          (cmpf .ogt (col (Wr m c (dv main_v40_2))) (Spec.splat 0x00000000#32)) :=
  (congrFun (Wend_eq m c) (dv main_v63)).trans (post_tail_read (Wr m c) _ _ _ _ _ rfl rfl rfl rfl rfl)

end Cert.KernelIdeal.Hand

end
-- ==== Proof.RefTerms.lean ====
/-
  The reference's row statistics as whole-array terms of the embeddings `E` (4096 × 1024) and the float labels `Lf`
  (4096 × 64), composed of the operations the reference applies, in its order:

  * `simM E`: the matrix of similarities, E·Eᵀ divided entry by entry by the temperature;
  * `offDiag`: the mask that is 1 exactly off the diagonal (row number ≠ column number);
  * `labM Lf`: Lf·Lfᵀ; `posMask Lf`: 1 where that is positive and off the diagonal;
  * `validV Lf`: for each row, the disjunction of `posMask` along the row;
  * `rowMax E`: for each row, the maximum of the similarities with −∞ put on the diagonal;
  * `expM E`: exp(similarity − the row's maximum);
  * `posV E Lf`, `negV E`: for each row, the sum of `expM` over `posMask`, and over `offDiag`.
-/
import proofs.«133961_j23673859736131_2_alg».proof.Proof.Gen.ReferenceIdeal
import Idealize.ShloMosaic.PureOps.Ideal

noncomputable section

namespace Cert.Proof.Ref

open Cert.ReferenceIdeal Cert.ReferenceIdeal.Gen Idealize.ShloMosaic

/-- A scalar float constant spread over the 4096 × 4096 matrices. -/
abbrev splatM (b : BitVec 32) : FVec Ideal S4096x4096 .f32 :=
  broadcastInDim S4096x4096 ![] bcast_S_S4096x4096 (constant (F := Ideal) S_ .f32 b)

/-- The similarities: E·Eᵀ over the temperature. -/
def simM (E : FVec Ideal S4096x1024 .f32) : FVec Ideal S4096x4096 .f32 :=
  Host.divf (F := Ideal)
    (Host.dotGeneral (F := Ideal) dot_S4096x1024_S1024x4096_S4096x4096_1_0_0_1_n_n none E
      (transpose S1024x4096 [1, 0] E transposes_S4096x1024_S1024x4096_1_0))
    (splatM 0x3D8F5C29#32)

/-- 1 off the diagonal, 0 on it. -/
def offDiag : IVec S4096x4096 1 :=
  noti (cmpi .eq
    (addi (iotaInDim S4096x4096 32 0) (broadcastInDim S4096x4096 ![] bcast_S_S4096x4096 (constantI S_ 32 0#32)))
    (iotaInDim S4096x4096 32 1))

/-- Lf·Lfᵀ. -/
def labM (Lf : FVec Ideal S4096x64 .f32) : FVec Ideal S4096x4096 .f32 :=
  Host.dotGeneral (F := Ideal) dot_S4096x64_S64x4096_S4096x4096_1_0_0_1_n_n none Lf
    (transpose S64x4096 [1, 0] Lf transposes_S4096x64_S64x4096_1_0)

/-- 1 where two different rows share a label. -/
def posMask (Lf : FVec Ideal S4096x64 .f32) : IVec S4096x4096 1 :=
  andi (cmpf .ogt (labM Lf) (splatM 0x00000000#32)) offDiag

/-- Per row: does some other row share a label with it. -/
def validV (Lf : FVec Ideal S4096x64 .f32) : IVec S4096 1 :=
  Host.reduce IntOp.ori (posMask Lf) (constantI S_ 1 0#1) reducesTo_S4096x4096_S4096_d1 h_S_

/-- Per row: the maximum similarity to another row. -/
def rowMax (E : FVec Ideal S4096x1024 .f32) : FVec Ideal S4096 .f32 :=
  Host.reduce (FloatOps.maximumf (F := Ideal) (φ := .f32)) (select offDiag (simM E) (splatM 0xFF800000#32))
    (constant (F := Ideal) S_ .f32 0xFF800000#32) reducesTo_S4096x4096_S4096_d1 h_S_

/-- exp(similarity − the row's maximum). -/
def expM (E : FVec Ideal S4096x1024 .f32) : FVec Ideal S4096x4096 .f32 :=
  Host.exp (subf (simM E)
    (broadcastInDim S4096x4096 ![0, 1] bcast_S4096x1_S4096x4096_0_1
      (broadcastInDim S4096x1 ![0] bcast_S4096_S4096x1_0 (rowMax E))))

/-- Per row: the sum of `expM` over the other rows that share a label with it. -/
def posV (E : FVec Ideal S4096x1024 .f32) (Lf : FVec Ideal S4096x64 .f32) : FVec Ideal S4096 .f32 :=
  Host.reduceAdd (F := Ideal) (select (posMask Lf) (expM E) (splatM 0x00000000#32))
    (constant (F := Ideal) S_ .f32 0x00000000#32) reducesTo_S4096x4096_S4096_d1 h_S_

/-- Per row: the sum of `expM` over the other rows. -/
def negV (E : FVec Ideal S4096x1024 .f32) : FVec Ideal S4096 .f32 :=
  Host.reduceAdd (F := Ideal) (select offDiag (expM E) (splatM 0x00000000#32))
    (constant (F := Ideal) S_ .f32 0x00000000#32) reducesTo_S4096x4096_S4096_d1 h_S_

end Cert.Proof.Ref

end
-- ==== Proof.RefValue.lean ====
/-
  What the reference leaves in its result buffer, as one term of its three arguments.

  The reference is a straight line of 124 whole-array operations, each writing a buffer of its own. Read one operation
  at a time, from the result back: the result is `Spec.tail` of the cross-entropy, the entropy weights and the three
  row vectors (operations 92–123); the cross-entropy and the weights are `Spec.head` of the logits and labels
  (operations 0–49); the three row vectors are `posV`, `negV`, `validV` of the embeddings and the float labels
  (operations 50–91). No operation writes an argument, so an argument's buffer holds what it held at the start.
-/
import proofs.«133961_j23673859736131_2_alg».proof.Proof.RefRunP
import proofs.«133961_j23673859736131_2_alg».proof.Proof.RefTerms
import proofs.«133961_j23673859736131_2_alg».proof.Proof.Spec

noncomputable section

namespace Cert.Proof.Ref

open Cert.ReferenceIdeal Cert.ReferenceIdeal.Gen Cert.ReferenceIdeal.ValueP Idealize.ShloMosaic Idealize.ShloMosaic.StableHlo
open Idealize.SL.Sem Idealize.ShloMosaic.TcCoe
open Cert.Line Cert.CubePad.Line

/-- What the reference's line of operations, run from the contents `V`, leaves in the buffer of `r`. -/
abbrev fin (V : Valuation τ sig (Elt Ideal)) (r : Ref sig .tc) :=
  after (ops (F := Ideal)) V (Proc.devRef .tc r)

variable (V : Valuation τ sig (Elt Ideal))

/-- A buffer no operation writes holds what it held at the start. -/
theorem arg_read {r : Ref sig .tc} (hr : r ∉ W) : fin V r = V (Proc.devRef .tc r) :=
  (hW (F := Ideal)).arg V hr

/-- Operation 0: the labels as floats. -/
theorem labels_read (l : IVec Spec.S4096x64 32) (hl : fin V main_arg2 = l) : fin V main_v0 = Spec.labelsF l := by
  unfold fin at hl ⊢
  line_step (hW (F := Ideal)) V 0
  rw [hl]
  unfold Spec.labelsF
  with_reducible rfl

set_option maxHeartbeats 800000 in
/-- Operations 0–14: the mean cross-entropy. -/
theorem bce_read (x : FVec Ideal Spec.S4096x64 .f32) (l : IVec Spec.S4096x64 32)
    (hx : fin V main_arg1 = x) (hl : fin V main_arg2 = l) : fin V main_v11 = Spec.bce x l := by
  unfold fin at hx hl ⊢
  line_step (hW (F := Ideal)) V 14
  line_step (hW (F := Ideal)) V 13
  line_step (hW (F := Ideal)) V 12
  line_step (hW (F := Ideal)) V 11
  line_step (hW (F := Ideal)) V 10
  line_step (hW (F := Ideal)) V 9
  line_step (hW (F := Ideal)) V 8
  line_step (hW (F := Ideal)) V 7
  line_step (hW (F := Ideal)) V 6
  line_step (hW (F := Ideal)) V 5
  line_step (hW (F := Ideal)) V 4
  line_step (hW (F := Ideal)) V 3
  line_step (hW (F := Ideal)) V 2
  line_step (hW (F := Ideal)) V 1
  line_step (hW (F := Ideal)) V 0
  rw [hx, hl]
  try simp only [cast_eq, id_eq]
  unfold Spec.bce Spec.labelsF
  first
    | with_reducible rfl
    | (trace_state; fail "closing rfl: mismatch")

set_option maxHeartbeats 1200000 in
/-- Operations 0 and 15–49: the entropy weights. -/
theorem weights_read (x : FVec Ideal Spec.S4096x64 .f32) (l : IVec Spec.S4096x64 32)
    (hx : fin V main_arg1 = x) (hl : fin V main_arg2 = l) : fin V main_v37 = Spec.weights x l := by
  unfold fin at hx hl ⊢
  line_step (hW (F := Ideal)) V 49
  line_step (hW (F := Ideal)) V 48
  line_step (hW (F := Ideal)) V 47
  line_step (hW (F := Ideal)) V 46
  line_step (hW (F := Ideal)) V 45
  line_step (hW (F := Ideal)) V 44
  line_step (hW (F := Ideal)) V 43
  line_step (hW (F := Ideal)) V 42
  line_step (hW (F := Ideal)) V 41
  line_step (hW (F := Ideal)) V 40
  line_step (hW (F := Ideal)) V 39
  line_step (hW (F := Ideal)) V 38
  line_step (hW (F := Ideal)) V 37
  line_step (hW (F := Ideal)) V 36
  line_step (hW (F := Ideal)) V 35
  line_step (hW (F := Ideal)) V 34
  line_step (hW (F := Ideal)) V 33
  line_step (hW (F := Ideal)) V 32
  line_step (hW (F := Ideal)) V 31
  line_step (hW (F := Ideal)) V 30
  line_step (hW (F := Ideal)) V 29
  line_step (hW (F := Ideal)) V 28
  line_step (hW (F := Ideal)) V 27
  line_step (hW (F := Ideal)) V 26
  line_step (hW (F := Ideal)) V 25
  line_step (hW (F := Ideal)) V 24
  line_step (hW (F := Ideal)) V 23
  line_step (hW (F := Ideal)) V 22
  line_step (hW (F := Ideal)) V 21
  line_step (hW (F := Ideal)) V 20
  line_step (hW (F := Ideal)) V 19
  line_step (hW (F := Ideal)) V 18
  line_step (hW (F := Ideal)) V 17
  line_step (hW (F := Ideal)) V 16
  line_step (hW (F := Ideal)) V 15
  line_step (hW (F := Ideal)) V 0
  rw [hx, hl]
  try simp only [cast_eq, id_eq]
  unfold Spec.weights Spec.entropy Spec.prob Spec.labelsF
  first
    | with_reducible rfl
    | (trace_state; fail "closing rfl: mismatch")

set_option maxHeartbeats 800000 in
/-- Operations 55–69: which rows share a label with another row. -/
theorem valid_read (Lf : FVec Ideal S4096x64 .f32) (hL : fin V main_v0 = Lf) : fin V main_v53 = validV Lf := by
  unfold fin at hL ⊢
  line_step (hW (F := Ideal)) V 69
  line_step (hW (F := Ideal)) V 68
  line_step (hW (F := Ideal)) V 67
  line_step (hW (F := Ideal)) V 66
  line_step (hW (F := Ideal)) V 65
  line_step (hW (F := Ideal)) V 64
  line_step (hW (F := Ideal)) V 63
  line_step (hW (F := Ideal)) V 62
  line_step (hW (F := Ideal)) V 61
  line_step (hW (F := Ideal)) V 60
  line_step (hW (F := Ideal)) V 59
  line_step (hW (F := Ideal)) V 58
  line_step (hW (F := Ideal)) V 57
  line_step (hW (F := Ideal)) V 56
  line_step (hW (F := Ideal)) V 55
  rw [hL]
  try simp only [cast_eq, id_eq]
  unfold validV posMask labM offDiag
  first
    | with_reducible rfl
    | (trace_state; fail "closing rfl: mismatch")

set_option maxHeartbeats 1200000 in
/-- Operations 50–61, 70–79, 86–91: the sums over the other rows. -/
theorem neg_read (E : FVec Ideal S4096x1024 .f32) (hE : fin V main_arg0 = E) : fin V main_v63 = negV E := by
  unfold fin at hE ⊢
  line_step (hW (F := Ideal)) V 91
  line_step (hW (F := Ideal)) V 90
  line_step (hW (F := Ideal)) V 89
  line_step (hW (F := Ideal)) V 88
  line_step (hW (F := Ideal)) V 87
  line_step (hW (F := Ideal)) V 86
  line_step (hW (F := Ideal)) V 79
  line_step (hW (F := Ideal)) V 78
  line_step (hW (F := Ideal)) V 77
  line_step (hW (F := Ideal)) V 76
  line_step (hW (F := Ideal)) V 75
  line_step (hW (F := Ideal)) V 74
  line_step (hW (F := Ideal)) V 73
  line_step (hW (F := Ideal)) V 72
  line_step (hW (F := Ideal)) V 71
  line_step (hW (F := Ideal)) V 70
  line_step (hW (F := Ideal)) V 61
  line_step (hW (F := Ideal)) V 60
  line_step (hW (F := Ideal)) V 59
  line_step (hW (F := Ideal)) V 58
  line_step (hW (F := Ideal)) V 57
  line_step (hW (F := Ideal)) V 56
  line_step (hW (F := Ideal)) V 55
  line_step (hW (F := Ideal)) V 54
  line_step (hW (F := Ideal)) V 53
  line_step (hW (F := Ideal)) V 52
  line_step (hW (F := Ideal)) V 51
  line_step (hW (F := Ideal)) V 50
  rw [hE]
  try simp only [cast_eq, id_eq]
  unfold negV expM rowMax simM offDiag
  first
    | with_reducible rfl
    | (trace_state; fail "closing rfl: mismatch")

set_option maxHeartbeats 1200000 in
/-- Operations 50–67, 70–85: the sums over the other rows that share a label. -/
theorem pos_read (E : FVec Ideal S4096x1024 .f32) (Lf : FVec Ideal S4096x64 .f32)
    (hE : fin V main_arg0 = E) (hL : fin V main_v0 = Lf) : fin V main_v61 = posV E Lf := by
  unfold fin at hE hL ⊢
  line_step (hW (F := Ideal)) V 85
  line_step (hW (F := Ideal)) V 84
  line_step (hW (F := Ideal)) V 83
  line_step (hW (F := Ideal)) V 82
  line_step (hW (F := Ideal)) V 81
  line_step (hW (F := Ideal)) V 80
  line_step (hW (F := Ideal)) V 79
  line_step (hW (F := Ideal)) V 78
  line_step (hW (F := Ideal)) V 77
  line_step (hW (F := Ideal)) V 76
  line_step (hW (F := Ideal)) V 75
  line_step (hW (F := Ideal)) V 74
  line_step (hW (F := Ideal)) V 73
  line_step (hW (F := Ideal)) V 72
  line_step (hW (F := Ideal)) V 71
  line_step (hW (F := Ideal)) V 70
  line_step (hW (F := Ideal)) V 67
  line_step (hW (F := Ideal)) V 66
  line_step (hW (F := Ideal)) V 65
  line_step (hW (F := Ideal)) V 64
  line_step (hW (F := Ideal)) V 63
  line_step (hW (F := Ideal)) V 62
  line_step (hW (F := Ideal)) V 61
  line_step (hW (F := Ideal)) V 60
  line_step (hW (F := Ideal)) V 59
  line_step (hW (F := Ideal)) V 58
  line_step (hW (F := Ideal)) V 57
  line_step (hW (F := Ideal)) V 56
  line_step (hW (F := Ideal)) V 55
  line_step (hW (F := Ideal)) V 54
  line_step (hW (F := Ideal)) V 53
  line_step (hW (F := Ideal)) V 52
  line_step (hW (F := Ideal)) V 51
  line_step (hW (F := Ideal)) V 50
  rw [hE, hL]
  try simp only [cast_eq, id_eq]
  unfold posV posMask labM expM rowMax simM offDiag
  first
    | with_reducible rfl
    | (trace_state; fail "closing rfl: mismatch")

set_option maxHeartbeats 1200000 in
/-- Operations 92–123: the result from the cross-entropy, the weights and the three row vectors. -/
theorem tail_read (b : FVec Ideal Spec.S_ .f32) (w p n : FVec Ideal Spec.S4096 .f32) (v : IVec Spec.S4096 1)
    (hb : fin V main_v11 = b) (hw : fin V main_v37 = w) (hp : fin V main_v61 = p) (hn : fin V main_v63 = n)
    (hv : fin V main_v53 = v) :
    fin V main_v81 = Spec.tail b w p n v := by
  unfold fin at hb hw hp hn hv ⊢
  line_step (hW (F := Ideal)) V 123
  line_step (hW (F := Ideal)) V 122
  line_step (hW (F := Ideal)) V 121
  line_step (hW (F := Ideal)) V 120
  line_step (hW (F := Ideal)) V 119
  line_step (hW (F := Ideal)) V 118
  line_step (hW (F := Ideal)) V 117
  line_step (hW (F := Ideal)) V 116
  line_step (hW (F := Ideal)) V 115
  line_step (hW (F := Ideal)) V 114
  line_step (hW (F := Ideal)) V 113
  line_step (hW (F := Ideal)) V 112
  line_step (hW (F := Ideal)) V 111
  line_step (hW (F := Ideal)) V 110
  line_step (hW (F := Ideal)) V 109
  line_step (hW (F := Ideal)) V 108
  line_step (hW (F := Ideal)) V 107
  line_step (hW (F := Ideal)) V 106
  line_step (hW (F := Ideal)) V 105
  line_step (hW (F := Ideal)) V 104
  line_step (hW (F := Ideal)) V 103
  line_step (hW (F := Ideal)) V 102
  line_step (hW (F := Ideal)) V 101
  line_step (hW (F := Ideal)) V 100
  line_step (hW (F := Ideal)) V 99
  line_step (hW (F := Ideal)) V 98
  line_step (hW (F := Ideal)) V 97
  line_step (hW (F := Ideal)) V 96
  line_step (hW (F := Ideal)) V 95
  line_step (hW (F := Ideal)) V 94
  line_step (hW (F := Ideal)) V 93
  line_step (hW (F := Ideal)) V 92
  rw [hb, hw, hp, hn, hv]
  try simp only [cast_eq, id_eq]
  unfold Spec.tail Spec.ratio Spec.count
  first
    | with_reducible rfl
    | (trace_state; fail "closing rfl: mismatch")

/-- The reference's result as one term of the embeddings `E`, the logits `X` and the integer labels `L`. -/
def refResult (E : FVec Ideal S4096x1024 .f32) (X : FVec Ideal Spec.S4096x64 .f32) (L : IVec Spec.S4096x64 32) :
    FVec Ideal Spec.S_ .f32 :=
  Spec.tail (Spec.head X L).1 (Spec.head X L).2 (posV E (Spec.labelsF L)) (negV E) (validV (Spec.labelsF L))

/-- WHAT THE REFERENCE LEAVES IN ITS RESULT BUFFER: `Spec.tail` of `Spec.head` of the logits and labels and of the
    reference's own three row vectors of the embeddings and the float labels. -/
theorem ref_value :
    after (ops (F := Ideal)) V (Proc.devRef .tc main_v81)
      = refResult (V (Proc.devRef .tc main_arg0)) (V (Proc.devRef .tc main_arg1)) (V (Proc.devRef .tc main_arg2)) :=
  tail_read V _ _ _ _ _
    (bce_read V _ _ (arg_read V (by decide)) (arg_read V (by decide)))
    (weights_read V _ _ (arg_read V (by decide)) (arg_read V (by decide)))
    (pos_read V _ _ (arg_read V (by decide)) (labels_read V _ (arg_read V (by decide))))
    (neg_read V _ (arg_read V (by decide)))
    (valid_read V _ (labels_read V _ (arg_read V (by decide))))

/-- The reference's run at the ideal instance: it terminates with its result buffer at `refResult` of what the three
    arguments held at the start, and the arguments as they were. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v81)
          = refResult (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (ref_value (launchContents m c)), (h c).2⟩)
    (run_value (F := Ideal) m ρ)

end Cert.Proof.Ref

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.RefIndex.lean ====
/-
  The reference's row statistics read at a row: the whole-array terms of `RefTerms` against the closed forms of `Spec`.

  For rows i, j: the similarity matrix at (i, j) is s(i,j) (`simM_apply`: a plain product with a transposed operand is
  the sum over the shared coordinate; a scalar broadcast reads the scalar); the label product is lab(i,j)
  (`labM_apply`); the diagonal mask, built from the row and column numbers, is 1 exactly when i ≠ j (`offDiag_apply`:
  two numbers below 2^32 have equal 32-bit words only when equal). A sum along a row is the sum over the column
  (`rowSum_apply`); a maximum along a row, from −∞, is the supremum over the column (`rowMax_apply`); a disjunction
  along a row is 1 exactly when some entry is (`validV_apply`). With these: `negV_apply`, `posV_apply`.
-/
import proofs.«133961_j23673859736131_2_alg».proof.Proof.RefTerms
import proofs.«133961_j23673859736131_2_alg».proof.Proof.Spec
import proofs.«133961_j23673859736131_2_alg».proof.Proof.LibContractPlain
import Idealize.ShloMosaic.Lib.IdealHost
import Idealize.ShloMosaic.Lib.ValueLayout
import Idealize.ShloMosaic.Lib.Affine
import Idealize.ShloMosaic.Lib.Pipeline.Value
import Idealize.ShloMosaic.PureOps.Ideal.Laws
import Idealize.ShloMosaic.PureOps.Reduce

noncomputable section

open scoped BigOperators

namespace Cert.Proof.Ref

open Cert.ReferenceIdeal Cert.ReferenceIdeal.Gen Idealize.ShloMosaic Idealize.ShloMosaic.ValueIdx

/-! ## Entries of the two products and of the diagonal mask -/

/-- A scalar constant spread over the matrices reads the constant's value. -/
theorem splatM_apply (b : BitVec 32) (idx : S4096x4096.Idx) : splatM b idx = Ideal.ofBits .f32 b := by
  unfold splatM
  rw [broadcastInDim_scalar_apply, constant_apply]

theorem splatM_zero_apply (idx : S4096x4096.Idx) : splatM 0x00000000#32 idx = 0 := by
  rw [splatM_apply, Ideal.ofBits_zero_f32]

/-- The word of −∞. -/
theorem ofBits_neg_inf : Ideal.ofBits .f32 0xFF800000#32 = ⊥ := by simp [Ideal.ofBits, Ideal.ieee]

/-- The similarity of rows i and j. -/
theorem simM_apply (E : FVec Ideal S4096x1024 .f32) (i j : Fin 4096) : simM E (ix2 i j) = Spec.sR E i j := by
  unfold simM Spec.sR Spec.temp
  rw [hostDivf_apply, splatM_apply]
  refine congrArg (fun s => Ideal.div s (Ideal.ofBits .f32 0x3D8F5C29#32)) ?_
  refine (Cert.LibContractPlain.dotPlain_apply 4096 1024 4096
    dot_S4096x1024_S1024x4096_S4096x4096_1_0_0_1_n_n_wf none E _ i j).trans ?_
  exact Finset.sum_congr rfl fun k _ => congrArg (E (ix2 i k) * ·) (transpose_ix2_apply E _ k j)

/-- The label product of rows i and j. -/
theorem labM_apply (Lf : FVec Ideal S4096x64 .f32) (i j : Fin 4096) : labM Lf (ix2 i j) = Spec.labR Lf i j := by
  unfold labM Spec.labR
  refine (Cert.LibContractPlain.dotPlain_apply 4096 64 4096
    dot_S4096x64_S64x4096_S4096x4096_1_0_0_1_n_n_wf none Lf _ i j).trans ?_
  exact Finset.sum_congr rfl fun k _ => congrArg (Lf (ix2 i k) * ·) (transpose_ix2_apply Lf _ k j)

/-- The diagonal mask is 1 exactly off the diagonal. -/
theorem offDiag_apply (i j : Fin 4096) : offDiag (ix2 i j) = 1#1 ↔ j ≠ i := by
  unfold offDiag
  show ~~~(IntOp.cmpi .eq (IntOp.addi (BitVec.ofNat 32 i.val) 0#32) (BitVec.ofNat 32 j.val)) = 1#1 ↔ j ≠ i
  rw [IntOp.not_eq_one, IntOp.cmpi_eq]
  unfold IntOp.addi
  rw [BitVec.add_zero]
  have hi := i.isLt
  have hj := j.isLt
  constructor
  · intro h e; exact h (by rw [e])
  · intro h e
    apply h
    apply Fin.ext
    have := congrArg BitVec.toNat e
    simp only [BitVec.toNat_ofNat] at this
    omega

/-- A one-bit word selects by whether it is 1. -/
theorem select_ite {α : Type} (c : BitVec 1) (a b : α) (p : Prop) [Decidable p] (h : c = 1#1 ↔ p) :
    Scalar.select c a b = if p then a else b := by
  by_cases hp : p
  · rw [if_pos hp, h.2 hp, select_one]
  · rw [if_neg hp, eq_zero_of_ne_one (fun e => hp (h.1 e)), select_zero]

/-- A comparison "greater than" of extended reals is 1 exactly when it holds. -/
theorem cmp_ogt_eq_one (x y : EReal) : Ideal.cmp .ogt x y = 1#1 ↔ y < x := by
  show BitVec.ofBool (decide (y < x)) = 1#1 ↔ y < x
  by_cases h : y < x
  · simp [h]
  · simp [h]

/-- Two different rows share a label. -/
theorem posMask_apply (Lf : FVec Ideal S4096x64 .f32) (i j : Fin 4096) :
    posMask Lf (ix2 i j) = 1#1 ↔ (0 < Spec.labR Lf i j ∧ j ≠ i) := by
  unfold posMask
  show IntOp.andi (Ideal.cmp .ogt (labM Lf (ix2 i j)) (splatM 0x00000000#32 (ix2 i j))) (offDiag (ix2 i j)) = 1#1 ↔ _
  rw [IntOp.andi_eq_one, offDiag_apply, cmp_ogt_eq_one, labM_apply, splatM_zero_apply]

/-! ## Reductions along a row -/

/-- The one-axis reduction fact that names the inserted column. -/
theorem red : S4096x4096.Reduces [1] S4096 := by decide

/-- Row i with column k inserted is the entry (i, k). -/
theorem lift_eq (i k : Fin 4096) : red.lift (ix1 i) k = ix2 i k := by
  funext c
  apply Fin.ext
  match c with
  | ⟨0, _⟩ => rfl
  | ⟨1, _⟩ => rfl

/-- A sum along a row, from zero, is the sum over the column. -/
theorem rowSum_apply (x : FVec Ideal S4096x4096 .f32) (i : Fin 4096) :
    Host.reduceAdd (F := Ideal) x (constant (F := Ideal) S_ .f32 0x00000000#32) reducesTo_S4096x4096_S4096_d1 h_S_ (ix1 i)
      = ∑ j : Fin 4096, x (ix2 i j) := by
  rw [hostReduceAdd_apply, Ideal.hostReduceAdd_single _ red, constant_apply, Ideal.ofBits_zero_f32, zero_add]
  exact Finset.sum_congr rfl fun k _ => congrArg x (lift_eq i k)

/-- A fold of maxima from −∞ is the supremum. -/
theorem fold_max_bot_eq_sup {ι : Type} (s : Finset ι) (f : ι → EReal) : s.fold max ⊥ f = s.sup f := by
  apply le_antisymm
  · rw [Finset.fold_max_le]; exact ⟨bot_le, fun x hx => Finset.le_sup hx⟩
  · rw [Finset.sup_le_iff]; intro x hx; exact (Finset.le_fold_max _).2 (Or.inr ⟨x, hx, le_rfl⟩)

instance : Std.Commutative (FloatOps.maximumf (F := Ideal) (φ := .f32)) := ⟨fun a b => max_comm a b⟩
instance : Std.Associative (FloatOps.maximumf (F := Ideal) (φ := .f32)) := ⟨fun a b c => max_assoc a b c⟩

/-- An entry selected by the diagonal mask. -/
theorem select_offDiag_apply (a b : FVec Ideal S4096x4096 .f32) (i j : Fin 4096) :
    select offDiag a b (ix2 i j) = if j ≠ i then a (ix2 i j) else b (ix2 i j) := by
  rw [select_apply]
  exact select_ite _ _ _ _ (offDiag_apply i j)

/-- The row maximum is the supremum of the similarities to the other rows. -/
theorem rowMax_apply (E : FVec Ideal S4096x1024 .f32) (i : Fin 4096) : rowMax E (ix1 i) = Spec.cR E i := by
  unfold rowMax Spec.cR
  rw [Host.reduce_eq_fold_single _ _ _ _ red, constant_apply, ofBits_neg_inf]
  refine (fold_max_bot_eq_sup (Finset.univ : Finset (Fin 4096)) _).trans ?_
  refine congrArg (Finset.univ : Finset (Fin 4096)).sup (funext fun (k : Fin 4096) => ?_)
  show select offDiag (simM E) (splatM 0xFF800000#32) (red.lift (ix1 i) k) = _
  rw [lift_eq i k, select_offDiag_apply, simM_apply, splatM_apply, ofBits_neg_inf]
  by_cases h : k = i
  · rw [if_neg (not_not.2 h), if_pos h]
  · rw [if_pos h, if_neg h]

/-! ## The three row vectors -/

/-- exp(similarity − the row's maximum) at (i, j). -/
theorem expM_apply (E : FVec Ideal S4096x1024 .f32) (i j : Fin 4096) :
    expM E (ix2 i j) = Ideal.exp (Spec.sR E i j - Spec.cR E i) := by
  unfold expM
  show Ideal.exp (simM E (ix2 i j)
    - broadcastInDim S4096x4096 ![0, 1] bcast_S4096x1_S4096x4096_0_1
        (broadcastInDim S4096x1 ![0] bcast_S4096_S4096x1_0 (rowMax E)) (ix2 i j)) = _
  rw [simM_apply]
  refine congrArg (fun c => Ideal.exp (Spec.sR E i j - c)) ?_
  refine (broadcastInDim_apply _ bcast_S4096x1_S4096x4096_0_1 _ (ix2 i j) (ix2 i (0 : Fin 1)) (fun c => match c with
    | ⟨0, _⟩ => by
      show i.val = if (4096 : Nat) = 1 then 0 else i.val
      rw [if_neg (by decide)]
    | ⟨1, _⟩ => by
      show 0 = if (1 : Nat) = 1 then 0 else j.val
      rw [if_pos rfl])).trans ?_
  refine (broadcastInDim_apply _ bcast_S4096_S4096x1_0 _ (ix2 i (0 : Fin 1)) (ix1 i) (fun c => match c with
    | ⟨0, _⟩ => by
      show i.val = if (4096 : Nat) = 1 then 0 else i.val
      rw [if_neg (by decide)])).trans ?_
  exact rowMax_apply E i

/-- neg_i. -/
theorem negV_apply (E : FVec Ideal S4096x1024 .f32) (i : Fin 4096) : negV E (ix1 i) = Spec.negR E i := by
  unfold negV Spec.negR
  rw [rowSum_apply]
  refine Finset.sum_congr rfl fun j _ => ?_
  rw [select_offDiag_apply, expM_apply, splatM_zero_apply]

/-- pos_i. -/
theorem posV_apply (E : FVec Ideal S4096x1024 .f32) (Lf : FVec Ideal S4096x64 .f32) (i : Fin 4096) :
    posV E Lf (ix1 i) = Spec.posR E Lf i := by
  unfold posV Spec.posR
  rw [rowSum_apply]
  refine Finset.sum_congr rfl fun j _ => ?_
  rw [select_apply, select_ite _ _ _ _ (posMask_apply Lf i j), expM_apply, splatM_zero_apply]

/-! ## The disjunction along a row -/

instance : Std.Commutative (IntOp.ori (w := 1)) := ⟨fun a b => BitVec.or_comm a b⟩
instance : Std.Associative (IntOp.ori (w := 1)) := ⟨fun a b c => BitVec.or_assoc a b c⟩

/-- A disjunction of one-bit words, from 0, is 1 exactly when one of them is. -/
theorem fold_ori_eq_one {ι : Type} (s : Finset ι) (f : ι → BitVec 1) :
    s.fold IntOp.ori 0#1 f = 1#1 ↔ ∃ x ∈ s, f x = 1#1 :=
  (Finset.fold_op_rel_iff_or (op := IntOp.ori (w := 1)) (s := s) (f := f) (b := 0#1) (r := fun _ y => y = 1#1)
    (fun {_ _ _} => IntOp.ori_eq_one) (c := 0#1)).trans
    ⟨fun h => h.resolve_left (by decide), Or.inr⟩

/-- valid_i. -/
theorem validV_apply (Lf : FVec Ideal S4096x64 .f32) (i : Fin 4096) :
    validV Lf (ix1 i) = 1#1 ↔ Spec.validR Lf i := by
  unfold validV Spec.validR
  rw [Host.reduce_eq_fold_single _ _ _ _ red]
  show (Finset.univ : Finset (Fin 4096)).fold IntOp.ori 0#1 (fun k : Fin 4096 => posMask Lf (red.lift (ix1 i) k)) = 1#1 ↔ _
  rw [fold_ori_eq_one]
  constructor
  · rintro ⟨k, -, hk⟩
    rw [lift_eq i k, posMask_apply] at hk
    exact ⟨k, hk.2, hk.1⟩
  · rintro ⟨k, h1, h2⟩
    refine ⟨k, Finset.mem_univ _, ?_⟩
    rw [lift_eq i k, posMask_apply]
    exact ⟨h2, h1⟩

end Cert.Proof.Ref

end
-- ==== Proof.LibOnlineSoftmax.lean ====
/-
  The streaming form of a softmax-weighted average, over the reals.

  A softmax-weighted average of values `W j` with scores `F j` is
  `(∑ j, exp (F j) * W j) / (∑ j, exp (F j))`. Subtracting any real `M` from every score changes neither the
  numerator-to-denominator ratio (`shift`), so a streaming evaluation may carry its partial sums relative to a
  running reference level `M` that it is free to move: when the level moves from `M` to `M'` the partial sums are
  multiplied by `exp (M - M')` (`rescale`), and the next block of keys is added relative to the new level. No property
  of the level is used — in particular not that it is the running maximum.
-/
import Mathlib.Analysis.SpecialFunctions.Exp
import Mathlib.Algebra.BigOperators.Field
import Mathlib.Algebra.BigOperators.Fin
import Mathlib.Tactic.Ring
import Mathlib.Tactic.FieldSimp
import Mathlib.Tactic.Positivity

noncomputable section

namespace OnlineSoftmax

open Finset Real

/-- Moving the reference level from `M` to `M'` and adding block `n`: the weighted partial sum over the blocks
    `0 … n - 1` relative to `M`, rescaled by `exp (M - M')`, plus block `n` relative to `M'`, is the weighted partial
    sum over the blocks `0 … n` relative to `M'`. Keys are numbered `block * B + position`. -/
theorem rescale (n B : ℕ) (F W : ℕ → ℝ) (M M' : ℝ) :
    exp (M - M') * (∑ bb ∈ range n, ∑ jj : Fin B, exp (F (bb * B + jj.val) - M) * W (bb * B + jj.val))
        + ∑ jj : Fin B, exp (F (n * B + jj.val) - M') * W (n * B + jj.val)
      = ∑ bb ∈ range (n + 1), ∑ jj : Fin B, exp (F (bb * B + jj.val) - M') * W (bb * B + jj.val) := by
  rw [sum_range_succ, mul_sum]
  congr 1
  refine sum_congr rfl fun bb _ => ?_
  rw [mul_sum]
  refine sum_congr rfl fun jj _ => ?_
  rw [← mul_assoc, ← exp_add]
  congr 2
  ring

/-- The same for the unweighted partial sums (the normalizer). -/
theorem rescale_one (n B : ℕ) (F : ℕ → ℝ) (M M' : ℝ) :
    exp (M - M') * (∑ bb ∈ range n, ∑ jj : Fin B, exp (F (bb * B + jj.val) - M))
        + ∑ jj : Fin B, exp (F (n * B + jj.val) - M')
      = ∑ bb ∈ range (n + 1), ∑ jj : Fin B, exp (F (bb * B + jj.val) - M') := by
  simpa using rescale n B F (fun _ => 1) M M'

/-- The first block, added to a state reset to zero with rescaling factor zero: the partial sum over block `0`. -/
theorem first (B : ℕ) (F W : ℕ → ℝ) (M' : ℝ) :
    (0 : ℝ) * 0 + ∑ jj : Fin B, exp (F (0 * B + jj.val) - M') * W (0 * B + jj.val)
      = ∑ bb ∈ range (0 + 1), ∑ jj : Fin B, exp (F (bb * B + jj.val) - M') * W (bb * B + jj.val) := by
  simp

/-- The same for the unweighted partial sum. -/
theorem first_one (B : ℕ) (F : ℕ → ℝ) (M' : ℝ) :
    (0 : ℝ) * 0 + ∑ jj : Fin B, exp (F (0 * B + jj.val) - M')
      = ∑ bb ∈ range (0 + 1), ∑ jj : Fin B, exp (F (bb * B + jj.val) - M') := by
  simp

/-- A partial normalizer over at least one nonempty block is positive. -/
theorem partial_pos (n B : ℕ) (hB : 0 < B) (F : ℕ → ℝ) (M : ℝ) :
    0 < ∑ bb ∈ range (n + 1), ∑ jj : Fin B, exp (F (bb * B + jj.val) - M) := by
  haveI : Nonempty (Fin B) := ⟨⟨0, hB⟩⟩
  exact sum_pos (fun bb _ => sum_pos (fun jj _ => exp_pos _) univ_nonempty)
    ⟨0, mem_range.2 (Nat.succ_pos n)⟩

/-- All `A` blocks of `B` keys are all `A * B` keys. -/
theorem sum_all_blocks (A B : ℕ) (f : ℕ → ℝ) :
    ∑ bb ∈ range A, ∑ jj : Fin B, f (bb * B + jj.val) = ∑ j : Fin (A * B), f j.val := by
  rw [← Fin.sum_univ_eq_sum_range (fun bb => ∑ jj : Fin B, f (bb * B + jj.val)) A,
    ← Equiv.sum_comp finProdFinEquiv (fun j : Fin (A * B) => f j.val), Fintype.sum_prod_type]
  refine sum_congr rfl fun a _ => sum_congr rfl fun b _ => congrArg f ?_
  show a.val * B + b.val = b.val + B * a.val
  ring

/-- A softmax-weighted average does not depend on the reference level subtracted from the scores. -/
theorem shift {ι : Type*} (s : Finset ι) (F W : ι → ℝ) (M : ℝ) :
    (∑ j ∈ s, exp (F j - M) * W j) / (∑ j ∈ s, exp (F j - M))
      = (∑ j ∈ s, exp (F j) * W j) / (∑ j ∈ s, exp (F j)) := by
  have h1 : ∑ j ∈ s, exp (F j - M) * W j = (∑ j ∈ s, exp (F j) * W j) / exp M := by
    rw [sum_div]; exact sum_congr rfl fun j _ => by rw [exp_sub]; ring
  have h2 : ∑ j ∈ s, exp (F j - M) = (∑ j ∈ s, exp (F j)) / exp M := by
    rw [sum_div]; exact sum_congr rfl fun j _ => by rw [exp_sub]
  rw [h1, h2, div_div_div_cancel_right₀ (exp_ne_zero M)]

/-- The streamed ratio after all 16 blocks of 512 keys is the softmax-weighted average over the 8192 keys. -/
theorem final_ratio (F W : ℕ → ℝ) (M : ℝ) :
    (∑ bb ∈ range (15 + 1), ∑ jj : Fin 512, exp (F (bb * 512 + jj.val) - M) * W (bb * 512 + jj.val))
        / (∑ bb ∈ range (15 + 1), ∑ jj : Fin 512, exp (F (bb * 512 + jj.val) - M))
      = (∑ j : Fin 8192, exp (F j.val) * W j.val) / (∑ j : Fin 8192, exp (F j.val)) := by
  rw [sum_all_blocks 16 512 (fun j => exp (F j - M) * W j), sum_all_blocks 16 512 (fun j => exp (F j - M))]
  exact shift Finset.univ (fun j : Fin 8192 => F j.val) (fun j : Fin 8192 => W j.val) M

/-- Normalizing each weight first and then averaging (the two-pass form, its normalizer started from `0`) is the
    ratio of the weighted sum to the normalizer. -/
theorem normalize_first {ι : Type*} (s : Finset ι) (E W : ι → ℝ) :
    ∑ j ∈ s, E j / (0 + ∑ j' ∈ s, E j') * W j = (∑ j ∈ s, E j * W j) / (∑ j' ∈ s, E j') := by
  rw [zero_add, sum_div]
  exact sum_congr rfl fun j _ => by ring

/-- A normalizer of exponentials over a nonempty key set is positive. -/
theorem normalizer_pos {ι : Type*} (s : Finset ι) (hs : s.Nonempty) (F : ι → ℝ) : 0 < ∑ j ∈ s, exp (F j) :=
  sum_pos (fun j _ => exp_pos _) hs

end OnlineSoftmax

end
-- ==== Proof.LibFiniteAssoc.lean ====
/-
  Finite reals inside the extended reals: sums, and the associativity of a triple product.

  A finite sum of reals computed in the extended reals is the real sum (`coe_sum_real`). Hence a triple product
  of arrays whose entries are all reals can be re-associated inside the extended reals (`assoc_fin`):
  the sum over l of (the sum over k of a k * w k l) * v l is the sum over k of a k * (the sum over l of
  w k l * v l). Without finiteness this fails: distributivity does not hold at the infinities. This is the law
  that lets a weight be folded into the next one before a matrix product.
-/
import Mathlib.Data.EReal.Operations
import Mathlib.Algebra.BigOperators.Ring.Finset
import Mathlib.Algebra.BigOperators.Group.Finset.Sigma

noncomputable section

namespace Cert.LibFiniteAssoc

open Finset

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- Associativity of a triple product of finite reals inside the extended reals:
`∑ l, (∑ k, a k * w k l) * v l = ∑ k, a k * ∑ l, w k l * v l` when every entry is a real. -/
theorem assoc_fin {K L : Nat} (a : Fin K → EReal) (w : Fin K → Fin L → EReal) (v : Fin L → EReal)
    (ha : ∀ k, ∃ r : ℝ, a k = (r : EReal)) (hw : ∀ k l, ∃ r : ℝ, w k l = (r : EReal))
    (hv : ∀ l, ∃ r : ℝ, v l = (r : EReal)) :
    ∑ l : Fin L, (∑ k : Fin K, a k * w k l) * v l = ∑ k : Fin K, a k * ∑ l : Fin L, w k l * v l := by
  choose a' ha' using ha
  choose w' hw' using hw
  choose v' hv' using hv
  obtain rfl : a = fun k => (a' k : EReal) := funext ha'
  obtain rfl : w = fun k l => (w' k l : EReal) := funext fun k => funext fun l => hw' k l
  obtain rfl : v = fun l => (v' l : EReal) := funext hv'
  simp only [← EReal.coe_mul, coe_sum_real]
  congr 1
  simp only [Finset.sum_mul, Finset.mul_sum, mul_assoc]
  exact Finset.sum_comm

end Cert.LibFiniteAssoc

end
-- ==== Proof.Stream.lean ====
/-
  A row's running maximum and rescaled sums, taken one tile of 1024 columns at a time.

  For one row of scores the streamed evaluation carries four numbers: the largest score seen so far among the
  columns the first mask keeps (the level), two sums of exponentials of the scores relative to that level — one over
  the columns the second mask keeps, one over the columns the first mask keeps — and the number of columns the
  second mask keeps. When a tile arrives, the level rises to the larger of itself and the tile's masked maximum,
  the two carried sums are multiplied by the exponential of (old level − new level), and the tile's terms, taken
  relative to the new level, are added (step). Because
      exp (m − m') · exp (s − m) = exp (s − m'),
  the carried sums are always the sums over the columns seen so far relative to the current level, so after the
  four tiles of a row of 4096 columns the state holds the masked maximum over the whole row and the two sums
  relative to it (stream_four). The start state has level ⊥ and zero sums: the first rescaling factor is
  exp ⊥ = 0, multiplying zeros.

  All arithmetic is in the extended reals; from the first tile on every component is a real, because every tile
  keeps at least one column under the first mask.
-/
import Mathlib.Data.EReal.Operations
import Mathlib.Analysis.SpecialFunctions.Exp
import Mathlib.Algebra.BigOperators.Fin
import Mathlib.Algebra.Order.BigOperators.Group.Finset
import Idealize.ShloMosaic.PureOps.Ideal
import proofs.«133961_j23673859736131_2_alg».proof.Proof.LibOnlineSoftmax
import proofs.«133961_j23673859736131_2_alg».proof.Proof.LibFiniteAssoc

noncomputable section

namespace Cert.Proof.Stream

open Finset
open Idealize.ShloMosaic
open Cert.LibFiniteAssoc (coe_sum_real)

/-! ### One tile's update -/

/-- The masked maximum of one tile: the largest score among the columns the mask keeps, ⊥ when it keeps none. -/
def tileMax (t : Fin 1024 → EReal) (offd : Fin 1024 → Bool) : EReal :=
  Finset.univ.sup (fun j => if offd j then t j else ⊥)

/-- The masked maximum read as a fold of the binary maximum from ⊥. -/
theorem tileMax_eq_fold (t : Fin 1024 → EReal) (offd : Fin 1024 → Bool) :
    tileMax t offd = Finset.univ.fold max ⊥ (fun j => if offd j then t j else ⊥) := rfl

/-- One tile's update of the carried state (level m, sum p over the columns posm keeps, sum n over the columns
    offd keeps, count h of the columns posm keeps), for the tile's scores t. -/
def step (m p n h : EReal) (t : Fin 1024 → EReal) (offd posm : Fin 1024 → Bool) :
    EReal × EReal × EReal × EReal :=
  (max m (tileMax t offd),
   Ideal.exp (m - max m (tileMax t offd)) * p
     + ∑ j : Fin 1024, (if posm j then Ideal.exp (t j - max m (tileMax t offd)) else 0),
   Ideal.exp (m - max m (tileMax t offd)) * n
     + ∑ j : Fin 1024, (if offd j then Ideal.exp (t j - max m (tileMax t offd)) else 0),
   h + ∑ j : Fin 1024, (if posm j then (1 : EReal) else 0))

/-! ### Finite sums and maxima of reals inside the extended reals -/

/-- The larger of two reals, taken in the extended reals. -/
theorem coe_max (a b : ℝ) : ((max a b : ℝ) : EReal) = max (a : EReal) (b : EReal) :=
  EReal.coe_strictMono.monotone.map_max

/-- A masked sum of exponentials of real scores relative to a real level is a real. -/
theorem sum_exp_coe {ι : Type*} (S : Finset ι) (r : ι → ℝ) (c : ι → Bool) (m : ℝ) :
    ∑ j ∈ S, (if c j then Ideal.exp ((r j : EReal) - (m : EReal)) else 0)
      = ((∑ j ∈ S, (if c j then Real.exp (r j - m) else 0) : ℝ) : EReal) := by
  rw [← coe_sum_real]
  refine sum_congr rfl fun j _ => ?_
  split_ifs
  · rw [← EReal.coe_sub, Ideal.exp_coe]
  · exact EReal.coe_zero.symm

/-- A count of the columns a mask keeps is a real. -/
theorem sum_one_coe {ι : Type*} (S : Finset ι) (c : ι → Bool) :
    ∑ j ∈ S, (if c j then (1 : EReal) else 0) = ((∑ j ∈ S, (if c j then (1 : ℝ) else 0) : ℝ) : EReal) := by
  rw [← coe_sum_real]
  refine sum_congr rfl fun j _ => ?_
  split_ifs
  · exact EReal.coe_one.symm
  · exact EReal.coe_zero.symm

/-- The masked maximum of real scores is a real as soon as the mask keeps one of them. -/
theorem sup_masked_real {ι : Type*} [Fintype ι] (r : ι → ℝ) (c : ι → Bool) (h : ∃ j, c j = true) :
    ∃ l : ℝ, Finset.univ.sup (fun j => if c j then (r j : EReal) else ⊥) = (l : EReal) := by
  obtain ⟨j0, hj0⟩ := h
  have h1 : Finset.univ.sup (fun j => if c j then (r j : EReal) else ⊥) ≠ ⊤ := by
    apply ne_of_lt
    rw [Finset.sup_lt_iff bot_lt_top]
    intro j _
    split_ifs
    · exact EReal.coe_lt_top _
    · exact bot_lt_top
  have h2 : Finset.univ.sup (fun j => if c j then (r j : EReal) else ⊥) ≠ ⊥ := by
    apply ne_of_gt
    have hle := Finset.le_sup (f := fun j => if c j then (r j : EReal) else ⊥) (mem_univ j0)
    simp only [hj0, if_true] at hle
    exact lt_of_lt_of_le (EReal.bot_lt_coe _) hle
  exact ⟨_, (EReal.coe_toReal h1 h2).symm⟩

/-- Moving the level from m to m' multiplies a masked sum of exponentials by exp (m − m'). -/
theorem rescale_sum {ι : Type*} (S : Finset ι) (c : ι → Bool) (x : ι → ℝ) (m m' : ℝ) :
    Real.exp (m - m') * (∑ j ∈ S, (if c j then Real.exp (x j - m) else 0))
      = ∑ j ∈ S, (if c j then Real.exp (x j - m') else 0) := by
  rw [mul_sum]
  refine sum_congr rfl fun j _ => ?_
  split_ifs
  · rw [← Real.exp_add]; congr 1; ring
  · exact mul_zero _

/-! ### The update on real states -/

/-- The update of a state of reals by a tile of real scores whose masked maximum is the real l. -/
theorem step_coe (m p n h : ℝ) (r : Fin 1024 → ℝ) (offd posm : Fin 1024 → Bool) (l : ℝ)
    (hl : tileMax (fun j => (r j : EReal)) offd = (l : EReal)) :
    step (m : EReal) (p : EReal) (n : EReal) (h : EReal) (fun j => (r j : EReal)) offd posm
      = (((max m l : ℝ) : EReal),
         ((Real.exp (m - max m l) * p + ∑ j : Fin 1024, (if posm j then Real.exp (r j - max m l) else 0) : ℝ) : EReal),
         ((Real.exp (m - max m l) * n + ∑ j : Fin 1024, (if offd j then Real.exp (r j - max m l) else 0) : ℝ) : EReal),
         ((h + ∑ j : Fin 1024, (if posm j then (1 : ℝ) else 0) : ℝ) : EReal)) := by
  unfold step
  rw [hl, ← coe_max, ← EReal.coe_sub, Ideal.exp_coe, sum_exp_coe, sum_exp_coe, sum_one_coe]
  simp only [EReal.coe_add, EReal.coe_mul]

/-- The first update, from level ⊥ and zero sums: the tile's own maximum, sums and count. -/
theorem step_first (r : Fin 1024 → ℝ) (offd posm : Fin 1024 → Bool) (l : ℝ)
    (hl : tileMax (fun j => (r j : EReal)) offd = (l : EReal)) :
    step ⊥ 0 0 0 (fun j => (r j : EReal)) offd posm
      = ((l : EReal),
         ((∑ j : Fin 1024, (if posm j then Real.exp (r j - l) else 0) : ℝ) : EReal),
         ((∑ j : Fin 1024, (if offd j then Real.exp (r j - l) else 0) : ℝ) : EReal),
         ((∑ j : Fin 1024, (if posm j then (1 : ℝ) else 0) : ℝ) : EReal)) := by
  unfold step
  rw [hl, max_eq_right (bot_le : (⊥ : EReal) ≤ (l : EReal)), EReal.bot_sub, Ideal.exp_bot, sum_exp_coe, sum_exp_coe,
    sum_one_coe, mul_zero, zero_add, zero_add, zero_add]

/-! ### The four tiles of a row of 4096 columns -/

/-- The key of column j of tile b. -/
def key (b : Fin 4) (j : Fin 1024) : Fin 4096 := ⟨b.val * 1024 + j.val, by omega⟩

/-- Tile b of a row of real scores. -/
def tileS (s : Fin 4096 → ℝ) (b : Fin 4) : Fin 1024 → EReal := fun j => (s (key b j) : EReal)

/-- Tile b of a row's mask. -/
def tileM (msk : Fin 4096 → Bool) (b : Fin 4) : Fin 1024 → Bool := fun j => msk (key b j)

/-- The update by tile b of a row, with the state as one tuple. -/
def stepTile (s : Fin 4096 → ℝ) (offd posm : Fin 4096 → Bool) (st : EReal × EReal × EReal × EReal) (b : Fin 4) :
    EReal × EReal × EReal × EReal :=
  step st.1 st.2.1 st.2.2.1 st.2.2.2 (tileS s b) (tileM offd b) (tileM posm b)

/-- The four updates of a row in the order of the tiles, from level ⊥ and zero sums. -/
def run (s : Fin 4096 → ℝ) (offd posm : Fin 4096 → Bool) : EReal × EReal × EReal × EReal :=
  stepTile s offd posm (stepTile s offd posm (stepTile s offd posm (stepTile s offd posm (⊥, 0, 0, 0) 0) 1) 2) 3

/-- The same as a left fold over the tiles. -/
theorem run_eq_foldl (s : Fin 4096 → ℝ) (offd posm : Fin 4096 → Bool) :
    run s offd posm = List.foldl (stepTile s offd posm) (⊥, 0, 0, 0) [0, 1, 2, 3] := rfl

/-- Tile and column against key: the keys of a row are the pairs (tile, column). -/
def keyEquiv : Fin 4 × Fin 1024 ≃ Fin 4096 where
  toFun x := key x.1 x.2
  invFun k := (⟨k.val / 1024, by omega⟩, ⟨k.val % 1024, by omega⟩)
  left_inv := fun ⟨b, j⟩ => by
    have hb := b.isLt
    have hj := j.isLt
    apply Prod.ext <;> apply Fin.ext
    · show (b.val * 1024 + j.val) / 1024 = b.val
      omega
    · show (b.val * 1024 + j.val) % 1024 = j.val
      omega
  right_inv := fun k => by
    apply Fin.ext
    show k.val / 1024 * 1024 + k.val % 1024 = k.val
    omega

/-- A sum over the 4096 keys is the sum over the four tiles of the sums over their 1024 columns. -/
theorem sum_keys (f : Fin 4096 → ℝ) :
    ∑ k : Fin 4096, f k = ∑ b : Fin 4, ∑ j : Fin 1024, f (key b j) :=
  calc ∑ k : Fin 4096, f k
      = ∑ x : Fin 4 × Fin 1024, f (keyEquiv x) := (Equiv.sum_comp keyEquiv f).symm
    _ = ∑ b : Fin 4, ∑ j : Fin 1024, f (keyEquiv (b, j)) := Fintype.sum_prod_type _
    _ = ∑ b : Fin 4, ∑ j : Fin 1024, f (key b j) :=
        sum_congr rfl fun _ _ => sum_congr rfl fun _ _ => rfl

/-- A maximum over the 4096 keys is the maximum over the four tiles of the maxima over their 1024 columns. -/
theorem sup_keys (g : Fin 4096 → EReal) :
    Finset.univ.sup g
      = Finset.univ.sup (fun b : Fin 4 => Finset.univ.sup (fun j : Fin 1024 => g (key b j))) := by
  apply le_antisymm
  · refine Finset.sup_le fun k _ => ?_
    have hk4 := k.isLt
    obtain ⟨b, j, hk⟩ : ∃ (b : Fin 4) (j : Fin 1024), k = key b j :=
      ⟨⟨k.val / 1024, by omega⟩, ⟨k.val % 1024, by omega⟩, Fin.ext (by
        show k.val = k.val / 1024 * 1024 + k.val % 1024
        omega)⟩
    rw [hk]
    exact le_trans (Finset.le_sup (f := fun j => g (key b j)) (mem_univ j))
      (Finset.le_sup (f := fun b : Fin 4 => Finset.univ.sup fun j => g (key b j)) (mem_univ b))
  · exact Finset.sup_le fun b _ => Finset.sup_le fun j _ => Finset.le_sup (mem_univ _)

/-- A maximum over four tiles, written out. -/
theorem sup_fin4 (F : Fin 4 → EReal) :
    Finset.univ.sup F = max (max (max (F 0) (F 1)) (F 2)) (F 3) := by
  rw [show (Finset.univ : Finset (Fin 4)) = {0, 1, 2, 3} from by decide]
  simp only [Finset.sup_insert, Finset.sup_singleton, max_assoc]

/-- The update of a state of reals by tile b, whose masked maximum is the real l. -/
theorem stepTile_coe (s : Fin 4096 → ℝ) (offd posm : Fin 4096 → Bool) (m p n h : ℝ) (b : Fin 4) (l : ℝ)
    (hl : tileMax (tileS s b) (tileM offd b) = (l : EReal)) :
    stepTile s offd posm ((m : EReal), (p : EReal), (n : EReal), (h : EReal)) b
      = (((max m l : ℝ) : EReal),
         ((Real.exp (m - max m l) * p
            + ∑ j : Fin 1024, (if posm (key b j) then Real.exp (s (key b j) - max m l) else 0) : ℝ) : EReal),
         ((Real.exp (m - max m l) * n
            + ∑ j : Fin 1024, (if offd (key b j) then Real.exp (s (key b j) - max m l) else 0) : ℝ) : EReal),
         ((h + ∑ j : Fin 1024, (if posm (key b j) then (1 : ℝ) else 0) : ℝ) : EReal)) :=
  step_coe m p n h (fun j => s (key b j)) (tileM offd b) (tileM posm b) l hl

/-- The first update by tile b, whose masked maximum is the real l. -/
theorem stepTile_first (s : Fin 4096 → ℝ) (offd posm : Fin 4096 → Bool) (b : Fin 4) (l : ℝ)
    (hl : tileMax (tileS s b) (tileM offd b) = (l : EReal)) :
    stepTile s offd posm (⊥, 0, 0, 0) b
      = ((l : EReal),
         ((∑ j : Fin 1024, (if posm (key b j) then Real.exp (s (key b j) - l) else 0) : ℝ) : EReal),
         ((∑ j : Fin 1024, (if offd (key b j) then Real.exp (s (key b j) - l) else 0) : ℝ) : EReal),
         ((∑ j : Fin 1024, (if posm (key b j) then (1 : ℝ) else 0) : ℝ) : EReal)) :=
  step_first (fun j => s (key b j)) (tileM offd b) (tileM posm b) l hl

/-- Every tile's masked maximum is a real when the mask keeps a column of the tile. -/
theorem tileMax_real (s : Fin 4096 → ℝ) (offd : Fin 4096 → Bool) (b : Fin 4)
    (h : ∃ j : Fin 1024, offd (key b j) = true) :
    ∃ l : ℝ, tileMax (tileS s b) (tileM offd b) = (l : EReal) :=
  sup_masked_real (fun j => s (key b j)) (fun j => offd (key b j)) h

/-- After the four tiles of a row the state holds the masked maximum M of the whole row, the two masked sums of
    exponentials relative to M, and the count — all reals — provided every tile keeps a column under offd. -/
theorem stream_four (s : Fin 4096 → ℝ) (offd posm : Fin 4096 → Bool)
    (hoff : ∀ b : Fin 4, ∃ j : Fin 1024, offd (key b j) = true) :
    ∃ M : ℝ,
      (M : EReal) = Finset.univ.sup (fun k : Fin 4096 => if offd k then (s k : EReal) else ⊥) ∧
      run s offd posm
        = ((M : EReal),
           ((∑ k : Fin 4096, (if posm k then Real.exp (s k - M) else 0) : ℝ) : EReal),
           ((∑ k : Fin 4096, (if offd k then Real.exp (s k - M) else 0) : ℝ) : EReal),
           ((∑ k : Fin 4096, (if posm k then (1 : ℝ) else 0) : ℝ) : EReal)) := by
  obtain ⟨l0, h0⟩ := tileMax_real s offd 0 (hoff 0)
  obtain ⟨l1, h1⟩ := tileMax_real s offd 1 (hoff 1)
  obtain ⟨l2, h2⟩ := tileMax_real s offd 2 (hoff 2)
  obtain ⟨l3, h3⟩ := tileMax_real s offd 3 (hoff 3)
  refine ⟨max (max (max l0 l1) l2) l3, ?_, ?_⟩
  · rw [sup_keys, sup_fin4, coe_max, coe_max, coe_max, ← h0, ← h1, ← h2, ← h3]
    rfl
  · unfold run
    rw [stepTile_first s offd posm 0 l0 h0, stepTile_coe s offd posm _ _ _ _ 1 l1 h1,
      stepTile_coe s offd posm _ _ _ _ 2 l2 h2, stepTile_coe s offd posm _ _ _ _ 3 l3 h3]
    refine congrArg₂ Prod.mk rfl (congrArg₂ Prod.mk (congrArg _ ?_) (congrArg₂ Prod.mk (congrArg _ ?_) (congrArg _ ?_)))
    · rw [sum_keys, Fin.sum_univ_four]
      simp only [mul_add, rescale_sum]
    · rw [sum_keys, Fin.sum_univ_four]
      simp only [mul_add, rescale_sum]
    · rw [sum_keys, Fin.sum_univ_four]

/-! ### The result with the row's maximum named -/

/-- The masked maximum of a row, as a real (meaningful when the mask keeps a key). -/
def rowMax (s : Fin 4096 → ℝ) (offd : Fin 4096 → Bool) : ℝ :=
  (Finset.univ.sup (fun k : Fin 4096 => if offd k then (s k : EReal) else ⊥)).toReal

/-- stream_four with the maximum named: the state after the four tiles, relative to rowMax. -/
theorem stream_four_rowMax (s : Fin 4096 → ℝ) (offd posm : Fin 4096 → Bool)
    (hoff : ∀ b : Fin 4, ∃ j : Fin 1024, offd (key b j) = true) :
    ((rowMax s offd : ℝ) : EReal) = Finset.univ.sup (fun k : Fin 4096 => if offd k then (s k : EReal) else ⊥) ∧
      run s offd posm
        = (((rowMax s offd : ℝ) : EReal),
           ((∑ k : Fin 4096, (if posm k then Real.exp (s k - rowMax s offd) else 0) : ℝ) : EReal),
           ((∑ k : Fin 4096, (if offd k then Real.exp (s k - rowMax s offd) else 0) : ℝ) : EReal),
           ((∑ k : Fin 4096, (if posm k then (1 : ℝ) else 0) : ℝ) : EReal)) := by
  obtain ⟨M, hM, hrun⟩ := stream_four s offd posm hoff
  have hMr : rowMax s offd = M := by
    unfold rowMax
    rw [← hM]
    exact EReal.toReal_coe M
  rw [hMr]
  exact ⟨hM, hrun⟩

/-- A score masked to ⊥ contributes exp ⊥ = 0 whatever the level: masking before the exponential is masking
    after it. -/
theorem exp_masked_sub (c : Prop) [Decidable c] (x m' : EReal) :
    Ideal.exp ((if c then x else ⊥) - m') = if c then Ideal.exp (x - m') else 0 := by
  split_ifs
  · rfl
  · rw [EReal.bot_sub, Ideal.exp_bot]

/-! ### Two small facts -/

/-- A count of the keys a mask keeps is positive exactly when it keeps one. -/
theorem count_pos_iff {ι : Type*} [Fintype ι] (c : ι → Bool) :
    (0 : EReal) < ((∑ k : ι, (if c k then (1 : ℝ) else 0) : ℝ) : EReal) ↔ ∃ k, c k = true := by
  rw [EReal.coe_pos]
  constructor
  · intro h
    by_contra hne
    have hz : ∑ k : ι, (if c k then (1 : ℝ) else 0) = 0 :=
      Finset.sum_eq_zero fun k _ => if_neg fun hk => hne ⟨k, hk⟩
    rw [hz] at h
    exact lt_irrefl _ h
  · rintro ⟨k, hk⟩
    have h1 := Finset.single_le_sum (f := fun k => if c k then (1 : ℝ) else 0)
      (fun i _ => by split_ifs <;> norm_num) (mem_univ k)
    simp only [hk, if_true] at h1
    exact lt_of_lt_of_le one_pos h1

/-- The same for the 4096 keys of a row. -/
theorem count_pos_iff_row (posm : Fin 4096 → Bool) :
    (0 : EReal) < ((∑ k : Fin 4096, (if posm k then (1 : ℝ) else 0) : ℝ) : EReal) ↔ ∃ k, posm k = true :=
  count_pos_iff posm

/-- Multiplying by the reciprocal of a nonzero real is dividing by it, at the infinities too. -/
theorem mul_recip_eq_div {D : ℝ} (hD : D ≠ 0) (x : EReal) :
    x * ((1 / D : ℝ) : EReal) = Ideal.div x (D : EReal) :=
  (Ideal.div_coe hD x).symm

/-- For a real numerator. -/
theorem coe_mul_recip_eq_div {D : ℝ} (hD : D ≠ 0) (x : ℝ) :
    (x : EReal) * ((1 / D : ℝ) : EReal) = Ideal.div (x : EReal) (D : EReal) :=
  mul_recip_eq_div hD x

/-- The scale 134217728 / 9395241 is the reciprocal of the binary fraction 9395241 / 2^27. -/
theorem inv_temp_eq : (134217728 / 9395241 : ℝ) = 1 / (9395241 / 134217728 : ℝ) := by norm_num

/-- Multiplying by 134217728 / 9395241 is dividing by 9395241 / 2^27. -/
theorem mul_inv_temp (x : EReal) :
    x * ((134217728 / 9395241 : ℝ) : EReal) = Ideal.div x ((9395241 / 134217728 : ℝ) : EReal) := by
  rw [inv_temp_eq]
  exact mul_recip_eq_div (by norm_num) x

/-- The same with the denominator written as a power of two. -/
theorem mul_inv_temp_pow (x : EReal) :
    x * ((134217728 / 9395241 : ℝ) : EReal) = Ideal.div x ((9395241 / 2 ^ 27 : ℝ) : EReal) := by
  rw [show ((9395241 / 2 ^ 27 : ℝ)) = (9395241 / 134217728 : ℝ) by norm_num]
  exact mul_inv_temp x

end Cert.Proof.Stream

end
-- ==== Proof.Bridge.lean ====
/-
  The streamed evaluation of a row against the row statistics in closed form.

  Fix embeddings E whose entries are all reals, float labels Lf, and a row i. The row's scores against every row k,
  s_k = ⟨E_i, E_k⟩ · (2^27 / 9395241), are reals, and as extended reals they are the similarities s(i,k) of the closed
  forms (multiplying by 2^27 / 9395241 is dividing by 9395241 / 2^27, the temperature). With the masks
  "k is another row" and "k is another row sharing a label with i", the streamed evaluation over the four tiles of
  1024 columns ends at the masked maximum of the whole row — which is c_i, the supremum with −∞ on the diagonal — and at
  the two masked sums of exponentials relative to it, which are pos_i and neg_i; its count is positive exactly when
  row i is valid. Every tile of 1024 consecutive rows contains a row other than i, which is what the streamed
  evaluation needs for its level to be a real from the first tile on.
-/
import proofs.«133961_j23673859736131_2_alg».proof.Proof.Spec
import proofs.«133961_j23673859736131_2_alg».proof.Proof.Stream

noncomputable section

open scoped BigOperators

namespace Cert.Proof.Bridge

open Idealize.ShloMosaic Idealize.ShloMosaic.ValueIdx
open Cert.LibFiniteAssoc (coe_sum_real)

/-! ## The scores as reals -/

/-- The real an entry of the embeddings is (when it is one). -/
def entry (E : FVec Ideal Spec.S4096x1024 .f32) (i : Fin 4096) (k : Fin 1024) : ℝ := (E (ix2 i k)).toReal

theorem entry_eq (E : FVec Ideal Spec.S4096x1024 .f32) (hE : ∀ i k, ∃ x : ℝ, E (ix2 i k) = (x : EReal))
    (i : Fin 4096) (k : Fin 1024) : E (ix2 i k) = ((entry E i k : ℝ) : EReal) := by
  obtain ⟨x, hx⟩ := hE i k
  unfold entry
  rw [hx, EReal.toReal_coe]

/-- Row i's score against row k: the inner product of the two rows times 2^27 / 9395241. -/
def sK (E : FVec Ideal Spec.S4096x1024 .f32) (i k : Fin 4096) : ℝ :=
  (∑ kk : Fin 1024, entry E i kk * entry E k kk) * (134217728 / 9395241)

/-- As an extended real it is the product of the entries' inner product with the scale. -/
theorem sK_eq (E : FVec Ideal Spec.S4096x1024 .f32) (hE : ∀ i k, ∃ x : ℝ, E (ix2 i k) = (x : EReal)) (i k : Fin 4096) :
    ((sK E i k : ℝ) : EReal)
      = (∑ kk : Fin 1024, E (ix2 i kk) * E (ix2 k kk)) * ((134217728 / 9395241 : ℝ) : EReal) := by
  unfold sK
  rw [EReal.coe_mul, ← coe_sum_real]
  refine congrArg (fun s => s * ((134217728 / 9395241 : ℝ) : EReal)) (Finset.sum_congr rfl fun kk _ => ?_)
  rw [EReal.coe_mul, ← entry_eq E hE, ← entry_eq E hE]

/-- It is the similarity s(i,k). -/
theorem sR_eq (E : FVec Ideal Spec.S4096x1024 .f32) (hE : ∀ i k, ∃ x : ℝ, E (ix2 i k) = (x : EReal)) (i k : Fin 4096) :
    Spec.sR E i k = ((sK E i k : ℝ) : EReal) := by
  unfold Spec.sR
  rw [Spec.temp_eq, ← Stream.mul_inv_temp, sK_eq E hE]

/-! ## The masks -/

/-- k is another row. -/
def offd (i k : Fin 4096) : Bool := decide (i.val ≠ k.val)

/-- k is another row that shares a label with row i. -/
def posm (Lf : FVec Ideal Spec.S4096x64 .f32) (i k : Fin 4096) : Bool :=
  decide (0 < ∑ kk : Fin 64, Lf (ix2 i kk) * Lf (ix2 k kk)) && decide (i.val ≠ k.val)

theorem offd_iff (i k : Fin 4096) : offd i k = true ↔ k ≠ i := by
  unfold offd
  rw [decide_eq_true_iff]
  constructor
  · intro h e; exact h (by rw [e])
  · intro h e; exact h (Fin.ext e.symm)

theorem posm_iff (Lf : FVec Ideal Spec.S4096x64 .f32) (i k : Fin 4096) :
    posm Lf i k = true ↔ (0 < Spec.labR Lf i k ∧ k ≠ i) := by
  unfold posm Spec.labR
  rw [Bool.and_eq_true, decide_eq_true_iff, decide_eq_true_iff]
  constructor
  · rintro ⟨h1, h2⟩; exact ⟨h1, fun e => h2 (by rw [e])⟩
  · rintro ⟨h1, h2⟩; exact ⟨h1, fun e => h2 (Fin.ext e.symm)⟩

/-- Every tile of 1024 consecutive rows contains a row other than i. -/
theorem hoff (i : Fin 4096) (b : Fin 4) : ∃ j : Fin 1024, offd i (Stream.key b j) = true := by
  by_cases h : i.val = b.val * 1024
  · refine ⟨⟨1, by decide⟩, ?_⟩
    unfold offd
    rw [decide_eq_true_iff]
    show i.val ≠ b.val * 1024 + 1
    omega
  · refine ⟨⟨0, by decide⟩, ?_⟩
    unfold offd
    rw [decide_eq_true_iff]
    show i.val ≠ b.val * 1024 + 0
    omega

/-! ## The streamed row against the closed forms -/

/-- The streamed maximum of the row is c_i. -/
theorem cR_eq (E : FVec Ideal Spec.S4096x1024 .f32) (hE : ∀ i k, ∃ x : ℝ, E (ix2 i k) = (x : EReal)) (i : Fin 4096) :
    Spec.cR E i = ((Stream.rowMax (sK E i) (offd i) : ℝ) : EReal) := by
  rw [(Stream.stream_four_rowMax (sK E i) (offd i) (fun _ => false) (hoff i)).1]
  unfold Spec.cR
  refine congrArg Finset.univ.sup (funext fun k => ?_)
  by_cases h : k = i
  · rw [if_pos h, if_neg (fun hh => (offd_iff i k).1 hh h)]
  · rw [if_neg h, if_pos ((offd_iff i k).2 h), sR_eq E hE]

/-- The streamed sum over the rows that share a label is pos_i. -/
theorem run_pos (E : FVec Ideal Spec.S4096x1024 .f32) (Lf : FVec Ideal Spec.S4096x64 .f32)
    (hE : ∀ i k, ∃ x : ℝ, E (ix2 i k) = (x : EReal)) (i : Fin 4096) :
    (Stream.run (sK E i) (offd i) (posm Lf i)).2.1 = Spec.posR E Lf i := by
  rw [(Stream.stream_four_rowMax (sK E i) (offd i) (posm Lf i) (hoff i)).2]
  show ((∑ k : Fin 4096, (if posm Lf i k then Real.exp (sK E i k - Stream.rowMax (sK E i) (offd i)) else 0) : ℝ) : EReal) = _
  refine (Stream.sum_exp_coe Finset.univ (sK E i) (posm Lf i) (Stream.rowMax (sK E i) (offd i))).symm.trans ?_
  unfold Spec.posR
  refine Finset.sum_congr rfl fun k _ => ?_
  rw [sR_eq E hE, cR_eq E hE]
  exact if_congr (posm_iff Lf i k) rfl rfl

/-- The streamed sum over the other rows is neg_i. -/
theorem run_neg (E : FVec Ideal Spec.S4096x1024 .f32) (Lf : FVec Ideal Spec.S4096x64 .f32)
    (hE : ∀ i k, ∃ x : ℝ, E (ix2 i k) = (x : EReal)) (i : Fin 4096) :
    (Stream.run (sK E i) (offd i) (posm Lf i)).2.2.1 = Spec.negR E i := by
  rw [(Stream.stream_four_rowMax (sK E i) (offd i) (posm Lf i) (hoff i)).2]
  show ((∑ k : Fin 4096, (if offd i k then Real.exp (sK E i k - Stream.rowMax (sK E i) (offd i)) else 0) : ℝ) : EReal) = _
  refine (Stream.sum_exp_coe Finset.univ (sK E i) (offd i) (Stream.rowMax (sK E i) (offd i))).symm.trans ?_
  unfold Spec.negR
  refine Finset.sum_congr rfl fun k _ => ?_
  rw [sR_eq E hE, cR_eq E hE]
  exact if_congr (offd_iff i k) rfl rfl

/-- The streamed count is positive exactly when row i is valid. -/
theorem run_valid (E : FVec Ideal Spec.S4096x1024 .f32) (Lf : FVec Ideal Spec.S4096x64 .f32) (i : Fin 4096) :
    (0 : EReal) < (Stream.run (sK E i) (offd i) (posm Lf i)).2.2.2 ↔ Spec.validR Lf i := by
  rw [(Stream.stream_four_rowMax (sK E i) (offd i) (posm Lf i) (hoff i)).2]
  show (0 : EReal) < ((∑ k : Fin 4096, (if posm Lf i k then (1 : ℝ) else 0) : ℝ) : EReal) ↔ _
  rw [Stream.count_pos_iff_row]
  unfold Spec.validR
  constructor
  · rintro ⟨k, hk⟩
    exact ⟨k, ((posm_iff Lf i k).1 hk).2, ((posm_iff Lf i k).1 hk).1⟩
  · rintro ⟨k, h1, h2⟩
    exact ⟨k, (posm_iff Lf i k).2 ⟨h2, h1⟩⟩

end Cert.Proof.Bridge

end
-- ==== Proof.AlgCore.lean ====
/-
  The three row vectors the streamed rows produce are the reference's.

  Take three columns (4096 × 1) whose entry in row i is, in turn, the streamed sum over the rows sharing a label with i, the
  streamed sum over the other rows, and the streamed count, for embeddings whose entries are all reals. Read as vectors of
  4096 entries, the first two are the reference's row sums `posV` and `negV`, and the third, compared with zero, is the
  reference's validity vector: entry by entry through the closed forms (the streamed row is pos_i, neg_i and a count
  positive exactly when row i is valid; the reference's terms are the same closed forms), two one-bit words being equal
  when each is 1 exactly when the other is.
-/
import proofs.«133961_j23673859736131_2_alg».proof.Proof.RefIndex
import proofs.«133961_j23673859736131_2_alg».proof.Proof.Bridge
import Idealize.ShloMosaic.Lib.Pipeline.Value

noncomputable section

namespace Cert.Proof.Alg

open Idealize.ShloMosaic Idealize.ShloMosaic.ValueIdx

/-- A column (a × 1) read as a vector of a entries: entry i is the column's row i. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Two one-bit words are equal when each is 1 exactly when the other is. -/
theorem bit_ext : ∀ a b : BitVec 1, (a = 1#1 ↔ b = 1#1) → a = b := by decide

/-- The zero constant spread over the rows reads 0. -/
theorem splat_zero_apply (j : Spec.S4096.Idx) : Spec.splat 0x00000000#32 j = 0 := by
  show broadcastInDim Spec.S4096 ![] Spec.bcast_S_S4096 (constant (F := Ideal) Spec.S_ .f32 0x00000000#32) j = 0
  rw [broadcastInDim_scalar_apply, constant_apply, Ideal.ofBits_zero_f32]

/-- The comparison with zero, at an entry: 1 exactly when the entry is positive. -/
theorem gt_zero_bit (v : FVec Ideal Spec.S4096 .f32) (j : Spec.S4096.Idx) :
    cmpf .ogt v (Spec.splat 0x00000000#32) j = 1#1 ↔ 0 < v j := by
  show Ideal.cmp .ogt (v j) (Spec.splat 0x00000000#32 j) = 1#1 ↔ _
  rw [Ref.cmp_ogt_eq_one, splat_zero_apply]

/-- The three columns of streamed rows, read as vectors, are the reference's three row vectors. -/
theorem rows_eq (E : FVec Ideal Spec.S4096x1024 .f32) (Lf : FVec Ideal Spec.S4096x64 .f32)
    (hreal : ∀ i k, ∃ x : ℝ, E (ix2 i k) = (x : EReal))
    (h : (⟨2, ![4096, 1]⟩ : Shape).ShapeCasts ⟨1, ![4096]⟩)
    (a0 a1 a2 : FVec Ideal ⟨2, ![4096, 1]⟩ .f32)
    (hpos : ∀ i : Fin 4096, a0 (ix2 i (0 : Fin 1)) = (Stream.run (Bridge.sK E i) (Bridge.offd i) (Bridge.posm Lf i)).2.1)
    (hneg : ∀ i : Fin 4096, a1 (ix2 i (0 : Fin 1)) = (Stream.run (Bridge.sK E i) (Bridge.offd i) (Bridge.posm Lf i)).2.2.1)
    (hcnt : ∀ i : Fin 4096, a2 (ix2 i (0 : Fin 1)) = (Stream.run (Bridge.sK E i) (Bridge.offd i) (Bridge.posm Lf i)).2.2.2) :
    shapeCast ⟨1, ![4096]⟩ a0 h = Ref.posV E Lf
      ∧ shapeCast ⟨1, ![4096]⟩ a1 h = Ref.negV E
      ∧ cmpf .ogt (shapeCast ⟨1, ![4096]⟩ a2 h : FVec Ideal Spec.S4096 .f32) (Spec.splat 0x00000000#32) = Ref.validV Lf := by
  refine ⟨funext fun j => ?_, funext fun j => ?_, funext fun j => ?_⟩
  · obtain ⟨i, rfl⟩ : ∃ i : Fin 4096, j = ix1 i := ⟨j 0, eq_ix1 j⟩
    rw [shapeCast_a1_a_apply, hpos, Bridge.run_pos E Lf hreal, Ref.posV_apply]
  · obtain ⟨i, rfl⟩ : ∃ i : Fin 4096, j = ix1 i := ⟨j 0, eq_ix1 j⟩
    rw [shapeCast_a1_a_apply, hneg, Bridge.run_neg E Lf hreal, Ref.negV_apply]
  · obtain ⟨i, rfl⟩ : ∃ i : Fin 4096, j = ix1 i := ⟨j 0, eq_ix1 j⟩
    apply bit_ext
    rw [gt_zero_bit, shapeCast_a1_a_apply, hcnt, Bridge.run_valid, Ref.validV_apply]

/-- Hence `Spec.tail` of them is `Spec.tail` of the reference's three row vectors. -/
theorem tail_eq (E : FVec Ideal Spec.S4096x1024 .f32) (Lf : FVec Ideal Spec.S4096x64 .f32)
    (hreal : ∀ i k, ∃ x : ℝ, E (ix2 i k) = (x : EReal))
    (h : (⟨2, ![4096, 1]⟩ : Shape).ShapeCasts ⟨1, ![4096]⟩)
    (a0 a1 a2 : FVec Ideal ⟨2, ![4096, 1]⟩ .f32)
    (hpos : ∀ i : Fin 4096, a0 (ix2 i (0 : Fin 1)) = (Stream.run (Bridge.sK E i) (Bridge.offd i) (Bridge.posm Lf i)).2.1)
    (hneg : ∀ i : Fin 4096, a1 (ix2 i (0 : Fin 1)) = (Stream.run (Bridge.sK E i) (Bridge.offd i) (Bridge.posm Lf i)).2.2.1)
    (hcnt : ∀ i : Fin 4096, a2 (ix2 i (0 : Fin 1)) = (Stream.run (Bridge.sK E i) (Bridge.offd i) (Bridge.posm Lf i)).2.2.2)
    (b : FVec Ideal Spec.S_ .f32) (w : FVec Ideal Spec.S4096 .f32) :
    Spec.tail b w (shapeCast ⟨1, ![4096]⟩ a0 h) (shapeCast ⟨1, ![4096]⟩ a1 h)
        (cmpf .ogt (shapeCast ⟨1, ![4096]⟩ a2 h : FVec Ideal Spec.S4096 .f32) (Spec.splat 0x00000000#32))
      = Spec.tail b w (Ref.posV E Lf) (Ref.negV E) (Ref.validV Lf) := by
  obtain ⟨e0, e1, e2⟩ := rows_eq E Lf hreal h a0 a1 a2 hpos hneg hcnt
  rw [e0, e1, e2]

end Cert.Proof.Alg

end
-- ==== Proof.Finite.lean ====
/-
  Finiteness from the precondition: every embedding entry, and every logit, is a real.

  The precondition says that the conjunction, over all entries, of |entry| < +∞ is 1, for the embeddings and for the
  logits. A conjunction over all entries that is 1 has a 1 at every entry; the comparison that is 1 says the larger of
  the entry and its negative is below the top of the extended reals; and an extended real with that property is neither
  −∞ (whose negative is +∞) nor +∞, so it is a real.
-/
import proofs.«133961_j23673859736131_2_alg».proof.Defs
import proofs.«133961_j23673859736131_2_alg».proof.Proof.Gen.Pre_finite_inputs
import Idealize.ShloMosaic.Lib.ReduceAll
import Idealize.ShloMosaic.Lib.ValueIdx
import Idealize.ShloMosaic.Lib.Affine
import Idealize.ShloMosaic.PureOps.Ideal

noncomputable section

namespace Cert.Proof.Finite

open Idealize.ShloMosaic Idealize.ShloMosaic.ValueIdx Idealize.SL.Sem

/-- The shape of a scalar has one index. -/
instance : Subsingleton Cert.Pre_finite_inputs.S_.Idx := ⟨fun _ _ => funext fun d => d.elim0⟩

/-- A comparison "less than" of extended reals is 1 exactly when it holds. -/
theorem cmp_olt_eq_one (x y : EReal) : Ideal.cmp .olt x y = 1#1 ↔ x < y := by
  show BitVec.ofBool (decide (x < y)) = 1#1 ↔ x < y
  by_cases h : x < y
  · simp [h]
  · simp [h]

/-- The word of +∞. -/
theorem ofBits_pos_inf : Ideal.ofBits .f32 0x7F800000#32 = ⊤ := by simp [Ideal.ofBits, Ideal.ieee]

/-- An extended real whose absolute value is below +∞ is a real. -/
theorem real_of_abs_lt_top (e : EReal) (h : max e (-e) < ⊤) : ∃ x : ℝ, e = (x : EReal) := by
  induction e using EReal.rec with
  | bot => simp at h
  | coe x => exact ⟨x, rfl⟩
  | top => simp at h

/-- When the precondition's function is 1: every embedding entry is a real. -/
theorem embeddings_real (E : FVec Ideal Cert.Pre_finite_inputs.S4096x1024 .f32)
    (X : FVec Ideal Cert.Pre_finite_inputs.S4096x64 .f32) (L : IVec Cert.Pre_finite_inputs.S4096x64 32)
    (h : Cert.Pre_finite_inputs.fn (F := Ideal) E X L = fun _ => 1#1) (i : Fin 4096) (k : Fin 1024) :
    ∃ x : ℝ, E (ix2 i k) = (x : EReal) := by
  have h0 := congrFun h ix0
  dsimp only [Cert.Pre_finite_inputs.fn] at h0
  have h1 := (IntOp.andi_eq_one.1 h0).1
  have h2 := Host.reduce_andi_all _ _ _ _ _ h1 (ix2 i k)
  have h3 : Ideal.cmp .olt (max (E (ix2 i k)) (-(E (ix2 i k)))) (Ideal.ofBits .f32 0x7F800000#32) = 1#1 := h2
  rw [ofBits_pos_inf, cmp_olt_eq_one] at h3
  exact real_of_abs_lt_top _ h3

/-- When the precondition's function is 1: every logit is a real. -/
theorem logits_real (E : FVec Ideal Cert.Pre_finite_inputs.S4096x1024 .f32)
    (X : FVec Ideal Cert.Pre_finite_inputs.S4096x64 .f32) (L : IVec Cert.Pre_finite_inputs.S4096x64 32)
    (h : Cert.Pre_finite_inputs.fn (F := Ideal) E X L = fun _ => 1#1) (i : Fin 4096) (k : Fin 64) :
    ∃ x : ℝ, X (ix2 i k) = (x : EReal) := by
  have h0 := congrFun h ix0
  dsimp only [Cert.Pre_finite_inputs.fn] at h0
  have h1 := (IntOp.andi_eq_one.1 h0).2
  have h2 := Host.reduce_andi_all _ _ _ _ _ h1 (ix2 i k)
  have h3 : Ideal.cmp .olt (max (X (ix2 i k)) (-(X (ix2 i k)))) (Ideal.ofBits .f32 0x7F800000#32) = 1#1 := h2
  rw [ofBits_pos_inf, cmp_olt_eq_one] at h3
  exact real_of_abs_lt_top _ h3

/-- Under the idealized kernel's precondition every entry of its embeddings argument is a real, on every device. -/
theorem kernel_arg0_real
    (m : (ℓ : Loc Cert.KernelIdeal.nD Cert.KernelIdeal.τ Cert.KernelIdeal.sig) → Buf (Elt Ideal) ℓ)
    (hPre : Cert.Pre_KernelIdeal (hPre_finite_inputs := Cert.Pre_finite_inputs.Gen.facts) m)
    (c : Dev Cert.KernelIdeal.nD) (i : Fin 4096) (k : Fin 1024) :
    ∃ x : ℝ, m ((c.tc : Thread Cert.KernelIdeal.nD Cert.KernelIdeal.τ).loc Cert.KernelIdeal.main_arg0) (ix2 i k)
      = (x : EReal) :=
  embeddings_real _ _ _ (hPre c) i k

/-- The same for the logits argument. -/
theorem kernel_arg1_real
    (m : (ℓ : Loc Cert.KernelIdeal.nD Cert.KernelIdeal.τ Cert.KernelIdeal.sig) → Buf (Elt Ideal) ℓ)
    (hPre : Cert.Pre_KernelIdeal (hPre_finite_inputs := Cert.Pre_finite_inputs.Gen.facts) m)
    (c : Dev Cert.KernelIdeal.nD) (i : Fin 4096) (k : Fin 64) :
    ∃ x : ℝ, m ((c.tc : Thread Cert.KernelIdeal.nD Cert.KernelIdeal.τ).loc Cert.KernelIdeal.main_arg1) (ix2 i k)
      = (x : EReal) :=
  logits_real _ _ _ (hPre c) i k

end Cert.Proof.Finite

end
-- ==== Proof.Algebraic.lean ====
/-
  The idealized kernel program's result is the reference's, given what the kernel call leaves in its three result columns.

  At the end of the kernel program the result buffer holds `Spec.tail` of the cross-entropy, the entropy weights, and the
  call's three columns read as vectors (the third compared with zero); the first two are `Spec.head` of the logits and
  labels, which the lines before the call computed and the call did not touch. The reference's result is `Spec.tail` of
  the same two and of its own three row vectors. When row i of the three columns holds the streamed sums and count of row
  i — for the embeddings and float labels in the format the call reads them in, which at the ideal instance are the
  embeddings and the float labels themselves, all of whose entries are reals by the precondition — the three vectors
  agree, and so do the results.
-/
import proofs.«133961_j23673859736131_2_alg».proof.Proof.KiHost
import proofs.«133961_j23673859736131_2_alg».proof.Proof.RefValue
import proofs.«133961_j23673859736131_2_alg».proof.Proof.AlgCore
import proofs.«133961_j23673859736131_2_alg».proof.Proof.Finite

noncomputable section

/-! ## The call's columns and the format changes, at an entry -/

namespace Cert.KernelIdeal.Hand

open Cert.KernelIdeal Cert.KernelIdeal.Gen Idealize.ShloMosaic Idealize.ShloMosaic.ValueIdx Cert.Proof

/-- A result column read as a vector: entry i is the column's row i. -/
theorem col_apply (a : FVec Ideal S4096x1 .f32) (i : Fin 4096) : col a (ix1 i) = a (ix2 i (0 : Fin 1)) :=
  Alg.shapeCast_a1_a_apply a _ i

/-- The comparison of a column with zero, at row i: 1 exactly when the column's row i is positive. -/
theorem valid_bit_apply (a : FVec Ideal S4096x1 .f32) (i : Fin 4096) :
    cmpf .ogt (col a) (Spec.splat 0x00000000#32) (ix1 i) = 1#1 ↔ 0 < a (ix2 i (0 : Fin 1)) := by
  rw [Alg.gt_zero_bit, col_apply]

end Cert.KernelIdeal.Hand

/-! ## The equality of results -/

namespace Cert.Proof.Alg

open Cert.KernelIdeal Cert.KernelIdeal.Gen Cert.KernelIdeal.Hand Idealize.ShloMosaic Idealize.ShloMosaic.ValueIdx
open Idealize.SL.Sem Idealize.ShloMosaic.TcCoe

variable (m : (ℓ : Loc nD τ sig) → Buf (Elt Ideal) ℓ) (c : Dev nD)

/-- THE RESULTS AGREE: when row i of the call's three result columns holds the streamed sums and count of row i, the
    kernel program's result is the reference's result of the same three arguments. -/
theorem result_eq
    (hPre : Cert.Pre_KernelIdeal (hPre_finite_inputs := Cert.Pre_finite_inputs.Gen.facts) m)
    (hpos : ∀ i : Fin 4096, Wr m c (dv main_v40_0) (ix2 i (0 : Fin 1))
      = (Stream.run (Bridge.sK (V0 m c (dv main_v38) : FVec Ideal Spec.S4096x1024 .f32) i) (Bridge.offd i)
          (Bridge.posm (V0 m c (dv main_v39) : FVec Ideal Spec.S4096x64 .f32) i)).2.1)
    (hneg : ∀ i : Fin 4096, Wr m c (dv main_v40_1) (ix2 i (0 : Fin 1))
      = (Stream.run (Bridge.sK (V0 m c (dv main_v38) : FVec Ideal Spec.S4096x1024 .f32) i) (Bridge.offd i)
          (Bridge.posm (V0 m c (dv main_v39) : FVec Ideal Spec.S4096x64 .f32) i)).2.2.1)
    (hcnt : ∀ i : Fin 4096, Wr m c (dv main_v40_2) (ix2 i (0 : Fin 1))
      = (Stream.run (Bridge.sK (V0 m c (dv main_v38) : FVec Ideal Spec.S4096x1024 .f32) i) (Bridge.offd i)
          (Bridge.posm (V0 m c (dv main_v39) : FVec Ideal Spec.S4096x64 .f32) i)).2.2.2) :
    Wend m c (dv main_v63)
      = Cert.Proof.Ref.refResult (m ((c.tc : Thread nD τ).loc main_arg0)) (m ((c.tc : Thread nD τ).loc main_arg1))
          (m ((c.tc : Thread nD τ).loc main_arg2)) := by
  have hE : (V0 m c (dv main_v38) : FVec Ideal Spec.S4096x1024 .f32) = m (c, dv main_arg0) := funext (V0_emb m c)
  have hL : (V0 m c (dv main_v39) : FVec Ideal Spec.S4096x64 .f32) = Spec.labelsF (m (c, dv main_arg2)) :=
    funext (V0_lab m c)
  rw [hE, hL] at hpos hneg hcnt
  have hreal : ∀ (i : Fin 4096) (k : Fin 1024),
      ∃ x : ℝ, (m (c, dv main_arg0) : FVec Ideal Spec.S4096x1024 .f32) (ix2 i k) = (x : EReal) :=
    Finite.kernel_arg0_real m hPre c
  rw [Wend_result, Wr_other m c (dv main_v11) (by decide) (by decide) (by decide),
    Wr_other m c (dv main_v37) (by decide) (by decide) (by decide), V0_bce, V0_weights]
  unfold col
  exact tail_eq (m (c, dv main_arg0)) (Spec.labelsF (m (c, dv main_arg2))) hreal _ _ _ _ hpos hneg hcnt _ _

end Cert.Proof.Alg

end
-- ==== Proof.KiBlocks.lean ====
/-
  Where the blocks sit.  Grid point t is row tile t / 4 and column tile t % 4.  The row windows (embeddings, labels) hold
  rows 512·(t / 4) … of their array, the column windows rows 1024·(t % 4) …; an output block written back at the last
  column tile of row tile a is rows 512·a … of its array, so the three result arrays, when the region ends, hold row by
  row what the last column tile's point left in the block.
-/
import proofs.«133961_j23673859736131_2_alg».proof.Proof.KiData
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open ValueIdx

variable (m : (ℓ : Loc nD τ sig) → Buf (Elt F) ℓ) (ρ : Dev nD → PrngReg)

/-- The windows' block indices over the grid. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = t.val % 4 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0
    ∧ win0_6.index t (0 : Fin 2) = t.val / 4 ∧ win0_6.index t (1 : Fin 2) = 0 :=
  (by decide +kernel : ∀ t : Fin grid0.N, _)

/-- The grid coordinates of point t. -/
theorem coords_facts : ∀ t : Fin cfg0.N, ((grid0.coords t) 0).val = t.val / 4 ∧ ((grid0.coords t) 1).val = t.val % 4 :=
  (by decide +kernel : ∀ t : Fin grid0.N, _)

/-- Window 0's block at point t, entry by entry: rows 512·(t.val / 4) … of its array. -/
theorem iblk_0_apply (c : Dev nD) (t : Fin cfg0.N) (r : Fin 512) (k : Fin 1024) (hi : 512 * (t.val / 4) + r.val < 4096) :
    iblk m c 0 t (ix2 r k) = V m c main_v38 (ix2 (⟨512 * (t.val / 4) + r.val, hi⟩ : Fin 4096) k) := by
  obtain ⟨e0, e1, e2, e3, e4, e5, e6, e7, -⟩ := idx_facts t
  show V m c main_v38 (((cfg0.win 0).blk t).view.emb (ix2 r k)) = V m c main_v38 _
  refine congrArg _ (funext fun a => Fin.ext ?_)
  match a with
  | ⟨0, _⟩ => show win0_0.index t (0 : Fin 2) * 512 + 1 * r.val = 512 * (t.val / 4) + r.val; rw [e0]; omega
  | ⟨1, _⟩ => show win0_0.index t (1 : Fin 2) * 1024 + 1 * k.val = k.val; rw [e1]; omega

/-- Window 1's block at point t, entry by entry: rows 1024·(t.val % 4) … of its array. -/
theorem iblk_1_apply (c : Dev nD) (t : Fin cfg0.N) (r : Fin 1024) (k : Fin 1024) (hi : 1024 * (t.val % 4) + r.val < 4096) :
    iblk m c 1 t (ix2 r k) = V m c main_v38 (ix2 (⟨1024 * (t.val % 4) + r.val, hi⟩ : Fin 4096) k) := by
  obtain ⟨e0, e1, e2, e3, e4, e5, e6, e7, -⟩ := idx_facts t
  show V m c main_v38 (((cfg0.win 1).blk t).view.emb (ix2 r k)) = V m c main_v38 _
  refine congrArg _ (funext fun a => Fin.ext ?_)
  match a with
  | ⟨0, _⟩ => show win0_1.index t (0 : Fin 2) * 1024 + 1 * r.val = 1024 * (t.val % 4) + r.val; rw [e2]; omega
  | ⟨1, _⟩ => show win0_1.index t (1 : Fin 2) * 1024 + 1 * k.val = k.val; rw [e3]; omega

/-- Window 2's block at point t, entry by entry: rows 512·(t.val / 4) … of its array. -/
theorem iblk_2_apply (c : Dev nD) (t : Fin cfg0.N) (r : Fin 512) (k : Fin 64) (hi : 512 * (t.val / 4) + r.val < 4096) :
    iblk m c 2 t (ix2 r k) = V m c main_v39 (ix2 (⟨512 * (t.val / 4) + r.val, hi⟩ : Fin 4096) k) := by
  obtain ⟨e0, e1, e2, e3, e4, e5, e6, e7, -⟩ := idx_facts t
  show V m c main_v39 (((cfg0.win 2).blk t).view.emb (ix2 r k)) = V m c main_v39 _
  refine congrArg _ (funext fun a => Fin.ext ?_)
  match a with
  | ⟨0, _⟩ => show win0_2.index t (0 : Fin 2) * 512 + 1 * r.val = 512 * (t.val / 4) + r.val; rw [e4]; omega
  | ⟨1, _⟩ => show win0_2.index t (1 : Fin 2) * 64 + 1 * k.val = k.val; rw [e5]; omega

/-- Window 3's block at point t, entry by entry: rows 1024·(t.val % 4) … of its array. -/
theorem iblk_3_apply (c : Dev nD) (t : Fin cfg0.N) (r : Fin 1024) (k : Fin 64) (hi : 1024 * (t.val % 4) + r.val < 4096) :
    iblk m c 3 t (ix2 r k) = V m c main_v39 (ix2 (⟨1024 * (t.val % 4) + r.val, hi⟩ : Fin 4096) k) := by
  obtain ⟨e0, e1, e2, e3, e4, e5, e6, e7, -⟩ := idx_facts t
  show V m c main_v39 (((cfg0.win 3).blk t).view.emb (ix2 r k)) = V m c main_v39 _
  refine congrArg _ (funext fun a => Fin.ext ?_)
  match a with
  | ⟨0, _⟩ => show win0_3.index t (0 : Fin 2) * 1024 + 1 * r.val = 1024 * (t.val % 4) + r.val; rw [e6]; omega
  | ⟨1, _⟩ => show win0_3.index t (1 : Fin 2) * 64 + 1 * k.val = k.val; rw [e7]; omega

/-! ## The result arrays when the region ends -/

/-- The last column tile's point of the row tile that holds row i, and the row's place in the block. -/
def fpt (i : S4096x1.Idx) : Fin cfg0.N := ⟨4 * ((i 0).val / 512) + 3, by have := (i 0).isLt; have hN : cfg0.N = 32 := N_0; show 4 * ((i 0).val / 512) + 3 < cfg0.N; rw [hN]; show 4 * ((i 0).val / 512) + 3 < 32; have : (i 0).val < 4096 := this; omega⟩
def rowIn (i : S4096x1.Idx) : S512x1.Idx := ix2 (⟨(i 0).val % 512, Nat.mod_lt _ (by decide)⟩ : Fin 512) (0 : Fin 1)

/-- What result array 0 holds, row by row: what the row tile's last point left in the output block. -/
def G4 (c : Dev nD) : Buf (Elt F) ((cfg0.win 4).arr.view.loc (c : Thread nD τ)) := fun i => (dats m 0 c).after 4 (fpt i) (rowIn i)

theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v40_0).slice (win0_4.rect t)).set ↔ _
  rw [View.set_slice_whole, Rect.mem_set_unit]
  exact Iff.rfl

theorem flushed4_eq (c : Dev nD) (t : Fin cfg0.N) (hf : (cfg0.win 4).flush t = true) :
    (dats m 0 c).flushed 4 t = ((cfg0.win 4).blk t).view.read (Elt F) (G4 m c) := by
  have h3 : t.val % 4 = 3 := (flush0_4 t).mp hf
  obtain ⟨-, -, -, -, -, -, -, -, e8, e9, e10, e11, e12, e13⟩ := idx_facts t
  show (cfg0.win 4).cut (grid0.coords t) ((dats m 0 c).after 4 t) = _
  funext y
  show (dats m 0 c).after 4 t y = (dats m 0 c).after 4 (fpt (((cfg0.win 4).blk t).view.emb y)) (rowIn (((cfg0.win 4).blk t).view.emb y))
  have hy0 : (y 0).val < 512 := (y 0).isLt
  have hemb0 : ((((cfg0.win 4).blk t).view.emb y) 0).val = win0_4.index t (0 : Fin 2) * 512 + 1 * (y 0).val := rfl
  have hp : fpt (((cfg0.win 4).blk t).view.emb y) = t := Fin.ext (by
    show 4 * (((((cfg0.win 4).blk t).view.emb y) 0).val / 512) + 3 = t.val
    rw [hemb0, e8]; omega)
  have hr : rowIn (((cfg0.win 4).blk t).view.emb y) = y := by
    funext a
    apply Fin.ext
    match a with
    | ⟨0, _⟩ => show ((((cfg0.win 4).blk t).view.emb y) 0).val % 512 = (y 0).val; rw [hemb0, e8]; omega
    | ⟨1, _⟩ => show (0 : ℕ) = (y 1).val; have h1 : (y 1).val < 1 := (y 1).isLt; omega
  rw [hp, hr]

theorem cover4 (i : S4096x1.Idx) : ∃ t : Fin cfg0.N, (cfg0.win 4).flush t = true ∧ i ∈ ((cfg0.win 4).blk t).view.set := by
  refine ⟨fpt i, (flush0_4 (fpt i)).mpr (by show (4 * ((i 0).val / 512) + 3) % 4 = 3; omega), ?_⟩
  obtain ⟨-, -, -, -, -, -, -, -, e8, e9, e10, e11, e12, e13⟩ := idx_facts (fpt i)
  rw [mem_blk4]
  intro a
  have hi0 : (i 0).val < 4096 := (i 0).isLt
  have hi1 : (i 1).val < 1 := (i 1).isLt
  match a with
  | ⟨0, _⟩ => show win0_4.index (fpt i) (0 : Fin 2) * 512 ≤ (i 0).val ∧ (i 0).val < win0_4.index (fpt i) (0 : Fin 2) * 512 + 512; rw [e8]; show (4 * ((i 0).val / 512) + 3) / 4 * 512 ≤ (i 0).val ∧ (i 0).val < (4 * ((i 0).val / 512) + 3) / 4 * 512 + 512; omega
  | ⟨1, _⟩ => show win0_4.index (fpt i) (1 : Fin 2) * 1 ≤ (i 1).val ∧ (i 1).val < win0_4.index (fpt i) (1 : Fin 2) * 1 + 1; rw [e9]; omega

/-- Result array 0 when the region ends. -/
theorem final4 (c : Dev nD) : (dats m 0 c).arrAt 4 cfg0.N = G4 m c :=
  (dats m 0 c).arrAt_eq_of_cover 4 (G4 m c) (fun t hf => flushed4_eq m c t hf) cover4

/-- What result array 1 holds, row by row: what the row tile's last point left in the output block. -/
def G5 (c : Dev nD) : Buf (Elt F) ((cfg0.win 5).arr.view.loc (c : Thread nD τ)) := fun i => (dats m 0 c).after 5 (fpt i) (rowIn i)

theorem mem_blk5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v40_1).slice (win0_5.rect t)).set ↔ _
  rw [View.set_slice_whole, Rect.mem_set_unit]
  exact Iff.rfl

theorem flushed5_eq (c : Dev nD) (t : Fin cfg0.N) (hf : (cfg0.win 5).flush t = true) :
    (dats m 0 c).flushed 5 t = ((cfg0.win 5).blk t).view.read (Elt F) (G5 m c) := by
  have h3 : t.val % 4 = 3 := (flush0_5 t).mp hf
  obtain ⟨-, -, -, -, -, -, -, -, e8, e9, e10, e11, e12, e13⟩ := idx_facts t
  show (cfg0.win 5).cut (grid0.coords t) ((dats m 0 c).after 5 t) = _
  funext y
  show (dats m 0 c).after 5 t y = (dats m 0 c).after 5 (fpt (((cfg0.win 5).blk t).view.emb y)) (rowIn (((cfg0.win 5).blk t).view.emb y))
  have hy0 : (y 0).val < 512 := (y 0).isLt
  have hemb0 : ((((cfg0.win 5).blk t).view.emb y) 0).val = win0_5.index t (0 : Fin 2) * 512 + 1 * (y 0).val := rfl
  have hp : fpt (((cfg0.win 5).blk t).view.emb y) = t := Fin.ext (by
    show 4 * (((((cfg0.win 5).blk t).view.emb y) 0).val / 512) + 3 = t.val
    rw [hemb0, e10]; omega)
  have hr : rowIn (((cfg0.win 5).blk t).view.emb y) = y := by
    funext a
    apply Fin.ext
    match a with
    | ⟨0, _⟩ => show ((((cfg0.win 5).blk t).view.emb y) 0).val % 512 = (y 0).val; rw [hemb0, e10]; omega
    | ⟨1, _⟩ => show (0 : ℕ) = (y 1).val; have h1 : (y 1).val < 1 := (y 1).isLt; omega
  rw [hp, hr]

theorem cover5 (i : S4096x1.Idx) : ∃ t : Fin cfg0.N, (cfg0.win 5).flush t = true ∧ i ∈ ((cfg0.win 5).blk t).view.set := by
  refine ⟨fpt i, (flush0_5 (fpt i)).mpr (by show (4 * ((i 0).val / 512) + 3) % 4 = 3; omega), ?_⟩
  obtain ⟨-, -, -, -, -, -, -, -, e8, e9, e10, e11, e12, e13⟩ := idx_facts (fpt i)
  rw [mem_blk5]
  intro a
  have hi0 : (i 0).val < 4096 := (i 0).isLt
  have hi1 : (i 1).val < 1 := (i 1).isLt
  match a with
  | ⟨0, _⟩ => show win0_5.index (fpt i) (0 : Fin 2) * 512 ≤ (i 0).val ∧ (i 0).val < win0_5.index (fpt i) (0 : Fin 2) * 512 + 512; rw [e10]; show (4 * ((i 0).val / 512) + 3) / 4 * 512 ≤ (i 0).val ∧ (i 0).val < (4 * ((i 0).val / 512) + 3) / 4 * 512 + 512; omega
  | ⟨1, _⟩ => show win0_5.index (fpt i) (1 : Fin 2) * 1 ≤ (i 1).val ∧ (i 1).val < win0_5.index (fpt i) (1 : Fin 2) * 1 + 1; rw [e11]; omega

/-- Result array 1 when the region ends. -/
theorem final5 (c : Dev nD) : (dats m 0 c).arrAt 5 cfg0.N = G5 m c :=
  (dats m 0 c).arrAt_eq_of_cover 5 (G5 m c) (fun t hf => flushed5_eq m c t hf) cover5

/-- What result array 2 holds, row by row: what the row tile's last point left in the output block. -/
def G6 (c : Dev nD) : Buf (Elt F) ((cfg0.win 6).arr.view.loc (c : Thread nD τ)) := fun i => (dats m 0 c).after 6 (fpt i) (rowIn i)

theorem mem_blk6 (t : Fin cfg0.N) (i : S4096x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v40_2).slice (win0_6.rect t)).set ↔ _
  rw [View.set_slice_whole, Rect.mem_set_unit]
  exact Iff.rfl

theorem flushed6_eq (c : Dev nD) (t : Fin cfg0.N) (hf : (cfg0.win 6).flush t = true) :
    (dats m 0 c).flushed 6 t = ((cfg0.win 6).blk t).view.read (Elt F) (G6 m c) := by
  have h3 : t.val % 4 = 3 := (flush0_6 t).mp hf
  obtain ⟨-, -, -, -, -, -, -, -, e8, e9, e10, e11, e12, e13⟩ := idx_facts t
  show (cfg0.win 6).cut (grid0.coords t) ((dats m 0 c).after 6 t) = _
  funext y
  show (dats m 0 c).after 6 t y = (dats m 0 c).after 6 (fpt (((cfg0.win 6).blk t).view.emb y)) (rowIn (((cfg0.win 6).blk t).view.emb y))
  have hy0 : (y 0).val < 512 := (y 0).isLt
  have hemb0 : ((((cfg0.win 6).blk t).view.emb y) 0).val = win0_6.index t (0 : Fin 2) * 512 + 1 * (y 0).val := rfl
  have hp : fpt (((cfg0.win 6).blk t).view.emb y) = t := Fin.ext (by
    show 4 * (((((cfg0.win 6).blk t).view.emb y) 0).val / 512) + 3 = t.val
    rw [hemb0, e12]; omega)
  have hr : rowIn (((cfg0.win 6).blk t).view.emb y) = y := by
    funext a
    apply Fin.ext
    match a with
    | ⟨0, _⟩ => show ((((cfg0.win 6).blk t).view.emb y) 0).val % 512 = (y 0).val; rw [hemb0, e12]; omega
    | ⟨1, _⟩ => show (0 : ℕ) = (y 1).val; have h1 : (y 1).val < 1 := (y 1).isLt; omega
  rw [hp, hr]

theorem cover6 (i : S4096x1.Idx) : ∃ t : Fin cfg0.N, (cfg0.win 6).flush t = true ∧ i ∈ ((cfg0.win 6).blk t).view.set := by
  refine ⟨fpt i, (flush0_6 (fpt i)).mpr (by show (4 * ((i 0).val / 512) + 3) % 4 = 3; omega), ?_⟩
  obtain ⟨-, -, -, -, -, -, -, -, e8, e9, e10, e11, e12, e13⟩ := idx_facts (fpt i)
  rw [mem_blk6]
  intro a
  have hi0 : (i 0).val < 4096 := (i 0).isLt
  have hi1 : (i 1).val < 1 := (i 1).isLt
  match a with
  | ⟨0, _⟩ => show win0_6.index (fpt i) (0 : Fin 2) * 512 ≤ (i 0).val ∧ (i 0).val < win0_6.index (fpt i) (0 : Fin 2) * 512 + 512; rw [e12]; show (4 * ((i 0).val / 512) + 3) / 4 * 512 ≤ (i 0).val ∧ (i 0).val < (4 * ((i 0).val / 512) + 3) / 4 * 512 + 512; omega
  | ⟨1, _⟩ => show win0_6.index (fpt i) (1 : Fin 2) * 1 ≤ (i 1).val ∧ (i 1).val < win0_6.index (fpt i) (1 : Fin 2) * 1 + 1; rw [e13]; omega

/-- Result array 2 when the region ends. -/
theorem final6 (c : Dev nD) : (dats m 0 c).arrAt 6 cfg0.N = G6 m c :=
  (dats m 0 c).arrAt_eq_of_cover 6 (G6 m c) (fun t hf => flushed6_eq m c t hf) cover6

end Cert.KernelIdeal.Hand

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.KiPay.lean ====
/-
  The per-tile arithmetic read at an index, over the extended reals.

  Each value a tile's step computes is read here at one coordinate of its result: the two tiles of inner
  products (the scores, scaled by the reciprocal of the temperature, and the label products), the running
  maximum, the two rescaled sums of exponentials and the running count of positive labels, for a tile that does
  not meet the diagonal and for one that does, and the values the state is started from. The four carried numbers
  of a row are exactly the components of the streamed update Stream.step of that row's scores in the tile.
-/
import proofs.«133961_j23673859736131_2_alg».proof.Proof.Gen.KernelIdeal.Skeleton
import proofs.«133961_j23673859736131_2_alg».proof.Proof.Stream
import proofs.«133961_j23673859736131_2_alg».proof.Proof.LibLayout
import proofs.«133961_j23673859736131_2_alg».proof.Proof.LibContractPlain
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx
open Cert.KernelIdeal Cert.KernelIdeal.Gen
open scoped BigOperators

/-! ### The named constants -/

/-- The reciprocal of the temperature. -/
theorem inv_temp_named :
    Named.named (F := Ideal) κ "inv_temp" (φ := .f32) 0x41649249#32 = ((134217728 / 9395241 : ℝ) : EReal) :=
  IdealRules.named_const.ideal_named_scalar _ _ _ _ rfl

/-- The fill value of the masked maximum. -/
theorem neg_big_named :
    Named.named (F := Ideal) κ "neg_big" (φ := .f32) 0xFF333332#32 = (⊥ : EReal) :=
  IdealRules.named_const.ideal_named_scalar _ _ _ _ rfl

/-! ### The two tiles of inner products -/

/-- The tile of scores: entry (r, j) is the inner product of row r of the first operand with row j of the second,
    times the reciprocal of the temperature. -/
theorem pay19_apply (x0 : FVec Ideal S512x1024 .bf16) (x1 : FVec Ideal S1024x1024 .bf16) (r : Fin 512) (j : Fin 1024) :
    k0_pay19 (F := Ideal) x0 x1 (ix2 r j)
      = (∑ k : Fin 1024, x0 (ix2 r k) * x1 (ix2 j k)) * ((134217728 / 9395241 : ℝ) : EReal) := by
  unfold k0_pay19
  rw [shapeCast_self, shapeCast_self]
  show FloatOps.matmul dot_S512x1024_S1024x1024_S512x1024_1_0_0_1_n_n none x0
      (transpose S1024x1024 [1, 0] x1 transposes_S1024x1024_p1_0_S1024x1024)
      (constant (F := Ideal) S512x1024 .f32 0x00000000#32) (ix2 r j)
      * Named.named (F := Ideal) κ "inv_temp" (φ := .f32) 0x41649249#32 = _
  rw [inv_temp_named]
  refine congrArg (· * _) ?_
  refine (Cert.LibContractPlain.matmulPlain_zero_apply 512 1024 1024
    dot_S512x1024_S1024x1024_S512x1024_1_0_0_1_n_n_wf none x0 _ r j).trans ?_
  refine Finset.sum_congr rfl fun k _ => ?_
  rw [transpose_ix2_apply]

/-- The tile of label products: entry (r, j) is the inner product of row r of the first operand with row j of
    the second. -/
theorem pay20_apply (x2 : FVec Ideal S512x64 .bf16) (x3 : FVec Ideal S1024x64 .bf16) (r : Fin 512) (j : Fin 1024) :
    k0_pay20 (F := Ideal) x2 x3 (ix2 r j) = ∑ k : Fin 64, x2 (ix2 r k) * x3 (ix2 j k) := by
  unfold k0_pay20
  rw [shapeCast_self, shapeCast_self]
  refine (Cert.LibContractPlain.matmulPlain_zero_apply 512 64 1024
    dot_S512x64_S64x1024_S512x1024_1_0_0_1_n_n_wf none x2 _ r j).trans ?_
  refine Finset.sum_congr rfl fun k _ => ?_
  rw [transpose_ix2_apply]

/-! ### Layouts, row reductions and masks of a tile, read at a row -/

/-- A column of row values viewed as a one-column matrix reads, at (r, 0), the value of row r. -/
theorem colCast_apply (v : FVec Ideal S512 .f32) (r : Fin 512) :
    shapeCast S512x1 v shapeCasts_S512_S512x1 (ix2 r (0 : Fin 1)) = v (ix1 r) :=
  Cert.Attn.Layout.shapeCast_a_a1_apply v _ r 0

/-- A one-column matrix repeated along the columns reads, at (r, j), its entry of row r. -/
theorem rowBcast_apply (v : FVec Ideal S512x1 .f32) (r : Fin 512) (j : Fin 1024) :
    broadcastTo S512x1024 v broadcasts_S512x1_S512x1024 (ix2 r j) = v (ix2 r (0 : Fin 1)) :=
  Cert.Attn.Layout.broadcastTo_a1_ab_apply v _ r j

/-- The index of row r with column k put back. -/
theorem lift_row (r : Fin 512) (k : Fin 1024) :
    reduces_S512x1024_S512.lift (ix1 r) k = ix2 r k := by
  funext c; apply Fin.ext
  match c with
  | ⟨0, _⟩ => rfl
  | ⟨1, _⟩ => rfl

/-- The word of negative infinity. -/
theorem ofBits_neg_inf : Ideal.ofBits .f32 0xFF800000#32 = (⊥ : EReal) := by
  simp [Ideal.ofBits, Ideal.ieee]

/-- The sum along a row. -/
theorem rowSum_apply (src : FVec Ideal S512x1024 .f32) (hφ : FKind.Formats .f32)
    (hacc : (0x00000000#32 : BitVec (FTy.bits .f32)) = FKind.add.neutral .f32 hφ) (r : Fin 512) :
    multiReduction (F := Ideal) .add [1] S512 src 0x00000000#32 reduces_S512x1024_S512 hφ hacc (ix1 r)
      = ∑ k : Fin 1024, src (ix2 r k) := by
  refine (Ideal.multiReduction_add_single src _ reduces_S512x1024_S512 hφ hacc (ix1 r)).trans ?_
  exact Finset.sum_congr rfl fun k _ => congrArg src (lift_row r k)

/-- The maximum along a row, ⊥ for no column. -/
theorem rowMax_apply (src : FVec Ideal S512x1024 .f32) (hφ : FKind.Formats .f32)
    (hacc : (0xFF800000#32 : BitVec (FTy.bits .f32)) = FKind.maximumf.neutral .f32 hφ) (r : Fin 512) :
    multiReduction (F := Ideal) .maximumf [1] S512 src 0xFF800000#32 reduces_S512x1024_S512 hφ hacc (ix1 r)
      = Finset.univ.sup (fun k : Fin 1024 => src (ix2 r k)) := by
  refine (Ideal.multiReduction_maximumf_single src _ reduces_S512x1024_S512 hφ hacc (ix1 r)).trans ?_
  show (Finset.univ : Finset (Fin 1024)).fold max (Ideal.ofBits .f32 0xFF800000#32)
      (src ∘ reduces_S512x1024_S512.lift (ix1 r)) = _
  rw [ofBits_neg_inf, show src ∘ reduces_S512x1024_S512.lift (ix1 r) = fun k : Fin 1024 => src (ix2 r k) from
    funext fun k => congrArg src (lift_row r k)]
  rfl

/-- A choice by the bit of a Boolean. -/
theorem select_ofBool {α : Type} (b : Bool) (x y : α) :
    Scalar.select (BitVec.ofBool b) x y = if b = true then x else y := by
  cases b <;> rfl

/-- The bit of a Boolean, widened and read as a number, is 1 or 0. -/
theorem toReal_ofBool (b : Bool) :
    ((((BitVec.ofBool b).setWidth 32).toInt : ℝ) : EReal) = if b = true then (1 : EReal) else 0 := by
  cases b <;> simp

/-- The masked maximum of a tile under the mask that keeps every column. -/
theorem tileMax_all (t : Fin 1024 → EReal) :
    Cert.Proof.Stream.tileMax t (fun _ => true) = Finset.univ.sup t := by
  unfold Cert.Proof.Stream.tileMax
  simp

/-! ### A tile that does not meet the diagonal -/

/-- The mask of positive label products. -/
theorem pay11_apply (v16 : FVec Ideal S512x1024 .f32) (r : Fin 512) (j : Fin 1024) :
    k0_pay11 (F := Ideal) v16 (ix2 r j) = BitVec.ofBool (decide (0 < v16 (ix2 r j))) := by
  unfold k0_pay11
  show Ideal.cmp .ogt (v16 (ix2 r j)) (Ideal.ofBits .f32 0x00000000#32) = _
  rw [Ideal.ofBits_zero_f32]
  rfl

/-- The new level of row r: the larger of the old level and the row's maximum in the tile. -/
theorem pay8_apply (v10 : FVec Ideal S512x1024 .f32) (mo : FVec Ideal S512x1 .f32) (r : Fin 512) :
    k0_pay8 (F := Ideal) v10 mo (ix2 r (0 : Fin 1))
      = max (mo (ix2 r (0 : Fin 1))) (Finset.univ.sup (fun k : Fin 1024 => v10 (ix2 r k))) := by
  unfold k0_pay8
  show max (mo (ix2 r (0 : Fin 1))) (shapeCast S512x1 (multiReduction (F := Ideal) .maximumf [1] S512 v10 0xFF800000#32
      reduces_S512x1024_S512 (.inl rfl) rfl) shapeCasts_S512_S512x1 (ix2 r (0 : Fin 1))) = _
  refine congrArg (max _) ?_
  refine (colCast_apply _ r).trans ?_
  exact rowMax_apply v10 _ _ r

/-- The rescaling factor of row r. -/
theorem pay9_apply (v10 : FVec Ideal S512x1024 .f32) (mo mo' : FVec Ideal S512x1 .f32) (r : Fin 512) :
    k0_pay9 (F := Ideal) v10 mo mo' (ix2 r (0 : Fin 1))
      = Ideal.exp (mo' (ix2 r (0 : Fin 1)) - k0_pay8 (F := Ideal) v10 mo (ix2 r (0 : Fin 1))) := by
  unfold k0_pay9
  rfl

/-- The exponential of a score relative to the new level of its row. -/
theorem pay10_apply (v10 : FVec Ideal S512x1024 .f32) (mo : FVec Ideal S512x1 .f32) (r : Fin 512) (j : Fin 1024) :
    k0_pay10 (F := Ideal) v10 mo (ix2 r j)
      = Ideal.exp (v10 (ix2 r j) - k0_pay8 (F := Ideal) v10 mo (ix2 r (0 : Fin 1))) := by
  unfold k0_pay10
  show Ideal.exp (v10 (ix2 r j) - broadcastTo S512x1024 (k0_pay8 (F := Ideal) v10 mo) broadcasts_S512x1_S512x1024 (ix2 r j)) = _
  rw [rowBcast_apply]

/-- The rescaled sum over the columns with a positive label product, of row r. -/
theorem pay12_apply (v10 v16 : FVec Ideal S512x1024 .f32) (mo mo' po : FVec Ideal S512x1 .f32) (r : Fin 512) :
    k0_pay12 (F := Ideal) v10 v16 mo mo' po (ix2 r (0 : Fin 1))
      = Ideal.exp (mo' (ix2 r (0 : Fin 1)) - k0_pay8 (F := Ideal) v10 mo (ix2 r (0 : Fin 1))) * po (ix2 r (0 : Fin 1))
        + ∑ k : Fin 1024, (if decide (0 < v16 (ix2 r k)) = true
            then Ideal.exp (v10 (ix2 r k) - k0_pay8 (F := Ideal) v10 mo (ix2 r (0 : Fin 1))) else 0) := by
  unfold k0_pay12
  rw [shapeCast_self]
  show k0_pay9 (F := Ideal) v10 mo mo' (ix2 r (0 : Fin 1)) * po (ix2 r (0 : Fin 1))
      + shapeCast S512x1 (multiReduction (F := Ideal) .add [1] S512
          (select (k0_pay11 (F := Ideal) v16) (k0_pay10 (F := Ideal) v10 mo)
            (broadcast S512x1024 (Ideal.ofBits .f32 0x00000000#32)))
          0x00000000#32 reduces_S512x1024_S512 (.inl rfl) rfl) shapeCasts_S512_S512x1 (ix2 r (0 : Fin 1)) = _
  rw [pay9_apply]
  congr 1
  refine (colCast_apply _ r).trans ?_
  refine (rowSum_apply _ _ _ r).trans ?_
  refine Finset.sum_congr rfl fun k _ => ?_
  show Scalar.select (k0_pay11 (F := Ideal) v16 (ix2 r k)) (k0_pay10 (F := Ideal) v10 mo (ix2 r k))
      (Ideal.ofBits .f32 0x00000000#32) = _
  rw [pay11_apply, pay10_apply, select_ofBool, Ideal.ofBits_zero_f32]

/-- The rescaled sum over all columns, of row r. -/
theorem pay13_apply (v10 : FVec Ideal S512x1024 .f32) (mo mo' no : FVec Ideal S512x1 .f32) (r : Fin 512) :
    k0_pay13 (F := Ideal) v10 mo mo' no (ix2 r (0 : Fin 1))
      = Ideal.exp (mo' (ix2 r (0 : Fin 1)) - k0_pay8 (F := Ideal) v10 mo (ix2 r (0 : Fin 1))) * no (ix2 r (0 : Fin 1))
        + ∑ k : Fin 1024, Ideal.exp (v10 (ix2 r k) - k0_pay8 (F := Ideal) v10 mo (ix2 r (0 : Fin 1))) := by
  unfold k0_pay13
  rw [shapeCast_self]
  show k0_pay9 (F := Ideal) v10 mo mo' (ix2 r (0 : Fin 1)) * no (ix2 r (0 : Fin 1))
      + shapeCast S512x1 (multiReduction (F := Ideal) .add [1] S512 (k0_pay10 (F := Ideal) v10 mo)
          0x00000000#32 reduces_S512x1024_S512 (.inl rfl) rfl) shapeCasts_S512_S512x1 (ix2 r (0 : Fin 1)) = _
  rw [pay9_apply]
  congr 1
  refine (colCast_apply _ r).trans ?_
  refine (rowSum_apply _ _ _ r).trans ?_
  exact Finset.sum_congr rfl fun k _ => pay10_apply v10 mo r k

/-- The count of the columns with a positive label product, of row r. -/
theorem pay14_apply (v16 : FVec Ideal S512x1024 .f32) (ho : FVec Ideal S512x1 .f32) (r : Fin 512) :
    k0_pay14 (F := Ideal) v16 ho (ix2 r (0 : Fin 1))
      = ho (ix2 r (0 : Fin 1)) + ∑ k : Fin 1024, (if decide (0 < v16 (ix2 r k)) = true then (1 : EReal) else 0) := by
  unfold k0_pay14
  show ho (ix2 r (0 : Fin 1))
      + shapeCast S512x1 (multiReduction (F := Ideal) .add [1] S512
          (sitofp (F := Ideal) .f32 (extui 32 (k0_pay11 (F := Ideal) v16) natLt_1_32))
          0x00000000#32 reduces_S512x1024_S512 (.inl rfl) rfl) shapeCasts_S512_S512x1 (ix2 r (0 : Fin 1)) = _
  congr 1
  refine (colCast_apply _ r).trans ?_
  refine (rowSum_apply _ _ _ r).trans ?_
  refine Finset.sum_congr rfl fun k _ => ?_
  show ((((k0_pay11 (F := Ideal) v16 (ix2 r k)).setWidth 32).toInt : ℝ) : EReal) = _
  rw [pay11_apply, toReal_ofBool]

/-- THE STEP OF A TILE OFF THE DIAGONAL, row by row: with the carried state of row r read from the four
    one-column arrays, the tile's row of scores, every column kept and the columns with a positive label product
    counted as positives, the four stored values are the four components of the streamed update. -/
theorem offdiag_step (v10 v16 : FVec Ideal S512x1024 .f32) (mo po no ho : FVec Ideal S512x1 .f32) (r : Fin 512) :
    k0_pay25 (k0_pay8 (F := Ideal) v10 mo) (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j)) (fun _ => true)
            (fun j => decide (0 < v16 (ix2 r j)))).1
    ∧ k0_pay12 (F := Ideal) v10 v16 mo mo po (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j)) (fun _ => true)
            (fun j => decide (0 < v16 (ix2 r j)))).2.1
    ∧ k0_pay13 (F := Ideal) v10 mo mo no (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j)) (fun _ => true)
            (fun j => decide (0 < v16 (ix2 r j)))).2.2.1
    ∧ k0_pay24 (k0_pay14 (F := Ideal) v16 ho) (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j)) (fun _ => true)
            (fun j => decide (0 < v16 (ix2 r j)))).2.2.2 := by
  have h8 : k0_pay8 (F := Ideal) v10 mo (ix2 r (0 : Fin 1))
      = max (mo (ix2 r (0 : Fin 1))) (Cert.Proof.Stream.tileMax (fun j => v10 (ix2 r j)) (fun _ => true)) := by
    rw [pay8_apply, tileMax_all]
  refine ⟨?_, ?_, ?_, ?_⟩
  · unfold k0_pay25
    rw [shapeCast_self, h8]
    rfl
  · rw [pay12_apply, h8]
    rfl
  · rw [pay13_apply, h8]
    unfold Cert.Proof.Stream.step
    simp only [if_true]
  · unfold k0_pay24
    rw [shapeCast_self, pay14_apply]
    rfl

/-! ### The values a row's state is started from -/

/-- The level starts at ⊥. -/
theorem pay15_apply (r : Fin 512) : k0_pay15 (F := Ideal) (ix2 r (0 : Fin 1)) = (⊥ : EReal) := by
  unfold k0_pay15
  rw [shapeCast_self]
  exact ofBits_neg_inf

/-- The sum over the columns with a positive label product starts at 0. -/
theorem pay16_apply (r : Fin 512) : k0_pay16 (F := Ideal) (ix2 r (0 : Fin 1)) = (0 : EReal) := by
  unfold k0_pay16
  rw [shapeCast_self]
  exact Ideal.ofBits_zero_f32

/-- The sum over all kept columns starts at 0. -/
theorem pay17_apply (r : Fin 512) : k0_pay17 (F := Ideal) (ix2 r (0 : Fin 1)) = (0 : EReal) := by
  unfold k0_pay17
  rw [shapeCast_self]
  exact Ideal.ofBits_zero_f32

/-- The count starts at 0. -/
theorem pay18_apply (r : Fin 512) : k0_pay18 (F := Ideal) (ix2 r (0 : Fin 1)) = (0 : EReal) := by
  unfold k0_pay18
  rw [shapeCast_self]
  exact Ideal.ofBits_zero_f32

end Cert.KernelIdeal.Pay

end
-- ==== Proof.KiPayDiag.lean ====
/-
  The per-tile arithmetic of a tile that meets the diagonal, read at an index, over the extended reals.

  On such a tile the entry whose row number equals its column number is left out: the row number is the tile's
  first row plus the row inside the tile, the column number the tile's first column plus the column inside the
  tile, compared as 32-bit words — the numbers are far below 2^32, so the comparison is that of the naturals. The
  entries off the diagonal are the kept columns of the streamed update, those of them with a positive label
  product its positives, and the four values the step stores for a row are the four components of Stream.step.
-/
import proofs.«133961_j23673859736131_2_alg».proof.Proof.KiPay

noncomputable section

namespace Cert.KernelIdeal.Pay

open Idealize.ShloMosaic Idealize.ShloMosaic.ValueIdx
open Cert.KernelIdeal Cert.KernelIdeal.Gen
open scoped BigOperators

/-! ### A tile that meets the diagonal -/

/-- The word of a row tile's first row. -/
theorem rowBase_toNat (a : Fin 8) : (Scalar.muli (BitVec.ofNat 32 a.val) 512#32).toNat = 512 * a.val := by
  show ((BitVec.ofNat 32 a.val) * 512#32).toNat = 512 * a.val
  rw [BitVec.toNat_mul, BitVec.toNat_ofNat, BitVec.toNat_ofNat]
  have := a.isLt
  omega

/-- The word of a column tile's first column. -/
theorem colBase_toNat (b : Fin 4) : (Scalar.muli (BitVec.ofNat 32 b.val) 1024#32).toNat = 1024 * b.val := by
  show ((BitVec.ofNat 32 b.val) * 1024#32).toNat = 1024 * b.val
  rw [BitVec.toNat_mul, BitVec.toNat_ofNat, BitVec.toNat_ofNat]
  have := b.isLt
  omega

/-- The mask of the entries off the diagonal: the row number and the column number, each the tile's base plus the
    coordinate inside the tile, compared as words; the numbers are small, so it is the comparison of naturals. -/
theorem pay1_apply (v17 v18 : BitVec 32) (A B : ℕ) (hA : v17.toNat = A) (hB : v18.toNat = B)
    (hAs : A + 512 ≤ 4294967296) (hBs : B + 1024 ≤ 4294967296) (r : Fin 512) (j : Fin 1024) :
    k0_pay1 v17 v18 (ix2 r j) = BitVec.ofBool (decide (A + r.val ≠ B + j.val)) := by
  unfold k0_pay1
  show IntOp.cmpi .ne (IntOp.addi v17 (iota .tc S512x1024 32 [0] iota_S512x1024_d0_w32 (ix2 r j)))
      (IntOp.addi v18 (iota .tc S512x1024 32 [1] iota_S512x1024_d1_w32 (ix2 r j))) = _
  rw [iota_single_apply, iota_single_apply]
  show BitVec.ofBool ((v17 + BitVec.ofNat 32 r.val) != (v18 + BitVec.ofNat 32 j.val)) = _
  refine congrArg BitVec.ofBool ?_
  have hr := r.isLt
  have hj := j.isLt
  have key : (v17 + BitVec.ofNat 32 r.val = v18 + BitVec.ofNat 32 j.val) ↔ (A + r.val = B + j.val) := by
    rw [← BitVec.toNat_inj, BitVec.toNat_add, BitVec.toNat_add, BitVec.toNat_ofNat, BitVec.toNat_ofNat, hA, hB]
    omega
  by_cases h : A + r.val = B + j.val
  · rw [key.mpr h]
    simp [h]
  · have e : ¬ (v17 + BitVec.ofNat 32 r.val = v18 + BitVec.ofNat 32 j.val) := fun e => h (key.mp e)
    simp [h, e]

/-- The conjunction of two bits of Booleans. -/
theorem andi_ofBool (p q : Bool) : IntOp.andi (BitVec.ofBool p) (BitVec.ofBool q) = BitVec.ofBool (p && q) := by
  cases p <;> cases q <;> rfl

section Diag

variable (v17 v18 : BitVec 32) (A B : ℕ) (hA : v17.toNat = A) (hB : v18.toNat = B)
  (hAs : A + 512 ≤ 4294967296) (hBs : B + 1024 ≤ 4294967296)

include hA hB hAs hBs

/-- The mask of the positives: a positive label product off the diagonal. -/
theorem pay2_apply (v16 : FVec Ideal S512x1024 .f32) (r : Fin 512) (j : Fin 1024) :
    k0_pay2 (F := Ideal) v16 v17 v18 (ix2 r j)
      = BitVec.ofBool (decide (0 < v16 (ix2 r j)) && decide (A + r.val ≠ B + j.val)) := by
  unfold k0_pay2
  show IntOp.andi (Ideal.cmp .ogt (v16 (ix2 r j)) (Ideal.ofBits .f32 0x00000000#32)) (k0_pay1 v17 v18 (ix2 r j)) = _
  rw [Ideal.ofBits_zero_f32, pay1_apply v17 v18 A B hA hB hAs hBs r j]
  exact andi_ofBool _ _

/-- The new level of row r: the larger of the old level and the row's maximum off the diagonal. -/
theorem pay3_apply (v10 : FVec Ideal S512x1024 .f32) (mo : FVec Ideal S512x1 .f32) (r : Fin 512) :
    k0_pay3 (F := Ideal) v10 v17 v18 mo (ix2 r (0 : Fin 1))
      = max (mo (ix2 r (0 : Fin 1)))
          (Cert.Proof.Stream.tileMax (fun j => v10 (ix2 r j)) (fun j => decide (A + r.val ≠ B + j.val))) := by
  unfold k0_pay3
  show max (mo (ix2 r (0 : Fin 1))) (shapeCast S512x1 (multiReduction (F := Ideal) .maximumf [1] S512
      (select (k0_pay1 v17 v18) v10
        (broadcast S512x1024 (Named.named (F := Ideal) κ "neg_big" (φ := .f32) 0xFF333332#32)))
      0xFF800000#32 reduces_S512x1024_S512 (.inl rfl) rfl) shapeCasts_S512_S512x1 (ix2 r (0 : Fin 1))) = _
  refine congrArg (max _) ?_
  refine (colCast_apply _ r).trans ?_
  refine (rowMax_apply _ _ _ r).trans ?_
  unfold Cert.Proof.Stream.tileMax
  refine congrArg (Finset.univ.sup) (funext fun k => ?_)
  show Scalar.select (k0_pay1 v17 v18 (ix2 r k)) (v10 (ix2 r k))
      (Named.named (F := Ideal) κ "neg_big" (φ := .f32) 0xFF333332#32) = _
  rw [pay1_apply v17 v18 A B hA hB hAs hBs r k, neg_big_named, select_ofBool]

omit hA hB hAs hBs in
/-- The rescaling factor of row r. -/
theorem pay4_apply (v10 : FVec Ideal S512x1024 .f32) (mo mo' : FVec Ideal S512x1 .f32) (r : Fin 512) :
    k0_pay4 (F := Ideal) v10 v17 v18 mo mo' (ix2 r (0 : Fin 1))
      = Ideal.exp (mo' (ix2 r (0 : Fin 1)) - k0_pay3 (F := Ideal) v10 v17 v18 mo (ix2 r (0 : Fin 1))) := by
  unfold k0_pay4
  rfl

omit hA hB hAs hBs in
/-- The exponential of a score relative to the new level of its row. -/
theorem pay5_apply (v10 : FVec Ideal S512x1024 .f32) (mo : FVec Ideal S512x1 .f32) (r : Fin 512) (j : Fin 1024) :
    k0_pay5 (F := Ideal) v10 v17 v18 mo (ix2 r j)
      = Ideal.exp (v10 (ix2 r j) - k0_pay3 (F := Ideal) v10 v17 v18 mo (ix2 r (0 : Fin 1))) := by
  unfold k0_pay5
  show Ideal.exp (v10 (ix2 r j)
    - broadcastTo S512x1024 (k0_pay3 (F := Ideal) v10 v17 v18 mo) broadcasts_S512x1_S512x1024 (ix2 r j)) = _
  rw [rowBcast_apply]

/-- The rescaled sum over the positives of row r. -/
theorem pay6_apply (v10 v16 : FVec Ideal S512x1024 .f32) (mo mo' po : FVec Ideal S512x1 .f32) (r : Fin 512) :
    k0_pay6 (F := Ideal) v10 v16 v17 v18 mo mo' po (ix2 r (0 : Fin 1))
      = Ideal.exp (mo' (ix2 r (0 : Fin 1)) - k0_pay3 (F := Ideal) v10 v17 v18 mo (ix2 r (0 : Fin 1)))
          * po (ix2 r (0 : Fin 1))
        + ∑ k : Fin 1024, (if (decide (0 < v16 (ix2 r k)) && decide (A + r.val ≠ B + k.val)) = true
            then Ideal.exp (v10 (ix2 r k) - k0_pay3 (F := Ideal) v10 v17 v18 mo (ix2 r (0 : Fin 1))) else 0) := by
  unfold k0_pay6
  rw [shapeCast_self]
  show k0_pay4 (F := Ideal) v10 v17 v18 mo mo' (ix2 r (0 : Fin 1)) * po (ix2 r (0 : Fin 1))
      + shapeCast S512x1 (multiReduction (F := Ideal) .add [1] S512
          (select (k0_pay2 (F := Ideal) v16 v17 v18) (k0_pay5 (F := Ideal) v10 v17 v18 mo)
            (broadcast S512x1024 (Ideal.ofBits .f32 0x00000000#32)))
          0x00000000#32 reduces_S512x1024_S512 (.inl rfl) rfl) shapeCasts_S512_S512x1 (ix2 r (0 : Fin 1)) = _
  rw [pay4_apply]
  congr 1
  refine (colCast_apply _ r).trans ?_
  refine (rowSum_apply _ _ _ r).trans ?_
  refine Finset.sum_congr rfl fun k _ => ?_
  show Scalar.select (k0_pay2 (F := Ideal) v16 v17 v18 (ix2 r k)) (k0_pay5 (F := Ideal) v10 v17 v18 mo (ix2 r k))
      (Ideal.ofBits .f32 0x00000000#32) = _
  rw [pay2_apply v17 v18 A B hA hB hAs hBs v16 r k, pay5_apply, select_ofBool, Ideal.ofBits_zero_f32]

/-- The rescaled sum over the columns off the diagonal, of row r. -/
theorem pay7_apply (v10 : FVec Ideal S512x1024 .f32) (mo mo' no : FVec Ideal S512x1 .f32) (r : Fin 512) :
    k0_pay7 (F := Ideal) v10 v17 v18 mo mo' no (ix2 r (0 : Fin 1))
      = Ideal.exp (mo' (ix2 r (0 : Fin 1)) - k0_pay3 (F := Ideal) v10 v17 v18 mo (ix2 r (0 : Fin 1)))
          * no (ix2 r (0 : Fin 1))
        + ∑ k : Fin 1024, (if decide (A + r.val ≠ B + k.val) = true
            then Ideal.exp (v10 (ix2 r k) - k0_pay3 (F := Ideal) v10 v17 v18 mo (ix2 r (0 : Fin 1))) else 0) := by
  unfold k0_pay7
  show k0_pay4 (F := Ideal) v10 v17 v18 mo mo' (ix2 r (0 : Fin 1)) * no (ix2 r (0 : Fin 1))
      + shapeCast S512x1 (multiReduction (F := Ideal) .add [1] S512
          (select (k0_pay1 v17 v18) (k0_pay5 (F := Ideal) v10 v17 v18 mo)
            (broadcast S512x1024 (Ideal.ofBits .f32 0x00000000#32)))
          0x00000000#32 reduces_S512x1024_S512 (.inl rfl) rfl) shapeCasts_S512_S512x1 (ix2 r (0 : Fin 1)) = _
  rw [pay4_apply]
  congr 1
  refine (colCast_apply _ r).trans ?_
  refine (rowSum_apply _ _ _ r).trans ?_
  refine Finset.sum_congr rfl fun k _ => ?_
  show Scalar.select (k0_pay1 v17 v18 (ix2 r k)) (k0_pay5 (F := Ideal) v10 v17 v18 mo (ix2 r k))
      (Ideal.ofBits .f32 0x00000000#32) = _
  rw [pay1_apply v17 v18 A B hA hB hAs hBs r k, pay5_apply, select_ofBool, Ideal.ofBits_zero_f32]

/-- The count of the positives of row r. -/
theorem pay22_apply (v16 : FVec Ideal S512x1024 .f32) (ho : FVec Ideal S512x1 .f32) (r : Fin 512) :
    k0_pay22 (F := Ideal) (k0_pay2 (F := Ideal) v16 v17 v18) ho (ix2 r (0 : Fin 1))
      = ho (ix2 r (0 : Fin 1))
        + ∑ k : Fin 1024, (if (decide (0 < v16 (ix2 r k)) && decide (A + r.val ≠ B + k.val)) = true
            then (1 : EReal) else 0) := by
  unfold k0_pay22
  rw [shapeCast_self]
  show ho (ix2 r (0 : Fin 1))
      + shapeCast S512x1 (multiReduction (F := Ideal) .add [1] S512
          (sitofp (F := Ideal) .f32 (extui 32 (k0_pay2 (F := Ideal) v16 v17 v18) natLt_1_32))
          0x00000000#32 reduces_S512x1024_S512 (.inl rfl) rfl) shapeCasts_S512_S512x1 (ix2 r (0 : Fin 1)) = _
  congr 1
  refine (colCast_apply _ r).trans ?_
  refine (rowSum_apply _ _ _ r).trans ?_
  refine Finset.sum_congr rfl fun k _ => ?_
  show ((((k0_pay2 (F := Ideal) v16 v17 v18 (ix2 r k)).setWidth 32).toInt : ℝ) : EReal) = _
  rw [pay2_apply v17 v18 A B hA hB hAs hBs v16 r k, toReal_ofBool]

/-- THE STEP OF A TILE ON THE DIAGONAL, row by row: with the carried state of row r read from the four one-column
    arrays, the tile's row of scores, the columns off the diagonal kept and those of them with a positive label
    product counted as positives, the four stored values are the four components of the streamed update. -/
theorem diag_step (v10 v16 : FVec Ideal S512x1024 .f32) (mo po no ho : FVec Ideal S512x1 .f32) (r : Fin 512) :
    k0_pay23 (k0_pay3 (F := Ideal) v10 v17 v18 mo) (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j)) (fun j => decide (A + r.val ≠ B + j.val))
            (fun j => decide (0 < v16 (ix2 r j)) && decide (A + r.val ≠ B + j.val))).1
    ∧ k0_pay6 (F := Ideal) v10 v16 v17 v18 mo mo po (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j)) (fun j => decide (A + r.val ≠ B + j.val))
            (fun j => decide (0 < v16 (ix2 r j)) && decide (A + r.val ≠ B + j.val))).2.1
    ∧ k0_pay21 (k0_pay7 (F := Ideal) v10 v17 v18 mo mo no) (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j)) (fun j => decide (A + r.val ≠ B + j.val))
            (fun j => decide (0 < v16 (ix2 r j)) && decide (A + r.val ≠ B + j.val))).2.2.1
    ∧ k0_pay22 (F := Ideal) (k0_pay2 (F := Ideal) v16 v17 v18) ho (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j)) (fun j => decide (A + r.val ≠ B + j.val))
            (fun j => decide (0 < v16 (ix2 r j)) && decide (A + r.val ≠ B + j.val))).2.2.2 := by
  have h3 := pay3_apply v17 v18 A B hA hB hAs hBs v10 mo r
  refine ⟨?_, ?_, ?_, ?_⟩
  · unfold k0_pay23
    rw [shapeCast_self, h3]
    rfl
  · rw [pay6_apply v17 v18 A B hA hB hAs hBs, h3]
    rfl
  · unfold k0_pay21
    rw [shapeCast_self, pay7_apply v17 v18 A B hA hB hAs hBs, h3]
    rfl
  · rw [pay22_apply v17 v18 A B hA hB hAs hBs]
    rfl

end Diag

/-- diag_step at row tile a and column tile b: the tile's first row is 512 a and its first column 1024 b. -/
theorem diag_step_tile (a : Fin 8) (b : Fin 4) (v10 v16 : FVec Ideal S512x1024 .f32)
    (mo po no ho : FVec Ideal S512x1 .f32) (r : Fin 512) :
    k0_pay23 (k0_pay3 (F := Ideal) v10 (Scalar.muli (BitVec.ofNat 32 a.val) 512#32)
          (Scalar.muli (BitVec.ofNat 32 b.val) 1024#32) mo) (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j))
            (fun j => decide (512 * a.val + r.val ≠ 1024 * b.val + j.val))
            (fun j => decide (0 < v16 (ix2 r j)) && decide (512 * a.val + r.val ≠ 1024 * b.val + j.val))).1
    ∧ k0_pay6 (F := Ideal) v10 v16 (Scalar.muli (BitVec.ofNat 32 a.val) 512#32)
          (Scalar.muli (BitVec.ofNat 32 b.val) 1024#32) mo mo po (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j))
            (fun j => decide (512 * a.val + r.val ≠ 1024 * b.val + j.val))
            (fun j => decide (0 < v16 (ix2 r j)) && decide (512 * a.val + r.val ≠ 1024 * b.val + j.val))).2.1
    ∧ k0_pay21 (k0_pay7 (F := Ideal) v10 (Scalar.muli (BitVec.ofNat 32 a.val) 512#32)
          (Scalar.muli (BitVec.ofNat 32 b.val) 1024#32) mo mo no) (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j))
            (fun j => decide (512 * a.val + r.val ≠ 1024 * b.val + j.val))
            (fun j => decide (0 < v16 (ix2 r j)) && decide (512 * a.val + r.val ≠ 1024 * b.val + j.val))).2.2.1
    ∧ k0_pay22 (F := Ideal) (k0_pay2 (F := Ideal) v16 (Scalar.muli (BitVec.ofNat 32 a.val) 512#32)
          (Scalar.muli (BitVec.ofNat 32 b.val) 1024#32)) ho (ix2 r (0 : Fin 1))
        = (Cert.Proof.Stream.step (mo (ix2 r (0 : Fin 1))) (po (ix2 r (0 : Fin 1))) (no (ix2 r (0 : Fin 1)))
            (ho (ix2 r (0 : Fin 1))) (fun j => v10 (ix2 r j))
            (fun j => decide (512 * a.val + r.val ≠ 1024 * b.val + j.val))
            (fun j => decide (0 < v16 (ix2 r j)) && decide (512 * a.val + r.val ≠ 1024 * b.val + j.val))).2.2.2 :=
  diag_step _ _ (512 * a.val) (1024 * b.val) (rowBase_toNat a) (colBase_toNat b)
    (by have := a.isLt; omega) (by have := b.isLt; omega) v10 v16 mo po no ho r

end Cert.KernelIdeal.Pay

end
-- ==== Proof.KiStream.lean ====
/-
  The streamed row statistics along a row tile's four grid points, and the three result arrays.

  Grid point t works on row tile t / 4 and column tile t % 4. For a row i of the row tile, with r its place in
  the tile, what a point leaves in the four scratch buffers at row r is one streamed update (Stream.stepTile) of
  row i's state by column tile t % 4: the tile's row of scores is row i's scaled inner products with the 1024
  rows of the column tile, the kept columns are the rows other than i, the positives those of them that share a
  label with row i. At the first column tile the state is the start state; so after the last column tile the
  scratch holds Stream.run of row i, and the three result arrays, which receive the two sums and the count at the
  last column tile, hold them row by row.
-/
import proofs.«133961_j23673859736131_2_alg».proof.Proof.KiBlocks
import proofs.«133961_j23673859736131_2_alg».proof.Proof.KiPieces
import proofs.«133961_j23673859736131_2_alg».proof.Proof.KiPayDiag
import proofs.«133961_j23673859736131_2_alg».proof.Proof.Bridge

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx
open Cert.Proof
open scoped BigOperators

variable (m : (ℓ : Loc nD τ sig) → Buf (Elt Ideal) ℓ)

/-- The embeddings as the region finds them. -/
abbrev Emb (c : Dev nD) : FVec Ideal Spec.S4096x1024 .f32 := V m c main_v38

/-- The float labels as the region finds them. -/
abbrev Lab (c : Dev nD) : FVec Ideal Spec.S4096x64 .f32 := V m c main_v39

/-! ### A tile's rows of scores and of label products, against the row's -/

/-- Row r of the tile of scores at point t is row i's scores against the rows of column tile t % 4. -/
theorem scores_eq (c : Dev nD) (hE : ∀ i k, ∃ x : ℝ, Emb m c (ix2 i k) = (x : EReal))
    (t : Fin cfg0.N) (r : Fin 512) (i : Fin 4096) (hi : i.val = 512 * (t.val / 4) + r.val)
    (hb : t.val % 4 < 4) (j : Fin 1024) :
    k0_pay19 (F := Ideal) (iblk m c 0 t) (iblk m c 1 t) (ix2 r j)
      = Stream.tileS (Bridge.sK (Emb m c) i) ⟨t.val % 4, hb⟩ j := by
  have hi4 := i.isLt
  have hj := j.isLt
  refine (Pay.pay19_apply (iblk m c 0 t) (iblk m c 1 t) r j).trans ?_
  show _ = ((Bridge.sK (Emb m c) i (Stream.key ⟨t.val % 4, hb⟩ j) : ℝ) : EReal)
  rw [Bridge.sK_eq (Emb m c) hE]
  refine congrArg (fun s => s * ((134217728 / 9395241 : ℝ) : EReal)) (Finset.sum_congr rfl fun k _ => ?_)
  rw [iblk_0_apply m c t r k (by omega), iblk_1_apply m c t j k (by omega)]
  have e0 : (⟨512 * (t.val / 4) + r.val, by omega⟩ : Fin 4096) = i := Fin.ext hi.symm
  have e1 : (⟨1024 * (t.val % 4) + j.val, by omega⟩ : Fin 4096) = Stream.key ⟨t.val % 4, hb⟩ j :=
    Fin.ext (by show 1024 * (t.val % 4) + j.val = (t.val % 4) * 1024 + j.val; omega)
  rw [e0, e1]

/-- Row r of the tile of label products at point t is row i's label products with the rows of column tile t % 4. -/
theorem labels_eq (c : Dev nD) (t : Fin cfg0.N) (r : Fin 512) (i : Fin 4096) (hi : i.val = 512 * (t.val / 4) + r.val)
    (hb : t.val % 4 < 4) (j : Fin 1024) :
    k0_pay20 (F := Ideal) (iblk m c 2 t) (iblk m c 3 t) (ix2 r j)
      = ∑ kk : Fin 64, Lab m c (ix2 i kk) * Lab m c (ix2 (Stream.key ⟨t.val % 4, hb⟩ j) kk) := by
  have hi4 := i.isLt
  have hj := j.isLt
  refine (Pay.pay20_apply (iblk m c 2 t) (iblk m c 3 t) r j).trans ?_
  refine Finset.sum_congr rfl fun k _ => ?_
  rw [iblk_2_apply m c t r k (by omega), iblk_3_apply m c t j k (by omega)]
  have e0 : (⟨512 * (t.val / 4) + r.val, by omega⟩ : Fin 4096) = i := Fin.ext hi.symm
  have e1 : (⟨1024 * (t.val % 4) + j.val, by omega⟩ : Fin 4096) = Stream.key ⟨t.val % 4, hb⟩ j :=
    Fin.ext (by show 1024 * (t.val % 4) + j.val = (t.val % 4) * 1024 + j.val; omega)
  rw [e0, e1]

/-- Inside the tile, "off the diagonal" is "another row than row i". -/
theorem offd_eq (t : Fin cfg0.N) (r : Fin 512) (i : Fin 4096) (hi : i.val = 512 * (t.val / 4) + r.val)
    (hb : t.val % 4 < 4) (j : Fin 1024) :
    decide (512 * (t.val / 4) + r.val ≠ 1024 * (t.val % 4) + j.val)
      = Stream.tileM (Bridge.offd i) ⟨t.val % 4, hb⟩ j := by
  show _ = Bridge.offd i (Stream.key ⟨t.val % 4, hb⟩ j)
  unfold Bridge.offd
  refine decide_eq_decide.mpr ?_
  show (512 * (t.val / 4) + r.val ≠ 1024 * (t.val % 4) + j.val) ↔ (i.val ≠ (t.val % 4) * 1024 + j.val)
  rw [hi]
  constructor <;> intro h <;> omega

/-- Inside the tile, "a positive label product off the diagonal" is "another row sharing a label with row i". -/
theorem posm_eq (c : Dev nD) (t : Fin cfg0.N) (r : Fin 512) (i : Fin 4096) (hi : i.val = 512 * (t.val / 4) + r.val)
    (hb : t.val % 4 < 4) (j : Fin 1024) :
    (decide (0 < k0_pay20 (F := Ideal) (iblk m c 2 t) (iblk m c 3 t) (ix2 r j))
        && decide (512 * (t.val / 4) + r.val ≠ 1024 * (t.val % 4) + j.val))
      = Stream.tileM (Bridge.posm (Lab m c) i) ⟨t.val % 4, hb⟩ j := by
  show _ = Bridge.posm (Lab m c) i (Stream.key ⟨t.val % 4, hb⟩ j)
  unfold Bridge.posm
  rw [labels_eq m c t r i hi hb j, offd_eq t r i hi hb j]
  rfl

/-- On a tile off the diagonal every row of the column tile is another row than row i. -/
theorem off_all (t : Fin cfg0.N) (h2 : ¬ t.val % 4 = t.val / 8) (r : Fin 512) (i : Fin 4096)
    (hi : i.val = 512 * (t.val / 4) + r.val) (hb : t.val % 4 < 4) (j : Fin 1024) :
    Stream.tileM (Bridge.offd i) ⟨t.val % 4, hb⟩ j = true := by
  show Bridge.offd i (Stream.key ⟨t.val % 4, hb⟩ j) = true
  unfold Bridge.offd
  rw [decide_eq_true_iff]
  show i.val ≠ (t.val % 4) * 1024 + j.val
  have hr := r.isLt
  have hj := j.isLt
  omega

/-! ### One point's update of a row -/

/-- A POINT ON THE DIAGONAL: from the state (mo, po, no, ho) at row r, what the step stores at row r is the
    streamed update of row i by column tile t % 4. -/
theorem diag_row (c : Dev nD) (hE : ∀ i k, ∃ x : ℝ, Emb m c (ix2 i k) = (x : EReal))
    (t : Fin cfg0.N) (r : Fin 512) (i : Fin 4096) (hi : i.val = 512 * (t.val / 4) + r.val) (hb : t.val % 4 < 4)
    (mo po no ho : FVec Ideal S512x1 .f32) :
    (k0_pay23 (k0_pay3 (F := Ideal) (k0_pay19 (F := Ideal) (iblk m c 0 t) (iblk m c 1 t)) (Scalar.muli (BitVec.ofNat 32 ((grid0.coords t) 0).val) 512#32) (Scalar.muli (BitVec.ofNat 32 ((grid0.coords t) 1).val) 1024#32) mo) (ix2 r (0 : Fin 1)),
     k0_pay6 (F := Ideal) (k0_pay19 (F := Ideal) (iblk m c 0 t) (iblk m c 1 t)) (k0_pay20 (F := Ideal) (iblk m c 2 t) (iblk m c 3 t)) (Scalar.muli (BitVec.ofNat 32 ((grid0.coords t) 0).val) 512#32) (Scalar.muli (BitVec.ofNat 32 ((grid0.coords t) 1).val) 1024#32) mo mo po (ix2 r (0 : Fin 1)),
     k0_pay21 (k0_pay7 (F := Ideal) (k0_pay19 (F := Ideal) (iblk m c 0 t) (iblk m c 1 t)) (Scalar.muli (BitVec.ofNat 32 ((grid0.coords t) 0).val) 512#32) (Scalar.muli (BitVec.ofNat 32 ((grid0.coords t) 1).val) 1024#32) mo mo no) (ix2 r (0 : Fin 1)),
     k0_pay22 (F := Ideal) (k0_pay2 (F := Ideal) (k0_pay20 (F := Ideal) (iblk m c 2 t) (iblk m c 3 t)) (Scalar.muli (BitVec.ofNat 32 ((grid0.coords t) 0).val) 512#32) (Scalar.muli (BitVec.ofNat 32 ((grid0.coords t) 1).val) 1024#32)) ho (ix2 r (0 : Fin 1)))
      = Stream.stepTile (Bridge.sK (Emb m c) i) (Bridge.offd i) (Bridge.posm (Lab m c) i)
          (mo (ix2 r (0 : Fin 1)), po (ix2 r (0 : Fin 1)), no (ix2 r (0 : Fin 1)), ho (ix2 r (0 : Fin 1)))
          ⟨t.val % 4, hb⟩ := by
  obtain ⟨ec0, ec1⟩ := coords_facts t
  have hi4 := i.isLt
  have hA : (Scalar.muli (BitVec.ofNat 32 ((grid0.coords t) 0).val) 512#32).toNat = 512 * (t.val / 4) := by
    rw [Pay.rowBase_toNat ((grid0.coords t) 0), ec0]
  have hB : (Scalar.muli (BitVec.ofNat 32 ((grid0.coords t) 1).val) 1024#32).toNat = 1024 * (t.val % 4) := by
    rw [Pay.colBase_toNat ((grid0.coords t) 1), ec1]
  have hstep := Pay.diag_step (Scalar.muli (BitVec.ofNat 32 ((grid0.coords t) 0).val) 512#32) (Scalar.muli (BitVec.ofNat 32 ((grid0.coords t) 1).val) 1024#32) (512 * (t.val / 4)) (1024 * (t.val % 4)) hA hB (by omega) (by omega)
    (k0_pay19 (F := Ideal) (iblk m c 0 t) (iblk m c 1 t)) (k0_pay20 (F := Ideal) (iblk m c 2 t) (iblk m c 3 t)) mo po no ho r
  have hs : (fun j => (k0_pay19 (F := Ideal) (iblk m c 0 t) (iblk m c 1 t)) (ix2 r j)) = Stream.tileS (Bridge.sK (Emb m c) i) ⟨t.val % 4, hb⟩ :=
    funext fun j => scores_eq m c hE t r i hi hb j
  have ho' : (fun j : Fin 1024 => decide (512 * (t.val / 4) + r.val ≠ 1024 * (t.val % 4) + j.val))
      = Stream.tileM (Bridge.offd i) ⟨t.val % 4, hb⟩ := funext fun j => offd_eq t r i hi hb j
  have hp : (fun j : Fin 1024 => decide (0 < (k0_pay20 (F := Ideal) (iblk m c 2 t) (iblk m c 3 t)) (ix2 r j))
        && decide (512 * (t.val / 4) + r.val ≠ 1024 * (t.val % 4) + j.val))
      = Stream.tileM (Bridge.posm (Lab m c) i) ⟨t.val % 4, hb⟩ := funext fun j => posm_eq m c t r i hi hb j
  rw [hs, ho', hp] at hstep
  exact Prod.ext hstep.1 (Prod.ext hstep.2.1 (Prod.ext hstep.2.2.1 hstep.2.2.2))

/-- A POINT OFF THE DIAGONAL: the same, every column kept. -/
theorem off_row (c : Dev nD) (hE : ∀ i k, ∃ x : ℝ, Emb m c (ix2 i k) = (x : EReal))
    (t : Fin cfg0.N) (h2 : ¬ t.val % 4 = t.val / 8) (r : Fin 512) (i : Fin 4096)
    (hi : i.val = 512 * (t.val / 4) + r.val) (hb : t.val % 4 < 4)
    (mo po no ho : FVec Ideal S512x1 .f32) :
    (k0_pay25 (k0_pay8 (F := Ideal) (k0_pay19 (F := Ideal) (iblk m c 0 t) (iblk m c 1 t)) mo) (ix2 r (0 : Fin 1)),
     k0_pay12 (F := Ideal) (k0_pay19 (F := Ideal) (iblk m c 0 t) (iblk m c 1 t)) (k0_pay20 (F := Ideal) (iblk m c 2 t) (iblk m c 3 t)) mo mo po (ix2 r (0 : Fin 1)),
     k0_pay13 (F := Ideal) (k0_pay19 (F := Ideal) (iblk m c 0 t) (iblk m c 1 t)) mo mo no (ix2 r (0 : Fin 1)),
     k0_pay24 (k0_pay14 (F := Ideal) (k0_pay20 (F := Ideal) (iblk m c 2 t) (iblk m c 3 t)) ho) (ix2 r (0 : Fin 1)))
      = Stream.stepTile (Bridge.sK (Emb m c) i) (Bridge.offd i) (Bridge.posm (Lab m c) i)
          (mo (ix2 r (0 : Fin 1)), po (ix2 r (0 : Fin 1)), no (ix2 r (0 : Fin 1)), ho (ix2 r (0 : Fin 1)))
          ⟨t.val % 4, hb⟩ := by
  have hstep := Pay.offdiag_step (k0_pay19 (F := Ideal) (iblk m c 0 t) (iblk m c 1 t)) (k0_pay20 (F := Ideal) (iblk m c 2 t) (iblk m c 3 t)) mo po no ho r
  have hs : (fun j => (k0_pay19 (F := Ideal) (iblk m c 0 t) (iblk m c 1 t)) (ix2 r j)) = Stream.tileS (Bridge.sK (Emb m c) i) ⟨t.val % 4, hb⟩ :=
    funext fun j => scores_eq m c hE t r i hi hb j
  have ho' : (fun _ : Fin 1024 => true) = Stream.tileM (Bridge.offd i) ⟨t.val % 4, hb⟩ :=
    funext fun j => (off_all t h2 r i hi hb j).symm
  have hp : (fun j : Fin 1024 => decide (0 < (k0_pay20 (F := Ideal) (iblk m c 2 t) (iblk m c 3 t)) (ix2 r j)))
      = Stream.tileM (Bridge.posm (Lab m c) i) ⟨t.val % 4, hb⟩ := funext fun j => by
    rw [← posm_eq m c t r i hi hb j, offd_eq t r i hi hb j, off_all t h2 r i hi hb j, Bool.and_true]
  rw [hs, ho', hp] at hstep
  exact Prod.ext hstep.1 (Prod.ext hstep.2.1 (Prod.ext hstep.2.2.1 hstep.2.2.2))

/-! ### The scratch along the points of a row tile -/

/-- Row r of the four scratch buffers after point n. -/
def scr (c : Dev nD) (n : ℕ) (hn : n < cfg0.N) (r : Fin 512) : EReal × EReal × EReal × EReal :=
  ((outsAt m c n hn).2.1 (ix2 r (0 : Fin 1)), (outsAt m c n hn).2.2.1 (ix2 r (0 : Fin 1)),
   (outsAt m c n hn).2.2.2.1 (ix2 r (0 : Fin 1)), (outsAt m c n hn).2.2.2.2 (ix2 r (0 : Fin 1)))

/-- The streamed state of a row after the column tiles 0 … n. -/
def part (s : Fin 4096 → ℝ) (offd posm : Fin 4096 → Bool) : ℕ → EReal × EReal × EReal × EReal
  | 0 => Stream.stepTile s offd posm (⊥, 0, 0, 0) 0
  | n + 1 => Stream.stepTile s offd posm (part s offd posm n) ⟨(n + 1) % 4, Nat.mod_lt _ (by decide)⟩

/-- After the four column tiles it is the streamed evaluation of the row. -/
theorem run_eq_part (s : Fin 4096 → ℝ) (offd posm : Fin 4096 → Bool) :
    Stream.run s offd posm = part s offd posm 3 := rfl

theorem part_step (s : Fin 4096 → ℝ) (offd posm : Fin 4096 → Bool) (a b : ℕ) (hb : b < 4) (h : b = a + 1) :
    part s offd posm b = Stream.stepTile s offd posm (part s offd posm a) ⟨b, hb⟩ := by
  subst h
  show Stream.stepTile s offd posm (part s offd posm a) ⟨(a + 1) % 4, _⟩ = _
  exact congrArg (Stream.stepTile s offd posm (part s offd posm a)) (Fin.ext (Nat.mod_eq_of_lt hb))

/-- At a first column tile a row's scratch is the streamed update of the start state by column tile 0. -/
theorem scr_first (c : Dev nD) (hE : ∀ i k, ∃ x : ℝ, Emb m c (ix2 i k) = (x : EReal))
    (t : Fin cfg0.N) (h1 : t.val % 4 = 0) (r : Fin 512) (i : Fin 4096) (hi : i.val = 512 * (t.val / 4) + r.val) :
    scr m c t.val t.isLt r
      = Stream.stepTile (Bridge.sK (Emb m c) i) (Bridge.offd i) (Bridge.posm (Lab m c) i) (⊥, 0, 0, 0) 0 := by
  have hb : t.val % 4 < 4 := Nat.mod_lt _ (by decide)
  have hb0 : (⟨t.val % 4, hb⟩ : Fin 4) = 0 := Fin.ext h1
  have h4 : ¬ t.val % 4 = 3 := by omega
  unfold scr
  by_cases h2 : t.val % 4 = t.val / 8
  · rw [outsAt_A m c t h1 h2 h4, tup_A_scratch m c t h1 h2 h4]
    refine (diag_row m c hE t r i hi hb k0_pay15 k0_pay16 k0_pay17 k0_pay18).trans ?_
    rw [Pay.pay15_apply, Pay.pay16_apply, Pay.pay17_apply, Pay.pay18_apply, hb0]
  · rw [outsAt_B m c t h1 h2 h4, tup_B_scratch m c t h1 h2 h4]
    refine (off_row m c hE t h2 r i hi hb k0_pay15 k0_pay16 k0_pay17 k0_pay18).trans ?_
    rw [Pay.pay15_apply, Pay.pay16_apply, Pay.pay17_apply, Pay.pay18_apply, hb0]

/-- At a later column tile a row's scratch is the streamed update, by that column tile, of what the point before
    left. -/
theorem scr_later (c : Dev nD) (hE : ∀ i k, ∃ x : ℝ, Emb m c (ix2 i k) = (x : EReal))
    (t : Fin cfg0.N) (h1 : ¬ t.val % 4 = 0) (r : Fin 512) (i : Fin 4096) (hi : i.val = 512 * (t.val / 4) + r.val)
    (hb : t.val % 4 < 4) :
    scr m c t.val t.isLt r
      = Stream.stepTile (Bridge.sK (Emb m c) i) (Bridge.offd i) (Bridge.posm (Lab m c) i)
          (scr m c (t.val - 1) (Nat.lt_of_le_of_lt (Nat.sub_le _ _) t.isLt) r) ⟨t.val % 4, hb⟩ := by
  unfold scr
  by_cases h2 : t.val % 4 = t.val / 8
  · by_cases h4 : t.val % 4 = 3
    · rw [outsAt_E m c t h1 h2 h4, tup_E_scratch m c t h1 h2 h4]
      exact diag_row m c hE t r i hi hb _ _ _ _
    · rw [outsAt_C m c t h1 h2 h4, tup_C_scratch m c t h1 h2 h4]
      exact diag_row m c hE t r i hi hb _ _ _ _
  · by_cases h4 : t.val % 4 = 3
    · rw [outsAt_F m c t h1 h2 h4, tup_F_scratch m c t h1 h2 h4]
      exact off_row m c hE t h2 r i hi hb _ _ _ _
    · rw [outsAt_D m c t h1 h2 h4, tup_D_scratch m c t h1 h2 h4]
      exact off_row m c hE t h2 r i hi hb _ _ _ _

/-- THE INVARIANT: after point n, row r of the scratch holds the streamed state of row i = 512 (n / 4) + r after the
    column tiles 0 … n % 4. -/
theorem scr_eq_part (c : Dev nD) (hE : ∀ i k, ∃ x : ℝ, Emb m c (ix2 i k) = (x : EReal)) (i : Fin 4096) (r : Fin 512) :
    ∀ (n : ℕ) (hn : n < cfg0.N), i.val = 512 * (n / 4) + r.val →
      scr m c n hn r = part (Bridge.sK (Emb m c) i) (Bridge.offd i) (Bridge.posm (Lab m c) i) (n % 4) := by
  intro n
  induction n with
  | zero =>
    intro hn hi
    exact scr_first m c hE ⟨0, hn⟩ rfl r i hi
  | succ k ih =>
    intro hn hi
    by_cases h1 : (k + 1) % 4 = 0
    · rw [h1]
      exact scr_first m c hE ⟨k + 1, hn⟩ h1 r i hi
    · have hk : k < cfg0.N := Nat.lt_of_succ_lt hn
      have hi' : i.val = 512 * (k / 4) + r.val := by omega
      have hb : (k + 1) % 4 < 4 := Nat.mod_lt _ (by decide)
      refine (scr_later m c hE ⟨k + 1, hn⟩ h1 r i hi hb).trans ?_
      show Stream.stepTile _ _ _ (scr m c k hk r) ⟨(k + 1) % 4, hb⟩ = _
      rw [ih hk hi']
      exact (part_step _ _ _ (k % 4) ((k + 1) % 4) hb (by omega)).symm

/-! ### The three result arrays -/

/-- At a last column tile the three output blocks receive the two sums and the count of the scratch. -/
theorem outs_eq (c : Dev nD) (t : Fin cfg0.N) (h4 : t.val % 4 = 3) :
    (outsAt m c t.val t.isLt).1.1 = (outsAt m c t.val t.isLt).2.2.1
    ∧ (outsAt m c t.val t.isLt).1.2.1 = (outsAt m c t.val t.isLt).2.2.2.1
    ∧ (outsAt m c t.val t.isLt).1.2.2 = (outsAt m c t.val t.isLt).2.2.2.2 := by
  have h1 : ¬ t.val % 4 = 0 := by omega
  by_cases h2 : t.val % 4 = t.val / 8
  · rw [outsAt_E m c t h1 h2 h4]
    exact tup_E_outs m c t h1 h2 h4 _
  · rw [outsAt_F m c t h1 h2 h4]
    exact tup_F_outs m c t h1 h2 h4 _

/-- Row i's scratch after the last column tile of its row tile is the streamed evaluation of row i. -/
theorem scr_last (c : Dev nD) (hE : ∀ i k, ∃ x : ℝ, Emb m c (ix2 i k) = (x : EReal)) (i : Fin 4096) :
    scr m c (fpt (ix2 i (0 : Fin 1))).val (fpt (ix2 i (0 : Fin 1))).isLt ⟨i.val % 512, Nat.mod_lt _ (by decide)⟩
      = Stream.run (Bridge.sK (Emb m c) i) (Bridge.offd i) (Bridge.posm (Lab m c) i) := by
  have hi4 := i.isLt
  have h := scr_eq_part m c hE i ⟨i.val % 512, Nat.mod_lt _ (by decide)⟩ (fpt (ix2 i (0 : Fin 1))).val
    (fpt (ix2 i (0 : Fin 1))).isLt (by
      show i.val = 512 * ((4 * (i.val / 512) + 3) / 4) + i.val % 512
      omega)
  have h3 : (fpt (ix2 i (0 : Fin 1))).val % 4 = 3 := by
    show (4 * (i.val / 512) + 3) % 4 = 3
    omega
  rw [h3] at h
  rw [run_eq_part]
  exact h

/-- The first result array: row i holds the streamed sum over the rows that share a label with row i. -/
theorem out_pos (c : Dev nD) (hE : ∀ i k, ∃ x : ℝ, Emb m c (ix2 i k) = (x : EReal)) (i : Fin 4096) :
    (dats m 0 c).arrAt 4 cfg0.N (ix2 i (0 : Fin 1))
      = (Stream.run (Bridge.sK (Emb m c) i) (Bridge.offd i) (Bridge.posm (Lab m c) i)).2.1 := by
  rw [final4 m c]
  show (dats m 0 c).after 4 (fpt (ix2 i (0 : Fin 1))) (rowIn (ix2 i (0 : Fin 1))) = _
  rw [after_4, (outs_eq m c (fpt (ix2 i (0 : Fin 1))) (by show (4 * (i.val / 512) + 3) % 4 = 3; omega)).1]
  exact congrArg (fun p : EReal × EReal × EReal × EReal => p.2.1) (scr_last m c hE i)

/-- The second result array: row i holds the streamed sum over the other rows. -/
theorem out_neg (c : Dev nD) (hE : ∀ i k, ∃ x : ℝ, Emb m c (ix2 i k) = (x : EReal)) (i : Fin 4096) :
    (dats m 0 c).arrAt 5 cfg0.N (ix2 i (0 : Fin 1))
      = (Stream.run (Bridge.sK (Emb m c) i) (Bridge.offd i) (Bridge.posm (Lab m c) i)).2.2.1 := by
  rw [final5 m c]
  show (dats m 0 c).after 5 (fpt (ix2 i (0 : Fin 1))) (rowIn (ix2 i (0 : Fin 1))) = _
  rw [after_5, (outs_eq m c (fpt (ix2 i (0 : Fin 1))) (by show (4 * (i.val / 512) + 3) % 4 = 3; omega)).2.1]
  exact congrArg (fun p : EReal × EReal × EReal × EReal => p.2.2.1) (scr_last m c hE i)

/-- The third result array: row i holds the streamed count of the rows that share a label with row i. -/
theorem out_cnt (c : Dev nD) (hE : ∀ i k, ∃ x : ℝ, Emb m c (ix2 i k) = (x : EReal)) (i : Fin 4096) :
    (dats m 0 c).arrAt 6 cfg0.N (ix2 i (0 : Fin 1))
      = (Stream.run (Bridge.sK (Emb m c) i) (Bridge.offd i) (Bridge.posm (Lab m c) i)).2.2.2 := by
  rw [final6 m c]
  show (dats m 0 c).after 6 (fpt (ix2 i (0 : Fin 1))) (rowIn (ix2 i (0 : Fin 1))) = _
  rw [after_6, (outs_eq m c (fpt (ix2 i (0 : Fin 1))) (by show (4 * (i.val / 512) + 3) % 4 = 3; omega)).2.2]
  exact congrArg (fun p : EReal × EReal × EReal × EReal => p.2.2.2) (scr_last m c hE i)

end Cert.KernelIdeal.Hand

end
-- ==== Proof.lean ====
/-
  The contrastive-loss kernel against its jnp reference.

  Mathematics of the claim.  With E the embeddings, L the labels, s(i,j) = <E_i, E_j> / 0.07 (the reference divides
  by the binary fraction 9395241 / 2^27; the kernel multiplies by the named constant "inv_temp" = 2^27 / 9395241),
  both programs compute, for every row i, the maximum c_i of s(i,j) over j ≠ i, the sums
  pos_i = Σ_{j ≠ i, <L_i, L_j> > 0} exp (s(i,j) − c_i) and neg_i = Σ_{j ≠ i} exp (s(i,j) − c_i), and whether some j ≠ i shares
  a label with i; the kernel does so tile by tile (512 rows × 1024 columns), carrying the running maximum and the sums
  rescaled by exp (old max − new max), starting from −∞ and 0, masking the diagonal (fill "neg_big" = −∞) only in the
  tiles that meet it.  The lines around the kernel call (binary cross-entropy, entropy weights, the ratio, its logarithm,
  the mean over valid rows) are the same on both sides.

  The three frames: each program runs to its end, faults nowhere and keeps its argument arrays (the two kernel programs
  by one argument at any float instance: the launch of the region between the host lines and the body's obligation at
  each of the 32 grid points; the reference as a straight line of host operations).  The two named constants denote the
  table's values.  The results are equal: the kernel's three per-row arrays are the streamed row sums, which are the
  reference's whole-row sums for real embeddings, and the remaining host lines are one function of them on both sides.
-/
import proofs.«133961_j23673859736131_2_alg».proof.Defs
import proofs.«133961_j23673859736131_2_alg».proof.Proof.Gen.Kernel
import proofs.«133961_j23673859736131_2_alg».proof.Proof.Gen.KernelIdeal
import proofs.«133961_j23673859736131_2_alg».proof.Proof.Gen.ReferenceIdeal
import proofs.«133961_j23673859736131_2_alg».proof.Proof.Gen.Pre_finite_inputs
import proofs.«133961_j23673859736131_2_alg».proof.Proof.NamedConsts
import proofs.«133961_j23673859736131_2_alg».proof.Proof.RefRunP
import proofs.«133961_j23673859736131_2_alg».proof.Proof.KbFrame
import proofs.«133961_j23673859736131_2_alg».proof.Proof.KiFrame
import proofs.«133961_j23673859736131_2_alg».proof.Proof.Algebraic
import proofs.«133961_j23673859736131_2_alg».proof.Proof.KiStream
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- Equal results: the kernel run leaves its result at what the segments compute; the reference run at its result
    term of the arguments, which agree; the two are equal because the kernel's three per-row arrays are the streamed
    row sums of real embeddings, and those are the reference's whole-row sums. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hPre hagree
  refine ⟨fun c => Cert.KernelIdeal.Hand.Wend m c (Cert.KernelIdeal.Hand.dv Cert.KernelIdeal.main_v63),
    Cert.KernelIdeal.Hand.run_result (F := Ideal) m ρ, ?_⟩
  refine (θ_run Cert.ReferenceIdeal.defs _ _).mono (fun r h c => ⟨(h c).1.trans ?_, (h c).2⟩) (Cert.Proof.Ref.run_ref m' ρ')
  rw [(hagree c).1, (hagree c).2.1, (hagree c).2.2]
  have hE : ∀ (i : Fin 4096) (k : Fin 1024), ∃ x : ℝ,
      Cert.KernelIdeal.Hand.V m c Cert.KernelIdeal.main_v38 (ValueIdx.ix2 i k) = (x : EReal) := fun i k => by
    obtain ⟨x, hx⟩ := Cert.Proof.Finite.kernel_arg0_real m hPre c i k
    exact ⟨x, (Cert.KernelIdeal.Hand.V0_emb m c _).trans hx⟩
  exact (Cert.Proof.Alg.result_eq m c hPre
    (fun i => (congrFun (Cert.KernelIdeal.Hand.Wr_v40_0 m c) _).trans (Cert.KernelIdeal.Hand.out_pos m c hE i))
    (fun i => (congrFun (Cert.KernelIdeal.Hand.Wr_v40_1 m c) _).trans (Cert.KernelIdeal.Hand.out_neg m c hE i))
    (fun i => (congrFun (Cert.KernelIdeal.Hand.Wr_v40_2 m c) _).trans (Cert.KernelIdeal.Hand.out_cnt m c hE i))).symm

theorem claim : Cert.Claim := ⟨Cert.Kernel.Gen.facts, Cert.KernelIdeal.Gen.facts, Cert.ReferenceIdeal.Gen.facts, Cert.Pre_finite_inputs.Gen.facts,
  frame_k, frame_ki, Cert.ReferenceIdeal.ValueP.frame_ri, Cert.Proof.Parts.preserves, algebraic⟩

end Cert.Proof

end
